-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![32, 32, 32]⟩ ⟨3, ![64, 64, 128]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![32, 32, 32]⟩ ⟨3, ![64, 64, 128]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32x32x32 : Shape := ⟨3, ![32, 32, 32]⟩
abbrev S_ : Shape := ⟨0, ![]⟩

class Facts : Prop where
  bcast_S_S32x32x32 : S_.BroadcastsInDim S32x32x32 (![] : Fin 0 → Fin S32x32x32.rank)
  reducesTo_S32x32x32_S_d0_1_2 : S32x32x32.ReducesTo [0, 1, 2] S_
  h_S_ : 0 < S_.numel

variable [Facts]

def fn {F : FTy → Type} [FloatOps F] (main_arg0 : FVec F S32x32x32 .f32) : IVec S_ 1 :=
  let main_v0 : FVec F S32x32x32 .f32 := Host.absf main_arg0
  let main_cst : FVec F S_ .f32 := constant S_ .f32 0x7F800000#32
  let main_v1 : FVec F S32x32x32 .f32 := broadcastInDim S32x32x32 ![] bcast_S_S32x32x32 main_cst
  let main_v2 : IVec S32x32x32 1 := cmpf .olt main_v0 main_v1
  let main_c : IVec S_ 1 := constantI S_ 1 1#1
  let main_v3 : IVec S_ 1 := (fun x v => Host.reduce IntOp.andi x v reducesTo_S32x32x32_S_d0_1_2 h_S_) main_v2 main_c
  main_v3
-- ==== Pre_finite_inputs_ReferenceIdeal.lean ====
abbrev S64x64x128 : Shape := ⟨3, ![64, 64, 128]⟩
abbrev S_ : Shape := ⟨0, ![]⟩

class Facts : Prop where
  bcast_S_S64x64x128 : S_.BroadcastsInDim S64x64x128 (![] : Fin 0 → Fin S64x64x128.rank)
  reducesTo_S64x64x128_S_d0_1_2 : S64x64x128.ReducesTo [0, 1, 2] S_
  h_S_ : 0 < S_.numel

variable [Facts]

def fn {F : FTy → Type} [FloatOps F] (main_arg0 : FVec F S64x64x128 .f32) : IVec S_ 1 :=
  let main_v0 : FVec F S64x64x128 .f32 := Host.absf main_arg0
  let main_cst : FVec F S_ .f32 := constant S_ .f32 0x7F800000#32
  let main_v1 : FVec F S64x64x128 .f32 := broadcastInDim S64x64x128 ![] bcast_S_S64x64x128 main_cst
  let main_v2 : IVec S64x64x128 1 := cmpf .olt main_v0 main_v1
  let main_c : IVec S_ 1 := constantI S_ 1 1#1
  let main_v3 : IVec S_ 1 := (fun x v => Host.reduce IntOp.andi x v reducesTo_S64x64x128_S_d0_1_2 h_S_) main_v2 main_c
  main_v3
-- ==== Kernel.lean ====
abbrev S32x32x32 : Shape := ⟨3, ![32, 32, 32]⟩
abbrev S2x32x32 : Shape := ⟨3, ![2, 32, 32]⟩
abbrev S6x32x32 : Shape := ⟨3, ![6, 32, 32]⟩
abbrev S6 : Shape := ⟨1, ![6]⟩
abbrev S_ : Shape := ⟨0, ![]⟩
abbrev S32x32x1 : Shape := ⟨3, ![32, 32, 1]⟩
abbrev S32x32 : Shape := ⟨2, ![32, 32]⟩
abbrev S1x32x32 : Shape := ⟨3, ![1, 32, 32]⟩
abbrev S1 : Shape := ⟨1, ![1]⟩
abbrev S32x1x32 : Shape := ⟨3, ![32, 1, 32]⟩
abbrev S31x32x32 : Shape := ⟨3, ![31, 32, 32]⟩
abbrev S32x31x32 : Shape := ⟨3, ![32, 31, 32]⟩
abbrev S32x32x31 : Shape := ⟨3, ![32, 32, 31]⟩

abbrev nBuf : Space → Nat
  | .hbm => 2
  | .vmem => 4
  | .smem => 0
  | _ => 0

abbrev bufTy : (tb : Table) → Fin (tcTables nBuf tb) → BufTy
  | .hbm, ⟨0, _⟩ => ⟨S32x32x32, .f32⟩
  | .hbm, ⟨1, _⟩ => ⟨S32x32x32, .f32⟩
  | .local _ .vmem, ⟨0, _⟩ => ⟨S32x32x32, .f32⟩
  | .local _ .vmem, ⟨1, _⟩ => ⟨S32x32x32, .f32⟩
  | .local _ .vmem, ⟨2, _⟩ => ⟨S2x32x32, .f32⟩
  | .local _ .vmem, ⟨3, _⟩ => ⟨S6x32x32, .f32⟩
  | _, _ => ⟨S32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  { ofTc nBuf bufTy 1 14 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .sgt v2 c0_i32
  let v22 : BitVec 32 := Scalar.extui v9
  let c0_i32_12 : BitVec 32 := 0#32
  let v23 : BitVec 1 := Scalar.cmpi .ne v22 c0_i32_12
  v23

def k0_dev1 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_6 : BitVec 32 := 1#32
  let v15 : BitVec 32 := Scalar.subi v2 c1_i32_6
  let c8_i32_96 : BitVec 32 := 8#32
  let v142 : BitVec 32 := Scalar.muli v15 c8_i32_96
  let v143 : BitVec 32 := Scalar.addi c0_i32_97 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v144 : BitVec 32 := Scalar.muli v5 c4_i32_98
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v146 : BitVec 32 := Scalar.muli v8 c1_i32_99
  let v147 : BitVec 32 := Scalar.addi v145 v146
  v147.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_2 : BitVec 32 := 1#32
  let v10 : BitVec 1 := Scalar.cmpi .slt v2 c1_i32_2
  let v27 : BitVec 32 := Scalar.extui v10
  let c0_i32_14 : BitVec 32 := 0#32
  let v28 : BitVec 1 := Scalar.cmpi .ne v27 c0_i32_14
  v28

def k0_dev2 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_7 : BitVec 32 := 1#32
  let v16 : BitVec 32 := Scalar.addi v2 c1_i32_7
  let c8_i32_96 : BitVec 32 := 8#32
  let v142 : BitVec 32 := Scalar.muli v16 c8_i32_96
  let v143 : BitVec 32 := Scalar.addi c0_i32_97 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v144 : BitVec 32 := Scalar.muli v5 c4_i32_98
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v146 : BitVec 32 := Scalar.muli v8 c1_i32_99
  let v147 : BitVec 32 := Scalar.addi v145 v146
  v147.toNat
def k0_cond5 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v11 : BitVec 1 := Scalar.cmpi .sgt v5 c0_i32_3
  let v32 : BitVec 32 := Scalar.extui v11
  let c0_i32_17 : BitVec 32 := 0#32
  let v33 : BitVec 1 := Scalar.cmpi .ne v32 c0_i32_17
  v33

def k0_dev3 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v142 : BitVec 32 := Scalar.muli v2 c8_i32_96
  let v143 : BitVec 32 := Scalar.addi c0_i32_97 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v17 : BitVec 32 := Scalar.subi v5 c1_i32_8
  let c4_i32_98 : BitVec 32 := 4#32
  let v144 : BitVec 32 := Scalar.muli v17 c4_i32_98
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v146 : BitVec 32 := Scalar.muli v8 c1_i32_99
  let v147 : BitVec 32 := Scalar.addi v145 v146
  v147.toNat
def k0_cond7 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v12 : BitVec 1 := Scalar.cmpi .slt v5 c1_i32_4
  let v37 : BitVec 32 := Scalar.extui v12
  let c0_i32_20 : BitVec 32 := 0#32
  let v38 : BitVec 1 := Scalar.cmpi .ne v37 c0_i32_20
  v38

def k0_dev4 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v142 : BitVec 32 := Scalar.muli v2 c8_i32_96
  let v143 : BitVec 32 := Scalar.addi c0_i32_97 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_9 : BitVec 32 := 1#32
  let v18 : BitVec 32 := Scalar.addi v5 c1_i32_9
  let c4_i32_98 : BitVec 32 := 4#32
  let v144 : BitVec 32 := Scalar.muli v18 c4_i32_98
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v146 : BitVec 32 := Scalar.muli v8 c1_i32_99
  let v147 : BitVec 32 := Scalar.addi v145 v146
  v147.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_5 : BitVec 32 := 0#32
  let v13 : BitVec 1 := Scalar.cmpi .sgt v8 c0_i32_5
  let v42 : BitVec 32 := Scalar.extui v13
  let c0_i32_23 : BitVec 32 := 0#32
  let v43 : BitVec 1 := Scalar.cmpi .ne v42 c0_i32_23
  v43

def k0_dev5 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v142 : BitVec 32 := Scalar.muli v2 c8_i32_96
  let v143 : BitVec 32 := Scalar.addi c0_i32_97 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v144 : BitVec 32 := Scalar.muli v5 c4_i32_98
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.subi v8 c1_i32_10
  let c1_i32_99 : BitVec 32 := 1#32
  let v146 : BitVec 32 := Scalar.muli v19 c1_i32_99
  let v147 : BitVec 32 := Scalar.addi v145 v146
  v147.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let v47 : BitVec 32 := Scalar.extui v14
  let c0_i32_26 : BitVec 32 := 0#32
  let v48 : BitVec 1 := Scalar.cmpi .ne v47 c0_i32_26
  v48

def k0_dev6 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v142 : BitVec 32 := Scalar.muli v2 c8_i32_96
  let v143 : BitVec 32 := Scalar.addi c0_i32_97 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v144 : BitVec 32 := Scalar.muli v5 c4_i32_98
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_99 : BitVec 32 := 1#32
  let v146 : BitVec 32 := Scalar.muli v20 c1_i32_99
  let v147 : BitVec 32 := Scalar.addi v145 v146
  v147.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .sgt v2 c0_i32
  let v62 : BitVec 32 := Scalar.extui v9
  let c0_i32_40 : BitVec 32 := 0#32
  let v63 : BitVec 1 := Scalar.cmpi .ne v62 c0_i32_40
  v63

def k0_dev7 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_6 : BitVec 32 := 1#32
  let v15 : BitVec 32 := Scalar.subi v2 c1_i32_6
  let c8_i32_98 : BitVec 32 := 8#32
  let v142 : BitVec 32 := Scalar.muli v15 c8_i32_98
  let v143 : BitVec 32 := Scalar.addi c0_i32_99 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v144 : BitVec 32 := Scalar.muli v5 c4_i32_100
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v146 : BitVec 32 := Scalar.muli v8 c1_i32_101
  let v147 : BitVec 32 := Scalar.addi v145 v146
  v147.toNat
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_2 : BitVec 32 := 1#32
  let v10 : BitVec 1 := Scalar.cmpi .slt v2 c1_i32_2
  let v64 : BitVec 32 := Scalar.extui v10
  let c0_i32_41 : BitVec 32 := 0#32
  let v65 : BitVec 1 := Scalar.cmpi .ne v64 c0_i32_41
  v65

def k0_dev8 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_7 : BitVec 32 := 1#32
  let v16 : BitVec 32 := Scalar.addi v2 c1_i32_7
  let c8_i32_98 : BitVec 32 := 8#32
  let v142 : BitVec 32 := Scalar.muli v16 c8_i32_98
  let v143 : BitVec 32 := Scalar.addi c0_i32_99 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v144 : BitVec 32 := Scalar.muli v5 c4_i32_100
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v146 : BitVec 32 := Scalar.muli v8 c1_i32_101
  let v147 : BitVec 32 := Scalar.addi v145 v146
  v147.toNat
def k0_cond15 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v11 : BitVec 1 := Scalar.cmpi .sgt v5 c0_i32_3
  let v66 : BitVec 32 := Scalar.extui v11
  let c0_i32_43 : BitVec 32 := 0#32
  let v67 : BitVec 1 := Scalar.cmpi .ne v66 c0_i32_43
  v67

def k0_dev9 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v142 : BitVec 32 := Scalar.muli v2 c8_i32_98
  let v143 : BitVec 32 := Scalar.addi c0_i32_99 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v17 : BitVec 32 := Scalar.subi v5 c1_i32_8
  let c4_i32_100 : BitVec 32 := 4#32
  let v144 : BitVec 32 := Scalar.muli v17 c4_i32_100
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v146 : BitVec 32 := Scalar.muli v8 c1_i32_101
  let v147 : BitVec 32 := Scalar.addi v145 v146
  v147.toNat
def k0_cond16 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v12 : BitVec 1 := Scalar.cmpi .slt v5 c1_i32_4
  let v68 : BitVec 32 := Scalar.extui v12
  let c0_i32_45 : BitVec 32 := 0#32
  let v69 : BitVec 1 := Scalar.cmpi .ne v68 c0_i32_45
  v69

def k0_dev10 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v142 : BitVec 32 := Scalar.muli v2 c8_i32_98
  let v143 : BitVec 32 := Scalar.addi c0_i32_99 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_9 : BitVec 32 := 1#32
  let v18 : BitVec 32 := Scalar.addi v5 c1_i32_9
  let c4_i32_100 : BitVec 32 := 4#32
  let v144 : BitVec 32 := Scalar.muli v18 c4_i32_100
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v146 : BitVec 32 := Scalar.muli v8 c1_i32_101
  let v147 : BitVec 32 := Scalar.addi v145 v146
  v147.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_5 : BitVec 32 := 0#32
  let v13 : BitVec 1 := Scalar.cmpi .sgt v8 c0_i32_5
  let v70 : BitVec 32 := Scalar.extui v13
  let c0_i32_47 : BitVec 32 := 0#32
  let v71 : BitVec 1 := Scalar.cmpi .ne v70 c0_i32_47
  v71

def k0_dev11 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v142 : BitVec 32 := Scalar.muli v2 c8_i32_97
  let v143 : BitVec 32 := Scalar.addi c0_i32_98 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_99 : BitVec 32 := 4#32
  let v144 : BitVec 32 := Scalar.muli v5 c4_i32_99
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.subi v8 c1_i32_10
  let c1_i32_100 : BitVec 32 := 1#32
  let v146 : BitVec 32 := Scalar.muli v19 c1_i32_100
  let v147 : BitVec 32 := Scalar.addi v145 v146
  v147.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let v72 : BitVec 32 := Scalar.extui v14
  let c0_i32_49 : BitVec 32 := 0#32
  let v73 : BitVec 1 := Scalar.cmpi .ne v72 c0_i32_49
  v73

def k0_dev12 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v142 : BitVec 32 := Scalar.muli v2 c8_i32_97
  let v143 : BitVec 32 := Scalar.addi c0_i32_98 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_99 : BitVec 32 := 4#32
  let v144 : BitVec 32 := Scalar.muli v5 c4_i32_99
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_100 : BitVec 32 := 1#32
  let v146 : BitVec 32 := Scalar.muli v20 c1_i32_100
  let v147 : BitVec 32 := Scalar.addi v145 v146
  v147.toNat
abbrev stage0_0 : Fin 1 → Memref sig .tc .vmem S32x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S32x32x32_S32x32x1_0_0_0 : ∀ a, (![0, 0, 0] : Fin 3 → Nat) a + S32x32x1.size a ≤ S32x32x32.size a
  h_S32x32x1 : 0 < S32x32x1.numel
  shapeCasts_S32x32x1_S32x32 : S32x32x1.ShapeCasts S32x32
  inb_S2x32x32_S1x32x32_0_0_0 : ∀ a, (![0, 0, 0] : Fin 3 → Nat) a + S1x32x32.size a ≤ S2x32x32.size a
  h_S1x32x32 : 0 < S1x32x32.numel
  shapeCasts_S1x32x32_S32x32 : S1x32x32.ShapeCasts S32x32
  shapeCasts_S32x32_S1x32x32 : S32x32.ShapeCasts S1x32x32
  inb_S32x32x32_S32x32x1_0_0_31 : ∀ a, (![0, 0, 31] : Fin 3 → Nat) a + S32x32x1.size a ≤ S32x32x32.size a
  inb_S2x32x32_S1x32x32_1_0_0 : ∀ a, (![1, 0, 0] : Fin 3 → Nat) a + S1x32x32.size a ≤ S2x32x32.size a
  hamt_6 : (6#32 : BitVec 32).msb = false
  inb_S6_S1_0 : ∀ a, (![0] : Fin 1 → Nat) a + S1.size a ≤ S6.size a
  squeezes_S1_S_ : S1.Squeezes S_
  inb_S6_S1_1 : ∀ a, (![1] : Fin 1 → Nat) a + S1.size a ≤ S6.size a
  inb_S6x32x32_S1x32x32_1_0_0 : ∀ a, (![1, 0, 0] : Fin 3 → Nat) a + S1x32x32.size a ≤ S6x32x32.size a
  squeezes_S1x32x32_S32x32 : S1x32x32.Squeezes S32x32
  inb_S32x32x32_S1x32x32_0_0_0 : ∀ a, (![0, 0, 0] : Fin 3 → Nat) a + S1x32x32.size a ≤ S32x32x32.size a
  inb_S6x32x32_S1x32x32_0_0_0 : ∀ a, (![0, 0, 0] : Fin 3 → Nat) a + S1x32x32.size a ≤ S6x32x32.size a
  inb_S32x32x32_S1x32x32_31_0_0 : ∀ a, (![31, 0, 0] : Fin 3 → Nat) a + S1x32x32.size a ≤ S32x32x32.size a
  inb_S6_S1_2 : ∀ a, (![2] : Fin 1 → Nat) a + S1.size a ≤ S6.size a
  inb_S6_S1_3 : ∀ a, (![3] : Fin 1 → Nat) a + S1.size a ≤ S6.size a
  inb_S6x32x32_S1x32x32_3_0_0 : ∀ a, (![3, 0, 0] : Fin 3 → Nat) a + S1x32x32.size a ≤ S6x32x32.size a
  inb_S32x32x32_S32x1x32_0_0_0 : ∀ a, (![0, 0, 0] : Fin 3 → Nat) a + S32x1x32.size a ≤ S32x32x32.size a
  squeezes_S32x1x32_S32x32 : S32x1x32.Squeezes S32x32
  inb_S6x32x32_S1x32x32_2_0_0 : ∀ a, (![2, 0, 0] : Fin 3 → Nat) a + S1x32x32.size a ≤ S6x32x32.size a
  inb_S32x32x32_S32x1x32_0_31_0 : ∀ a, (![0, 31, 0] : Fin 3 → Nat) a + S32x1x32.size a ≤ S32x32x32.size a
  inb_S6_S1_4 : ∀ a, (![4] : Fin 1 → Nat) a + S1.size a ≤ S6.size a
  inb_S6_S1_5 : ∀ a, (![5] : Fin 1 → Nat) a + S1.size a ≤ S6.size a
  inb_S6x32x32_S1x32x32_5_0_0 : ∀ a, (![5, 0, 0] : Fin 3 → Nat) a + S1x32x32.size a ≤ S6x32x32.size a
  inb_S6x32x32_S1x32x32_4_0_0 : ∀ a, (![4, 0, 0] : Fin 3 → Nat) a + S1x32x32.size a ≤ S6x32x32.size a
  inb_S32x32x32_S32x32x32_0_0_0 : ∀ a, (![0, 0, 0] : Fin 3 → Nat) a + S32x32x32.size a ≤ S32x32x32.size a
  h_S32x32x32 : 0 < S32x32x32.numel
  shapeCasts_S32x32x32_S32x32x32 : S32x32x32.ShapeCasts S32x32x32
  slices_S32x32x32_o0_0_0_S31x32x32 : S32x32x32.Slices ![0, 0, 0] S31x32x32
  concatenates_S1x32x32_S31x32x32_S32x32x32_d0 : Shape.Concatenates [S1x32x32, S31x32x32] S32x32x32 0
  slices_S32x32x32_o1_0_0_S31x32x32 : S32x32x32.Slices ![1, 0, 0] S31x32x32
  concatenates_S31x32x32_S1x32x32_S32x32x32_d0 : Shape.Concatenates [S31x32x32, S1x32x32] S32x32x32 0
  slices_S32x32x32_o0_0_0_S32x31x32 : S32x32x32.Slices ![0, 0, 0] S32x31x32
  concatenates_S32x1x32_S32x31x32_S32x32x32_d1 : Shape.Concatenates [S32x1x32, S32x31x32] S32x32x32 1
  slices_S32x32x32_o0_1_0_S32x31x32 : S32x32x32.Slices ![0, 1, 0] S32x31x32
  concatenates_S32x31x32_S32x1x32_S32x32x32_d1 : Shape.Concatenates [S32x31x32, S32x1x32] S32x32x32 1
  slices_S32x32x32_o0_0_0_S32x32x31 : S32x32x32.Slices ![0, 0, 0] S32x32x31
  concatenates_S32x32x1_S32x32x31_S32x32x32_d2 : Shape.Concatenates [S32x32x1, S32x32x31] S32x32x32 2
  slices_S32x32x32_o0_0_1_S32x32x31 : S32x32x32.Slices ![0, 0, 1] S32x32x31
  concatenates_S32x32x31_S32x32x1_S32x32x32_d2 : Shape.Concatenates [S32x32x31, S32x32x1] S32x32x32 2
  h_S32x1x32 : 0 < S32x1x32.numel
  shapeCasts_S32x1x32_S32x32 : S32x1x32.ShapeCasts S32x32
  shapeCasts_S32x32_S32x1x32 : S32x32.ShapeCasts S32x1x32
  shapeCasts_S32x32_S32x32x1 : S32x32.ShapeCasts S32x32x1
  hcc0_scratch2 : 2 + S6.numel ≤ 14
  hcc0_scratch3 : 8 + S6.numel ≤ 14
  k0_dev1_lt : ∀ d0 : Dev nD, ∀ (k0_h1 : k0_cond1 d0 = 1#1), (k0_dev1 d0) < nD
  k0_dev2_lt : ∀ d0 : Dev nD, ∀ (k0_h3 : k0_cond3 d0 = 1#1), (k0_dev2 d0) < nD
  k0_dev3_lt : ∀ d0 : Dev nD, ∀ (k0_h5 : k0_cond5 d0 = 1#1), (k0_dev3 d0) < nD
  k0_dev4_lt : ∀ d0 : Dev nD, ∀ (k0_h7 : k0_cond7 d0 = 1#1), (k0_dev4 d0) < nD
  k0_dev5_lt : ∀ d0 : Dev nD, ∀ (k0_h9 : k0_cond9 d0 = 1#1), (k0_dev5 d0) < nD
  k0_dev6_lt : ∀ d0 : Dev nD, ∀ (k0_h11 : k0_cond11 d0 = 1#1), (k0_dev6 d0) < nD
  k0_dev7_lt : ∀ d0 : Dev nD, ∀ (k0_h13 : k0_cond13 d0 = 1#1), (k0_dev7 d0) < nD
  k0_dev8_lt : ∀ d0 : Dev nD, ∀ (k0_h14 : k0_cond14 d0 = 1#1), (k0_dev8 d0) < nD
  k0_dev9_lt : ∀ d0 : Dev nD, ∀ (k0_h15 : k0_cond15 d0 = 1#1), (k0_dev9 d0) < nD
  k0_dev10_lt : ∀ d0 : Dev nD, ∀ (k0_h16 : k0_cond16 d0 = 1#1), (k0_dev10 d0) < nD
  k0_dev11_lt : ∀ d0 : Dev nD, ∀ (k0_h17 : k0_cond17 d0 = 1#1), (k0_dev11 d0) < nD
  k0_dev12_lt : ∀ d0 : Dev nD, ∀ (k0_h18 : k0_cond18 d0 = 1#1), (k0_dev12 d0) < nD
  hstage0_0 : ∀ j, (stage0_0 j).IsWhole
  hstage0_1 : ∀ j, (stage0_1 j).IsWhole

variable [Facts₀]

abbrev cc0_scratch2 : DmaSems sig S6 := SemArray.consecutive 2 S6 hcc0_scratch2
abbrev cc0_scratch3 : DmaSems sig S6 := SemArray.consecutive 8 S6 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x128 : Shape := ⟨3, ![64, 64, 128]⟩
abbrev S_ : Shape := ⟨0, ![]⟩
abbrev S62x62x126 : Shape := ⟨3, ![62, 62, 126]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S64x64x128, .f32⟩
  | .hbm, ⟨1, _⟩ => ⟨S_, .f32⟩
  | .hbm, ⟨2, _⟩ => ⟨S64x64x128, .f32⟩
  | .hbm, ⟨3, _⟩ => ⟨S62x62x126, .f32⟩
  | .hbm, ⟨4, _⟩ => ⟨S62x62x126, .f32⟩
  | .hbm, ⟨5, _⟩ => ⟨S62x62x126, .f32⟩
  | .hbm, ⟨6, _⟩ => ⟨S62x62x126, .f32⟩
  | .hbm, ⟨7, _⟩ => ⟨S62x62x126, .f32⟩
  | .hbm, ⟨8, _⟩ => ⟨S62x62x126, .f32⟩
  | .hbm, ⟨9, _⟩ => ⟨S62x62x126, .f32⟩
  | .hbm, ⟨10, _⟩ => ⟨S62x62x126, .f32⟩
  | .hbm, ⟨11, _⟩ => ⟨S62x62x126, .f32⟩
  | .hbm, ⟨12, _⟩ => ⟨S62x62x126, .f32⟩
  | .hbm, ⟨13, _⟩ => ⟨S62x62x126, .f32⟩
  | .hbm, ⟨14, _⟩ => ⟨S62x62x126, .f32⟩
  | .hbm, ⟨15, _⟩ => ⟨S_, .f32⟩
  | .hbm, ⟨16, _⟩ => ⟨S62x62x126, .f32⟩
  | .hbm, ⟨17, _⟩ => ⟨S62x62x126, .f32⟩
  | .hbm, ⟨18, _⟩ => ⟨S62x62x126, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S64x64x128, .f32⟩
  | _, _ => ⟨S64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S64x64x128 : S_.BroadcastsInDim S64x64x128 (![] : Fin 0 → Fin S64x64x128.rank)
  slices_S64x64x128_S62x62x126_0_1_1 : S64x64x128.Slices ![0, 1, 1] S62x62x126
  slices_S64x64x128_S62x62x126_2_1_1 : S64x64x128.Slices ![2, 1, 1] S62x62x126
  slices_S64x64x128_S62x62x126_1_0_1 : S64x64x128.Slices ![1, 0, 1] S62x62x126
  slices_S64x64x128_S62x62x126_1_2_1 : S64x64x128.Slices ![1, 2, 1] S62x62x126
  slices_S64x64x128_S62x62x126_1_1_0 : S64x64x128.Slices ![1, 1, 0] S62x62x126
  slices_S64x64x128_S62x62x126_1_1_2 : S64x64x128.Slices ![1, 1, 2] S62x62x126
  slices_S64x64x128_S62x62x126_1_1_1 : S64x64x128.Slices ![1, 1, 1] S62x62x126
  bcast_S_S62x62x126 : S_.BroadcastsInDim S62x62x126 (![] : Fin 0 → Fin S62x62x126.rank)
  bcast_S_S1 : S_.BroadcastsInDim S1 (![] : Fin 0 → Fin S1.rank)
  concatenates_S1_S1_S1_S3_d0 : Shape.Concatenates [S1, S1, S1] S3 0
  scatter_S64x64x128_S3_S62x62x126_012_n_012_0_wf : ScatterDims.WF S64x64x128 S3 S62x62x126 [0, 1, 2] [] [0, 1, 2] 0

variable [Facts₀]

def scatter_S64x64x128_S3_S62x62x126_012_n_012_0 : ScatterDims S64x64x128 S3 S62x62x126 where
  updateWindowDims := [0, 1, 2]
  insertedWindowDims := []
  scatterDimsToOperandDims := [0, 1, 2]
  indexVectorDim := 0
  wf := scatter_S64x64x128_S3_S62x62x126_012_n_012_0_wf

class Facts : Prop extends Facts₀ where

variable [Facts]
-- ==== Proof.HaloFn.lean ====
/-
  The 6-point stencil with a zero boundary, as plain functions of indices over the extended reals.

  * `lap U` is the whole-array form: at an index strictly inside the 64 × 64 × 128 box the sum of the six
    neighbours minus six times the centre, and zero on the boundary of the box.
  * A device of the 2 × 2 × 4 mesh holds one 32 × 32 × 32 block. `base x` is the stencil of the block alone, a
    neighbour outside the block read as zero; `halo xs c d` is the plane of the neighbouring block that lies just
    outside face `d` of device `c`'s block; `outFn` adds, face by face, the halo plane to the faces that have a
    neighbouring device and then puts zero on the faces that lie on the boundary of the whole box.
  Directions: 0 is x−, 1 is x+, 2 is y−, 3 is y+, 4 is z−, 5 is z+.
-/
import Idealize.ShloMosaic.PureOps.Ideal
import Idealize.ShloMosaic.PureOps.Ideal.Laws
import Idealize.ShloMosaic.Lib.ValueIdx
import Idealize.ShloMosaic.Lib.Layout

noncomputable section

namespace Cert.Halo

open Idealize.ShloMosaic Idealize.ShloMosaic.ValueIdx

abbrev Blk : Shape := ⟨3, ![32, 32, 32]⟩
abbrev Whole : Shape := ⟨3, ![64, 64, 128]⟩

/-- The factor six, as both programs spell it (the same word on both sides; never evaluated). -/
abbrev six : EReal := Ideal.ofBits .f32 0x40C00000#32

/-- Device `c`'s coordinates on the mesh (row-major: x outermost). -/
def cx (c : Fin 16) : ℕ := c.val / 8 % 2
def cy (c : Fin 16) : ℕ := c.val / 4 % 2
def cz (c : Fin 16) : ℕ := c.val % 4

/-- Whether device `c` has a neighbouring device in direction `d`. -/
def has (c : Fin 16) (d : Fin 6) : Bool :=
  ![decide (0 < cx c), decide (cx c < 1), decide (0 < cy c), decide (cy c < 1), decide (0 < cz c), decide (cz c < 3)] d

/-- That neighbour (the device itself where there is none). -/
def nb (c : Fin 16) (d : Fin 6) : Fin 16 :=
  if has c d = true then ⟨(![c.val - 8, c.val + 8, c.val - 4, c.val + 4, c.val - 1, c.val + 1] d) % 16, Nat.mod_lt _ (by decide)⟩ else c

/-- The plane of the neighbouring block just outside face `d`, by the two coordinates of the face. -/
def halo (xs : Fin 16 → Blk.Idx → EReal) (c : Fin 16) (d : Fin 6) (a b : Fin 32) : EReal :=
  ![xs (nb c 0) (ix3 31 a b), xs (nb c 1) (ix3 0 a b), xs (nb c 2) (ix3 a 31 b), xs (nb c 3) (ix3 a 0 b),
    xs (nb c 4) (ix3 a b 31), xs (nb c 5) (ix3 a b 0)] d

section
variable (x : Blk.Idx → EReal) (i j k : Fin 32)

def xm : EReal := if h : 0 < i.val then x (ix3 ⟨i.val - 1, by omega⟩ j k) else 0
def xp : EReal := if h : i.val + 1 < 32 then x (ix3 ⟨i.val + 1, h⟩ j k) else 0
def ym : EReal := if h : 0 < j.val then x (ix3 i ⟨j.val - 1, by omega⟩ k) else 0
def yp : EReal := if h : j.val + 1 < 32 then x (ix3 i ⟨j.val + 1, h⟩ k) else 0
def zm : EReal := if h : 0 < k.val then x (ix3 i j ⟨k.val - 1, by omega⟩) else 0
def zp : EReal := if h : k.val + 1 < 32 then x (ix3 i j ⟨k.val + 1, h⟩) else 0

/-- The stencil of one block alone, summed in the order x−, x+, y−, y+, z−, z+, then six times the centre taken off. -/
def base : EReal := xm x i j k + xp x i j k + ym x i j k + yp x i j k + zm x i j k + zp x i j k - six * x (ix3 i j k)
end

/-- What a device whose block is `x`, with neighbours where `p` says and halo planes `h`, ends with at `(i, j, k)`. -/
def outFn (p : Fin 6 → Bool) (x : Blk.Idx → EReal) (h : Fin 6 → Fin 32 → Fin 32 → EReal) (i j k : Fin 32) : EReal :=
  let v0 := base x i j k
  let v1 := if p 0 = true ∧ i.val = 0 then v0 + h 0 j k else v0
  let v2 := if p 1 = true ∧ i.val = 31 then v1 + h 1 j k else v1
  let v3 := if p 2 = true ∧ j.val = 0 then v2 + h 2 i k else v2
  let v4 := if p 3 = true ∧ j.val = 31 then v3 + h 3 i k else v3
  let v5 := if p 4 = true ∧ k.val = 0 then v4 + h 4 i j else v4
  let v6 := if p 5 = true ∧ k.val = 31 then v5 + h 5 i j else v5
  if (p 0 = false ∧ i.val = 0) ∨ (p 1 = false ∧ i.val = 31) ∨ (p 2 = false ∧ j.val = 0) ∨ (p 3 = false ∧ j.val = 31)
      ∨ (p 4 = false ∧ k.val = 0) ∨ (p 5 = false ∧ k.val = 31) then 0 else v6

/-- The whole-array stencil with a zero boundary. -/
def lap (U : Whole.Idx → EReal) (I : Whole.Idx) : EReal :=
  if h : 1 ≤ (I 0).val ∧ (I 0).val ≤ 62 ∧ 1 ≤ (I 1).val ∧ (I 1).val ≤ 62 ∧ 1 ≤ (I 2).val ∧ (I 2).val ≤ 126 then
    U (ix3 ⟨(I 0).val - 1, by omega⟩ ⟨(I 1).val, by omega⟩ ⟨(I 2).val, by omega⟩)
      + U (ix3 ⟨(I 0).val + 1, by omega⟩ ⟨(I 1).val, by omega⟩ ⟨(I 2).val, by omega⟩)
      + U (ix3 ⟨(I 0).val, by omega⟩ ⟨(I 1).val - 1, by omega⟩ ⟨(I 2).val, by omega⟩)
      + U (ix3 ⟨(I 0).val, by omega⟩ ⟨(I 1).val + 1, by omega⟩ ⟨(I 2).val, by omega⟩)
      + U (ix3 ⟨(I 0).val, by omega⟩ ⟨(I 1).val, by omega⟩ ⟨(I 2).val - 1, by omega⟩)
      + U (ix3 ⟨(I 0).val, by omega⟩ ⟨(I 1).val, by omega⟩ ⟨(I 2).val + 1, by omega⟩)
      - six * U I
  else 0

end Cert.Halo

end
-- ==== Proof.KernelCells.lean ====
/-
  The halo exchange's vocabulary on the 2 × 2 × 4 mesh: which device lies in each of the six directions, the six face
  sources a device sends and the six slots it receives into, and the thirteen semaphore cells a device waits on — its
  barrier cell, one send cell and one receive cell per direction.

  Directions: 0 is x−, 1 is x+, 2 is y−, 3 is y+, 4 is z−, 5 is z+; `opp` swaps each pair. A device that has a
  neighbour in direction `d` sends the face of its block that touches that neighbour into the neighbour's slot
  `opp d`, crediting its own send cell `d` and the neighbour's receive cell `opp d`.
-/
import proofs.«900363_g7700000000000364_dist_halo3d_v7x_xyz2x2x4_s32_f32_1_alg».proof.Proof.Gen.Kernel.Frame
import proofs.«900363_g7700000000000364_dist_halo3d_v7x_xyz2x2x4_s32_f32_1_alg».proof.Proof.Gen.Kernel.Skeleton
import proofs.«900363_g7700000000000364_dist_halo3d_v7x_xyz2x2x4_s32_f32_1_alg».proof.Proof.HaloFn
import Idealize.ShloMosaic.Lib.Pipeline.Launch
import Idealize.ShloMosaic.Lib.Pipeline.Kit
import Idealize.ShloMosaic.Lib.Tactic

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's (duties named by a direction) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

abbrev has (c : Dev nD) (d : Fin 6) : Bool := Cert.Halo.has c d
abbrev nb (c : Dev nD) (d : Fin 6) : Dev nD := Cert.Halo.nb c d
def opp (d : Fin 6) : Fin 6 := ![1, 0, 3, 2, 5, 4] d

theorem opp_opp : ∀ d : Fin 6, opp (opp d) = d := by decide
theorem opp_ne : ∀ d : Fin 6, opp d ≠ d := by decide
/-- A neighbour's neighbour in the opposite direction is the device itself. -/
theorem has_back : ∀ (c : Dev nD) (d : Fin 6), has c d = true → has (nb c d) (opp d) = true := by decide
theorem nb_back : ∀ (c : Dev nD) (d : Fin 6), has c d = true → nb (nb c d) (opp d) = c := by decide
theorem nb_ne : ∀ (c : Dev nD) (d : Fin 6), has c d = true → nb c d ≠ c := by decide
theorem nb_self : ∀ (c : Dev nD) (d : Fin 6), has c d = false → nb c d = c := by decide

/-- The printed conditions: the six signals' and the six transfers' are "there is a neighbour that way". -/
theorem cond1_iff : ∀ c : Dev nD, (k0_cond1 c = 1#1) = (has c 0 = true) := by decide
theorem cond3_iff : ∀ c : Dev nD, (k0_cond3 c = 1#1) = (has c 1 = true) := by decide
theorem cond5_iff : ∀ c : Dev nD, (k0_cond5 c = 1#1) = (has c 2 = true) := by decide
theorem cond7_iff : ∀ c : Dev nD, (k0_cond7 c = 1#1) = (has c 3 = true) := by decide
theorem cond9_iff : ∀ c : Dev nD, (k0_cond9 c = 1#1) = (has c 4 = true) := by decide
theorem cond11_iff : ∀ c : Dev nD, (k0_cond11 c = 1#1) = (has c 5 = true) := by decide
theorem cond13_iff : ∀ c : Dev nD, (k0_cond13 c = 1#1) = (has c 0 = true) := by decide
theorem cond14_iff : ∀ c : Dev nD, (k0_cond14 c = 1#1) = (has c 1 = true) := by decide
theorem cond15_iff : ∀ c : Dev nD, (k0_cond15 c = 1#1) = (has c 2 = true) := by decide
theorem cond16_iff : ∀ c : Dev nD, (k0_cond16 c = 1#1) = (has c 3 = true) := by decide
theorem cond17_iff : ∀ c : Dev nD, (k0_cond17 c = 1#1) = (has c 4 = true) := by decide
theorem cond18_iff : ∀ c : Dev nD, (k0_cond18 c = 1#1) = (has c 5 = true) := by decide

/-- The printed device ids: each names the neighbour in its direction. -/
theorem dev1_eq : ∀ (c : Dev nD) (h : k0_cond1 c = 1#1), (⟨k0_dev1 c, k0_dev1_lt c h⟩ : Dev nD) = nb c 0 := by decide
theorem dev2_eq : ∀ (c : Dev nD) (h : k0_cond3 c = 1#1), (⟨k0_dev2 c, k0_dev2_lt c h⟩ : Dev nD) = nb c 1 := by decide
theorem dev3_eq : ∀ (c : Dev nD) (h : k0_cond5 c = 1#1), (⟨k0_dev3 c, k0_dev3_lt c h⟩ : Dev nD) = nb c 2 := by decide
theorem dev4_eq : ∀ (c : Dev nD) (h : k0_cond7 c = 1#1), (⟨k0_dev4 c, k0_dev4_lt c h⟩ : Dev nD) = nb c 3 := by decide
theorem dev5_eq : ∀ (c : Dev nD) (h : k0_cond9 c = 1#1), (⟨k0_dev5 c, k0_dev5_lt c h⟩ : Dev nD) = nb c 4 := by decide
theorem dev6_eq : ∀ (c : Dev nD) (h : k0_cond11 c = 1#1), (⟨k0_dev6 c, k0_dev6_lt c h⟩ : Dev nD) = nb c 5 := by decide
theorem dev7_eq : ∀ (c : Dev nD) (h : k0_cond13 c = 1#1), (⟨k0_dev7 c, k0_dev7_lt c h⟩ : Dev nD) = nb c 0 := by decide
theorem dev8_eq : ∀ (c : Dev nD) (h : k0_cond14 c = 1#1), (⟨k0_dev8 c, k0_dev8_lt c h⟩ : Dev nD) = nb c 1 := by decide
theorem dev9_eq : ∀ (c : Dev nD) (h : k0_cond15 c = 1#1), (⟨k0_dev9 c, k0_dev9_lt c h⟩ : Dev nD) = nb c 2 := by decide
theorem dev10_eq : ∀ (c : Dev nD) (h : k0_cond16 c = 1#1), (⟨k0_dev10 c, k0_dev10_lt c h⟩ : Dev nD) = nb c 3 := by decide
theorem dev11_eq : ∀ (c : Dev nD) (h : k0_cond17 c = 1#1), (⟨k0_dev11 c, k0_dev11_lt c h⟩ : Dev nD) = nb c 4 := by decide
theorem dev12_eq : ∀ (c : Dev nD) (h : k0_cond18 c = 1#1), (⟨k0_dev12 c, k0_dev12_lt c h⟩ : Dev nD) = nb c 5 := by decide

/-! ## The memrefs, as the program spells them -/

abbrev xM : Memref sig .tc .vmem S32x32x32 .f32 := Memref.whole cc0_stg0_0
abbrev oM : Memref sig .tc .vmem S32x32x32 .f32 := Memref.whole cc0_stg1_0
abbrev sM : Memref sig .tc .vmem S2x32x32 .f32 := Memref.whole cc0_scratch0
abbrev rM : Memref sig .tc .vmem S6x32x32 .f32 := Memref.whole cc0_scratch1

/-- Slot `d` of the receive buffer, as a 32 × 32 plane. -/
abbrev slotM : Fin 6 → Memref sig .tc .vmem S32x32 .f32
  | 0 => (rM.slice (Rect.unit (s := S6x32x32) ![0, 0, 0] S1x32x32.size inb_S6x32x32_S1x32x32_0_0_0) (fun _ => rfl)).squeeze S32x32 squeezes_S1x32x32_S32x32
  | 1 => (rM.slice (Rect.unit (s := S6x32x32) ![1, 0, 0] S1x32x32.size inb_S6x32x32_S1x32x32_1_0_0) (fun _ => rfl)).squeeze S32x32 squeezes_S1x32x32_S32x32
  | 2 => (rM.slice (Rect.unit (s := S6x32x32) ![2, 0, 0] S1x32x32.size inb_S6x32x32_S1x32x32_2_0_0) (fun _ => rfl)).squeeze S32x32 squeezes_S1x32x32_S32x32
  | 3 => (rM.slice (Rect.unit (s := S6x32x32) ![3, 0, 0] S1x32x32.size inb_S6x32x32_S1x32x32_3_0_0) (fun _ => rfl)).squeeze S32x32 squeezes_S1x32x32_S32x32
  | 4 => (rM.slice (Rect.unit (s := S6x32x32) ![4, 0, 0] S1x32x32.size inb_S6x32x32_S1x32x32_4_0_0) (fun _ => rfl)).squeeze S32x32 squeezes_S1x32x32_S32x32
  | 5 => (rM.slice (Rect.unit (s := S6x32x32) ![5, 0, 0] S1x32x32.size inb_S6x32x32_S1x32x32_5_0_0) (fun _ => rfl)).squeeze S32x32 squeezes_S1x32x32_S32x32
  | ⟨_ + 6, h⟩ => absurd h (Nat.not_lt.2 (Nat.le_add_left _ _))

/-- The face sent in direction `d`, as a 32 × 32 plane: four faces of the block itself, and the two z faces through
    the send buffer the body fills first. -/
abbrev srcM : Fin 6 → Memref sig .tc .vmem S32x32 .f32
  | 0 => (xM.slice (Rect.unit (s := S32x32x32) ![0, 0, 0] S1x32x32.size inb_S32x32x32_S1x32x32_0_0_0) (fun _ => rfl)).squeeze S32x32 squeezes_S1x32x32_S32x32
  | 1 => (xM.slice (Rect.unit (s := S32x32x32) ![31, 0, 0] S1x32x32.size inb_S32x32x32_S1x32x32_31_0_0) (fun _ => rfl)).squeeze S32x32 squeezes_S1x32x32_S32x32
  | 2 => (xM.slice (Rect.unit (s := S32x32x32) ![0, 0, 0] S32x1x32.size inb_S32x32x32_S32x1x32_0_0_0) (fun _ => rfl)).squeeze S32x32 squeezes_S32x1x32_S32x32
  | 3 => (xM.slice (Rect.unit (s := S32x32x32) ![0, 31, 0] S32x1x32.size inb_S32x32x32_S32x1x32_0_31_0) (fun _ => rfl)).squeeze S32x32 squeezes_S32x1x32_S32x32
  | 4 => (sM.slice (Rect.unit (s := S2x32x32) ![0, 0, 0] S1x32x32.size inb_S2x32x32_S1x32x32_0_0_0) (fun _ => rfl)).squeeze S32x32 squeezes_S1x32x32_S32x32
  | 5 => (sM.slice (Rect.unit (s := S2x32x32) ![1, 0, 0] S1x32x32.size inb_S2x32x32_S1x32x32_1_0_0) (fun _ => rfl)).squeeze S32x32 squeezes_S1x32x32_S32x32
  | ⟨_ + 6, h⟩ => absurd h (Nat.not_lt.2 (Nat.le_add_left _ _))

/-! ## The semaphores and the cells -/

/-- The runtime's barrier semaphore of collective id 0 (not scoped to the launch). -/
abbrev barS : Sem sig := (SemArray.scalar (sig.barrier 0 rfl) : Sems sig S_).sem

abbrev sendS : Fin 6 → DmaSem sig
  | 0 => ((cc0_scratch2.slice (Rect.unit (s := S6) ![0] S1.size inb_S6_S1_0)).squeeze S_ squeezes_S1_S_).sem
  | 1 => ((cc0_scratch2.slice (Rect.unit (s := S6) ![1] S1.size inb_S6_S1_1)).squeeze S_ squeezes_S1_S_).sem
  | 2 => ((cc0_scratch2.slice (Rect.unit (s := S6) ![2] S1.size inb_S6_S1_2)).squeeze S_ squeezes_S1_S_).sem
  | 3 => ((cc0_scratch2.slice (Rect.unit (s := S6) ![3] S1.size inb_S6_S1_3)).squeeze S_ squeezes_S1_S_).sem
  | 4 => ((cc0_scratch2.slice (Rect.unit (s := S6) ![4] S1.size inb_S6_S1_4)).squeeze S_ squeezes_S1_S_).sem
  | 5 => ((cc0_scratch2.slice (Rect.unit (s := S6) ![5] S1.size inb_S6_S1_5)).squeeze S_ squeezes_S1_S_).sem
  | ⟨_ + 6, h⟩ => absurd h (Nat.not_lt.2 (Nat.le_add_left _ _))

abbrev recvS : Fin 6 → DmaSem sig
  | 0 => ((cc0_scratch3.slice (Rect.unit (s := S6) ![0] S1.size inb_S6_S1_0)).squeeze S_ squeezes_S1_S_).sem
  | 1 => ((cc0_scratch3.slice (Rect.unit (s := S6) ![1] S1.size inb_S6_S1_1)).squeeze S_ squeezes_S1_S_).sem
  | 2 => ((cc0_scratch3.slice (Rect.unit (s := S6) ![2] S1.size inb_S6_S1_2)).squeeze S_ squeezes_S1_S_).sem
  | 3 => ((cc0_scratch3.slice (Rect.unit (s := S6) ![3] S1.size inb_S6_S1_3)).squeeze S_ squeezes_S1_S_).sem
  | 4 => ((cc0_scratch3.slice (Rect.unit (s := S6) ![4] S1.size inb_S6_S1_4)).squeeze S_ squeezes_S1_S_).sem
  | 5 => ((cc0_scratch3.slice (Rect.unit (s := S6) ![5] S1.size inb_S6_S1_5)).squeeze S_ squeezes_S1_S_).sem
  | ⟨_ + 6, h⟩ => absurd h (Nat.not_lt.2 (Nat.le_add_left _ _))

theorem sendS_val : ∀ d : Fin 6, (sendS d).val = 2 + d.val := by decide
theorem recvS_val : ∀ d : Fin 6, (recvS d).val = 8 + d.val := by decide

abbrev barCell (c : Dev nD) : GSem nD τ sig := ((c : Thread nD τ), .reg barS)
abbrev sendCell (c : Dev nD) (d : Fin 6) : GSem nD τ sig := ((c : Thread nD τ), .dma (sendS d))
abbrev recvCell (c : Dev nD) (d : Fin 6) : GSem nD τ sig := ((c : Thread nD τ), .dma (recvS d))

/-- The units one face's transfer credits its send cell and its receive cell. -/
abbrev N : ℕ := (slotM 0).view.dmaCredit
theorem N_pos : 0 < N := View.dmaCredit_pos _ (by decide)
theorem slot_credit : ∀ d : Fin 6, (slotM d).view.dmaCredit = N := by decide

end Cert.Kernel.HP

end
-- ==== Proof.KernelSched.lean ====
/-
  The halo exchange as a schedule of rounds. Every cell has one round.

  * A device's BARRIER cell has six duties of one unit, one per direction. Duty `e` is paid by the neighbour in
    direction `e` where there is one — and then hands the device that neighbour's receive slot `opp e` (the slot the
    device's own face will land in) with the fact that the neighbour stands at round 0 of the matching receive cell —
    and by the device itself, handing nothing, where there is none. So a device that has taken its six units holds
    every slot it is about to write into, on devices that are inside the kernel.
  * SEND cell `d` of a device with a neighbour that way has one duty of a face's credit, paid by the device's own
    transfer once the face has been read; it hands the lent share of the face's source back.
  * RECEIVE cell `d` of such a device has one duty of a face's credit, paid by the neighbour's transfer once the slot
    is written; it hands the device its slot `d` holding the neighbour's face.
  A barrier cell lies below the receive cells: at its barrier wait a device still owes its neighbours' receive cells.
-/
import proofs.«900363_g7700000000000364_dist_halo3d_v7x_xyz2x2x4_s32_f32_1_alg».proof.Proof.KernelCells

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block, as its input staging buffer holds it. -/
def xstg (c : Dev nD) : (cc0_stg0_0 : Ref sig .tc).ty.Contents (Elt F) :=
  (win0_0.blk t0_0).view.read (Elt F) ((s₀ m ρ).mem ((c : Thread nD τ).loc main_arg0))

/-- Some contents: what a buffer holds where nothing is claimed of it. -/
def junk {ℓ : Loc nD τ sig} : Buf (Elt F) ℓ := fun _ => Classical.ofNonempty

abbrev rZ0 : Rect S32x32x32 := Rect.unit (s := S32x32x32) ![0, 0, 0] S32x32x1.size inb_S32x32x32_S32x32x1_0_0_0
abbrev rZ31 : Rect S32x32x32 := Rect.unit (s := S32x32x32) ![0, 0, 31] S32x32x1.size inb_S32x32x32_S32x32x1_0_0_31
abbrev rS0 : Rect S2x32x32 := Rect.unit (s := S2x32x32) ![0, 0, 0] S1x32x32.size inb_S2x32x32_S1x32x32_0_0_0
abbrev rS1 : Rect S2x32x32 := Rect.unit (s := S2x32x32) ![1, 0, 0] S1x32x32.size inb_S2x32x32_S1x32x32_1_0_0

/-- The send buffer once the body has filled it: the block's z = 0 face in row 0, its z = 31 face in row 1. -/
def sbuf (c : Dev nD) : (cc0_scratch0 : Ref sig .tc).ty.Contents (Elt F) :=
  ((sM.access rS1 : View sig .tc _ _ _)).write (Elt F)
    (((sM.access rS0 : View sig .tc _ _ _)).write (Elt F) (junk (ℓ := (c : Thread nD τ).loc cc0_scratch0))
      (k0_pay7 (xM.view.readAt (Elt F) rZ0.toLoadRect (xstg m ρ c))) Finset.univ)
    (k0_pay9 (k0_pay8 (xM.view.readAt (Elt F) rZ31.toLoadRect (xstg m ρ c)))) Finset.univ

/-- The face device `c` sends in direction `d`. -/
def sent (c : Dev nD) : Fin 6 → (S32x32.Idx → Elt F .f32)
  | 0 => (srcM 0).view.read (Elt F) (xstg m ρ c)
  | 1 => (srcM 1).view.read (Elt F) (xstg m ρ c)
  | 2 => (srcM 2).view.read (Elt F) (xstg m ρ c)
  | 3 => (srcM 3).view.read (Elt F) (xstg m ρ c)
  | 4 => (srcM 4).view.read (Elt F) (sbuf m ρ c)
  | 5 => (srcM 5).view.read (Elt F) (sbuf m ρ c)
  | ⟨_ + 6, h⟩ => absurd h (Nat.not_lt.2 (Nat.le_add_left _ _))

/-- Slot `d` of device `c`'s receive buffer once the neighbour's face has landed (the other slots: nothing claimed). -/
def landed (c : Dev nD) : Fin 6 → (cc0_scratch1 : Ref sig .tc).ty.Contents (Elt F)
  | 0 => (slotM 0).view.write (Elt F) (junk (ℓ := (c : Thread nD τ).loc cc0_scratch1)) (sent m ρ (nb c 0) 1) Finset.univ
  | 1 => (slotM 1).view.write (Elt F) (junk (ℓ := (c : Thread nD τ).loc cc0_scratch1)) (sent m ρ (nb c 1) 0) Finset.univ
  | 2 => (slotM 2).view.write (Elt F) (junk (ℓ := (c : Thread nD τ).loc cc0_scratch1)) (sent m ρ (nb c 2) 3) Finset.univ
  | 3 => (slotM 3).view.write (Elt F) (junk (ℓ := (c : Thread nD τ).loc cc0_scratch1)) (sent m ρ (nb c 3) 2) Finset.univ
  | 4 => (slotM 4).view.write (Elt F) (junk (ℓ := (c : Thread nD τ).loc cc0_scratch1)) (sent m ρ (nb c 4) 5) Finset.univ
  | 5 => (slotM 5).view.write (Elt F) (junk (ℓ := (c : Thread nD τ).loc cc0_scratch1)) (sent m ρ (nb c 5) 4) Finset.univ
  | ⟨_ + 6, h⟩ => absurd h (Nat.not_lt.2 (Nat.le_add_left _ _))

/-! ## Regions -/

/-- The elements of slot `d` in the receive buffer. -/
def slotSet : Fin 6 → Finset (Idx (((0 : Dev nD) : Thread nD τ).loc cc0_scratch1))
  | 0 => (slotM 0).view.set
  | 1 => (slotM 1).view.set
  | 2 => (slotM 2).view.set
  | 3 => (slotM 3).view.set
  | 4 => (slotM 4).view.set
  | 5 => (slotM 5).view.set
  | ⟨_ + 6, h⟩ => absurd h (Nat.not_lt.2 (Nat.le_add_left _ _))

/-- Slot `d` of device `c`'s receive buffer, held whole at contents `f`. -/
def slotPts (c : Dev nD) (d : Fin 6) (f : Buf (Elt F) ((c : Thread nD τ).loc cc0_scratch1)) : sProp 𝕄 :=
  ((c : Thread nD τ).loc cc0_scratch1) ↦[slotSet d]{fullShare} f

/-- The share of the input staging buffer lent to the transfer of face `d` (the four faces of the block overlap on
    edges, so each is lent at a share of its own; the left half stays with the device for its loads). -/
def qOf : Fin 6 → PosShare TreeShare
  | 0 => fullShare.right.left.left
  | 1 => fullShare.right.left.right
  | 2 => fullShare.right.right.left
  | 3 => fullShare.right.right.right
  | _ => fullShare

/-- The source of face `d` on device `c`, at the share lent to its transfer. -/
def srcPts (c : Dev nD) : Fin 6 → sProp 𝕄
  | 0 => (srcM 0).view.loc (c : Thread nD τ) ↦[(srcM 0).view.set]{qOf 0} xstg m ρ c
  | 1 => (srcM 1).view.loc (c : Thread nD τ) ↦[(srcM 1).view.set]{qOf 1} xstg m ρ c
  | 2 => (srcM 2).view.loc (c : Thread nD τ) ↦[(srcM 2).view.set]{qOf 2} xstg m ρ c
  | 3 => (srcM 3).view.loc (c : Thread nD τ) ↦[(srcM 3).view.set]{qOf 3} xstg m ρ c
  | 4 => (srcM 4).view.loc (c : Thread nD τ) ↦[(srcM 4).view.set]{qOf 4} sbuf m ρ c
  | 5 => (srcM 5).view.loc (c : Thread nD τ) ↦[(srcM 5).view.set]{qOf 5} sbuf m ρ c
  | ⟨_ + 6, h⟩ => absurd h (Nat.not_lt.2 (Nat.le_add_left _ _))

omit [FloatOps F] in
instance slotPts_storable (c : Dev nD) (d : Fin 6) (f) : BI.Storable (upEmb : UEmb _ 𝕄) (slotPts (F := F) c d f) := by unfold slotPts; infer_instance
instance srcPts_storable (c : Dev nD) (d : Fin 6) : BI.Storable (upEmb : UEmb _ 𝕄) (srcPts (F := F) m ρ c d) := by
  fin_cases d <;> (dsimp only [srcPts]; infer_instance)

/-! ## The schedule -/

/-- Which direction's send semaphore, or receive semaphore, a DMA semaphore is. -/
def sendDir (q : DmaSem sig) : Option (Fin 6) := if h : 2 ≤ q.val ∧ q.val - 2 < 6 then some ⟨q.val - 2, h.2⟩ else none
def recvDir (q : DmaSem sig) : Option (Fin 6) := if h : 8 ≤ q.val ∧ q.val - 8 < 6 then some ⟨q.val - 8, h.2⟩ else none

theorem sendDir_send : ∀ d : Fin 6, sendDir (sendS d) = some d := by decide
theorem sendDir_recv : ∀ d : Fin 6, sendDir (recvS d) = none := by decide
theorem recvDir_recv : ∀ d : Fin 6, recvDir (recvS d) = some d := by decide

def barPay (c : Dev nD) (e : Fin 6) : sProp 𝕄 :=
  if has c e = true then iprop((∃ f, slotPts (nb c e) (opp e) f) ∗ reached ER (recvCell (nb c e) (opp e)) 0) else iprop(emp)
def recvPay (c : Dev nD) (d : Fin 6) : sProp 𝕄 := slotPts c d (landed m ρ c d)
def sendPay (c : Dev nD) (d : Fin 6) : sProp 𝕄 := srcPts m ρ c d

def dutiesOf (c : Dev nD) : SemLoc sig → Finset (Fin 6)
  | .reg s => if s = barS then Finset.univ else ∅
  | .dma q => match sendDir q, recvDir q with
    | some d, _ => if has c d = true then {0} else ∅
    | none, some d => if has c d = true then {0} else ∅
    | none, none => ∅

def payOf (c : Dev nD) (e : Fin 6) : SemLoc sig → sProp 𝕄
  | .reg s => if s = barS then barPay c e else iprop(emp)
  | .dma q => match sendDir q, recvDir q with
    | some d, _ => sendPay m ρ c d
    | none, some d => recvPay m ρ c d
    | none, none => iprop(emp)

def exRd : Rounds.Schedule (GSem nD τ sig) (Fin 6) 𝕄 where
  duties g r := if r = 0 ∧ g.1.2 = .tc then dutiesOf g.1.1 g.2 else ∅
  unitless _ := False
  amount g _ _ := if g.2 = .reg barS then 1 else N
  payload g _ e := payOf m ρ g.1.1 e g.2
  amount_pos g _ _ _ := by
    by_cases h : g.2 = .reg barS
    · rw [if_pos h]; exact Nat.one_pos
    · rw [if_neg h]; exact N_pos

instance exRd_payload_storable (g : GSem nD τ sig) (r : ℕ) (e : Fin 6) :
    BI.Storable (upEmb : UEmb _ 𝕄) ((exRd (F := F) m ρ).payload g r e) := by
  show BI.Storable upEmb (payOf m ρ g.1.1 e g.2)
  unfold payOf barPay recvPay sendPay
  (repeat' split) <;> infer_instance

end Cert.Kernel.HP

end
-- ==== Proof.KernelTables.lean ====
/-
  The schedule's tables, cell by cell: the duties of round 0, their amounts, the units a round expects, each duty's
  payload, and what a wait that takes a whole round hands its owner.
-/
import proofs.«900363_g7700000000000364_dist_halo3d_v7x_xyz2x2x4_s32_f32_1_alg».proof.Proof.KernelSched

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD) (d : Fin 6)

theorem send_ne_bar : (SemLoc.dma (sendS d) : SemLoc sig) ≠ .reg barS := fun h => by cases h
theorem recv_ne_bar : (SemLoc.dma (recvS d) : SemLoc sig) ≠ .reg barS := fun h => by cases h

theorem dutiesOf_bar : dutiesOf c (.reg barS) = Finset.univ := by unfold dutiesOf; exact if_pos rfl
theorem dutiesOf_send : dutiesOf c (.dma (sendS d)) = if has c d = true then {0} else ∅ := by
  unfold dutiesOf; simp only [sendDir_send]
theorem dutiesOf_recv : dutiesOf c (.dma (recvS d)) = if has c d = true then {0} else ∅ := by
  unfold dutiesOf; simp only [sendDir_recv, recvDir_recv]

theorem duties_bar : (exRd (F := F) m ρ).duties (barCell c) 0 = Finset.univ := by
  dsimp only [exRd]; rw [if_pos ⟨rfl, rfl⟩, dutiesOf_bar]
theorem duties_send (h : has c d = true) : (exRd (F := F) m ρ).duties (sendCell c d) 0 = {0} := by
  dsimp only [exRd]; rw [if_pos ⟨rfl, rfl⟩, dutiesOf_send, if_pos h]
theorem duties_recv (h : has c d = true) : (exRd (F := F) m ρ).duties (recvCell c d) 0 = {0} := by
  dsimp only [exRd]; rw [if_pos ⟨rfl, rfl⟩, dutiesOf_recv, if_pos h]
theorem duties_send_none (h : has c d = false) : ∀ r, (exRd (F := F) m ρ).duties (sendCell c d) r = ∅ := fun r => by
  dsimp only [exRd]; split
  · rw [dutiesOf_send, if_neg (by rw [h]; decide)]
  · rfl
theorem duties_recv_none (h : has c d = false) : ∀ r, (exRd (F := F) m ρ).duties (recvCell c d) r = ∅ := fun r => by
  dsimp only [exRd]; split
  · rw [dutiesOf_recv, if_neg (by rw [h]; decide)]
  · rfl
theorem duties_later (g : GSem nD τ sig) : ∀ r, 1 ≤ r → (exRd (F := F) m ρ).duties g r = ∅ :=
  fun r hr => by dsimp only [exRd]; rw [if_neg fun h => by omega]

theorem amount_bar (e : Fin 6) : (exRd (F := F) m ρ).amount (barCell c) 0 e = 1 := by dsimp only [exRd]; exact if_pos rfl
theorem amount_send (e : Fin 6) : (exRd (F := F) m ρ).amount (sendCell c d) 0 e = N := by dsimp only [exRd]; exact if_neg (send_ne_bar d)
theorem amount_recv (e : Fin 6) : (exRd (F := F) m ρ).amount (recvCell c d) 0 e = N := by dsimp only [exRd]; exact if_neg (recv_ne_bar d)

theorem expect_bar : (exRd (F := F) m ρ).expect (barCell c) 0 = 6 := by
  unfold Schedule.expect Schedule.amountOf
  rw [duties_bar, Finset.sum_congr rfl fun e _ => amount_bar m ρ c e, Finset.sum_const, Finset.card_univ, Fintype.card_fin, smul_eq_mul]
theorem expect_send (h : has c d = true) : (exRd (F := F) m ρ).expect (sendCell c d) 0 = N := by
  unfold Schedule.expect Schedule.amountOf; rw [duties_send m ρ c d h, Finset.sum_singleton, amount_send]
theorem expect_recv (h : has c d = true) : (exRd (F := F) m ρ).expect (recvCell c d) 0 = N := by
  unfold Schedule.expect Schedule.amountOf; rw [duties_recv m ρ c d h, Finset.sum_singleton, amount_recv]

theorem payload_bar (e : Fin 6) : (exRd (F := F) m ρ).payload (barCell c) 0 e = barPay c e := by
  dsimp only [exRd, payOf]; exact if_pos rfl
theorem payload_send (e : Fin 6) : (exRd (F := F) m ρ).payload (sendCell c d) 0 e = sendPay m ρ c d := by
  dsimp only [exRd]; unfold payOf; simp only [sendDir_send]
theorem payload_recv (e : Fin 6) : (exRd (F := F) m ρ).payload (recvCell c d) 0 e = recvPay m ρ c d := by
  dsimp only [exRd]; unfold payOf; simp only [sendDir_recv, recvDir_recv]

/-- A wait that takes the barrier cell's whole round hands over the six directions' payloads. -/
theorem rest_bar : bigSep ((exRd (F := F) m ρ).duties (barCell c) 0 \ ∅) (fun e => (exRd (F := F) m ρ).payload (barCell c) 0 e)
    = iprop(barPay c 0 ∗ barPay c 1 ∗ barPay c 2 ∗ barPay c 3 ∗ barPay c 4 ∗ barPay c 5) := by
  rw [Finset.sdiff_empty, duties_bar, bigSep_univ_eq_bigSepL [0, 1, 2, 3, 4, 5] (by decide) (by decide)]
  simp only [payload_bar]
  rfl
theorem rest_send (h : has c d = true) : bigSep ((exRd (F := F) m ρ).duties (sendCell c d) 0 \ ∅) (fun e => (exRd (F := F) m ρ).payload (sendCell c d) 0 e) = sendPay m ρ c d := by
  rw [Finset.sdiff_empty, duties_send m ρ c d h, bigSep_singleton, payload_send]
theorem rest_recv (h : has c d = true) : bigSep ((exRd (F := F) m ρ).duties (recvCell c d) 0 \ ∅) (fun e => (exRd (F := F) m ρ).payload (recvCell c d) 0 e) = recvPay m ρ c d := by
  rw [Finset.sdiff_empty, duties_recv m ρ c d h, bigSep_singleton, payload_recv]

end Tables

end Cert.Kernel.HP

end
-- ==== Proof.KernelGhost.lean ====
/-
  What a device starts from and what it owes.

  * A device OWES, from launch: one unit to the barrier cell of whoever stands in each of its six directions (the
    neighbour, or itself where there is none), and a face's credit to the receive cell `opp d` of its neighbour in
    each direction `d` that has one. The sum is written so that the signals, in program order, and then the
    transfers, in program order, each take the LAST summand.
  * Its GHOST state: every cell's invariant and round-0 mark (shared by all, persistent); its position at round 0 of
    its own thirteen cells; the tokens of the duties it pays — per direction the barrier duty it signals (its
    neighbour's duty `opp d`, or its own duty `d`), and where there is a neighbour the neighbour's receive duty
    and its own send duty.
  * It STARTS with that, the credit for its barrier cell's six units and for each receive cell a neighbour pays, the
    level facts, and its two scratch buffers at some contents; it ENDS with the scratch buffers at some contents and
    its twelve own semaphores at zero, their cells closed.
-/
import proofs.«900363_g7700000000000364_dist_halo3d_v7x_xyz2x2x4_s32_f32_1_alg».proof.Proof.KernelTables

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What each device owes at launch; the levels -/

def oweR (c : Dev nD) (d : Fin 6) : CellTallies nD τ sig Unit :=
  tallyAt (recvCell (nb c d) (opp d)) () (if has c d = true then N else 0)
def oweB (c : Dev nD) (d : Fin 6) : CellTallies nD τ sig Unit := tallyAt (barCell (nb c d)) () 1

def O₀ (c : Dev nD) : CellTallies nD τ sig Unit :=
  oweR c 5 + oweR c 4 + oweR c 3 + oweR c 2 + oweR c 1 + oweR c 0 + oweB c 5 + oweB c 4 + oweB c 3 + oweB c 2 + oweB c 1 + oweB c 0

def L (g : GSem nD τ sig) : Finset Unit := if g.1.2 = .tc then {()} else ∅
/-- Barrier cells at 1, receive cells at 2, everything else (staging, send) at 0. -/
def lv (g : GSem nD τ sig) (_ : Unit) : ℕ := match g.2 with
  | .reg s => if s = barS then 1 else 0
  | .dma q => if (recvDir q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed -/

/-- A device's thirteen cells: its barrier cell, and per direction a send cell (`false`) and a receive cell (`true`). -/
abbrev CellIx : Type := Option (Bool × Fin 6)
abbrev csem : CellIx → SemLoc sig
  | none => .reg barS
  | some (false, d) => .dma (sendS d)
  | some (true, d) => .dma (recvS d)
abbrev kcell (ck : Dev nD × CellIx) : GSem nD τ sig := ((ck.1 : Thread nD τ), csem ck.2)

/-- The twelve semaphores scoped to the launch, as the launch theorem indexes them: six send, then six receive. -/
abbrev osem : Fin 12 → SemLoc sig := fun k => if h : k.val < 6 then .dma (sendS ⟨k.val, h⟩) else .dma (recvS ⟨k.val - 6, by omega⟩)

/-! ## Ghost state -/

def records (K : Dev nD × CellIx → ℕ) : sProp 𝕄 :=
  iprop((bigSep Finset.univ fun ck : Dev nD × CellIx => cellInv ER (exRd m ρ) (K ck) (kcell ck))
    ∗ bigSep Finset.univ fun ck : Dev nD × CellIx => reached ER (kcell ck) 0)

instance records_persistent (K : Dev nD × CellIx → ℕ) : BI.Persistent (records m ρ K) := by unfold records; infer_instance

/-- The barrier duty device `c` pays in direction `d`: its neighbour's duty `opp d`, or its own duty `d`. -/
def barDuty (c : Dev nD) (d : Fin 6) : Fin 6 := if has c d = true then opp d else d

def payToks (c : Dev nD) : sProp 𝕄 :=
  iprop((bigSep Finset.univ fun d : Fin 6 => dutyTok ER (barCell (nb c d)) 0 (barDuty c d))
    ∗ bigSep Finset.univ fun d : Fin 6 =>
        if has c d = true then iprop(dutyTok ER (recvCell (nb c d) (opp d)) 0 0 ∗ dutyTok ER (sendCell c d) 0 0) else iprop(emp))

def linear (c : Dev nD) : sProp 𝕄 :=
  iprop((bigSep Finset.univ fun k : CellIx => atPos ER (kcell (c, k)) 0 ∅ 0) ∗ payToks c)

def ghost (K : Dev nD × CellIx → ℕ) (c : Dev nD) : sProp 𝕄 := iprop(records m ρ K ∗ linear c)

/-- What device `c`'s body starts from besides its buffers. -/
def start (c : Dev nD) : sProp 𝕄 :=
  iprop((∃ K, ghost m ρ K c) ∗ cred (tallyAt (barCell c) () 6)
    ∗ (bigSep Finset.univ fun d : Fin 6 => if has c d = true then cred (tallyAt (recvCell c d) () N) else iprop(emp))
    ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
def Φ₁ (c : Dev nD) : sProp 𝕄 :=
  iprop(scratch c ∗ bigSep Finset.univ fun d : Fin 6 => iprop(semVal (sendCell c d) 0 ∗ semVal (recvCell c d) 0))

end Cert.Kernel.HP

end
-- ==== Proof.KernelOut.lean ====
/-
  What a device's output staging buffer holds when its body returns: the whole-block stencil stored first; then, for
  each direction that has a neighbour, the received plane added onto the face that touches it; then zero stored on each
  face that has no neighbour.
-/
import proofs.«900363_g7700000000000364_dist_halo3d_v7x_xyz2x2x4_s32_f32_1_alg».proof.Proof.KernelSched

noncomputable section

namespace Cert.Kernel.HP

open Cert.Kernel Cert.Kernel.Gen

open Idealize.ShloMosaic
open Idealize.ShloMosaic.TcCoe

variable {F : FTy → Type} [FloatOps F]

variable (m : (ℓ : Loc nD τ sig) → Buf (Elt F) ℓ) (ρ : Dev nD → PrngReg)

abbrev rX0 : Rect S32x32x32 := Rect.unit (s := S32x32x32) ![0, 0, 0] S1x32x32.size inb_S32x32x32_S1x32x32_0_0_0
abbrev rX31 : Rect S32x32x32 := Rect.unit (s := S32x32x32) ![31, 0, 0] S1x32x32.size inb_S32x32x32_S1x32x32_31_0_0
abbrev rY0 : Rect S32x32x32 := Rect.unit (s := S32x32x32) ![0, 0, 0] S32x1x32.size inb_S32x32x32_S32x1x32_0_0_0
abbrev rY31 : Rect S32x32x32 := Rect.unit (s := S32x32x32) ![0, 31, 0] S32x1x32.size inb_S32x32x32_S32x1x32_0_31_0
abbrev rAll : Rect S32x32x32 := Rect.unit (s := S32x32x32) ![0, 0, 0] S32x32x32.size inb_S32x32x32_S32x32x32_0_0_0
abbrev rR0 : Rect S6x32x32 := Rect.unit (s := S6x32x32) ![0, 0, 0] S1x32x32.size inb_S6x32x32_S1x32x32_0_0_0
abbrev rR1 : Rect S6x32x32 := Rect.unit (s := S6x32x32) ![1, 0, 0] S1x32x32.size inb_S6x32x32_S1x32x32_1_0_0
abbrev rR2 : Rect S6x32x32 := Rect.unit (s := S6x32x32) ![2, 0, 0] S1x32x32.size inb_S6x32x32_S1x32x32_2_0_0
abbrev rR3 : Rect S6x32x32 := Rect.unit (s := S6x32x32) ![3, 0, 0] S1x32x32.size inb_S6x32x32_S1x32x32_3_0_0
abbrev rR4 : Rect S6x32x32 := Rect.unit (s := S6x32x32) ![4, 0, 0] S1x32x32.size inb_S6x32x32_S1x32x32_4_0_0
abbrev rR5 : Rect S6x32x32 := Rect.unit (s := S6x32x32) ![5, 0, 0] S1x32x32.size inb_S6x32x32_S1x32x32_5_0_0

abbrev OutC : Type := (cc0_stg1_0 : Ref sig .tc).ty.Contents (Elt F)
abbrev RecvC : Type := (cc0_scratch1 : Ref sig .tc).ty.Contents (Elt F)

/-- The whole-block stencil the body stores first: the zero-padded sum of the six shifted copies of the block minus six
    times the block. -/
def out0 (X : (cc0_stg0_0 : Ref sig .tc).ty.Contents (Elt F)) : OutC (F := F) :=
  k0_pay20 (k0_pay10 (xM.view.readAt (Elt F) rAll.toLoadRect X)) k0_pay13 (k0_pay14 (xM.view.readAt (Elt F) rAll.toLoadRect X))
    (k0_pay15 (xM.view.readAt (Elt F) rAll.toLoadRect X)) (k0_pay16 (xM.view.readAt (Elt F) rAll.toLoadRect X))
    (k0_pay17 (xM.view.readAt (Elt F) rAll.toLoadRect X)) (k0_pay18 (xM.view.readAt (Elt F) rAll.toLoadRect X))
    (k0_pay19 (xM.view.readAt (Elt F) rAll.toLoadRect X))

/-- Face `d` of the output with the plane in slot `d` of the receive buffer added. -/
def addFace : Fin 6 → OutC (F := F) → RecvC (F := F) → OutC (F := F)
  | 0 => fun o r => ((oM.access rX0 : View sig .tc _ _ _)).write (Elt F) o (k0_pay21 (oM.view.readAt (Elt F) rX0.toLoadRect o) (rM.view.readAt (Elt F) rR0.toLoadRect r)) Finset.univ
  | 1 => fun o r => ((oM.access rX31 : View sig .tc _ _ _)).write (Elt F) o (k0_pay22 (oM.view.readAt (Elt F) rX31.toLoadRect o) (rM.view.readAt (Elt F) rR1.toLoadRect r)) Finset.univ
  | 2 => fun o r => ((oM.access rY0 : View sig .tc _ _ _)).write (Elt F) o (k0_pay23 (oM.view.readAt (Elt F) rY0.toLoadRect o) (rM.view.readAt (Elt F) rR2.toLoadRect r)) Finset.univ
  | 3 => fun o r => ((oM.access rY31 : View sig .tc _ _ _)).write (Elt F) o (k0_pay24 (oM.view.readAt (Elt F) rY31.toLoadRect o) (rM.view.readAt (Elt F) rR3.toLoadRect r)) Finset.univ
  | 4 => fun o r => ((oM.access rZ0 : View sig .tc _ _ _)).write (Elt F) o (k0_pay25 (oM.view.readAt (Elt F) rZ0.toLoadRect o) (rM.view.readAt (Elt F) rR4.toLoadRect r)) Finset.univ
  | 5 => fun o r => ((oM.access rZ31 : View sig .tc _ _ _)).write (Elt F) o (k0_pay26 (oM.view.readAt (Elt F) rZ31.toLoadRect o) (rM.view.readAt (Elt F) rR5.toLoadRect r)) Finset.univ
  | ⟨_ + 6, h⟩ => absurd h (Nat.not_lt.2 (Nat.le_add_left _ _))

/-- Face `d` of the output set to zero. -/
def zeroFace : Fin 6 → OutC (F := F) → OutC (F := F)
  | 0 => fun o => ((oM.access rX0 : View sig .tc _ _ _)).write (Elt F) o (k0_pay1 (F := F)) Finset.univ
  | 1 => fun o => ((oM.access rX31 : View sig .tc _ _ _)).write (Elt F) o (k0_pay2 (F := F)) Finset.univ
  | 2 => fun o => ((oM.access rY0 : View sig .tc _ _ _)).write (Elt F) o (k0_pay3 (F := F)) Finset.univ
  | 3 => fun o => ((oM.access rY31 : View sig .tc _ _ _)).write (Elt F) o (k0_pay4 (F := F)) Finset.univ
  | 4 => fun o => ((oM.access rZ0 : View sig .tc _ _ _)).write (Elt F) o (k0_pay5 (F := F)) Finset.univ
  | 5 => fun o => ((oM.access rZ31 : View sig .tc _ _ _)).write (Elt F) o (k0_pay6 (F := F)) Finset.univ
  | ⟨_ + 6, h⟩ => absurd h (Nat.not_lt.2 (Nat.le_add_left _ _))

def addStep (c : Dev nD) (d : Fin 6) (o : OutC (F := F)) : OutC (F := F) :=
  if has c d = true then addFace d o (landed m ρ c d) else o
def zeroStep (c : Dev nD) (d : Fin 6) (o : OutC (F := F)) : OutC (F := F) :=
  if has c d = true then o else zeroFace d o

def outAt (c : Dev nD) : OutC (F := F) :=
  zeroStep c 5 (zeroStep c 4 (zeroStep c 3 (zeroStep c 2 (zeroStep c 1 (zeroStep c 0
    (addStep m ρ c 5 (addStep m ρ c 4 (addStep m ρ c 3 (addStep m ρ c 2 (addStep m ρ c 1 (addStep m ρ c 0
      (out0 (xstg m ρ c)))))))))))))

end Cert.Kernel.HP

end
-- ==== Proof.KernelDats.lean ====
/-
  The pipeline's proof data for one device: its block stays in the input staging buffer, the output staging buffer
  ends at `outAt`, the invariant goes from the starting state to the closed cells, and the device owes `O₀` before
  the one grid point and nothing after it.
-/
import proofs.«900363_g7700000000000364_dist_halo3d_v7x_xyz2x2x4_s32_f32_1_alg».proof.Proof.KernelGhost
import proofs.«900363_g7700000000000364_dist_halo3d_v7x_xyz2x2x4_s32_f32_1_alg».proof.Proof.KernelOut

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.Kernel.HP

end
-- ==== Proof.KernelLaunch.lean ====
/-
  The launch of the halo exchange on the 2 × 2 × 4 mesh: from "each device's body is proved" to the run of the whole
  program.

  * The launch element funds every device's thirteen cells (its barrier cell, six send cells, six receive cells) at
    round 0 and mints the tokens of their duties: the six barrier duties, and where there is a neighbour in a
    direction the send cell's and the receive cell's one duty.
  * One update over all devices at once puts every cell's counter and round state into an invariant and deals the
    tokens to the devices that PAY the duties. The pairing (c, d) ↦ (neighbour of c in direction d, opposite of d) on
    the pairs that have a neighbour, the identity on the others, is its own inverse; along it a barrier duty's token
    goes to the device standing in its direction (itself where there is none) and a receive duty's token to the
    neighbour whose transfer pays it; a send duty's token stays.
  * The launch credit: over the mesh a barrier cell is owed six units (one from whoever stands in each direction), a
    receive cell one face where there is a neighbour that way and nothing otherwise.
  * Levels: what a device owes sits at level 1 (barrier cells) or 2 (receive cells); a staging semaphore sits at 0, so
    the pipeline's own waits are always allowed.
-/
import proofs.«900363_g7700000000000364_dist_halo3d_v7x_xyz2x2x4_s32_f32_1_alg».proof.Proof.KernelDats
import Idealize.ShloMosaic.Lib.Pipeline.Launch
import Idealize.ShloMosaic.Lib.Pipeline.Kit
import Idealize.ShloMosaic.Lib.Tactic

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the duty tokens -/

theorem sendS_inj {d d' : Fin 6} (h : sendS d = sendS d') : d = d' := by
  have hv : (sendS d).val = (sendS d').val := by rw [h]
  rw [sendS_val, sendS_val] at hv
  exact Fin.ext (by omega)
theorem recvS_inj {d d' : Fin 6} (h : recvS d = recvS d') : d = d' := by
  have hv : (recvS d).val = (recvS d').val := by rw [h]
  rw [recvS_val, recvS_val] at hv
  exact Fin.ext (by omega)
theorem send_ne_recv (d d' : Fin 6) : sendS d ≠ recvS d' := fun h => by
  have hv : (sendS d).val = (recvS d').val := by rw [h]
  rw [sendS_val, recvS_val] at hv
  have := d.isLt
  omega

theorem csem_injective : Function.Injective (csem : CellIx → SemLoc sig) := by
  rintro (_ | ⟨_ | _, d⟩) (_ | ⟨_ | _, d'⟩) h
  · rfl
  · cases h
  · cases h
  · cases h
  · rw [sendS_inj (SemLoc.dma.inj h)]
  · exact absurd (SemLoc.dma.inj h) (send_ne_recv d d')
  · cases h
  · exact absurd (SemLoc.dma.inj h).symm (send_ne_recv d' d)
  · rw [recvS_inj (SemLoc.dma.inj h)]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's thirteen cells. -/
def exCells : Finset (GSem nD τ sig) := Finset.univ.map ⟨kcell, kcell_injective⟩

/-- A device's own cells' duty tokens as minted: (device, direction, which) — the barrier's duty in that direction, and
    the send cell's and the receive cell's one duty. -/
abbrev tokOf (x : Dev nD × Fin 6 × Fin 3) : GSem nD τ sig × ℕ × Fin 6 := match x.2.2 with
  | 0 => (barCell x.1, 0, x.2.1) | 1 => (sendCell x.1 x.2.1, 0, 0) | 2 => (recvCell x.1 x.2.1, 0, 0)

theorem tokOf_injective : Function.Injective (tokOf : Dev nD × Fin 6 × Fin 3 → GSem nD τ sig × ℕ × Fin 6) := by
  rintro ⟨c, d, j⟩ ⟨c', d', j'⟩ h
  have h1 : c = c' := by
    have := congrArg (fun x : GSem nD τ sig × ℕ × Fin 6 => x.1.1.1) h
    fin_cases j <;> fin_cases j' <;> exact this
  subst h1
  have hs : (tokOf (c, d, j)).1.2 = (tokOf (c, d', j')).1.2 := by rw [h]
  have hd : (tokOf (c, d, j)).2.2 = (tokOf (c, d', j')).2.2 := by rw [h]
  fin_cases j <;> fin_cases j'
  · have e : d = d' := hd
    subst e; rfl
  · cases hs
  · cases hs
  · cases hs
  · have e := sendS_inj (SemLoc.dma.inj hs)
    subst e; rfl
  · exact absurd (SemLoc.dma.inj hs) (send_ne_recv d d')
  · cases hs
  · exact absurd (SemLoc.dma.inj hs).symm (send_ne_recv d' d)
  · have e := recvS_inj (SemLoc.dma.inj hs)
    subst e; rfl

/-- The tokens that are minted: every barrier duty, and a transfer's two where there is a neighbour. -/
def need (x : Dev nD × Fin 6 × Fin 3) : Bool := match x.2.2 with
  | 0 => true | _ => has x.1 x.2.1

def exToks : Finset (GSem nD τ sig × ℕ × Fin 6) := (Finset.univ.filter fun x => need x = true).map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  bigSep Finset.univ fun d : Fin 6 =>
    iprop(dutyTok ER (barCell c) 0 d
      ∗ (if has c d = true then dutyTok ER (sendCell c d) 0 0 else iprop(emp))
      ∗ (if has c d = true then dutyTok ER (recvCell c d) 0 0 else iprop(emp)))

/-- What the launch element deals device `c`. -/
def G (c : Dev nD) : sProp 𝕄 :=
  iprop((bigSep Finset.univ fun k : CellIx => roundState ER (exRd m ρ) (kcell (c, k)) 0)
    ∗ (bigSep Finset.univ fun k : CellIx => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- A family over a device's thirteen cells: the barrier cell's member, the six send cells', the six receive cells'. -/
theorem bigSep_cellIx (Φ : CellIx → sProp 𝕄) : bigSep Finset.univ Φ
    = iprop(Φ none ∗ (bigSep Finset.univ fun d : Fin 6 => Φ (some (false, d))) ∗ bigSep Finset.univ fun d : Fin 6 => Φ (some (true, d))) := by
  have he : (Finset.univ.erase (none : CellIx)) = Finset.univ.map (Function.Embedding.some : (Bool × Fin 6) ↪ CellIx) := by
    ext k; cases k <;> simp
  rw [bigSep_univ_at Φ none, he, bigSep_map, bigSep_univ_prod, bigSep_univ_eq_bigSepL [false, true] (by decide) (by decide)]
  rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CellIx => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_filter, bigSep_univ_prod]
    refine bigSep_congr fun c _ => ?_
    unfold toks; rw [bigSep_univ_prod]
    refine bigSep_congr fun d _ => ?_
    rw [bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores: the twelve scoped ones and the barrier's -/

theorem osem_send : ∀ d : Fin 6, osem (finSumFinEquiv (m := 6) (n := 6) (Sum.inl d)) = .dma (sendS d) := by decide
theorem osem_recv : ∀ d : Fin 6, osem (finSumFinEquiv (m := 6) (n := 6) (Sum.inr d)) = .dma (recvS d) := by decide

/-- The six send and six receive semaphores are the kernel's own twelve; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 6 => semVal (sendCell c d) 0) ∗ bigSep Finset.univ fun d : Fin 6 => semVal (recvCell c d) 0) := by
  unfold Pipeline.ownSems0
  rw [bigSep_univ_equiv (finSumFinEquiv (m := 6) (n := 6)), bigSep_univ_sum]
  simp only [osem_send, osem_recv]
  rfl

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (exRd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (exRd m ρ) (kcell (c, k)) 0)
      ⊢ (|={Set.univ}=> bigSep Finset.univ fun k : CellIx => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens to their payers -/

/-- The pairing of a (device, direction) that has a neighbour with (that neighbour, the opposite direction); the others
    stay. It is its own inverse. -/
def pair (p : Dev nD × Fin 6) : Dev nD × Fin 6 := if has p.1 p.2 = true then (nb p.1 p.2, opp p.2) else p
theorem pair_pair : ∀ p : Dev nD × Fin 6, pair (pair p) = p := by decide
def pairE : (Dev nD × Fin 6) ≃ (Dev nD × Fin 6) := ⟨pair, pair, pair_pair, pair_pair⟩
theorem pair_fst : ∀ (c : Dev nD) (d : Fin 6), (pair (c, d)).1 = nb c d := by decide
theorem pair_snd : ∀ (c : Dev nD) (d : Fin 6), (pair (c, d)).2 = barDuty c d := by decide
theorem pair_has : ∀ (c : Dev nD) (d : Fin 6), has (pair (c, d)).1 (pair (c, d)).2 = has c d := by decide

/-- One (device, direction): the barrier token that arrives there is the duty the device pays in that direction, and the
    receive token that arrives is its neighbour's. -/
theorem deal_at (c : Dev nD) (d : Fin 6) :
    iprop(dutyTok ER (barCell (pair (c, d)).1) 0 (pair (c, d)).2
        ∗ (if has c d = true then dutyTok ER (sendCell c d) 0 0 else iprop(emp))
        ∗ (if has (pair (c, d)).1 (pair (c, d)).2 = true then dutyTok ER (recvCell (pair (c, d)).1 (pair (c, d)).2) 0 0 else iprop(emp)))
      ⊢ (iprop(dutyTok ER (barCell (nb c d)) 0 (barDuty c d)
        ∗ (if has c d = true then iprop(dutyTok ER (recvCell (nb c d) (opp d)) 0 0 ∗ dutyTok ER (sendCell c d) 0 0) else iprop(emp))) : sProp 𝕄) := by
  rw [pair_has, pair_fst, pair_snd]
  by_cases h : has c d = true
  · have hb : barDuty c d = opp d := by unfold barDuty; rw [if_pos h]
    rw [if_pos h, if_pos h, if_pos h, hb]
    iintro ⟨HA, HS, HR⟩
    isplitl [HA]; · iexact HA
    isplitl [HR]; · iexact HR
    iexact HS
  · rw [if_neg h, if_neg h, if_neg h]
    iintro ⟨HA, -, -⟩
    isplitl [HA]; · iexact HA
    iempintro

/-- The tokens dealt over the mesh: a barrier duty's token to the neighbour in its direction (who holds it as the duty it
    pays there) or kept where there is none, a receive duty's token to the neighbour that pays it, a send duty's kept. -/
theorem toks_around : (bigSep Finset.univ fun c : Dev nD => (toks c : sProp 𝕄)) ⊢ bigSep Finset.univ fun c : Dev nD => payToks c := by
  have hL : (bigSep Finset.univ fun c : Dev nD => (toks c : sProp 𝕄))
      = bigSep Finset.univ fun p : Dev nD × Fin 6 =>
          iprop(dutyTok ER (barCell (pair p).1) 0 (pair p).2
            ∗ (if has p.1 p.2 = true then dutyTok ER (sendCell p.1 p.2) 0 0 else iprop(emp))
            ∗ (if has (pair p).1 (pair p).2 = true then dutyTok ER (recvCell (pair p).1 (pair p).2) 0 0 else iprop(emp))) := by
    unfold toks
    rw [← bigSep_univ_prod (fun p : Dev nD × Fin 6 => iprop(dutyTok ER (barCell p.1) 0 p.2
        ∗ (if has p.1 p.2 = true then dutyTok ER (sendCell p.1 p.2) 0 0 else iprop(emp))
        ∗ (if has p.1 p.2 = true then dutyTok ER (recvCell p.1 p.2) 0 0 else iprop(emp)))),
      bigSep_sep', bigSep_sep', bigSep_sep', bigSep_sep',
      bigSep_univ_equiv pairE (fun p : Dev nD × Fin 6 => (dutyTok ER (barCell p.1) 0 p.2 : sProp 𝕄)),
      bigSep_univ_equiv pairE (fun p : Dev nD × Fin 6 => (if has p.1 p.2 = true then dutyTok ER (recvCell p.1 p.2) 0 0 else iprop(emp) : sProp 𝕄))]
    rfl
  have hR : (bigSep Finset.univ fun c : Dev nD => (payToks c : sProp 𝕄))
      = bigSep Finset.univ fun p : Dev nD × Fin 6 =>
          iprop(dutyTok ER (barCell (nb p.1 p.2)) 0 (barDuty p.1 p.2)
            ∗ (if has p.1 p.2 = true then iprop(dutyTok ER (recvCell (nb p.1 p.2) (opp p.2)) 0 0 ∗ dutyTok ER (sendCell p.1 p.2) 0 0) else iprop(emp))) := by
    unfold payToks
    rw [bigSep_univ_prod]
    exact bigSep_congr fun c _ => (bigSep_sep' _ _ _).symm
  rw [hL, hR]
  exact bigSep_mono fun p _ => deal_at p.1 p.2

theorem inv_at (K : Dev nD × CellIx → ℕ) (ck : Dev nD × CellIx) :
    (bigSep Finset.univ fun ck : Dev nD × CellIx => (cellInv ER (exRd m ρ) (K ck) (kcell ck) : sProp 𝕄)) ⊢ cellInv ER (exRd m ρ) (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)

theorem ghost_intro (K : Dev nD × CellIx → ℕ) (c : Dev nD) : iprop(records m ρ K ∗ linear c) ⊢ G' m ρ c := by
  unfold G' ghost
  iintro H
  iexists K
  iexact H

theorem regroup :
    (bigSep Finset.univ fun c : Dev nD => iprop((bigSep Finset.univ fun k : CellIx => iprop(∃ κ : ℕ, cellInv ER (exRd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (exRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_bar (c a : Dev nD) : (barCell c = barCell a) = (a = c) :=
  propext ⟨fun h => (Fin.ext (congrArg (fun g : GSem nD τ sig => g.1.1.val) h)).symm, fun h => h ▸ rfl⟩
theorem bar_eq_recv (c a : Dev nD) (e : Fin 6) : (barCell c = recvCell a e) = False :=
  eq_false fun h => by cases (congrArg Prod.snd h)
theorem recv_eq_bar (c a : Dev nD) (e : Fin 6) : (recvCell c e = barCell a) = False :=
  eq_false fun h => by cases (congrArg Prod.snd h)
theorem recv_eq_recv (c a : Dev nD) (d e : Fin 6) : (recvCell c d = recvCell a e) = (a = c ∧ e = d) :=
  propext ⟨fun h => ⟨(Fin.ext (congrArg (fun g : GSem nD τ sig => g.1.1.val) h)).symm, (recvS_inj (SemLoc.dma.inj (congrArg Prod.snd h))).symm⟩,
    fun ⟨h1, h2⟩ => by rw [h1, h2]⟩

/-- How many units device `d` owes device `c`'s barrier cell: one per direction in which `c` stands for `d`. -/
def barCount (d c : Dev nD) : ℕ := ∑ e : Fin 6, if nb d e = c then 1 else 0
/-- Over the whole mesh a barrier cell is owed six: one unit from whoever stands in each direction, the device itself
    included. -/
theorem barCount_sum : ∀ c : Dev nD, ∑ d : Dev nD, barCount d c = 6 := by decide

theorem owed_bar (d c : Dev nD) : O₀ d (barCell c) () = barCount d c := by
  unfold O₀ oweR oweB barCount
  simp only [Pi.add_apply, Finsupp.add_apply, tallyAt_apply, bar_eq_recv, bar_eq_bar, false_and, eq_self, and_true, ↓reduceIte,
    Fin.sum_univ_six, zero_add, add_zero]
  ac_rfl

/-- How many faces device `d` owes receive cell `e'` of device `c`. -/
def recvCount (d c : Dev nD) (e' : Fin 6) : ℕ :=
  ∑ e : Fin 6, if nb d e = c ∧ opp e = e' then (if has d e = true then 1 else 0) else 0
/-- Over the whole mesh a receive cell is owed one face where there is a neighbour that way, none otherwise. -/
theorem recvCount_sum : ∀ (c : Dev nD) (e' : Fin 6), ∑ d : Dev nD, recvCount d c e' = if has c e' = true then 1 else 0 := by decide

theorem owed_recv (d c : Dev nD) (e' : Fin 6) : O₀ d (recvCell c e') () = N * recvCount d c e' := by
  unfold O₀ oweR oweB recvCount
  simp only [Pi.add_apply, Finsupp.add_apply, tallyAt_apply, recv_eq_bar, recv_eq_recv, false_and, eq_self, and_true, ↓reduceIte,
    Fin.sum_univ_six, zero_add, add_zero, Nat.mul_add, mul_ite, mul_one, mul_zero]
  ac_rfl

theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c, barCount_sum]

theorem launch_recv (c : Dev nD) (e : Fin 6) :
    tallyOn (recvCell c e) (launchCredit (Pipeline.owing O₀) 0 (recvCell c e))
      = (tallyAt (recvCell c e) () (if has c e = true then N else 0) : CellTallies nD τ sig Unit) := by
  unfold tallyAt; refine congrArg _ (Finsupp.ext fun u => ?_); cases u
  rw [Pipeline.launchCredit_owing, Finsupp.single_eq_same, Finset.sum_congr rfl fun d _ => owed_recv d c e, ← Finset.mul_sum, recvCount_sum,
    mul_ite, mul_one, mul_zero]

theorem cred_recv (c : Dev nD) (d : Fin 6) :
    (cred (tallyOn (recvCell c d) (launchCredit (Pipeline.owing O₀) 0 (recvCell c d))) : sProp 𝕄)
      ⊢ if has c d = true then cred (tallyAt (recvCell c d) () N) else iprop(emp) := by
  rw [launch_recv]
  by_cases hh : has c d = true
  · rw [if_pos hh, if_pos hh]
  · rw [if_neg hh, if_neg hh]; iintro -; iempintro

theorem bigSep_sdiff_split' {I : Type} [DecidableEq I] {s t : Finset I} (h : t ⊆ s) (Φ : I → sProp 𝕄) :
    bigSep s Φ = iprop(bigSep t Φ ∗ bigSep (s \ t) Φ) := bigSep_sdiff_split h

theorem creds (c : Dev nD) :
    (Pipeline.launchCred O₀ c : sProp 𝕄) ⊢ iprop(cred (tallyAt (barCell c) () 6)
      ∗ bigSep Finset.univ fun d : Fin 6 => if has c d = true then cred (tallyAt (recvCell c d) () N) else iprop(emp)) := by
  unfold Pipeline.launchCred
  rw [bigSep_sdiff_split' (Finset.subset_univ (Finset.univ.map ⟨csem, csem_injective⟩)), bigSep_map, bigSep_cellIx]
  iintro ⟨⟨HB, -, HR⟩, -⟩
  isplitl [HB]
  · rw [← launch_bar]; iexact HB
  · have hm : (bigSep Finset.univ fun d : Fin 6 => (cred (tallyOn (recvCell c d) (launchCredit (Pipeline.owing O₀) 0 (recvCell c d))) : sProp 𝕄))
        ⊢ bigSep Finset.univ fun d : Fin 6 => if has c d = true then cred (tallyAt (recvCell c d) () N) else iprop(emp) :=
      bigSep_mono fun d _ => cred_recv (F := F) c d
    iapply hm
    iexact HR

/-! ### The levels: the staging cells' waits -/

theorem lv_recv (a : Dev nD) (e : Fin 6) (u : Unit) : lv (recvCell a e) u = 2 := by
  show (if (recvDir (recvS e)).isSome = true then 2 else 0) = 2
  rw [recvDir_recv]; rfl
theorem lv_bar (a : Dev nD) (u : Unit) : lv (barCell a) u = 1 := by
  show (if barS = barS then 1 else 0) = 1
  exact if_pos rfl

/-- Whatever a device owes at launch is owed to a neighbour's receive cell or to a barrier cell. -/
theorem O₀_pos {c : Dev nD} {g : GSem nD τ sig} {u : Unit} (h : 0 < O₀ c g u) :
    (∃ d : Fin 6, g = recvCell (nb c d) (opp d)) ∨ (∃ d : Fin 6, g = barCell (nb c d)) := by
  by_contra hn
  rw [not_or, not_exists, not_exists] at hn
  unfold O₀ oweR oweB at h
  simp only [Pi.add_apply, Finsupp.add_apply, tallyAt_apply, hn.1, hn.2, false_and, ↓reduceIte, add_zero] at h
  exact Nat.lt_irrefl 0 h

/-- A staging DMA semaphore (neither a receive semaphore nor the barrier) sits at level 0, below everything a device
    owes: receive cells at 2, barrier cells at 1. -/
theorem mayWait_stage (c : Dev nD) (q : DmaSem sig) (hq : recvDir q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]
        show (if (recvDir q).isSome = true then 2 else 0) ≤ 0
        rw [hq]; exact Nat.le_refl 0)
      (fun g u hg => by
        rcases O₀_pos hg with ⟨d, rfl⟩ | ⟨d, rfl⟩
        · rw [lv_recv]; decide
        · rw [lv_bar]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  rw [bigSep_sep']
  iintro ⟨Hr, HzS, HzV⟩
  isplitr; · iempintro
  isplitl [HzS HzV]
  · isplitl [HzS] <;> iassumption
  iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, and given each
    device's body: every weakly fair execution of @main — the sixteen kernels handshaking on the runtime's barrier
    semaphore, then exchanging faces with their neighbours — terminates, and every final state has each device's
    arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the one grid point is what the output staging buffer held: the one write-back covers the
    whole array. -/
theorem finalA_out (c : Dev nD) : finalA m ρ c (1 : Fin 2) = outAt m ρ c := by
  have h := (dats (F := F) m ρ 0 c).arrAt_succ (1 : Fin 2) t0_0
  rw [if_pos (flush0_1 t0_0)] at h
  refine h.trans ?_
  exact Memref.write_access_unit_zero_univ (Elt F) _ (by funext a; fin_cases a <;> rfl) _ _ _

end Cert.Kernel.HP

end
-- ==== Proof.KernelCarve.lean ====
/-
  Carving three of a device's buffers into the pieces the halo exchange lends and receives, and joining them back.

  * The receive buffer is six 32 × 32 slots stacked along its first axis: slot `d` is the elements whose first
    coordinate is `d`. The six are pairwise disjoint and cover the buffer, so the buffer held whole is the six slots
    held one by one, at the same contents or, joined, at some contents.
  * The send buffer is two such rows.
  * The input block is lent by SHARE: its left half stays with the device, and each of the four quarters of its right
    half is split by region into one face of the block and the rest of the block.
  * A slot written whole holds the written plane on every element it owns, whatever it held before.
-/
import proofs.«900363_g7700000000000364_dist_halo3d_v7x_xyz2x2x4_s32_f32_1_alg».proof.Proof.KernelSched

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The receive buffer: six slots -/

/-- The elements of a one-row slice of the receive buffer are the row's. -/
theorem slot_view_set (k : ℕ) (inb : ∀ a, (![k, 0, 0] : Fin 3 → ℕ) a + S1x32x32.size a ≤ S6x32x32.size a) :
    ((rM.slice (Rect.unit (s := S6x32x32) ![k, 0, 0] S1x32x32.size inb) (fun _ => rfl)).squeeze S32x32
        squeezes_S1x32x32_S32x32).view.set
      = (Rect.unit (s := S6x32x32) ![k, 0, 0] S1x32x32.size inb).set := by
  show ((rM.view.slice (Rect.unit (s := S6x32x32) ![k, 0, 0] S1x32x32.size inb)).reshape S32x32 _).set = _
  rw [View.set_reshape]
  exact View.set_slice_whole cc0_scratch1 _

/-- An element is in row `k` exactly when its first coordinate is `k`. -/
theorem mem_unit_row (k : ℕ) (inb : ∀ a, (![k, 0, 0] : Fin 3 → ℕ) a + S1x32x32.size a ≤ S6x32x32.size a)
    (i : S6x32x32.Idx) : i ∈ (Rect.unit (s := S6x32x32) ![k, 0, 0] S1x32x32.size inb).set ↔ (i 0).val = k := by
  rw [Rect.mem_set_unit]
  have h1 : (i 1).val < 32 := (i 1).isLt
  have h2 : (i 2).val < 32 := (i 2).isLt
  constructor
  · intro h
    have h0 := h 0
    change k ≤ (i 0).val ∧ (i 0).val < k + 1 at h0
    omega
  · intro h a
    match a with
    | ⟨0, _⟩ => show k ≤ (i 0).val ∧ (i 0).val < k + 1; omega
    | ⟨1, _⟩ => show 0 ≤ (i 1).val ∧ (i 1).val < 0 + 32; omega
    | ⟨2, _⟩ => show 0 ≤ (i 2).val ∧ (i 2).val < 0 + 32; omega

/-- Slot `d` is the elements whose first coordinate is `d`. -/
theorem mem_slotSet : ∀ (d : Fin 6) (i : S6x32x32.Idx), i ∈ slotSet d ↔ (i 0).val = d.val
  | 0, i => by rw [show slotSet 0 = _ from slot_view_set 0 _]; exact mem_unit_row 0 _ i
  | 1, i => by rw [show slotSet 1 = _ from slot_view_set 1 _]; exact mem_unit_row 1 _ i
  | 2, i => by rw [show slotSet 2 = _ from slot_view_set 2 _]; exact mem_unit_row 2 _ i
  | 3, i => by rw [show slotSet 3 = _ from slot_view_set 3 _]; exact mem_unit_row 3 _ i
  | 4, i => by rw [show slotSet 4 = _ from slot_view_set 4 _]; exact mem_unit_row 4 _ i
  | 5, i => by rw [show slotSet 5 = _ from slot_view_set 5 _]; exact mem_unit_row 5 _ i

theorem slotSet_disjoint {a b : Fin 6} (h : a ≠ b) : Disjoint (slotSet a) (slotSet b) :=
  Finset.disjoint_left.mpr fun i ha hb =>
    h (Fin.ext (((mem_slotSet a i).mp ha).symm.trans ((mem_slotSet b i).mp hb)))

/-- The six slots cover the receive buffer. -/
theorem slotSet_cover : (rM.view.set : Finset S6x32x32.Idx)
    = slotSet 0 ∪ (slotSet 1 ∪ (slotSet 2 ∪ (slotSet 3 ∪ (slotSet 4 ∪ slotSet 5)))) := by
  rw [show (rM.view.set : Finset S6x32x32.Idx) = Finset.univ from View.set_whole cc0_scratch1]
  refine Finset.ext fun (i : S6x32x32.Idx) => ⟨fun _ => ?_, fun _ => Finset.mem_univ _⟩
  have h0 : (i 0).val < 6 := (i 0).isLt
  have h : (i 0).val = 0 ∨ (i 0).val = 1 ∨ (i 0).val = 2 ∨ (i 0).val = 3 ∨ (i 0).val = 4 ∨ (i 0).val = 5 := by omega
  rcases h with h | h | h | h | h | h
  · exact Finset.mem_union_left _ ((mem_slotSet 0 i).mpr h)
  · exact Finset.mem_union_right _ (Finset.mem_union_left _ ((mem_slotSet 1 i).mpr h))
  · exact Finset.mem_union_right _ (Finset.mem_union_right _ (Finset.mem_union_left _ ((mem_slotSet 2 i).mpr h)))
  · exact Finset.mem_union_right _ (Finset.mem_union_right _ (Finset.mem_union_right _
      (Finset.mem_union_left _ ((mem_slotSet 3 i).mpr h))))
  · exact Finset.mem_union_right _ (Finset.mem_union_right _ (Finset.mem_union_right _
      (Finset.mem_union_right _ (Finset.mem_union_left _ ((mem_slotSet 4 i).mpr h)))))
  · exact Finset.mem_union_right _ (Finset.mem_union_right _ (Finset.mem_union_right _
      (Finset.mem_union_right _ (Finset.mem_union_right _ ((mem_slotSet 5 i).mpr h)))))

/-- Slot `d` held whole, through the slot's own memref. -/
theorem slotPts_view0 (c : Dev nD) (f : Buf (Elt F) ((c : Thread nD τ).loc cc0_scratch1)) :
    slotPts c 0 f = ((slotM 0).view.loc (c : Thread nD τ) ↦[(slotM 0).view.set]{fullShare} f : sProp 𝕄) := rfl
theorem slotPts_view1 (c : Dev nD) (f : Buf (Elt F) ((c : Thread nD τ).loc cc0_scratch1)) :
    slotPts c 1 f = ((slotM 1).view.loc (c : Thread nD τ) ↦[(slotM 1).view.set]{fullShare} f : sProp 𝕄) := rfl
theorem slotPts_view2 (c : Dev nD) (f : Buf (Elt F) ((c : Thread nD τ).loc cc0_scratch1)) :
    slotPts c 2 f = ((slotM 2).view.loc (c : Thread nD τ) ↦[(slotM 2).view.set]{fullShare} f : sProp 𝕄) := rfl
theorem slotPts_view3 (c : Dev nD) (f : Buf (Elt F) ((c : Thread nD τ).loc cc0_scratch1)) :
    slotPts c 3 f = ((slotM 3).view.loc (c : Thread nD τ) ↦[(slotM 3).view.set]{fullShare} f : sProp 𝕄) := rfl
theorem slotPts_view4 (c : Dev nD) (f : Buf (Elt F) ((c : Thread nD τ).loc cc0_scratch1)) :
    slotPts c 4 f = ((slotM 4).view.loc (c : Thread nD τ) ↦[(slotM 4).view.set]{fullShare} f : sProp 𝕄) := rfl
theorem slotPts_view5 (c : Dev nD) (f : Buf (Elt F) ((c : Thread nD τ).loc cc0_scratch1)) :
    slotPts c 5 f = ((slotM 5).view.loc (c : Thread nD τ) ↦[(slotM 5).view.set]{fullShare} f : sProp 𝕄) := rfl

/-! ### Carving and joining -/

private theorem sd (a b : Fin 6) (h : a ≠ b := by decide) : Disjoint (slotSet a) (slotSet b) := slotSet_disjoint h

private theorem d4 : Disjoint (slotSet 4) (slotSet 5) := sd 4 5
private theorem d3 : Disjoint (slotSet 3) (slotSet 4 ∪ slotSet 5) :=
  Finset.disjoint_union_right.mpr ⟨sd 3 4, sd 3 5⟩
private theorem d2 : Disjoint (slotSet 2) (slotSet 3 ∪ (slotSet 4 ∪ slotSet 5)) :=
  Finset.disjoint_union_right.mpr ⟨sd 2 3, Finset.disjoint_union_right.mpr ⟨sd 2 4, sd 2 5⟩⟩
private theorem d1 : Disjoint (slotSet 1) (slotSet 2 ∪ (slotSet 3 ∪ (slotSet 4 ∪ slotSet 5))) :=
  Finset.disjoint_union_right.mpr ⟨sd 1 2, Finset.disjoint_union_right.mpr ⟨sd 1 3,
    Finset.disjoint_union_right.mpr ⟨sd 1 4, sd 1 5⟩⟩⟩
private theorem d0 : Disjoint (slotSet 0) (slotSet 1 ∪ (slotSet 2 ∪ (slotSet 3 ∪ (slotSet 4 ∪ slotSet 5)))) :=
  Finset.disjoint_union_right.mpr ⟨sd 0 1, Finset.disjoint_union_right.mpr ⟨sd 0 2,
    Finset.disjoint_union_right.mpr ⟨sd 0 3, Finset.disjoint_union_right.mpr ⟨sd 0 4, sd 0 5⟩⟩⟩⟩

/-- Along disjoint element sets, as an equation. -/
theorem pt_union_eq {ℓ : Loc nD τ sig} {I J : Finset (Idx ℓ)} {q : PosShare TreeShare} {f : Buf (Elt F) ℓ}
    (h : Disjoint I J) : (ℓ ↦[I ∪ J]{q} f : sProp 𝕄) = iprop((ℓ ↦[I]{q} f) ∗ ℓ ↦[J]{q} f) :=
  BI.equiv_iff.mp ⟨(pointsTo_union h).1, (pointsTo_union h).2⟩

/-- THE RECEIVE BUFFER, CARVED: held whole it is its six slots held one by one, at the same contents. -/
theorem carve_recv (c : Dev nD) (f : Buf (Elt F) ((c : Thread nD τ).loc cc0_scratch1)) :
    (rM.view.loc (c : Thread nD τ) ↦[rM.view.set]{fullShare} f : sProp 𝕄)
      ⊣⊢ iprop(slotPts c 0 f ∗ slotPts c 1 f ∗ slotPts c 2 f ∗ slotPts c 3 f ∗ slotPts c 4 f ∗ slotPts c 5 f) := by
  refine BiEntails.of_eq ?_
  show (((c : Thread nD τ).loc cc0_scratch1) ↦[rM.view.set]{fullShare} f : sProp 𝕄) = _
  rw [slotSet_cover, pt_union_eq (ℓ := (c : Thread nD τ).loc cc0_scratch1) d0,
    pt_union_eq (ℓ := (c : Thread nD τ).loc cc0_scratch1) d1, pt_union_eq (ℓ := (c : Thread nD τ).loc cc0_scratch1) d2,
    pt_union_eq (ℓ := (c : Thread nD τ).loc cc0_scratch1) d3, pt_union_eq (ℓ := (c : Thread nD τ).loc cc0_scratch1) d4]
  rfl

/-- THE RECEIVE BUFFER, JOINED: six slots held at contents of their own are the buffer held whole at some contents. -/
theorem join_recv (c : Dev nD) (f0 f1 f2 f3 f4 f5 : Buf (Elt F) ((c : Thread nD τ).loc cc0_scratch1)) :
    iprop(slotPts c 0 f0 ∗ slotPts c 1 f1 ∗ slotPts c 2 f2 ∗ slotPts c 3 f3 ∗ slotPts c 4 f4 ∗ slotPts c 5 f5)
      ⊢ (∃ f, rM.view.loc (c : Thread nD τ) ↦[rM.view.set]{fullShare} f : sProp 𝕄) := by
  show iprop((((c : Thread nD τ).loc cc0_scratch1) ↦[slotSet 0]{fullShare} f0)
      ∗ (((c : Thread nD τ).loc cc0_scratch1) ↦[slotSet 1]{fullShare} f1)
      ∗ (((c : Thread nD τ).loc cc0_scratch1) ↦[slotSet 2]{fullShare} f2)
      ∗ (((c : Thread nD τ).loc cc0_scratch1) ↦[slotSet 3]{fullShare} f3)
      ∗ (((c : Thread nD τ).loc cc0_scratch1) ↦[slotSet 4]{fullShare} f4)
      ∗ (((c : Thread nD τ).loc cc0_scratch1) ↦[slotSet 5]{fullShare} f5))
    ⊢ (∃ f, ((c : Thread nD τ).loc cc0_scratch1) ↦[rM.view.set]{fullShare} f : sProp 𝕄)
  refine (sep_mono_r (sep_mono_r (sep_mono_r (sep_mono_r
    (pointsTo_join (ℓ := (c : Thread nD τ).loc cc0_scratch1) d4))))).trans ?_
  refine (sep_mono_r (sep_mono_r (sep_mono_r (pointsTo_join (ℓ := (c : Thread nD τ).loc cc0_scratch1) d3)))).trans ?_
  refine (sep_mono_r (sep_mono_r (pointsTo_join (ℓ := (c : Thread nD τ).loc cc0_scratch1) d2))).trans ?_
  refine (sep_mono_r (pointsTo_join (ℓ := (c : Thread nD τ).loc cc0_scratch1) d1)).trans ?_
  refine (pointsTo_join (ℓ := (c : Thread nD τ).loc cc0_scratch1) d0).trans ?_
  rw [← slotSet_cover]
  exact exists_intro _

/-! ## A slot written whole -/

/-- A view written whole holds the written values on every element it owns, whatever it held before. -/
theorem write_univ_rebase {c : Thread nD τ} {sp : Space} {s : Shape} {e : EltTy} (v : View sig c.2.kind sp s e)
    (f g : Buf (Elt F) (v.loc c)) (p : s.Idx → Elt F e) (q : PosShare TreeShare) :
    (v.loc c ↦[v.set]{q} v.write (Elt F) f p Finset.univ : sProp 𝕄)
      = (v.loc c ↦[v.set]{q} v.write (Elt F) g p Finset.univ) := by
  refine pointsTo_congr fun i hi => ?_
  obtain ⟨z, -, rfl⟩ := Finset.mem_map.mp hi
  rw [View.write_emb_of_mem _ _ (Finset.mem_univ _), View.write_emb_of_mem _ _ (Finset.mem_univ _)]

/-- Slot 0 filled whole: what it held before does not matter. -/
theorem landed_pts0 (c : Dev nD) (fd : Buf (Elt F) ((c : Thread nD τ).loc cc0_scratch1)) (v : S32x32.Idx → Elt F .f32) :
    (((slotM 0).view.loc (c : Thread nD τ)) ↦[(slotM 0).view.set]{fullShare} ((slotM 0).view.write (Elt F) fd v Finset.univ) : sProp 𝕄)
      = ((slotM 0).view.loc (c : Thread nD τ) ↦[(slotM 0).view.set]{fullShare} ((slotM 0).view.write (Elt F) (junk (ℓ := (c : Thread nD τ).loc cc0_scratch1)) v Finset.univ)) :=
  write_univ_rebase (c := (c : Thread nD τ)) (slotM 0).view fd junk v fullShare

/-- Slot 1 filled whole: what it held before does not matter. -/
theorem landed_pts1 (c : Dev nD) (fd : Buf (Elt F) ((c : Thread nD τ).loc cc0_scratch1)) (v : S32x32.Idx → Elt F .f32) :
    (((slotM 1).view.loc (c : Thread nD τ)) ↦[(slotM 1).view.set]{fullShare} ((slotM 1).view.write (Elt F) fd v Finset.univ) : sProp 𝕄)
      = ((slotM 1).view.loc (c : Thread nD τ) ↦[(slotM 1).view.set]{fullShare} ((slotM 1).view.write (Elt F) (junk (ℓ := (c : Thread nD τ).loc cc0_scratch1)) v Finset.univ)) :=
  write_univ_rebase (c := (c : Thread nD τ)) (slotM 1).view fd junk v fullShare

/-- Slot 2 filled whole: what it held before does not matter. -/
theorem landed_pts2 (c : Dev nD) (fd : Buf (Elt F) ((c : Thread nD τ).loc cc0_scratch1)) (v : S32x32.Idx → Elt F .f32) :
    (((slotM 2).view.loc (c : Thread nD τ)) ↦[(slotM 2).view.set]{fullShare} ((slotM 2).view.write (Elt F) fd v Finset.univ) : sProp 𝕄)
      = ((slotM 2).view.loc (c : Thread nD τ) ↦[(slotM 2).view.set]{fullShare} ((slotM 2).view.write (Elt F) (junk (ℓ := (c : Thread nD τ).loc cc0_scratch1)) v Finset.univ)) :=
  write_univ_rebase (c := (c : Thread nD τ)) (slotM 2).view fd junk v fullShare

/-- Slot 3 filled whole: what it held before does not matter. -/
theorem landed_pts3 (c : Dev nD) (fd : Buf (Elt F) ((c : Thread nD τ).loc cc0_scratch1)) (v : S32x32.Idx → Elt F .f32) :
    (((slotM 3).view.loc (c : Thread nD τ)) ↦[(slotM 3).view.set]{fullShare} ((slotM 3).view.write (Elt F) fd v Finset.univ) : sProp 𝕄)
      = ((slotM 3).view.loc (c : Thread nD τ) ↦[(slotM 3).view.set]{fullShare} ((slotM 3).view.write (Elt F) (junk (ℓ := (c : Thread nD τ).loc cc0_scratch1)) v Finset.univ)) :=
  write_univ_rebase (c := (c : Thread nD τ)) (slotM 3).view fd junk v fullShare

/-- Slot 4 filled whole: what it held before does not matter. -/
theorem landed_pts4 (c : Dev nD) (fd : Buf (Elt F) ((c : Thread nD τ).loc cc0_scratch1)) (v : S32x32.Idx → Elt F .f32) :
    (((slotM 4).view.loc (c : Thread nD τ)) ↦[(slotM 4).view.set]{fullShare} ((slotM 4).view.write (Elt F) fd v Finset.univ) : sProp 𝕄)
      = ((slotM 4).view.loc (c : Thread nD τ) ↦[(slotM 4).view.set]{fullShare} ((slotM 4).view.write (Elt F) (junk (ℓ := (c : Thread nD τ).loc cc0_scratch1)) v Finset.univ)) :=
  write_univ_rebase (c := (c : Thread nD τ)) (slotM 4).view fd junk v fullShare

/-- Slot 5 filled whole: what it held before does not matter. -/
theorem landed_pts5 (c : Dev nD) (fd : Buf (Elt F) ((c : Thread nD τ).loc cc0_scratch1)) (v : S32x32.Idx → Elt F .f32) :
    (((slotM 5).view.loc (c : Thread nD τ)) ↦[(slotM 5).view.set]{fullShare} ((slotM 5).view.write (Elt F) fd v Finset.univ) : sProp 𝕄)
      = ((slotM 5).view.loc (c : Thread nD τ) ↦[(slotM 5).view.set]{fullShare} ((slotM 5).view.write (Elt F) (junk (ℓ := (c : Thread nD τ).loc cc0_scratch1)) v Finset.univ)) :=
  write_univ_rebase (c := (c : Thread nD τ)) (slotM 5).view fd junk v fullShare

/-! ## The send buffer: two rows -/

/-- The elements of a one-row slice of the send buffer are the row's. -/
theorem sbuf_view_set (k : ℕ) (inb : ∀ a, (![k, 0, 0] : Fin 3 → ℕ) a + S1x32x32.size a ≤ S2x32x32.size a) :
    ((sM.slice (Rect.unit (s := S2x32x32) ![k, 0, 0] S1x32x32.size inb) (fun _ => rfl)).squeeze S32x32
        squeezes_S1x32x32_S32x32).view.set
      = (Rect.unit (s := S2x32x32) ![k, 0, 0] S1x32x32.size inb).set := by
  show ((sM.view.slice (Rect.unit (s := S2x32x32) ![k, 0, 0] S1x32x32.size inb)).reshape S32x32 _).set = _
  rw [View.set_reshape]
  exact View.set_slice_whole cc0_scratch0 _

/-- An element of the send buffer is in row `k` exactly when its first coordinate is `k`. -/
theorem mem_sbuf_row (k : ℕ) (inb : ∀ a, (![k, 0, 0] : Fin 3 → ℕ) a + S1x32x32.size a ≤ S2x32x32.size a)
    (i : S2x32x32.Idx) : i ∈ (Rect.unit (s := S2x32x32) ![k, 0, 0] S1x32x32.size inb).set ↔ (i 0).val = k := by
  rw [Rect.mem_set_unit]
  have h1 : (i 1).val < 32 := (i 1).isLt
  have h2 : (i 2).val < 32 := (i 2).isLt
  constructor
  · intro h
    have h0 := h 0
    change k ≤ (i 0).val ∧ (i 0).val < k + 1 at h0
    omega
  · intro h a
    match a with
    | ⟨0, _⟩ => show k ≤ (i 0).val ∧ (i 0).val < k + 1; omega
    | ⟨1, _⟩ => show 0 ≤ (i 1).val ∧ (i 1).val < 0 + 32; omega
    | ⟨2, _⟩ => show 0 ≤ (i 2).val ∧ (i 2).val < 0 + 32; omega

theorem mem_src4 (i : S2x32x32.Idx) : i ∈ (srcM 4).view.set ↔ (i 0).val = 0 := by
  rw [show (srcM 4).view.set = _ from sbuf_view_set 0 _]; exact mem_sbuf_row 0 _ i
theorem mem_src5 (i : S2x32x32.Idx) : i ∈ (srcM 5).view.set ↔ (i 0).val = 1 := by
  rw [show (srcM 5).view.set = _ from sbuf_view_set 1 _]; exact mem_sbuf_row 1 _ i

theorem sbuf_disjoint : Disjoint (srcM 4).view.set (srcM 5).view.set :=
  Finset.disjoint_left.mpr fun (i : S2x32x32.Idx) h4 h5 => by
    have a := (mem_src4 i).mp h4
    have b := (mem_src5 i).mp h5
    omega

theorem sbuf_cover : (sM.view.set : Finset S2x32x32.Idx) = (srcM 4).view.set ∪ (srcM 5).view.set := by
  rw [show (sM.view.set : Finset S2x32x32.Idx) = Finset.univ from View.set_whole cc0_scratch0]
  refine Finset.ext fun (i : S2x32x32.Idx) => ⟨fun _ => ?_, fun _ => Finset.mem_univ _⟩
  have h0 : (i 0).val < 2 := (i 0).isLt
  have h : (i 0).val = 0 ∨ (i 0).val = 1 := by omega
  rcases h with h | h
  · exact Finset.mem_union_left _ ((mem_src4 i).mpr h)
  · exact Finset.mem_union_right _ ((mem_src5 i).mpr h)

/-- THE SEND BUFFER, CARVED: held whole it is its two rows, the two z faces' sources. -/
theorem carve_sbuf (c : Dev nD) (f : Buf (Elt F) ((c : Thread nD τ).loc cc0_scratch0)) :
    (sM.view.loc (c : Thread nD τ) ↦[sM.view.set]{fullShare} f : sProp 𝕄)
      ⊣⊢ iprop(((srcM 4).view.loc (c : Thread nD τ) ↦[(srcM 4).view.set]{fullShare} f) ∗ ((srcM 5).view.loc (c : Thread nD τ) ↦[(srcM 5).view.set]{fullShare} f)) := by
  refine BiEntails.of_eq ?_
  show (((c : Thread nD τ).loc cc0_scratch0) ↦[sM.view.set]{fullShare} f : sProp 𝕄)
    = iprop((((c : Thread nD τ).loc cc0_scratch0) ↦[(srcM 4).view.set]{fullShare} f) ∗ (((c : Thread nD τ).loc cc0_scratch0) ↦[(srcM 5).view.set]{fullShare} f))
  rw [sbuf_cover, pt_union_eq (ℓ := (c : Thread nD τ).loc cc0_scratch0) sbuf_disjoint]

/-! ## The input block: lent by share, each lent share split by region -/

/-- A share is its two halves, as an equation. -/
theorem pt_halves_eq {ℓ : Loc nD τ sig} {I : Finset (Idx ℓ)} (q : PosShare TreeShare) {f : Buf (Elt F) ℓ} :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

/-- Carving a subset out, as an equation. -/
theorem pt_split_eq {ℓ : Loc nD τ sig} {I S : Finset (Idx ℓ)} {q : PosShare TreeShare} {f : Buf (Elt F) ℓ}
    (h : I ⊆ S) : (ℓ ↦[S]{q} f : sProp 𝕄) = iprop((ℓ ↦[I]{q} f) ∗ ℓ ↦[S \ I]{q} f) :=
  BI.equiv_iff.mp ⟨(pointsTo_split_subset h).1, (pointsTo_split_subset h).2⟩

theorem sep_assoc_eq (P Q R : sProp 𝕄) : iprop((P ∗ Q) ∗ R) = iprop(P ∗ (Q ∗ R)) :=
  BI.equiv_iff.mp ⟨(sep_assoc (PROP := sProp 𝕄) (P := P) (Q := Q) (R := R)).1, (sep_assoc (PROP := sProp 𝕄) (P := P) (Q := Q) (R := R)).2⟩

/-- A face of the block is part of the block. -/
theorem face_subset (r : Rect S32x32x32) (hr : ∀ a, r.stride a = 1) (h : r.shape.Squeezes S32x32) :
    ((xM.slice r hr).squeeze S32x32 h).view.set ⊆ xM.view.set := by
  show ((xM.view.slice r).reshape S32x32 _).set ⊆ _
  rw [View.set_reshape]
  exact View.set_slice_subset _ _

theorem src_subset0 : (srcM 0).view.set ⊆ xM.view.set := face_subset _ (fun _ => rfl) squeezes_S1x32x32_S32x32
theorem src_subset1 : (srcM 1).view.set ⊆ xM.view.set := face_subset _ (fun _ => rfl) squeezes_S1x32x32_S32x32
theorem src_subset2 : (srcM 2).view.set ⊆ xM.view.set := face_subset _ (fun _ => rfl) squeezes_S32x1x32_S32x32
theorem src_subset3 : (srcM 3).view.set ⊆ xM.view.set := face_subset _ (fun _ => rfl) squeezes_S32x1x32_S32x32

/-- THE INPUT BLOCK, CARVED: the left half stays; each quarter of the right half is one face and the rest. -/
theorem carve_x (c : Dev nD) (X : Buf (Elt F) ((c : Thread nD τ).loc cc0_stg0_0)) :
    (xM.view.loc (c : Thread nD τ) ↦[xM.view.set]{fullShare} X : sProp 𝕄)
      ⊣⊢ iprop((xM.view.loc (c : Thread nD τ) ↦[xM.view.set]{fullShare.left} X)
          ∗ (((srcM 0).view.loc (c : Thread nD τ) ↦[(srcM 0).view.set]{qOf 0} X) ∗ (xM.view.loc (c : Thread nD τ) ↦[xM.view.set \ (srcM 0).view.set]{qOf 0} X))
          ∗ (((srcM 1).view.loc (c : Thread nD τ) ↦[(srcM 1).view.set]{qOf 1} X) ∗ (xM.view.loc (c : Thread nD τ) ↦[xM.view.set \ (srcM 1).view.set]{qOf 1} X))
          ∗ (((srcM 2).view.loc (c : Thread nD τ) ↦[(srcM 2).view.set]{qOf 2} X) ∗ (xM.view.loc (c : Thread nD τ) ↦[xM.view.set \ (srcM 2).view.set]{qOf 2} X))
          ∗ (((srcM 3).view.loc (c : Thread nD τ) ↦[(srcM 3).view.set]{qOf 3} X) ∗ (xM.view.loc (c : Thread nD τ) ↦[xM.view.set \ (srcM 3).view.set]{qOf 3} X))) := by
  refine BiEntails.of_eq ?_
  show (((c : Thread nD τ).loc cc0_stg0_0) ↦[xM.view.set]{fullShare} X : sProp 𝕄)
    = iprop((((c : Thread nD τ).loc cc0_stg0_0) ↦[xM.view.set]{fullShare.left} X)
        ∗ ((((c : Thread nD τ).loc cc0_stg0_0) ↦[(srcM 0).view.set]{fullShare.right.left.left} X) ∗ (((c : Thread nD τ).loc cc0_stg0_0) ↦[xM.view.set \ (srcM 0).view.set]{fullShare.right.left.left} X))
        ∗ ((((c : Thread nD τ).loc cc0_stg0_0) ↦[(srcM 1).view.set]{fullShare.right.left.right} X) ∗ (((c : Thread nD τ).loc cc0_stg0_0) ↦[xM.view.set \ (srcM 1).view.set]{fullShare.right.left.right} X))
        ∗ ((((c : Thread nD τ).loc cc0_stg0_0) ↦[(srcM 2).view.set]{fullShare.right.right.left} X) ∗ (((c : Thread nD τ).loc cc0_stg0_0) ↦[xM.view.set \ (srcM 2).view.set]{fullShare.right.right.left} X))
        ∗ ((((c : Thread nD τ).loc cc0_stg0_0) ↦[(srcM 3).view.set]{fullShare.right.right.right} X) ∗ (((c : Thread nD τ).loc cc0_stg0_0) ↦[xM.view.set \ (srcM 3).view.set]{fullShare.right.right.right} X)))
  rw [← pt_split_eq (ℓ := (c : Thread nD τ).loc cc0_stg0_0) src_subset0, ← pt_split_eq (ℓ := (c : Thread nD τ).loc cc0_stg0_0) src_subset1,
    ← pt_split_eq (ℓ := (c : Thread nD τ).loc cc0_stg0_0) src_subset2, ← pt_split_eq (ℓ := (c : Thread nD τ).loc cc0_stg0_0) src_subset3,
    pt_halves_eq fullShare, pt_halves_eq fullShare.right, pt_halves_eq fullShare.right.left,
    pt_halves_eq fullShare.right.right, sep_assoc_eq]

end Cert.Kernel.HP

end
-- ==== Proof.KernelStates.lean ====
/-
  The body's state at the four places where the printed program is cut into parts, for one device `c` whose block is
  `X`, whose output staging buffer starts at `g1`, its send buffer at `f0` and its receive buffer at `f1`.

  After part 1 the barrier signal of direction 0 is paid, and that of direction 1 is paid if it goes to a neighbour;
  after part 2 all six are paid and row 0 of the send buffer holds the z = 0 face; after part 3 the device has taken
  its own six barrier units, its faces are in flight (each lent source replaced by the send cell's credit) and the
  input block is loaded; after part 4 the stencil is stored, every received plane is added and the first three send
  cells are waited for. A direction without a neighbour keeps its slot, its source piece and its cells' positions
  untouched throughout.
-/
import proofs.«900363_g7700000000000364_dist_halo3d_v7x_xyz2x2x4_s32_f32_1_alg».proof.Proof.KernelDats
import proofs.«900363_g7700000000000364_dist_halo3d_v7x_xyz2x2x4_s32_f32_1_alg».proof.Proof.KernelCarve

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A coordinate test as the word the body computes. -/
def bit (b : Bool) : BitVec 1 := if b = true then 1#1 else 0#1

/-! ## Pieces -/

def tokB (c : Dev nD) (d : Fin 6) : sProp 𝕄 := dutyTok ER (barCell (nb c d)) 0 (barDuty c d)
def tokRS (c : Dev nD) (d : Fin 6) : sProp 𝕄 :=
  if has c d = true then iprop(dutyTok ER (recvCell (nb c d) (opp d)) 0 0 ∗ dutyTok ER (sendCell c d) 0 0) else iprop(emp)
def credR (c : Dev nD) (d : Fin 6) : sProp 𝕄 := if has c d = true then cred (tallyAt (recvCell c d) () N) else iprop(emp)
/-- What the device still owes its neighbours' receive cells. -/
def oR (c : Dev nD) : CellTallies nD τ sig Unit := oweR c 5 + oweR c 4 + oweR c 3 + oweR c 2 + oweR c 1 + oweR c 0

def xWhole (c : Dev nD) (X : Buf (Elt F) ((c : Thread nD τ).loc cc0_stg0_0)) : sProp 𝕄 :=
  xM.view.loc (c : Thread nD τ) ↦[xM.view.set]{fullShare} X
def outPts (c : Dev nD) (g : Buf (Elt F) ((c : Thread nD τ).loc cc0_stg1_0)) : sProp 𝕄 :=
  oM.view.loc (c : Thread nD τ) ↦[oM.view.set]{fullShare} g
def sbufPts (c : Dev nD) (f : Buf (Elt F) ((c : Thread nD τ).loc cc0_scratch0)) : sProp 𝕄 :=
  sM.view.loc (c : Thread nD τ) ↦[sM.view.set]{fullShare} f
/-- The input block after its four faces' shares are carved off: the kept half and the four rests. -/
def xRest (c : Dev nD) (X : Buf (Elt F) ((c : Thread nD τ).loc cc0_stg0_0)) : sProp 𝕄 :=
  iprop((xM.view.loc (c : Thread nD τ) ↦[xM.view.set]{fullShare.left} X)
    ∗ (xM.view.loc (c : Thread nD τ) ↦[xM.view.set \ (srcM 0).view.set]{qOf 0} X) ∗ (xM.view.loc (c : Thread nD τ) ↦[xM.view.set \ (srcM 1).view.set]{qOf 1} X)
    ∗ (xM.view.loc (c : Thread nD τ) ↦[xM.view.set \ (srcM 2).view.set]{qOf 2} X) ∗ (xM.view.loc (c : Thread nD τ) ↦[xM.view.set \ (srcM 3).view.set]{qOf 3} X))

/-- The positions of the twelve own transfer cells, send cell `d` at round `rs d`, receive cell `d` at round `rr d`. -/
def atXfer (c : Dev nD) (rs rr : Fin 6 → ℕ) : sProp 𝕄 :=
  bigSep Finset.univ fun d : Fin 6 => iprop(atPos ER (sendCell c d) (rs d) ∅ 0 ∗ atPos ER (recvCell c d) (rr d) ∅ 0)

/-- One if there is a neighbour in direction `d`, else zero: the round a waited-for cell stands at. -/
def rnd (c : Dev nD) (d : Fin 6) : ℕ := if has c d = true then 1 else 0

/-- The row-0 store's send buffer. -/
def sbuf0 (c : Dev nD) (X : Buf (Elt F) ((c : Thread nD τ).loc cc0_stg0_0)) (f0 : Buf (Elt F) ((c : Thread nD τ).loc cc0_scratch0)) :
    Buf (Elt F) ((c : Thread nD τ).loc cc0_scratch0) :=
  ((sM.access rS0 : View sig .tc _ _ _)).write (Elt F) f0 (k0_pay7 (xM.view.readAt (Elt F) rZ0.toLoadRect X)) Finset.univ

variable (K : Dev nD × CellIx → ℕ) (c : Dev nD)
variable (X : Buf (Elt F) ((c : Thread nD τ).loc cc0_stg0_0)) (g1 : Buf (Elt F) ((c : Thread nD τ).loc cc0_stg1_0))
variable (f0 : Buf (Elt F) ((c : Thread nD τ).loc cc0_scratch0)) (f1 : Buf (Elt F) ((c : Thread nD τ).loc cc0_scratch1))

/-! ## The states -/

/-- Before part 1. -/
def st0 : sProp 𝕄 :=
  iprop(records m ρ K ∗ levAts L lv ∗ atPos ER (barCell c) 0 ∅ 0 ∗ atXfer c (fun _ => 0) (fun _ => 0)
    ∗ (∃ W, owes (c : Thread nD τ) (O₀ c) W)
    ∗ (tokB c 5 ∗ tokB c 4 ∗ tokB c 3 ∗ tokB c 2 ∗ tokB c 1 ∗ tokB c 0)
    ∗ (bigSep Finset.univ fun d => tokRS c d) ∗ cred (tallyAt (barCell c) () 6) ∗ (bigSep Finset.univ fun d => credR c d)
    ∗ (slotPts c 0 f1 ∗ slotPts c 1 f1 ∗ slotPts c 2 f1 ∗ slotPts c 3 f1 ∗ slotPts c 4 f1 ∗ slotPts c 5 f1)
    ∗ xWhole c X ∗ outPts c g1 ∗ sbufPts c f0)

/-- After part 1: direction 0's signal paid; direction 1's paid if it went to a neighbour. -/
def stA : sProp 𝕄 :=
  iprop(records m ρ K ∗ levAts L lv ∗ atPos ER (barCell c) 0 ∅ 0 ∗ atXfer c (fun _ => 0) (fun _ => 0)
    ∗ (∃ W, owes (c : Thread nD τ) (oR c + oweB c 5 + oweB c 4 + oweB c 3 + oweB c 2 + (if has c 1 = true then 0 else oweB c 1)) W)
    ∗ (tokB c 5 ∗ tokB c 4 ∗ tokB c 3 ∗ tokB c 2 ∗ (if has c 1 = true then iprop(emp) else tokB c 1))
    ∗ (bigSep Finset.univ fun d => tokRS c d) ∗ cred (tallyAt (barCell c) () 6) ∗ (bigSep Finset.univ fun d => credR c d)
    ∗ ((if has c 0 = true then iprop(emp) else slotPts c 0 f1) ∗ (if has c 1 = true then iprop(emp) else slotPts c 1 f1) ∗ slotPts c 2 f1 ∗ slotPts c 3 f1 ∗ slotPts c 4 f1 ∗ slotPts c 5 f1)
    ∗ xWhole c X ∗ outPts c g1 ∗ sbufPts c f0)

/-- After part 2: all six signals paid; row 0 of the send buffer stored. -/
def stB : sProp 𝕄 :=
  iprop(records m ρ K ∗ levAts L lv ∗ atPos ER (barCell c) 0 ∅ 0 ∗ atXfer c (fun _ => 0) (fun _ => 0)
    ∗ (∃ W, owes (c : Thread nD τ) (oR c) W)
    ∗ (bigSep Finset.univ fun d => tokRS c d) ∗ cred (tallyAt (barCell c) () 6) ∗ (bigSep Finset.univ fun d => credR c d)
    ∗ ((if has c 0 = true then iprop(emp) else slotPts c 0 f1) ∗ (if has c 1 = true then iprop(emp) else slotPts c 1 f1) ∗ (if has c 2 = true then iprop(emp) else slotPts c 2 f1) ∗ (if has c 3 = true then iprop(emp) else slotPts c 3 f1) ∗ (if has c 4 = true then iprop(emp) else slotPts c 4 f1) ∗ (if has c 5 = true then iprop(emp) else slotPts c 5 f1))
    ∗ xWhole c X ∗ outPts c g1 ∗ sbufPts c (sbuf0 c X f0))

/-- After part 3: the barrier round taken, every face in flight, the block's shares carved. -/
def stC : sProp 𝕄 :=
  iprop(records m ρ K ∗ levAts L lv ∗ atPos ER (barCell c) 1 ∅ 0 ∗ atXfer c (fun _ => 0) (fun _ => 0)
    ∗ (∃ W, owes (c : Thread nD τ) 0 W)
    ∗ (bigSep Finset.univ fun d => credR c d)
    ∗ (bigSep Finset.univ fun d : Fin 6 => if has c d = true then cred (tallyAt (sendCell c d) () N) else srcPts m ρ c d)
    ∗ ((if has c 0 = true then iprop(emp) else slotPts c 0 f1) ∗ (if has c 1 = true then iprop(emp) else slotPts c 1 f1) ∗ (if has c 2 = true then iprop(emp) else slotPts c 2 f1) ∗ (if has c 3 = true then iprop(emp) else slotPts c 3 f1) ∗ (if has c 4 = true then iprop(emp) else slotPts c 4 f1) ∗ (if has c 5 = true then iprop(emp) else slotPts c 5 f1))
    ∗ xRest c X ∗ outPts c g1)

/-- After part 4: the stencil stored, the received planes added, send cells 0, 1, 2 waited for. -/
def stD : sProp 𝕄 :=
  iprop(records m ρ K ∗ levAts L lv ∗ atPos ER (barCell c) 1 ∅ 0
    ∗ atXfer c (fun d => if d.val < 3 then rnd c d else 0) (fun d => rnd c d)
    ∗ (∃ W, owes (c : Thread nD τ) 0 W)
    ∗ (bigSep Finset.univ fun d : Fin 6 =>
        if d.val < 3 then srcPts m ρ c d else if has c d = true then cred (tallyAt (sendCell c d) () N) else srcPts m ρ c d)
    ∗ (bigSep Finset.univ fun d : Fin 6 => if has c d = true then slotPts c d (landed m ρ c d) else slotPts c d f1)
    ∗ xRest c X
    ∗ outPts c (addStep m ρ c 5 (addStep m ρ c 4 (addStep m ρ c 3 (addStep m ρ c 2 (addStep m ρ c 1 (addStep m ρ c 0 (out0 X))))))))

end Cert.Kernel.HP

end
-- ==== Proof.KernelWords.lean ====
/-
  The words a device computes from its id at the head of its body — its three mesh coordinates, the six tests "is
  there a device in direction d", and the neighbouring coordinates — and the facts that tie the tests to `has c d`.
-/
import proofs.«900363_g7700000000000364_dist_halo3d_v7x_xyz2x2x4_s32_f32_1_alg».proof.Proof.KernelStates

noncomputable section

namespace Cert.Kernel.HP

open Cert.Kernel Cert.Kernel.Gen

open Idealize.ShloMosaic
open Idealize.ShloMosaic.TcCoe

def wv2 (c : Dev nD) : BitVec 32 := Scalar.remsi (Scalar.divsi (Dev.word c) 8#32) 2#32
def wv5 (c : Dev nD) : BitVec 32 := Scalar.remsi (Scalar.divsi (Dev.word c) 4#32) 2#32
def wv8 (c : Dev nD) : BitVec 32 := Scalar.remsi (Scalar.divsi (Dev.word c) 1#32) 4#32
def wv9 (c : Dev nD) : BitVec 1 := Scalar.cmpi .sgt (wv2 c) 0#32
def wv10 (c : Dev nD) : BitVec 1 := Scalar.cmpi .slt (wv2 c) 1#32
def wv11 (c : Dev nD) : BitVec 1 := Scalar.cmpi .sgt (wv5 c) 0#32
def wv12 (c : Dev nD) : BitVec 1 := Scalar.cmpi .slt (wv5 c) 1#32
def wv13 (c : Dev nD) : BitVec 1 := Scalar.cmpi .sgt (wv8 c) 0#32
def wv14 (c : Dev nD) : BitVec 1 := Scalar.cmpi .slt (wv8 c) 3#32
def wv31 (c : Dev nD) : BitVec 1 := Scalar.cmpi .ne (Scalar.extui (Scalar.xori (wv10 c) 1#1)) 0#32

/-- What part 1 returns on device `c`. -/
def R1 (c : Dev nD) : Σ' (d0 : Dev nD) (v2 : BitVec 32) (v5 : BitVec 32) (v8 : BitVec 32) (v9 : BitVec 1) (v10 : BitVec 1) (v11 : BitVec 1) (v12 : BitVec 1) (v13 : BitVec 1) (v14 : BitVec 1) (v15 : BitVec 32) (v16 : BitVec 32) (v17 : BitVec 32) (v18 : BitVec 32) (v19 : BitVec 32) (v20 : BitVec 32) (v21 : Sems sig S_), BitVec 1 :=
  ⟨c, wv2 c, wv5 c, wv8 c, wv9 c, wv10 c, wv11 c, wv12 c, wv13 c, wv14 c,
    Scalar.subi (wv2 c) 1#32, Scalar.addi (wv2 c) 1#32, Scalar.subi (wv5 c) 1#32, Scalar.addi (wv5 c) 1#32, Scalar.subi (wv8 c) 1#32, Scalar.addi (wv8 c) 1#32,
    SemArray.scalar (sig.barrier 0 rfl), wv31 c⟩

theorem wv9_eq : ∀ c : Dev nD, wv9 c = bit (has c 0) := by decide
theorem wv10_eq : ∀ c : Dev nD, wv10 c = bit (has c 1) := by decide
theorem wv11_eq : ∀ c : Dev nD, wv11 c = bit (has c 2) := by decide
theorem wv12_eq : ∀ c : Dev nD, wv12 c = bit (has c 3) := by decide
theorem wv13_eq : ∀ c : Dev nD, wv13 c = bit (has c 4) := by decide
theorem wv14_eq : ∀ c : Dev nD, wv14 c = bit (has c 5) := by decide
theorem wv31_eq : ∀ c : Dev nD, wv31 c = bit (!has c 1) := by decide

/-- A region guarded by a coordinate test runs exactly where there is a device that way; one guarded by the test's
    complement exactly where there is none. -/
theorem test_iff : ∀ b : Bool, (Scalar.cmpi .ne (Scalar.extui (bit b)) 0#32 = 1#1) ↔ b = true := by decide
theorem ntest_iff : ∀ b : Bool, (Scalar.cmpi .ne (Scalar.extui (Scalar.xori (bit b) 1#1)) 0#32 = 1#1) ↔ b = false := by decide
theorem bit_not_iff : ∀ b : Bool, (bit (!b) = 1#1) ↔ b = false := by decide

end Cert.Kernel.HP

end
-- ==== Proof.KernelPart12.lean ====
/-
  The first two parts of a device's body: the twelve regions that pay the barrier signals — per direction one that
  signals the neighbour's barrier semaphore where there is a neighbour, and one that signals the device's own where
  there is none — and the store of the block's z = 0 face into row 0 of the send buffer.

  A pair of regions of one direction `d` takes the token of the barrier duty the device pays that way, its receive
  slot `d` and the unit it owes; it leaves the owed sum without that unit, and the slot only where there is no
  neighbour (where there is one the slot goes to the neighbour with the signal). Each kind of region is one lemma,
  generic in what follows it; the case split on "is there a neighbour in direction `d`" happens inside the lemma.
-/
import proofs.«900363_g7700000000000364_dist_halo3d_v7x_xyz2x2x4_s32_f32_1_alg».proof.Proof.KernelWords
import proofs.«900363_g7700000000000364_dist_halo3d_v7x_xyz2x2x4_s32_f32_1_alg».proof.Proof.KernelLaunch
import Idealize.ShloMosaic.Lib.Pipeline.Launch
import Idealize.ShloMosaic.Lib.Pipeline.Kit
import Idealize.ShloMosaic.Lib.Tactic

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier signals, region by region -/

section Regions

variable (K : Dev nD × CellIx → ℕ) (c : Dev nD)

/-- Reading the device id at the head of a program. -/
theorem P12_wp_devId_bind {α : Type} (k : Dev nD → Prog (TpuEff nD τ sig (Elt F) Λ₀ .tc) α) (Q : α → sProp 𝕄) :
    wp frame (wpE (defs₀ (F := F)) 𝒱₀ (c : Thread nD τ) none) Set.univ (k c) Q
      ⊢ wp frame (wpE (defs₀ (F := F)) 𝒱₀ (c : Thread nD τ) none) Set.univ (Prog.lift .deviceId >>= k) Q := by
  rw [Prog.bind_lift, wp_deviceId]

/-- The signal of direction `d` that goes to a neighbour: where there is one, the device pays its neighbour's barrier
    duty `opp d`, handing over its own receive slot `d` and that its receive cell `d` stands at round 0; where there
    is none, nothing happens. -/
theorem P12_wp_sig_remote (d : Fin 6) {α : Type} {C : Prop} [Decidable C] (hC : C ↔ has c d = true)
    (dst : C → Dev nD) (hdst : ∀ h, dst h = nb c d) {hn : (1#32).msb = false}
    {J : Prog (TpuEff nD τ sig (Elt F) Λ₀ .tc) α} {Q : α → sProp 𝕄}
    (O : CellTallies nD τ sig Unit) (f1 : Buf (Elt F) ((c : Thread nD τ).loc cc0_scratch1)) :
    iprop(records m ρ K ∗ (∃ W, owes (c : Thread nD τ) (O + oweB c d) W) ∗ tokB c d ∗ slotPts c d f1)
      ⊢ iprop((((∃ W, owes (c : Thread nD τ) (O + (if has c d = true then 0 else oweB c d)) W)
            ∗ (if has c d = true then iprop(emp) else tokB c d)
            ∗ (if has c d = true then iprop(emp) else slotPts c d f1))
              -∗ wp frame (wpE (defs₀ (F := F)) 𝒱₀ (c : Thread nD τ) none) Set.univ J Q)
          -∗ wp frame (wpE (defs₀ (F := F)) 𝒱₀ (c : Thread nD τ) none) Set.univ
              (dite C (fun h => semSignalWord (dst h) barS 1#32 hn >>= fun _ => J) (fun _ => J)) Q) := by
  by_cases h : has c d = true
  · have hc : C := hC.mpr h
    have hb : barDuty c d = opp d := if_pos h
    rw [dif_pos hc, hdst hc, if_pos h, if_pos h, if_pos h, add_zero,
      show (semSignalWord (p := Proc.tc) (nb c d) barS 1#32 hn >>= fun _ => J)
        = Prog.op (.semSignal ((nb c d : Thread nD τ)) barS 1) (fun _ => J) from rfl]
    unfold records tokB
    rw [hb]
    iintro ⟨⟨#HI, #HR⟩, HO, Htok, Hslot⟩ Hk
    icases HO with ⟨%W, HO⟩
    iapply (Rounds.wp_signal 𝒱₀ ER (exRd m ρ) (c : Thread nD τ) none (dst := (nb c d : Thread nD τ)) (sem := barS) (r := 0)
        (κ := K (nb c d, none)) (d := opp d) (k' := 1) (by rw [duties_bar]; exact Finset.mem_univ _) (amount_bar m ρ (nb c d) (opp d)) ()
        (O₀ := O + oweB c d) O rfl (hr := Topo.routes_tc _ _)) $$ [HO Htok Hslot]
    · isplitr; · iapply (inv_at m ρ K (nb c d, none)); iexact HI
      isplitl [HO]; · iexact HO
      isplitl [Htok]; · iexact Htok
      isplitl [Hslot]
      · rw [payload_bar]; unfold barPay
        rw [if_pos (has_back c d h), nb_back c d h, opp_opp]
        isplitl [Hslot]; · iexists f1; iexact Hslot
        iapply (reached_at (F := F) (c, some (true, d))); iexact HR
      · iapply (reached_at (F := F) (nb c d, none)); iexact HR
    iintro HO
    iapply Hk
    isplitl [HO]; · iexists W; iexact HO
    isplitl; · iempintro
    iempintro
  · have hc : ¬ C := fun x => h (hC.mp x)
    rw [dif_neg hc, if_neg h, if_neg h, if_neg h]
    iintro ⟨-, HO, Htok, Hslot⟩ Hk
    iapply Hk
    isplitl [HO]; · iexact HO
    isplitl [Htok]; · iexact Htok
    iexact Hslot

/-- The signal of direction `d` that goes to the device's own barrier semaphore: where there is no neighbour, the
    device pays its own barrier duty `d`, handing over nothing; where there is one, nothing happens. -/
theorem P12_wp_sig_self (d : Fin 6) {α : Type} {C : Prop} [Decidable C] (hC : C ↔ has c d = false) {hn : (1#32).msb = false}
    {J : Prog (TpuEff nD τ sig (Elt F) Λ₀ .tc) α} {Q : α → sProp 𝕄}
    (O : CellTallies nD τ sig Unit) :
    iprop(records m ρ K ∗ (∃ W, owes (c : Thread nD τ) (O + (if has c d = true then 0 else oweB c d)) W)
        ∗ (if has c d = true then iprop(emp) else tokB c d))
      ⊢ iprop(((∃ W, owes (c : Thread nD τ) O W) -∗ wp frame (wpE (defs₀ (F := F)) 𝒱₀ (c : Thread nD τ) none) Set.univ J Q)
          -∗ wp frame (wpE (defs₀ (F := F)) 𝒱₀ (c : Thread nD τ) none) Set.univ
              (dite C (fun _ => semSignalHereWord barS 1#32 hn >>= fun _ => J) (fun _ => J)) Q) := by
  by_cases h : has c d = true
  · have hc : ¬ C := fun x => by rw [hC.mp x] at h; exact Bool.false_ne_true h
    rw [dif_neg hc, if_pos h, if_pos h, add_zero]
    iintro ⟨-, HO, -⟩ Hk
    iapply Hk
    iexact HO
  · have hf : has c d = false := Bool.eq_false_iff.mpr h
    have hc : C := hC.mpr hf
    have hb : barDuty c d = d := if_neg h
    rw [dif_pos hc, if_neg h, if_neg h,
      show (semSignalHereWord (p := Proc.tc) barS 1#32 hn >>= fun _ => J)
        = Prog.op .deviceId (fun x => Prog.op (.semSignal ((x, Proc.tc) : Thread nD τ) barS 1) (fun _ => J)) from rfl,
      wp_deviceId]
    unfold records tokB oweB
    rw [hb, nb_self c d hf]
    iintro ⟨⟨#HI, #HR⟩, HO, Htok⟩ Hk
    icases HO with ⟨%W, HO⟩
    iapply (Rounds.wp_signal 𝒱₀ ER (exRd m ρ) (c : Thread nD τ) none (dst := (c : Thread nD τ)) (sem := barS) (r := 0)
        (κ := K (c, none)) (d := d) (k' := 1) (by rw [duties_bar]; exact Finset.mem_univ _) (amount_bar m ρ c d) ()
        (O₀ := O + tallyAt (barCell c) () 1) O rfl (hr := Topo.routes_self _)) $$ [HO Htok]
    · isplitr; · iapply (inv_at m ρ K (c, none)); iexact HI
      isplitl [HO]; · iexact HO
      isplitl [Htok]; · iexact Htok
      isplitr
      · rw [payload_bar]; unfold barPay
        rw [if_neg h]; iempintro
      · iapply (reached_at (F := F) (c, none)); iexact HR
    iintro HO
    iapply Hk
    iexists W; iexact HO

end Regions

/-! ## Loads and stores at the head of a sequence -/

section Mem

variable (c : Dev nD)

theorem P12_wp_load_bind {α : Type} {cs : CoreSpace} {s : Shape} {e : EltTy} {mr : Memref sig (c : Thread nD τ).2.kind cs s e} {r : LoadRect s}
    {hl : mr.view.LoadsAt r} {k : (r.shape.Idx → Elt F e) → Prog (TpuEff nD τ sig (Elt F) Λ₀ .tc) α} {Q : α → sProp 𝕄}
    {S : Finset (Idx (mr.view.loc (c : Thread nD τ)))} {q : PosShare TreeShare} {f : Buf (Elt F) (mr.view.loc (c : Thread nD τ))}
    (hS : mr.view.setOn r.set ⊆ S) :
    (mr.view.loc (c : Thread nD τ) ↦[S]{q} f)
      ⊢ iprop(((mr.view.loc (c : Thread nD τ) ↦[S]{q} f)
            -∗ wp frame (wpE (defs₀ (F := F)) 𝒱₀ (c : Thread nD τ) none) Set.univ (k (mr.view.readAt (Elt F) r f)) Q)
          -∗ wp frame (wpE (defs₀ (F := F)) 𝒱₀ (c : Thread nD τ) none) Set.univ (Prog.lift (.load mr r hl) >>= k) Q) := by
  rw [Prog.bind_lift]
  exact wp_load 𝒱₀ (c : Thread nD τ) none Set.univ hS

theorem P12_wp_store_bind {α : Type} {cs : CoreSpace} {s : Shape} {e : EltTy} {mr : Memref sig (c : Thread nD τ).2.kind cs s e} {r : Rect s}
    {w : r.shape.Idx → Elt F e} {Mk : Finset r.shape.Idx} {hx : (mr.access r).Stores Mk} {hm : Mk = Finset.univ ∨ ∀ a, r.stride a = 1}
    {k : PUnit → Prog (TpuEff nD τ sig (Elt F) Λ₀ .tc) α} {Q : α → sProp 𝕄}
    {S : Finset (Idx ((mr.access r).loc (c : Thread nD τ)))} {f : Buf (Elt F) ((mr.access r).loc (c : Thread nD τ))}
    (hS : (mr.access r).setOn Mk ⊆ S) :
    ((mr.access r).loc (c : Thread nD τ) ↦[S]{fullShare} f)
      ⊢ iprop((((mr.access r).loc (c : Thread nD τ) ↦[S]{fullShare} ((mr.access r).write (Elt F) f w Mk))
            -∗ wp frame (wpE (defs₀ (F := F)) 𝒱₀ (c : Thread nD τ) none) Set.univ (k ⟨⟩) Q)
          -∗ wp frame (wpE (defs₀ (F := F)) 𝒱₀ (c : Thread nD τ) none) Set.univ (Prog.lift (.store mr r w Mk hx hm) >>= k) Q) := by
  rw [Prog.bind_lift]
  exact wp_store 𝒱₀ (c : Thread nD τ) none Set.univ hS

end Mem

/-! ## Part 1: the device's words, both signals of direction 0, the neighbour's signal of direction 1 -/

theorem part1_run (K : Dev nD × CellIx → ℕ) (c : Dev nD) (g1 : Buf (Elt F) ((c : Thread nD τ).loc cc0_stg1_0)) (f0 : Buf (Elt F) ((c : Thread nD τ).loc cc0_scratch0)) (f1 : Buf (Elt F) ((c : Thread nD τ).loc cc0_scratch1)) :
      st0 m ρ K c (xstg m ρ c) g1 f0 f1
        ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3)
            (fun r => iprop(⌜r = R1 c⌝ ∗ stA m ρ K c (xstg m ρ c) g1 f0 f1)) := by
  have hC0 : (Scalar.cmpi .ne (Scalar.extui (Scalar.xori (wv9 c) 1#1)) 0#32 = 1#1) ↔ has c 0 = false := by
    rw [wv9_eq]; exact ntest_iff _
  rw [k0_part1_eq_skeleton]
  unfold k0_part1_skel st0 stA
  iintro ⟨#Hrec, Hlev, HatB, HatX, HO, ⟨T5, T4, T3, T2, T1, T0⟩, HtRS, HcB, HcR, ⟨S0, S1, S2, S3, S4, S5⟩, Hx, Hout, Hsb⟩
  iapply (P12_wp_devId_bind c _ _)
  -- direction 0, to the neighbour
  iapply (P12_wp_sig_remote m ρ K c 0 (Iff.of_eq (cond1_iff c)) (fun h => ⟨k0_dev1 c, k0_dev1_lt c h⟩) (dev1_eq c)
      (oR c + oweB c 5 + oweB c 4 + oweB c 3 + oweB c 2 + oweB c 1) f1) $$ [HO T0 S0]
  · isplitr; · iexact Hrec
    isplitl [HO]; · iexact HO
    isplitl [T0]; · iexact T0
    iexact S0
  iintro ⟨HO, T0, S0⟩
  -- direction 0, to the device itself
  iapply (P12_wp_sig_self m ρ K c 0 hC0 (oR c + oweB c 5 + oweB c 4 + oweB c 3 + oweB c 2 + oweB c 1)) $$ [HO T0]
  · isplitr; · iexact Hrec
    isplitl [HO]; · iexact HO
    iexact T0
  iintro HO
  -- direction 1, to the neighbour
  iapply (P12_wp_sig_remote m ρ K c 1 (Iff.of_eq (cond3_iff c)) (fun h => ⟨k0_dev2 c, k0_dev2_lt c h⟩) (dev2_eq c)
      (oR c + oweB c 5 + oweB c 4 + oweB c 3 + oweB c 2) f1) $$ [HO T1 S1]
  · isplitr; · iexact Hrec
    isplitl [HO]; · iexact HO
    isplitl [T1]; · iexact T1
    iexact S1
  iintro ⟨HO, T1, S1⟩
  -- the words the part returns
  iapply (le_wp_ret _ _ _ _ _)
  isplitr; · ipureintro; rfl
  isplitr; · iexact Hrec
  isplitl [Hlev]; · iexact Hlev
  isplitl [HatB]; · iexact HatB
  isplitl [HatX]; · iexact HatX
  isplitl [HO]; · iexact HO
  isplitl [T5 T4 T3 T2 T1]
  · isplitl [T5]; · iexact T5
    isplitl [T4]; · iexact T4
    isplitl [T3]; · iexact T3
    isplitl [T2]; · iexact T2
    iexact T1
  isplitl [HtRS]; · iexact HtRS
  isplitl [HcB]; · iexact HcB
  isplitl [HcR]; · iexact HcR
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [Hx]; · iexact Hx
  isplitl [Hout]; · iexact Hout
  iexact Hsb

/-! ## Part 2: the other nine signals, and the block's z = 0 face into row 0 of the send buffer -/

theorem part2_run (K : Dev nD × CellIx → ℕ) (c : Dev nD) (g1 : Buf (Elt F) ((c : Thread nD τ).loc cc0_stg1_0)) (f0 : Buf (Elt F) ((c : Thread nD τ).loc cc0_scratch0)) (f1 : Buf (Elt F) ((c : Thread nD τ).loc cc0_scratch1))
      (v2 v5 v8 : BitVec 32) (v11 v12 v13 v14 : BitVec 1) (v17 v18 v19 v20 : BitVec 32) (v31 : BitVec 1)
      (h11 : v11 = bit (has c 2)) (h12 : v12 = bit (has c 3)) (h13 : v13 = bit (has c 4)) (h14 : v14 = bit (has c 5)) (h31 : v31 = bit (!has c 1)) :
      stA m ρ K c (xstg m ρ c) g1 f0 f1
        ⊢ wp frame (wpE (defs₀ (F := F)) 𝒱₀ (c : Thread nD τ) none) Set.univ
            (k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v2 v5 v8 v11 v12 v13 v14 v17 v18 v19 v20 (SemArray.scalar (sig.barrier 0 rfl)) v31)
            (fun r => iprop(⌜r = k0_pay8 (xM.view.readAt (Elt F) rZ31.toLoadRect (xstg m ρ c))⌝ ∗ stB m ρ K c (xstg m ρ c) g1 f0 f1)) := by
  have hC1 : v31 = 1#1 ↔ has c 1 = false := by rw [h31]; exact bit_not_iff _
  have hC2 : (Scalar.cmpi .ne (Scalar.extui (Scalar.xori v11 1#1)) 0#32 = 1#1) ↔ has c 2 = false := by rw [h11]; exact ntest_iff _
  have hC3 : (Scalar.cmpi .ne (Scalar.extui (Scalar.xori v12 1#1)) 0#32 = 1#1) ↔ has c 3 = false := by rw [h12]; exact ntest_iff _
  have hC4 : (Scalar.cmpi .ne (Scalar.extui (Scalar.xori v13 1#1)) 0#32 = 1#1) ↔ has c 4 = false := by rw [h13]; exact ntest_iff _
  have hC5 : (Scalar.cmpi .ne (Scalar.extui (Scalar.xori v14 1#1)) 0#32 = 1#1) ↔ has c 5 = false := by rw [h14]; exact ntest_iff _
  rw [k0_part2_eq_skeleton]
  unfold k0_part2_skel stA stB xWhole sbufPts
  iintro ⟨#Hrec, Hlev, HatB, HatX, HO, ⟨T5, T4, T3, T2, T1⟩, HtRS, HcB, HcR, ⟨S0, S1, S2, S3, S4, S5⟩, Hx, Hout, Hsb⟩
  -- direction 1, to the device itself
  iapply (P12_wp_sig_self m ρ K c 1 hC1 (oR c + oweB c 5 + oweB c 4 + oweB c 3 + oweB c 2)) $$ [HO T1]
  · isplitr; · iexact Hrec
    isplitl [HO]; · iexact HO
    iexact T1
  iintro HO
  -- direction 2, to the neighbour
  iapply (P12_wp_sig_remote m ρ K c 2 (Iff.of_eq (cond5_iff c)) (fun h => ⟨k0_dev3 c, k0_dev3_lt c h⟩) (dev3_eq c)
      (oR c + oweB c 5 + oweB c 4 + oweB c 3) f1) $$ [HO T2 S2]
  · isplitr; · iexact Hrec
    isplitl [HO]; · iexact HO
    isplitl [T2]; · iexact T2
    iexact S2
  iintro ⟨HO, T2, S2⟩
  -- direction 2, to the device itself
  iapply (P12_wp_sig_self m ρ K c 2 hC2 (oR c + oweB c 5 + oweB c 4 + oweB c 3)) $$ [HO T2]
  · isplitr; · iexact Hrec
    isplitl [HO]; · iexact HO
    iexact T2
  iintro HO
  -- direction 3, to the neighbour
  iapply (P12_wp_sig_remote m ρ K c 3 (Iff.of_eq (cond7_iff c)) (fun h => ⟨k0_dev4 c, k0_dev4_lt c h⟩) (dev4_eq c)
      (oR c + oweB c 5 + oweB c 4) f1) $$ [HO T3 S3]
  · isplitr; · iexact Hrec
    isplitl [HO]; · iexact HO
    isplitl [T3]; · iexact T3
    iexact S3
  iintro ⟨HO, T3, S3⟩
  -- direction 3, to the device itself
  iapply (P12_wp_sig_self m ρ K c 3 hC3 (oR c + oweB c 5 + oweB c 4)) $$ [HO T3]
  · isplitr; · iexact Hrec
    isplitl [HO]; · iexact HO
    iexact T3
  iintro HO
  -- direction 4, to the neighbour
  iapply (P12_wp_sig_remote m ρ K c 4 (Iff.of_eq (cond9_iff c)) (fun h => ⟨k0_dev5 c, k0_dev5_lt c h⟩) (dev5_eq c)
      (oR c + oweB c 5) f1) $$ [HO T4 S4]
  · isplitr; · iexact Hrec
    isplitl [HO]; · iexact HO
    isplitl [T4]; · iexact T4
    iexact S4
  iintro ⟨HO, T4, S4⟩
  -- direction 4, to the device itself
  iapply (P12_wp_sig_self m ρ K c 4 hC4 (oR c + oweB c 5)) $$ [HO T4]
  · isplitr; · iexact Hrec
    isplitl [HO]; · iexact HO
    iexact T4
  iintro HO
  -- direction 5, to the neighbour
  iapply (P12_wp_sig_remote m ρ K c 5 (Iff.of_eq (cond11_iff c)) (fun h => ⟨k0_dev6 c, k0_dev6_lt c h⟩) (dev6_eq c)
      (oR c) f1) $$ [HO T5 S5]
  · isplitr; · iexact Hrec
    isplitl [HO]; · iexact HO
    isplitl [T5]; · iexact T5
    iexact S5
  iintro ⟨HO, T5, S5⟩
  -- direction 5, to the device itself
  iapply (P12_wp_sig_self m ρ K c 5 hC5 (oR c)) $$ [HO T5]
  · isplitr; · iexact Hrec
    isplitl [HO]; · iexact HO
    iexact T5
  iintro HO
  -- the z = 0 face of the block
  iapply (P12_wp_load_bind c (mr := xM) (View.setOn_subset_set _ _)) $$ Hx
  iintro Hx
  -- row 0 of the send buffer, read and not used
  iapply (P12_wp_load_bind c (mr := sM) (View.setOn_subset_set _ _)) $$ Hsb
  iintro Hsb
  -- the face into row 0
  iapply (P12_wp_store_bind c (mr := sM) (r := rS0) (Mk := Finset.univ) (Memref.setOn_access_subset _ _ _)) $$ Hsb
  iintro Hsb
  -- the z = 31 face of the block
  iapply (P12_wp_load_bind c (mr := xM) (View.setOn_subset_set _ _)) $$ Hx
  iintro Hx
  iapply (le_wp_ret _ _ _ _ _)
  isplitr; · ipureintro; rfl
  isplitr; · iexact Hrec
  isplitl [Hlev]; · iexact Hlev
  isplitl [HatB]; · iexact HatB
  isplitl [HatX]; · iexact HatX
  isplitl [HO]; · iexact HO
  isplitl [HtRS]; · iexact HtRS
  isplitl [HcB]; · iexact HcB
  isplitl [HcR]; · iexact HcR
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [Hx]; · iexact Hx
  isplitl [Hout]; · iexact Hout
  iexact Hsb

end Cert.Kernel.HP

end
-- ==== Proof.KernelSendRule.lean ====
/-
  One face's transfer to a neighbour, as one rule per direction: the device lends its face's source at the share set
  aside for it and gives up the neighbour's slot, its transfer owes the neighbour's receive cell a face's credit, and
  when the transfer is enqueued the device holds the credit of its own send cell and owes the receive cell no more.
  The send cell's duty hands the lent share of the source back; the receive cell's duty hands the neighbour its slot
  holding the face, whatever the slot held before.
-/
import proofs.«900363_g7700000000000364_dist_halo3d_v7x_xyz2x2x4_s32_f32_1_alg».proof.Proof.KernelTables
import proofs.«900363_g7700000000000364_dist_halo3d_v7x_xyz2x2x4_s32_f32_1_alg».proof.Proof.KernelCarve
import proofs.«900363_g7700000000000364_dist_halo3d_v7x_xyz2x2x4_s32_f32_1_alg».proof.Proof.KernelGhost

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The face sent in direction 0 lands in the neighbour's slot 1. -/
theorem landed_of_send0 (c : Dev nD) (h : has c 0 = true) :
    landed m ρ (nb c 0) 1 = (slotM 1).view.write (Elt F) (junk (ℓ := ((nb c 0 : Dev nD) : Thread nD τ).loc cc0_scratch1))
      ((srcM 0).view.read (Elt F) (xstg m ρ c)) Finset.univ := by
  show (slotM 1).view.write (Elt F) (junk (ℓ := ((nb c 0 : Dev nD) : Thread nD τ).loc cc0_scratch1)) (sent m ρ (nb (nb c 0) 1) 0) Finset.univ = _
  rw [show nb (nb c 0) 1 = c from nb_back c 0 h]
  rfl

theorem wp_send_halo0 (c : Dev nD) (h : has c 0 = true) (K : GSem nD τ sig → ℕ)
    {hsc : ((slotM 1) : Memref sig (Dev.tc (nb c 0) : Thread nD τ).2.kind .vmem S32x32 .f32).view.ref.isScScratch = false}
    {hsrc : (srcM 0).view.WordExact} {hdst : (slotM 1).view.WordExact}
    {hsem : DmaTarget.Typed .vmem (.dma (recvS 1)) (.remote (Dev.tc (nb c 0) : Thread nD τ) (slotM 1) (.dma (sendS 0)) hsc)}
    {α : Type} {Q : α → sProp 𝕄} {k : PUnit → Prog (TpuEff nD τ sig (Elt F) Λ₀ .tc) α}
    (fn : Buf (Elt F) (((nb c 0) : Thread nD τ).loc cc0_scratch1)) (W : Waits sig Unit) (O : CellTallies nD τ sig Unit) :
    iprop(cellInv ER (exRd m ρ) (K (sendCell c 0)) (sendCell c 0) ∗ cellInv ER (exRd m ρ) (K (recvCell (nb c 0) 1)) (recvCell (nb c 0) 1)
        ∗ srcPts m ρ c 0 ∗ slotPts (nb c 0) 1 fn
        ∗ owes (c : Thread nD τ) (O + tallyAt (recvCell (nb c 0) 1) () N) W
        ∗ dutyTok ER (sendCell c 0) 0 0 ∗ reached ER (sendCell c 0) 0
        ∗ dutyTok ER (recvCell (nb c 0) 1) 0 0 ∗ reached ER (recvCell (nb c 0) 1) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 0) (.remote (Dev.tc (nb c 0) : Thread nD τ) (slotM 1) (.dma (sendS 0)) hsc) (.dma (recvS 1)) hsrc hdst hsem) k) Q) := by
  have hd₁ : (0 : Fin 6) ∈ (exRd (F := F) m ρ).duties (sendCell c 0) 0 := by
    rw [duties_send m ρ c 0 h]; exact Finset.mem_singleton_self _
  have hd₂ : (0 : Fin 6) ∈ (exRd (F := F) m ρ).duties (recvCell (nb c 0) 1) 0 := by
    rw [duties_recv m ρ (nb c 0) 1 (has_back c 0 h)]; exact Finset.mem_singleton_self _
  have hpay₁ : ((srcM 0).view.loc (c : Thread nD τ) ↦[(srcM 0).view.set]{qOf 0} xstg m ρ c : sProp 𝕄)
      ⊢ (exRd m ρ).payload (sendCell c 0) 0 0 := by
    rw [payload_send]; exact .rfl
  have hpay₂ : ((slotM 1).view.loc ((nb c 0 : Dev nD) : Thread nD τ) ↦[(slotM 1).view.set]{fullShare}
        ((slotM 1).view.write (Elt F) fn ((srcM 0).view.read (Elt F) (xstg m ρ c)) Finset.univ) : sProp 𝕄)
      ⊢ (exRd m ρ).payload (recvCell (nb c 0) 1) 0 0 := by
    rw [payload_recv, landed_pts1]
    unfold recvPay
    rw [landed_of_send0 m ρ c h, slotPts_view1]
  exact Rounds.wp_send_pointsTo 𝒱₀ ER (exRd m ρ) (c : Thread nD τ) none
    (c' := (Dev.tc (nb c 0) : Thread nD τ)) (src := srcM 0) (dst := slotM 1) (q := qOf 0)
    (fs := xstg m ρ c) (fd := fn)
    hd₁ hd₂ () () N (slot_credit 1) (amount_send m ρ c 0 0) (amount_recv m ρ (nb c 0) 1 0) O rfl hpay₁ hpay₂

/-- The face sent in direction 1 lands in the neighbour's slot 0. -/
theorem landed_of_send1 (c : Dev nD) (h : has c 1 = true) :
    landed m ρ (nb c 1) 0 = (slotM 0).view.write (Elt F) (junk (ℓ := ((nb c 1 : Dev nD) : Thread nD τ).loc cc0_scratch1))
      ((srcM 1).view.read (Elt F) (xstg m ρ c)) Finset.univ := by
  show (slotM 0).view.write (Elt F) (junk (ℓ := ((nb c 1 : Dev nD) : Thread nD τ).loc cc0_scratch1)) (sent m ρ (nb (nb c 1) 0) 1) Finset.univ = _
  rw [show nb (nb c 1) 0 = c from nb_back c 1 h]
  rfl

theorem wp_send_halo1 (c : Dev nD) (h : has c 1 = true) (K : GSem nD τ sig → ℕ)
    {hsc : ((slotM 0) : Memref sig (Dev.tc (nb c 1) : Thread nD τ).2.kind .vmem S32x32 .f32).view.ref.isScScratch = false}
    {hsrc : (srcM 1).view.WordExact} {hdst : (slotM 0).view.WordExact}
    {hsem : DmaTarget.Typed .vmem (.dma (recvS 0)) (.remote (Dev.tc (nb c 1) : Thread nD τ) (slotM 0) (.dma (sendS 1)) hsc)}
    {α : Type} {Q : α → sProp 𝕄} {k : PUnit → Prog (TpuEff nD τ sig (Elt F) Λ₀ .tc) α}
    (fn : Buf (Elt F) (((nb c 1) : Thread nD τ).loc cc0_scratch1)) (W : Waits sig Unit) (O : CellTallies nD τ sig Unit) :
    iprop(cellInv ER (exRd m ρ) (K (sendCell c 1)) (sendCell c 1) ∗ cellInv ER (exRd m ρ) (K (recvCell (nb c 1) 0)) (recvCell (nb c 1) 0)
        ∗ srcPts m ρ c 1 ∗ slotPts (nb c 1) 0 fn
        ∗ owes (c : Thread nD τ) (O + tallyAt (recvCell (nb c 1) 0) () N) W
        ∗ dutyTok ER (sendCell c 1) 0 0 ∗ reached ER (sendCell c 1) 0
        ∗ dutyTok ER (recvCell (nb c 1) 0) 0 0 ∗ reached ER (recvCell (nb c 1) 0) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 1) (.remote (Dev.tc (nb c 1) : Thread nD τ) (slotM 0) (.dma (sendS 1)) hsc) (.dma (recvS 0)) hsrc hdst hsem) k) Q) := by
  have hd₁ : (0 : Fin 6) ∈ (exRd (F := F) m ρ).duties (sendCell c 1) 0 := by
    rw [duties_send m ρ c 1 h]; exact Finset.mem_singleton_self _
  have hd₂ : (0 : Fin 6) ∈ (exRd (F := F) m ρ).duties (recvCell (nb c 1) 0) 0 := by
    rw [duties_recv m ρ (nb c 1) 0 (has_back c 1 h)]; exact Finset.mem_singleton_self _
  have hpay₁ : ((srcM 1).view.loc (c : Thread nD τ) ↦[(srcM 1).view.set]{qOf 1} xstg m ρ c : sProp 𝕄)
      ⊢ (exRd m ρ).payload (sendCell c 1) 0 0 := by
    rw [payload_send]; exact .rfl
  have hpay₂ : ((slotM 0).view.loc ((nb c 1 : Dev nD) : Thread nD τ) ↦[(slotM 0).view.set]{fullShare}
        ((slotM 0).view.write (Elt F) fn ((srcM 1).view.read (Elt F) (xstg m ρ c)) Finset.univ) : sProp 𝕄)
      ⊢ (exRd m ρ).payload (recvCell (nb c 1) 0) 0 0 := by
    rw [payload_recv, landed_pts0]
    unfold recvPay
    rw [landed_of_send1 m ρ c h, slotPts_view0]
  exact Rounds.wp_send_pointsTo 𝒱₀ ER (exRd m ρ) (c : Thread nD τ) none
    (c' := (Dev.tc (nb c 1) : Thread nD τ)) (src := srcM 1) (dst := slotM 0) (q := qOf 1)
    (fs := xstg m ρ c) (fd := fn)
    hd₁ hd₂ () () N (slot_credit 0) (amount_send m ρ c 1 0) (amount_recv m ρ (nb c 1) 0 0) O rfl hpay₁ hpay₂

/-- The face sent in direction 2 lands in the neighbour's slot 3. -/
theorem landed_of_send2 (c : Dev nD) (h : has c 2 = true) :
    landed m ρ (nb c 2) 3 = (slotM 3).view.write (Elt F) (junk (ℓ := ((nb c 2 : Dev nD) : Thread nD τ).loc cc0_scratch1))
      ((srcM 2).view.read (Elt F) (xstg m ρ c)) Finset.univ := by
  show (slotM 3).view.write (Elt F) (junk (ℓ := ((nb c 2 : Dev nD) : Thread nD τ).loc cc0_scratch1)) (sent m ρ (nb (nb c 2) 3) 2) Finset.univ = _
  rw [show nb (nb c 2) 3 = c from nb_back c 2 h]
  rfl

theorem wp_send_halo2 (c : Dev nD) (h : has c 2 = true) (K : GSem nD τ sig → ℕ)
    {hsc : ((slotM 3) : Memref sig (Dev.tc (nb c 2) : Thread nD τ).2.kind .vmem S32x32 .f32).view.ref.isScScratch = false}
    {hsrc : (srcM 2).view.WordExact} {hdst : (slotM 3).view.WordExact}
    {hsem : DmaTarget.Typed .vmem (.dma (recvS 3)) (.remote (Dev.tc (nb c 2) : Thread nD τ) (slotM 3) (.dma (sendS 2)) hsc)}
    {α : Type} {Q : α → sProp 𝕄} {k : PUnit → Prog (TpuEff nD τ sig (Elt F) Λ₀ .tc) α}
    (fn : Buf (Elt F) (((nb c 2) : Thread nD τ).loc cc0_scratch1)) (W : Waits sig Unit) (O : CellTallies nD τ sig Unit) :
    iprop(cellInv ER (exRd m ρ) (K (sendCell c 2)) (sendCell c 2) ∗ cellInv ER (exRd m ρ) (K (recvCell (nb c 2) 3)) (recvCell (nb c 2) 3)
        ∗ srcPts m ρ c 2 ∗ slotPts (nb c 2) 3 fn
        ∗ owes (c : Thread nD τ) (O + tallyAt (recvCell (nb c 2) 3) () N) W
        ∗ dutyTok ER (sendCell c 2) 0 0 ∗ reached ER (sendCell c 2) 0
        ∗ dutyTok ER (recvCell (nb c 2) 3) 0 0 ∗ reached ER (recvCell (nb c 2) 3) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 2) (.remote (Dev.tc (nb c 2) : Thread nD τ) (slotM 3) (.dma (sendS 2)) hsc) (.dma (recvS 3)) hsrc hdst hsem) k) Q) := by
  have hd₁ : (0 : Fin 6) ∈ (exRd (F := F) m ρ).duties (sendCell c 2) 0 := by
    rw [duties_send m ρ c 2 h]; exact Finset.mem_singleton_self _
  have hd₂ : (0 : Fin 6) ∈ (exRd (F := F) m ρ).duties (recvCell (nb c 2) 3) 0 := by
    rw [duties_recv m ρ (nb c 2) 3 (has_back c 2 h)]; exact Finset.mem_singleton_self _
  have hpay₁ : ((srcM 2).view.loc (c : Thread nD τ) ↦[(srcM 2).view.set]{qOf 2} xstg m ρ c : sProp 𝕄)
      ⊢ (exRd m ρ).payload (sendCell c 2) 0 0 := by
    rw [payload_send]; exact .rfl
  have hpay₂ : ((slotM 3).view.loc ((nb c 2 : Dev nD) : Thread nD τ) ↦[(slotM 3).view.set]{fullShare}
        ((slotM 3).view.write (Elt F) fn ((srcM 2).view.read (Elt F) (xstg m ρ c)) Finset.univ) : sProp 𝕄)
      ⊢ (exRd m ρ).payload (recvCell (nb c 2) 3) 0 0 := by
    rw [payload_recv, landed_pts3]
    unfold recvPay
    rw [landed_of_send2 m ρ c h, slotPts_view3]
  exact Rounds.wp_send_pointsTo 𝒱₀ ER (exRd m ρ) (c : Thread nD τ) none
    (c' := (Dev.tc (nb c 2) : Thread nD τ)) (src := srcM 2) (dst := slotM 3) (q := qOf 2)
    (fs := xstg m ρ c) (fd := fn)
    hd₁ hd₂ () () N (slot_credit 3) (amount_send m ρ c 2 0) (amount_recv m ρ (nb c 2) 3 0) O rfl hpay₁ hpay₂

/-- The face sent in direction 3 lands in the neighbour's slot 2. -/
theorem landed_of_send3 (c : Dev nD) (h : has c 3 = true) :
    landed m ρ (nb c 3) 2 = (slotM 2).view.write (Elt F) (junk (ℓ := ((nb c 3 : Dev nD) : Thread nD τ).loc cc0_scratch1))
      ((srcM 3).view.read (Elt F) (xstg m ρ c)) Finset.univ := by
  show (slotM 2).view.write (Elt F) (junk (ℓ := ((nb c 3 : Dev nD) : Thread nD τ).loc cc0_scratch1)) (sent m ρ (nb (nb c 3) 2) 3) Finset.univ = _
  rw [show nb (nb c 3) 2 = c from nb_back c 3 h]
  rfl

theorem wp_send_halo3 (c : Dev nD) (h : has c 3 = true) (K : GSem nD τ sig → ℕ)
    {hsc : ((slotM 2) : Memref sig (Dev.tc (nb c 3) : Thread nD τ).2.kind .vmem S32x32 .f32).view.ref.isScScratch = false}
    {hsrc : (srcM 3).view.WordExact} {hdst : (slotM 2).view.WordExact}
    {hsem : DmaTarget.Typed .vmem (.dma (recvS 2)) (.remote (Dev.tc (nb c 3) : Thread nD τ) (slotM 2) (.dma (sendS 3)) hsc)}
    {α : Type} {Q : α → sProp 𝕄} {k : PUnit → Prog (TpuEff nD τ sig (Elt F) Λ₀ .tc) α}
    (fn : Buf (Elt F) (((nb c 3) : Thread nD τ).loc cc0_scratch1)) (W : Waits sig Unit) (O : CellTallies nD τ sig Unit) :
    iprop(cellInv ER (exRd m ρ) (K (sendCell c 3)) (sendCell c 3) ∗ cellInv ER (exRd m ρ) (K (recvCell (nb c 3) 2)) (recvCell (nb c 3) 2)
        ∗ srcPts m ρ c 3 ∗ slotPts (nb c 3) 2 fn
        ∗ owes (c : Thread nD τ) (O + tallyAt (recvCell (nb c 3) 2) () N) W
        ∗ dutyTok ER (sendCell c 3) 0 0 ∗ reached ER (sendCell c 3) 0
        ∗ dutyTok ER (recvCell (nb c 3) 2) 0 0 ∗ reached ER (recvCell (nb c 3) 2) 0)
      ⊢ iprop(((cred (tallyAt (sendCell c 3) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 3) (.remote (Dev.tc (nb c 3) : Thread nD τ) (slotM 2) (.dma (sendS 3)) hsc) (.dma (recvS 2)) hsrc hdst hsem) k) Q) := by
  have hd₁ : (0 : Fin 6) ∈ (exRd (F := F) m ρ).duties (sendCell c 3) 0 := by
    rw [duties_send m ρ c 3 h]; exact Finset.mem_singleton_self _
  have hd₂ : (0 : Fin 6) ∈ (exRd (F := F) m ρ).duties (recvCell (nb c 3) 2) 0 := by
    rw [duties_recv m ρ (nb c 3) 2 (has_back c 3 h)]; exact Finset.mem_singleton_self _
  have hpay₁ : ((srcM 3).view.loc (c : Thread nD τ) ↦[(srcM 3).view.set]{qOf 3} xstg m ρ c : sProp 𝕄)
      ⊢ (exRd m ρ).payload (sendCell c 3) 0 0 := by
    rw [payload_send]; exact .rfl
  have hpay₂ : ((slotM 2).view.loc ((nb c 3 : Dev nD) : Thread nD τ) ↦[(slotM 2).view.set]{fullShare}
        ((slotM 2).view.write (Elt F) fn ((srcM 3).view.read (Elt F) (xstg m ρ c)) Finset.univ) : sProp 𝕄)
      ⊢ (exRd m ρ).payload (recvCell (nb c 3) 2) 0 0 := by
    rw [payload_recv, landed_pts2]
    unfold recvPay
    rw [landed_of_send3 m ρ c h, slotPts_view2]
  exact Rounds.wp_send_pointsTo 𝒱₀ ER (exRd m ρ) (c : Thread nD τ) none
    (c' := (Dev.tc (nb c 3) : Thread nD τ)) (src := srcM 3) (dst := slotM 2) (q := qOf 3)
    (fs := xstg m ρ c) (fd := fn)
    hd₁ hd₂ () () N (slot_credit 2) (amount_send m ρ c 3 0) (amount_recv m ρ (nb c 3) 2 0) O rfl hpay₁ hpay₂

/-- The face sent in direction 4 lands in the neighbour's slot 5. -/
theorem landed_of_send4 (c : Dev nD) (h : has c 4 = true) :
    landed m ρ (nb c 4) 5 = (slotM 5).view.write (Elt F) (junk (ℓ := ((nb c 4 : Dev nD) : Thread nD τ).loc cc0_scratch1))
      ((srcM 4).view.read (Elt F) (sbuf m ρ c)) Finset.univ := by
  show (slotM 5).view.write (Elt F) (junk (ℓ := ((nb c 4 : Dev nD) : Thread nD τ).loc cc0_scratch1)) (sent m ρ (nb (nb c 4) 5) 4) Finset.univ = _
  rw [show nb (nb c 4) 5 = c from nb_back c 4 h]
  rfl

theorem wp_send_halo4 (c : Dev nD) (h : has c 4 = true) (K : GSem nD τ sig → ℕ)
    {hsc : ((slotM 5) : Memref sig (Dev.tc (nb c 4) : Thread nD τ).2.kind .vmem S32x32 .f32).view.ref.isScScratch = false}
    {hsrc : (srcM 4).view.WordExact} {hdst : (slotM 5).view.WordExact}
    {hsem : DmaTarget.Typed .vmem (.dma (recvS 5)) (.remote (Dev.tc (nb c 4) : Thread nD τ) (slotM 5) (.dma (sendS 4)) hsc)}
    {α : Type} {Q : α → sProp 𝕄} {k : PUnit → Prog (TpuEff nD τ sig (Elt F) Λ₀ .tc) α}
    (fn : Buf (Elt F) (((nb c 4) : Thread nD τ).loc cc0_scratch1)) (W : Waits sig Unit) (O : CellTallies nD τ sig Unit) :
    iprop(cellInv ER (exRd m ρ) (K (sendCell c 4)) (sendCell c 4) ∗ cellInv ER (exRd m ρ) (K (recvCell (nb c 4) 5)) (recvCell (nb c 4) 5)
        ∗ srcPts m ρ c 4 ∗ slotPts (nb c 4) 5 fn
        ∗ owes (c : Thread nD τ) (O + tallyAt (recvCell (nb c 4) 5) () N) W
        ∗ dutyTok ER (sendCell c 4) 0 0 ∗ reached ER (sendCell c 4) 0
        ∗ dutyTok ER (recvCell (nb c 4) 5) 0 0 ∗ reached ER (recvCell (nb c 4) 5) 0)
      ⊢ iprop(((cred (tallyAt (sendCell c 4) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 4) (.remote (Dev.tc (nb c 4) : Thread nD τ) (slotM 5) (.dma (sendS 4)) hsc) (.dma (recvS 5)) hsrc hdst hsem) k) Q) := by
  have hd₁ : (0 : Fin 6) ∈ (exRd (F := F) m ρ).duties (sendCell c 4) 0 := by
    rw [duties_send m ρ c 4 h]; exact Finset.mem_singleton_self _
  have hd₂ : (0 : Fin 6) ∈ (exRd (F := F) m ρ).duties (recvCell (nb c 4) 5) 0 := by
    rw [duties_recv m ρ (nb c 4) 5 (has_back c 4 h)]; exact Finset.mem_singleton_self _
  have hpay₁ : ((srcM 4).view.loc (c : Thread nD τ) ↦[(srcM 4).view.set]{qOf 4} sbuf m ρ c : sProp 𝕄)
      ⊢ (exRd m ρ).payload (sendCell c 4) 0 0 := by
    rw [payload_send]; exact .rfl
  have hpay₂ : ((slotM 5).view.loc ((nb c 4 : Dev nD) : Thread nD τ) ↦[(slotM 5).view.set]{fullShare}
        ((slotM 5).view.write (Elt F) fn ((srcM 4).view.read (Elt F) (sbuf m ρ c)) Finset.univ) : sProp 𝕄)
      ⊢ (exRd m ρ).payload (recvCell (nb c 4) 5) 0 0 := by
    rw [payload_recv, landed_pts5]
    unfold recvPay
    rw [landed_of_send4 m ρ c h, slotPts_view5]
  exact Rounds.wp_send_pointsTo 𝒱₀ ER (exRd m ρ) (c : Thread nD τ) none
    (c' := (Dev.tc (nb c 4) : Thread nD τ)) (src := srcM 4) (dst := slotM 5) (q := qOf 4)
    (fs := sbuf m ρ c) (fd := fn)
    hd₁ hd₂ () () N (slot_credit 5) (amount_send m ρ c 4 0) (amount_recv m ρ (nb c 4) 5 0) O rfl hpay₁ hpay₂

/-- The face sent in direction 5 lands in the neighbour's slot 4. -/
theorem landed_of_send5 (c : Dev nD) (h : has c 5 = true) :
    landed m ρ (nb c 5) 4 = (slotM 4).view.write (Elt F) (junk (ℓ := ((nb c 5 : Dev nD) : Thread nD τ).loc cc0_scratch1))
      ((srcM 5).view.read (Elt F) (sbuf m ρ c)) Finset.univ := by
  show (slotM 4).view.write (Elt F) (junk (ℓ := ((nb c 5 : Dev nD) : Thread nD τ).loc cc0_scratch1)) (sent m ρ (nb (nb c 5) 4) 5) Finset.univ = _
  rw [show nb (nb c 5) 4 = c from nb_back c 5 h]
  rfl

theorem wp_send_halo5 (c : Dev nD) (h : has c 5 = true) (K : GSem nD τ sig → ℕ)
    {hsc : ((slotM 4) : Memref sig (Dev.tc (nb c 5) : Thread nD τ).2.kind .vmem S32x32 .f32).view.ref.isScScratch = false}
    {hsrc : (srcM 5).view.WordExact} {hdst : (slotM 4).view.WordExact}
    {hsem : DmaTarget.Typed .vmem (.dma (recvS 4)) (.remote (Dev.tc (nb c 5) : Thread nD τ) (slotM 4) (.dma (sendS 5)) hsc)}
    {α : Type} {Q : α → sProp 𝕄} {k : PUnit → Prog (TpuEff nD τ sig (Elt F) Λ₀ .tc) α}
    (fn : Buf (Elt F) (((nb c 5) : Thread nD τ).loc cc0_scratch1)) (W : Waits sig Unit) (O : CellTallies nD τ sig Unit) :
    iprop(cellInv ER (exRd m ρ) (K (sendCell c 5)) (sendCell c 5) ∗ cellInv ER (exRd m ρ) (K (recvCell (nb c 5) 4)) (recvCell (nb c 5) 4)
        ∗ srcPts m ρ c 5 ∗ slotPts (nb c 5) 4 fn
        ∗ owes (c : Thread nD τ) (O + tallyAt (recvCell (nb c 5) 4) () N) W
        ∗ dutyTok ER (sendCell c 5) 0 0 ∗ reached ER (sendCell c 5) 0
        ∗ dutyTok ER (recvCell (nb c 5) 4) 0 0 ∗ reached ER (recvCell (nb c 5) 4) 0)
      ⊢ iprop(((cred (tallyAt (sendCell c 5) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 5) (.remote (Dev.tc (nb c 5) : Thread nD τ) (slotM 4) (.dma (sendS 5)) hsc) (.dma (recvS 4)) hsrc hdst hsem) k) Q) := by
  have hd₁ : (0 : Fin 6) ∈ (exRd (F := F) m ρ).duties (sendCell c 5) 0 := by
    rw [duties_send m ρ c 5 h]; exact Finset.mem_singleton_self _
  have hd₂ : (0 : Fin 6) ∈ (exRd (F := F) m ρ).duties (recvCell (nb c 5) 4) 0 := by
    rw [duties_recv m ρ (nb c 5) 4 (has_back c 5 h)]; exact Finset.mem_singleton_self _
  have hpay₁ : ((srcM 5).view.loc (c : Thread nD τ) ↦[(srcM 5).view.set]{qOf 5} sbuf m ρ c : sProp 𝕄)
      ⊢ (exRd m ρ).payload (sendCell c 5) 0 0 := by
    rw [payload_send]; exact .rfl
  have hpay₂ : ((slotM 4).view.loc ((nb c 5 : Dev nD) : Thread nD τ) ↦[(slotM 4).view.set]{fullShare}
        ((slotM 4).view.write (Elt F) fn ((srcM 5).view.read (Elt F) (sbuf m ρ c)) Finset.univ) : sProp 𝕄)
      ⊢ (exRd m ρ).payload (recvCell (nb c 5) 4) 0 0 := by
    rw [payload_recv, landed_pts4]
    unfold recvPay
    rw [landed_of_send5 m ρ c h, slotPts_view4]
  exact Rounds.wp_send_pointsTo 𝒱₀ ER (exRd m ρ) (c : Thread nD τ) none
    (c' := (Dev.tc (nb c 5) : Thread nD τ)) (src := srcM 5) (dst := slotM 4) (q := qOf 5)
    (fs := sbuf m ρ c) (fd := fn)
    hd₁ hd₂ () () N (slot_credit 4) (amount_send m ρ c 5 0) (amount_recv m ρ (nb c 5) 4 0) O rfl hpay₁ hpay₂

end Cert.Kernel.HP

end
-- ==== Proof.KernelPart3.lean ====
/-
  Part 3 of a device's body: the second row of the send buffer is stored, the device waits for its barrier cell's six
  units (it then holds every slot it is about to write into), lends the four faces of its block by share and the two
  rows of the send buffer whole, enqueues the transfer to each neighbour that exists, and loads the block.

  Each guarded transfer is one lemma over the program's own conditional: where there is a neighbour, the transfer rule
  turns the lent source, the neighbour's slot and the two duty tokens into the send cell's credit and takes the
  receive cell's due off what the device owes; where there is none, nothing is owed that way and the source piece stays.
-/
import proofs.«900363_g7700000000000364_dist_halo3d_v7x_xyz2x2x4_s32_f32_1_alg».proof.Proof.KernelStates
import proofs.«900363_g7700000000000364_dist_halo3d_v7x_xyz2x2x4_s32_f32_1_alg».proof.Proof.KernelSendRule
import proofs.«900363_g7700000000000364_dist_halo3d_v7x_xyz2x2x4_s32_f32_1_alg».proof.Proof.KernelLaunch

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts -/

theorem P3_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem P3_semWaitWord_bind {α : Type} (sem : Sem sig) (n : BitVec 32) (h : n.msb = false)
    (f : PUnit → Prog (TpuEff nD τ sig (Elt F) Λ₀ .tc) α) :
    semWaitWord sem n h >>= f = Prog.op (.semWait sem n.toNat) f := rfl

/-- Whatever is still owed to receive cells is owed to a neighbour's. -/
theorem P3_oR_pos {c : Dev nD} {g : GSem nD τ sig} {u : Unit} (h : 0 < oR c g u) :
    ∃ d : Fin 6, g = recvCell (nb c d) (opp d) := by
  by_contra hn
  rw [not_exists] at hn
  unfold oR oweR at h
  simp only [Pi.add_apply, Finsupp.add_apply, tallyAt_apply, hn, false_and, ↓reduceIte, add_zero] at h
  exact Nat.lt_irrefl 0 h

/-- At its barrier wait a device owes receive cells only: level 2, above the barrier cell's level 1. -/
theorem P3_mayWait_bar (c : Dev nD) : (levAts L lv : sProp 𝕄) ⊢ MayWait (c : Thread nD τ) (.reg barS) () (oR c) :=
  MayOwe.of_cut (L := L) (lev := lv) 1
    (fun p hp => by rw [Finset.mem_singleton.mp hp, L_tc]; exact Finset.mem_singleton_self _)
    (fun g u hg => by obtain ⟨d, rfl⟩ := P3_oR_pos hg; exact Finset.mem_singleton_self _)
    (fun p hp => by rw [Finset.mem_singleton.mp hp]; exact (lv_bar c ()).le)
    (fun g u hg => by obtain ⟨d, rfl⟩ := P3_oR_pos hg; rw [lv_recv]; decide)

/-! ## The send buffer after both stores -/

/-- Both rows of the send buffer are overwritten, so what it held before does not matter: after the row-1 store it
    holds the block's two z faces. -/
theorem P3_sbuf_eq (c : Dev nD) (f0 : Buf (Elt F) ((c : Thread nD τ).loc cc0_scratch0)) :
    ((sM.access rS1 : View sig .tc _ _ _)).write (Elt F) (sbuf0 c (xstg m ρ c) f0)
        (k0_pay9 (k0_pay8 (xM.view.readAt (Elt F) rZ31.toLoadRect (xstg m ρ c)))) Finset.univ
      = sbuf m ρ c := by
  unfold sbuf sbuf0
  generalize (k0_pay9 (k0_pay8 (xM.view.readAt (Elt F) rZ31.toLoadRect (xstg m ρ c)))) = b
  generalize (k0_pay7 (xM.view.readAt (Elt F) rZ0.toLoadRect (xstg m ρ c))) = a
  have e4 : (sM.access rS0 : View sig .tc _ _ _).setOn Finset.univ = (srcM 4).view.set := (View.set_reshape _ _).symm
  have e5 : (sM.access rS1 : View sig .tc _ _ _).setOn Finset.univ = (srcM 5).view.set := (View.set_reshape _ _).symm
  rw [View.write_eq_piecewise (v := (sM.access rS1 : View sig .tc _ _ _)) _
    (((sM.access rS0 : View sig .tc _ _ _)).write (Elt F) (junk (ℓ := (c : Thread nD τ).loc cc0_scratch0)) a Finset.univ) b Finset.univ]
  refine funext fun (i : S2x32x32.Idx) => ?_
  by_cases hi : i ∈ (sM.access rS1 : View sig .tc _ _ _).setOn Finset.univ
  · rw [Finset.piecewise_eq_of_mem _ _ _ hi]
  · rw [Finset.piecewise_eq_of_notMem _ _ _ hi, View.write_of_not_mem _ _ _ hi]
    have h0 : i ∈ (sM.access rS0 : View sig .tc _ _ _).setOn Finset.univ := by
      rw [e4, mem_src4]
      rw [e5, mem_src5] at hi
      have := (i 0).isLt
      have h2 : (i 0).val < 2 := this
      omega
    rw [View.write_eq_piecewise (v := (sM.access rS0 : View sig .tc _ _ _)) f0 (junk (ℓ := (c : Thread nD τ).loc cc0_scratch0)) a Finset.univ,
      Finset.piecewise_eq_of_mem _ _ _ h0]

/-! ## One guarded transfer, per direction -/

theorem P3_send_step0 (K : Dev nD × CellIx → ℕ) (c : Dev nD) (O : CellTallies nD τ sig Unit) (W : Waits sig Unit)
    {hsc : ∀ h : k0_cond13 c = 1#1, ((slotM 1) : Memref sig (Dev.tc (⟨k0_dev7 c, k0_dev7_lt c h⟩ : Dev nD) : Thread nD τ).2.kind .vmem S32x32 .f32).view.ref.isScScratch = false}
    {hsrc : (srcM 0).view.WordExact} {hdst : (slotM 1).view.WordExact}
    {hsem : ∀ h : k0_cond13 c = 1#1, DmaTarget.Typed .vmem (.dma (recvS 1)) (.remote (Dev.tc (⟨k0_dev7 c, k0_dev7_lt c h⟩ : Dev nD) : Thread nD τ) (slotM 1) (.dma (sendS 0)) (hsc h))}
    {α : Type} {Q : α → sProp 𝕄} {J : Prog (TpuEff nD τ sig (Elt F) Λ₀ .tc) α} :
    iprop(records m ρ K ∗ srcPts m ρ c 0 ∗ tokRS c 0 ∗ barPay c 0 ∗ owes (c : Thread nD τ) (O + oweR c 0) W)
      ⊢ iprop((((if has c 0 = true then cred (tallyAt (sendCell c 0) () N) else srcPts m ρ c 0) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond13 c = 1#1)
                (fun h => Prog.lift (.enqueueDma (srcM 0) (.remote (Dev.tc (⟨k0_dev7 c, k0_dev7_lt c h⟩ : Dev nD) : Thread nD τ) (slotM 1) (.dma (sendS 0)) (hsc h)) (.dma (recvS 1)) hsrc hdst (hsem h)) >>= fun _ => J)
                (fun _ => J)) Q) := by
  by_cases h : has c 0 = true
  · have hc : k0_cond13 c = 1#1 := by rw [cond13_iff]; exact h
    rw [dif_pos hc, Prog.bind_lift]
    generalize hsem hc = hs
    generalize hsc hc = hq at hs ⊢
    have e := dev7_eq c hc
    generalize (⟨k0_dev7 c, k0_dev7_lt c hc⟩ : Dev nD) = x at e hs ⊢
    subst e
    unfold tokRS barPay oweR records
    simp only [h, ↓reduceIte]
    let K' : GSem nD τ sig → ℕ := fun g => if g = sendCell c 0 then K (c, some (false, 0)) else K (nb c 0, some (true, 1))
    have e1 : K' (sendCell c 0) = K (c, some (false, 0)) := if_pos rfl
    have e2 : K' (recvCell (nb c 0) 1) = K (nb c 0, some (true, 1)) :=
      if_neg fun hh => absurd (SemLoc.dma.inj (congrArg Prod.snd hh)).symm (send_ne_recv 0 1)
    have c1 : (cellInv ER (exRd m ρ) (K (c, some (false, 0))) (sendCell c 0) : sProp 𝕄)
        ⊢ cellInv ER (exRd m ρ) (K' (sendCell c 0)) (sendCell c 0) := Entails.of_eq (by rw [e1])
    have c2 : (cellInv ER (exRd m ρ) (K (nb c 0, some (true, 1))) (recvCell (nb c 0) 1) : sProp 𝕄)
        ⊢ cellInv ER (exRd m ρ) (K' (recvCell (nb c 0) 1)) (recvCell (nb c 0) 1) := Entails.of_eq (by rw [e2])
    iintro ⟨⟨#HI, #HR⟩, Hsrc, ⟨HtR, HtS⟩, ⟨⟨%fn, Hslot⟩, #Hreach⟩, HL⟩ Hk
    iapply (wp_send_halo0 m ρ c h K' fn W O) $$ [Hsrc HtR HtS Hslot HL]
    · isplitr; · iapply c1; iapply (inv_at m ρ K (c, some (false, 0))); iexact HI
      isplitr; · iapply c2; iapply (inv_at m ρ K (nb c 0, some (true, 1))); iexact HI
      isplitl [Hsrc]; · iexact Hsrc
      isplitl [Hslot]; · iexact Hslot
      isplitl [HL]; · iexact HL
      isplitl [HtS]; · iexact HtS
      isplitr; · iapply (reached_at (F := F) (c, some (false, 0))); iexact HR
      isplitl [HtR]; · iexact HtR
      iexact Hreach
    · iexact Hk
  · have hf : has c 0 = false := by simpa using h
    have hc : ¬ k0_cond13 c = 1#1 := by rw [cond13_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step1 (K : Dev nD × CellIx → ℕ) (c : Dev nD) (O : CellTallies nD τ sig Unit) (W : Waits sig Unit)
    {hsc : ∀ h : k0_cond14 c = 1#1, ((slotM 0) : Memref sig (Dev.tc (⟨k0_dev8 c, k0_dev8_lt c h⟩ : Dev nD) : Thread nD τ).2.kind .vmem S32x32 .f32).view.ref.isScScratch = false}
    {hsrc : (srcM 1).view.WordExact} {hdst : (slotM 0).view.WordExact}
    {hsem : ∀ h : k0_cond14 c = 1#1, DmaTarget.Typed .vmem (.dma (recvS 0)) (.remote (Dev.tc (⟨k0_dev8 c, k0_dev8_lt c h⟩ : Dev nD) : Thread nD τ) (slotM 0) (.dma (sendS 1)) (hsc h))}
    {α : Type} {Q : α → sProp 𝕄} {J : Prog (TpuEff nD τ sig (Elt F) Λ₀ .tc) α} :
    iprop(records m ρ K ∗ srcPts m ρ c 1 ∗ tokRS c 1 ∗ barPay c 1 ∗ owes (c : Thread nD τ) (O + oweR c 1) W)
      ⊢ iprop((((if has c 1 = true then cred (tallyAt (sendCell c 1) () N) else srcPts m ρ c 1) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond14 c = 1#1)
                (fun h => Prog.lift (.enqueueDma (srcM 1) (.remote (Dev.tc (⟨k0_dev8 c, k0_dev8_lt c h⟩ : Dev nD) : Thread nD τ) (slotM 0) (.dma (sendS 1)) (hsc h)) (.dma (recvS 0)) hsrc hdst (hsem h)) >>= fun _ => J)
                (fun _ => J)) Q) := by
  by_cases h : has c 1 = true
  · have hc : k0_cond14 c = 1#1 := by rw [cond14_iff]; exact h
    rw [dif_pos hc, Prog.bind_lift]
    generalize hsem hc = hs
    generalize hsc hc = hq at hs ⊢
    have e := dev8_eq c hc
    generalize (⟨k0_dev8 c, k0_dev8_lt c hc⟩ : Dev nD) = x at e hs ⊢
    subst e
    unfold tokRS barPay oweR records
    simp only [h, ↓reduceIte]
    let K' : GSem nD τ sig → ℕ := fun g => if g = sendCell c 1 then K (c, some (false, 1)) else K (nb c 1, some (true, 0))
    have e1 : K' (sendCell c 1) = K (c, some (false, 1)) := if_pos rfl
    have e2 : K' (recvCell (nb c 1) 0) = K (nb c 1, some (true, 0)) :=
      if_neg fun hh => absurd (SemLoc.dma.inj (congrArg Prod.snd hh)).symm (send_ne_recv 1 0)
    have c1 : (cellInv ER (exRd m ρ) (K (c, some (false, 1))) (sendCell c 1) : sProp 𝕄)
        ⊢ cellInv ER (exRd m ρ) (K' (sendCell c 1)) (sendCell c 1) := Entails.of_eq (by rw [e1])
    have c2 : (cellInv ER (exRd m ρ) (K (nb c 1, some (true, 0))) (recvCell (nb c 1) 0) : sProp 𝕄)
        ⊢ cellInv ER (exRd m ρ) (K' (recvCell (nb c 1) 0)) (recvCell (nb c 1) 0) := Entails.of_eq (by rw [e2])
    iintro ⟨⟨#HI, #HR⟩, Hsrc, ⟨HtR, HtS⟩, ⟨⟨%fn, Hslot⟩, #Hreach⟩, HL⟩ Hk
    iapply (wp_send_halo1 m ρ c h K' fn W O) $$ [Hsrc HtR HtS Hslot HL]
    · isplitr; · iapply c1; iapply (inv_at m ρ K (c, some (false, 1))); iexact HI
      isplitr; · iapply c2; iapply (inv_at m ρ K (nb c 1, some (true, 0))); iexact HI
      isplitl [Hsrc]; · iexact Hsrc
      isplitl [Hslot]; · iexact Hslot
      isplitl [HL]; · iexact HL
      isplitl [HtS]; · iexact HtS
      isplitr; · iapply (reached_at (F := F) (c, some (false, 1))); iexact HR
      isplitl [HtR]; · iexact HtR
      iexact Hreach
    · iexact Hk
  · have hf : has c 1 = false := by simpa using h
    have hc : ¬ k0_cond14 c = 1#1 := by rw [cond14_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step2 (K : Dev nD × CellIx → ℕ) (c : Dev nD) (O : CellTallies nD τ sig Unit) (W : Waits sig Unit)
    {hsc : ∀ h : k0_cond15 c = 1#1, ((slotM 3) : Memref sig (Dev.tc (⟨k0_dev9 c, k0_dev9_lt c h⟩ : Dev nD) : Thread nD τ).2.kind .vmem S32x32 .f32).view.ref.isScScratch = false}
    {hsrc : (srcM 2).view.WordExact} {hdst : (slotM 3).view.WordExact}
    {hsem : ∀ h : k0_cond15 c = 1#1, DmaTarget.Typed .vmem (.dma (recvS 3)) (.remote (Dev.tc (⟨k0_dev9 c, k0_dev9_lt c h⟩ : Dev nD) : Thread nD τ) (slotM 3) (.dma (sendS 2)) (hsc h))}
    {α : Type} {Q : α → sProp 𝕄} {J : Prog (TpuEff nD τ sig (Elt F) Λ₀ .tc) α} :
    iprop(records m ρ K ∗ srcPts m ρ c 2 ∗ tokRS c 2 ∗ barPay c 2 ∗ owes (c : Thread nD τ) (O + oweR c 2) W)
      ⊢ iprop((((if has c 2 = true then cred (tallyAt (sendCell c 2) () N) else srcPts m ρ c 2) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond15 c = 1#1)
                (fun h => Prog.lift (.enqueueDma (srcM 2) (.remote (Dev.tc (⟨k0_dev9 c, k0_dev9_lt c h⟩ : Dev nD) : Thread nD τ) (slotM 3) (.dma (sendS 2)) (hsc h)) (.dma (recvS 3)) hsrc hdst (hsem h)) >>= fun _ => J)
                (fun _ => J)) Q) := by
  by_cases h : has c 2 = true
  · have hc : k0_cond15 c = 1#1 := by rw [cond15_iff]; exact h
    rw [dif_pos hc, Prog.bind_lift]
    generalize hsem hc = hs
    generalize hsc hc = hq at hs ⊢
    have e := dev9_eq c hc
    generalize (⟨k0_dev9 c, k0_dev9_lt c hc⟩ : Dev nD) = x at e hs ⊢
    subst e
    unfold tokRS barPay oweR records
    simp only [h, ↓reduceIte]
    let K' : GSem nD τ sig → ℕ := fun g => if g = sendCell c 2 then K (c, some (false, 2)) else K (nb c 2, some (true, 3))
    have e1 : K' (sendCell c 2) = K (c, some (false, 2)) := if_pos rfl
    have e2 : K' (recvCell (nb c 2) 3) = K (nb c 2, some (true, 3)) :=
      if_neg fun hh => absurd (SemLoc.dma.inj (congrArg Prod.snd hh)).symm (send_ne_recv 2 3)
    have c1 : (cellInv ER (exRd m ρ) (K (c, some (false, 2))) (sendCell c 2) : sProp 𝕄)
        ⊢ cellInv ER (exRd m ρ) (K' (sendCell c 2)) (sendCell c 2) := Entails.of_eq (by rw [e1])
    have c2 : (cellInv ER (exRd m ρ) (K (nb c 2, some (true, 3))) (recvCell (nb c 2) 3) : sProp 𝕄)
        ⊢ cellInv ER (exRd m ρ) (K' (recvCell (nb c 2) 3)) (recvCell (nb c 2) 3) := Entails.of_eq (by rw [e2])
    iintro ⟨⟨#HI, #HR⟩, Hsrc, ⟨HtR, HtS⟩, ⟨⟨%fn, Hslot⟩, #Hreach⟩, HL⟩ Hk
    iapply (wp_send_halo2 m ρ c h K' fn W O) $$ [Hsrc HtR HtS Hslot HL]
    · isplitr; · iapply c1; iapply (inv_at m ρ K (c, some (false, 2))); iexact HI
      isplitr; · iapply c2; iapply (inv_at m ρ K (nb c 2, some (true, 3))); iexact HI
      isplitl [Hsrc]; · iexact Hsrc
      isplitl [Hslot]; · iexact Hslot
      isplitl [HL]; · iexact HL
      isplitl [HtS]; · iexact HtS
      isplitr; · iapply (reached_at (F := F) (c, some (false, 2))); iexact HR
      isplitl [HtR]; · iexact HtR
      iexact Hreach
    · iexact Hk
  · have hf : has c 2 = false := by simpa using h
    have hc : ¬ k0_cond15 c = 1#1 := by rw [cond15_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step3 (K : Dev nD × CellIx → ℕ) (c : Dev nD) (O : CellTallies nD τ sig Unit) (W : Waits sig Unit)
    {hsc : ∀ h : k0_cond16 c = 1#1, ((slotM 2) : Memref sig (Dev.tc (⟨k0_dev10 c, k0_dev10_lt c h⟩ : Dev nD) : Thread nD τ).2.kind .vmem S32x32 .f32).view.ref.isScScratch = false}
    {hsrc : (srcM 3).view.WordExact} {hdst : (slotM 2).view.WordExact}
    {hsem : ∀ h : k0_cond16 c = 1#1, DmaTarget.Typed .vmem (.dma (recvS 2)) (.remote (Dev.tc (⟨k0_dev10 c, k0_dev10_lt c h⟩ : Dev nD) : Thread nD τ) (slotM 2) (.dma (sendS 3)) (hsc h))}
    {α : Type} {Q : α → sProp 𝕄} {J : Prog (TpuEff nD τ sig (Elt F) Λ₀ .tc) α} :
    iprop(records m ρ K ∗ srcPts m ρ c 3 ∗ tokRS c 3 ∗ barPay c 3 ∗ owes (c : Thread nD τ) (O + oweR c 3) W)
      ⊢ iprop((((if has c 3 = true then cred (tallyAt (sendCell c 3) () N) else srcPts m ρ c 3) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond16 c = 1#1)
                (fun h => Prog.lift (.enqueueDma (srcM 3) (.remote (Dev.tc (⟨k0_dev10 c, k0_dev10_lt c h⟩ : Dev nD) : Thread nD τ) (slotM 2) (.dma (sendS 3)) (hsc h)) (.dma (recvS 2)) hsrc hdst (hsem h)) >>= fun _ => J)
                (fun _ => J)) Q) := by
  by_cases h : has c 3 = true
  · have hc : k0_cond16 c = 1#1 := by rw [cond16_iff]; exact h
    rw [dif_pos hc, Prog.bind_lift]
    generalize hsem hc = hs
    generalize hsc hc = hq at hs ⊢
    have e := dev10_eq c hc
    generalize (⟨k0_dev10 c, k0_dev10_lt c hc⟩ : Dev nD) = x at e hs ⊢
    subst e
    unfold tokRS barPay oweR records
    simp only [h, ↓reduceIte]
    let K' : GSem nD τ sig → ℕ := fun g => if g = sendCell c 3 then K (c, some (false, 3)) else K (nb c 3, some (true, 2))
    have e1 : K' (sendCell c 3) = K (c, some (false, 3)) := if_pos rfl
    have e2 : K' (recvCell (nb c 3) 2) = K (nb c 3, some (true, 2)) :=
      if_neg fun hh => absurd (SemLoc.dma.inj (congrArg Prod.snd hh)).symm (send_ne_recv 3 2)
    have c1 : (cellInv ER (exRd m ρ) (K (c, some (false, 3))) (sendCell c 3) : sProp 𝕄)
        ⊢ cellInv ER (exRd m ρ) (K' (sendCell c 3)) (sendCell c 3) := Entails.of_eq (by rw [e1])
    have c2 : (cellInv ER (exRd m ρ) (K (nb c 3, some (true, 2))) (recvCell (nb c 3) 2) : sProp 𝕄)
        ⊢ cellInv ER (exRd m ρ) (K' (recvCell (nb c 3) 2)) (recvCell (nb c 3) 2) := Entails.of_eq (by rw [e2])
    iintro ⟨⟨#HI, #HR⟩, Hsrc, ⟨HtR, HtS⟩, ⟨⟨%fn, Hslot⟩, #Hreach⟩, HL⟩ Hk
    iapply (wp_send_halo3 m ρ c h K' fn W O) $$ [Hsrc HtR HtS Hslot HL]
    · isplitr; · iapply c1; iapply (inv_at m ρ K (c, some (false, 3))); iexact HI
      isplitr; · iapply c2; iapply (inv_at m ρ K (nb c 3, some (true, 2))); iexact HI
      isplitl [Hsrc]; · iexact Hsrc
      isplitl [Hslot]; · iexact Hslot
      isplitl [HL]; · iexact HL
      isplitl [HtS]; · iexact HtS
      isplitr; · iapply (reached_at (F := F) (c, some (false, 3))); iexact HR
      isplitl [HtR]; · iexact HtR
      iexact Hreach
    · iexact Hk
  · have hf : has c 3 = false := by simpa using h
    have hc : ¬ k0_cond16 c = 1#1 := by rw [cond16_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step4 (K : Dev nD × CellIx → ℕ) (c : Dev nD) (O : CellTallies nD τ sig Unit) (W : Waits sig Unit)
    {hsc : ∀ h : k0_cond17 c = 1#1, ((slotM 5) : Memref sig (Dev.tc (⟨k0_dev11 c, k0_dev11_lt c h⟩ : Dev nD) : Thread nD τ).2.kind .vmem S32x32 .f32).view.ref.isScScratch = false}
    {hsrc : (srcM 4).view.WordExact} {hdst : (slotM 5).view.WordExact}
    {hsem : ∀ h : k0_cond17 c = 1#1, DmaTarget.Typed .vmem (.dma (recvS 5)) (.remote (Dev.tc (⟨k0_dev11 c, k0_dev11_lt c h⟩ : Dev nD) : Thread nD τ) (slotM 5) (.dma (sendS 4)) (hsc h))}
    {α : Type} {Q : α → sProp 𝕄} {J : Prog (TpuEff nD τ sig (Elt F) Λ₀ .tc) α} :
    iprop(records m ρ K ∗ srcPts m ρ c 4 ∗ tokRS c 4 ∗ barPay c 4 ∗ owes (c : Thread nD τ) (O + oweR c 4) W)
      ⊢ iprop((((if has c 4 = true then cred (tallyAt (sendCell c 4) () N) else srcPts m ρ c 4) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond17 c = 1#1)
                (fun h => Prog.lift (.enqueueDma (srcM 4) (.remote (Dev.tc (⟨k0_dev11 c, k0_dev11_lt c h⟩ : Dev nD) : Thread nD τ) (slotM 5) (.dma (sendS 4)) (hsc h)) (.dma (recvS 5)) hsrc hdst (hsem h)) >>= fun _ => J)
                (fun _ => J)) Q) := by
  by_cases h : has c 4 = true
  · have hc : k0_cond17 c = 1#1 := by rw [cond17_iff]; exact h
    rw [dif_pos hc, Prog.bind_lift]
    generalize hsem hc = hs
    generalize hsc hc = hq at hs ⊢
    have e := dev11_eq c hc
    generalize (⟨k0_dev11 c, k0_dev11_lt c hc⟩ : Dev nD) = x at e hs ⊢
    subst e
    unfold tokRS barPay oweR records
    simp only [h, ↓reduceIte]
    let K' : GSem nD τ sig → ℕ := fun g => if g = sendCell c 4 then K (c, some (false, 4)) else K (nb c 4, some (true, 5))
    have e1 : K' (sendCell c 4) = K (c, some (false, 4)) := if_pos rfl
    have e2 : K' (recvCell (nb c 4) 5) = K (nb c 4, some (true, 5)) :=
      if_neg fun hh => absurd (SemLoc.dma.inj (congrArg Prod.snd hh)).symm (send_ne_recv 4 5)
    have c1 : (cellInv ER (exRd m ρ) (K (c, some (false, 4))) (sendCell c 4) : sProp 𝕄)
        ⊢ cellInv ER (exRd m ρ) (K' (sendCell c 4)) (sendCell c 4) := Entails.of_eq (by rw [e1])
    have c2 : (cellInv ER (exRd m ρ) (K (nb c 4, some (true, 5))) (recvCell (nb c 4) 5) : sProp 𝕄)
        ⊢ cellInv ER (exRd m ρ) (K' (recvCell (nb c 4) 5)) (recvCell (nb c 4) 5) := Entails.of_eq (by rw [e2])
    iintro ⟨⟨#HI, #HR⟩, Hsrc, ⟨HtR, HtS⟩, ⟨⟨%fn, Hslot⟩, #Hreach⟩, HL⟩ Hk
    iapply (wp_send_halo4 m ρ c h K' fn W O) $$ [Hsrc HtR HtS Hslot HL]
    · isplitr; · iapply c1; iapply (inv_at m ρ K (c, some (false, 4))); iexact HI
      isplitr; · iapply c2; iapply (inv_at m ρ K (nb c 4, some (true, 5))); iexact HI
      isplitl [Hsrc]; · iexact Hsrc
      isplitl [Hslot]; · iexact Hslot
      isplitl [HL]; · iexact HL
      isplitl [HtS]; · iexact HtS
      isplitr; · iapply (reached_at (F := F) (c, some (false, 4))); iexact HR
      isplitl [HtR]; · iexact HtR
      iexact Hreach
    · iexact Hk
  · have hf : has c 4 = false := by simpa using h
    have hc : ¬ k0_cond17 c = 1#1 := by rw [cond17_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step5 (K : Dev nD × CellIx → ℕ) (c : Dev nD) (O : CellTallies nD τ sig Unit) (W : Waits sig Unit)
    {hsc : ∀ h : k0_cond18 c = 1#1, ((slotM 4) : Memref sig (Dev.tc (⟨k0_dev12 c, k0_dev12_lt c h⟩ : Dev nD) : Thread nD τ).2.kind .vmem S32x32 .f32).view.ref.isScScratch = false}
    {hsrc : (srcM 5).view.WordExact} {hdst : (slotM 4).view.WordExact}
    {hsem : ∀ h : k0_cond18 c = 1#1, DmaTarget.Typed .vmem (.dma (recvS 4)) (.remote (Dev.tc (⟨k0_dev12 c, k0_dev12_lt c h⟩ : Dev nD) : Thread nD τ) (slotM 4) (.dma (sendS 5)) (hsc h))}
    {α : Type} {Q : α → sProp 𝕄} {J : Prog (TpuEff nD τ sig (Elt F) Λ₀ .tc) α} :
    iprop(records m ρ K ∗ srcPts m ρ c 5 ∗ tokRS c 5 ∗ barPay c 5 ∗ owes (c : Thread nD τ) (O + oweR c 5) W)
      ⊢ iprop((((if has c 5 = true then cred (tallyAt (sendCell c 5) () N) else srcPts m ρ c 5) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond18 c = 1#1)
                (fun h => Prog.lift (.enqueueDma (srcM 5) (.remote (Dev.tc (⟨k0_dev12 c, k0_dev12_lt c h⟩ : Dev nD) : Thread nD τ) (slotM 4) (.dma (sendS 5)) (hsc h)) (.dma (recvS 4)) hsrc hdst (hsem h)) >>= fun _ => J)
                (fun _ => J)) Q) := by
  by_cases h : has c 5 = true
  · have hc : k0_cond18 c = 1#1 := by rw [cond18_iff]; exact h
    rw [dif_pos hc, Prog.bind_lift]
    generalize hsem hc = hs
    generalize hsc hc = hq at hs ⊢
    have e := dev12_eq c hc
    generalize (⟨k0_dev12 c, k0_dev12_lt c hc⟩ : Dev nD) = x at e hs ⊢
    subst e
    unfold tokRS barPay oweR records
    simp only [h, ↓reduceIte]
    let K' : GSem nD τ sig → ℕ := fun g => if g = sendCell c 5 then K (c, some (false, 5)) else K (nb c 5, some (true, 4))
    have e1 : K' (sendCell c 5) = K (c, some (false, 5)) := if_pos rfl
    have e2 : K' (recvCell (nb c 5) 4) = K (nb c 5, some (true, 4)) :=
      if_neg fun hh => absurd (SemLoc.dma.inj (congrArg Prod.snd hh)).symm (send_ne_recv 5 4)
    have c1 : (cellInv ER (exRd m ρ) (K (c, some (false, 5))) (sendCell c 5) : sProp 𝕄)
        ⊢ cellInv ER (exRd m ρ) (K' (sendCell c 5)) (sendCell c 5) := Entails.of_eq (by rw [e1])
    have c2 : (cellInv ER (exRd m ρ) (K (nb c 5, some (true, 4))) (recvCell (nb c 5) 4) : sProp 𝕄)
        ⊢ cellInv ER (exRd m ρ) (K' (recvCell (nb c 5) 4)) (recvCell (nb c 5) 4) := Entails.of_eq (by rw [e2])
    iintro ⟨⟨#HI, #HR⟩, Hsrc, ⟨HtR, HtS⟩, ⟨⟨%fn, Hslot⟩, #Hreach⟩, HL⟩ Hk
    iapply (wp_send_halo5 m ρ c h K' fn W O) $$ [Hsrc HtR HtS Hslot HL]
    · isplitr; · iapply c1; iapply (inv_at m ρ K (c, some (false, 5))); iexact HI
      isplitr; · iapply c2; iapply (inv_at m ρ K (nb c 5, some (true, 4))); iexact HI
      isplitl [Hsrc]; · iexact Hsrc
      isplitl [Hslot]; · iexact Hslot
      isplitl [HL]; · iexact HL
      isplitl [HtS]; · iexact HtS
      isplitr; · iapply (reached_at (F := F) (c, some (false, 5))); iexact HR
      isplitl [HtR]; · iexact HtR
      iexact Hreach
    · iexact Hk
  · have hf : has c 5 = false := by simpa using h
    have hc : ¬ k0_cond18 c = 1#1 := by rw [cond18_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_rec_inv (K : Dev nD × CellIx → ℕ) (ck : Dev nD × CellIx) :
    records m ρ K ⊢ cellInv ER (exRd m ρ) (K ck) (kcell ck) := by
  unfold records
  iintro ⟨HI, -⟩
  iapply (inv_at m ρ K ck); iexact HI

end Cert.Kernel.HP

end
-- ==== Proof.KernelPart3Run.lean ====
/-
  Part 3 of a device's body, assembled from its regions: the second row of the send buffer is stored, the device takes
  its own six barrier units — and with them the six slots its faces will land in —, carves its block's shares, sends
  each face where there is a neighbour, and loads the whole block.
-/
import proofs.«900363_g7700000000000364_dist_halo3d_v7x_xyz2x2x4_s32_f32_1_alg».proof.Proof.KernelPart3

noncomputable section

namespace Cert.Kernel.HP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)
theorem part3_run (K : Dev nD × CellIx → ℕ) (c : Dev nD) (g1 : Buf (Elt F) ((c : Thread nD τ).loc cc0_stg1_0))
    (f0 : Buf (Elt F) ((c : Thread nD τ).loc cc0_scratch0)) (f1 : Buf (Elt F) ((c : Thread nD τ).loc cc0_scratch1))
    (v2 v5 v8 : BitVec 32) (v9 v10 v11 v12 v13 v14 : BitVec 1) (v15 v16 v17 v18 v19 v20 : BitVec 32) :
    stB m ρ K c (xstg m ρ c) g1 f0 f1
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v2 v5 v8 v9 v10 v11 v12 v13 v14 v15 v16 v17 v18 v19 v20 (SemArray.scalar (sig.barrier 0 rfl)) (k0_pay8 (xM.view.readAt (Elt F) rZ31.toLoadRect (xstg m ρ c))))
          (fun r => iprop(⌜r = ⟨k0_pay10 (xM.view.readAt (Elt F) rAll.toLoadRect (xstg m ρ c)), k0_pay13 (F := F),
              k0_pay14 (xM.view.readAt (Elt F) rAll.toLoadRect (xstg m ρ c)), k0_pay15 (xM.view.readAt (Elt F) rAll.toLoadRect (xstg m ρ c)),
              k0_pay16 (xM.view.readAt (Elt F) rAll.toLoadRect (xstg m ρ c)), k0_pay17 (xM.view.readAt (Elt F) rAll.toLoadRect (xstg m ρ c)),
              k0_pay18 (xM.view.readAt (Elt F) rAll.toLoadRect (xstg m ρ c)), k0_pay19 (xM.view.readAt (Elt F) rAll.toLoadRect (xstg m ρ c))⟩⌝
            ∗ stC m ρ K c (xstg m ρ c) g1 f1)) := by
  have hS1 : (sM.access rS1 : View sig .tc _ _ _).setOn Finset.univ ⊆ (sM.view.set : Finset S2x32x32.Idx) := by
    rw [show (sM.view.set : Finset S2x32x32.Idx) = Finset.univ from View.set_whole cc0_scratch0]; exact Finset.subset_univ _
  have hO : oR c = 0 + oweR c 5 + oweR c 4 + oweR c 3 + oweR c 2 + oweR c 1 + oweR c 0 := by unfold oR; rw [zero_add]
  rw [k0_part3_eq_skeleton]
  unfold k0_part3_skel stB xWhole sbufPts
  iintro ⟨#Hrec, #Hlev, HatB, HatX, ⟨%W, HL⟩, Htok, Hcr6, HcrR, Hslots, Hx, Hout, Hsb⟩
  -- the dead load of row 1
  rw [Prog.bind_lift]
  iapply (wp_load 𝒱₀ (c : Thread nD τ) none Set.univ (m := sM) (S := sM.view.set) (q := fullShare) (View.setOn_subset_set _ _)) $$ Hsb
  iintro Hsb
  -- the store of row 1
  rw [Prog.bind_lift]
  iapply (wp_store 𝒱₀ (c : Thread nD τ) none Set.univ (m := sM) (r := rS1) (S := sM.view.set) hS1) $$ Hsb
  iintro Hsb
  rw [P3_sbuf_eq m ρ c f0]
  ihave Hsb' := (carve_sbuf c (sbuf m ρ c)).1 $$ Hsb
  icases Hsb' with ⟨Hs4, Hs5⟩
  -- the barrier wait
  rw [P3_semWaitWord_bind]
  iapply (Rounds.wp_wait_rest_token 𝒱₀ ER (exRd m ρ) (c : Thread nD τ) none (sm := .reg barS) (k' := 6) (κ := K (c, none))
      (R := 0) (m := 0) (T := ∅) (O := oR c) (W := W) (fun _ => rfl) (Set.mem_univ _) () (by rw [expect_bar])) $$ [HatB Hcr6 HL]
  · isplitr; · iapply (P3_rec_inv m ρ K (c, none)); iexact Hrec
    isplitl [Hcr6]; · iexact Hcr6
    isplitl [HL]; · iexact HL
    isplitr; · iapply (P3_mayWait_bar (F := F) c); iexact Hlev
    iexact HatB
  iintro ⟨HL, HatB, -, Hpay⟩
  rw [hO]
  ihave Hpay' := (Entails.of_eq (rest_bar m ρ c)) $$ Hpay
  icases Hpay' with ⟨Hb0, Hb1, Hb2, Hb3, Hb4, Hb5⟩
  ihave Htok' := (Entails.of_eq (P3_bigSep_fin6 (fun d => tokRS (F := F) c d))) $$ Htok
  icases Htok' with ⟨Ht0, Ht1, Ht2, Ht3, Ht4, Ht5⟩
  ihave Hx' := (carve_x c (xstg m ρ c)).1 $$ Hx
  icases Hx' with ⟨HxL, ⟨Hs0, Hr0⟩, ⟨Hs1, Hr1⟩, ⟨Hs2, Hr2⟩, ⟨Hs3, Hr3⟩⟩
  ihave Hs0 := (Entails.of_eq (show (((srcM 0).view.loc (c : Thread nD τ) ↦[(srcM 0).view.set]{qOf 0} xstg m ρ c) : sProp 𝕄) = srcPts m ρ c 0 from rfl)) $$ Hs0
  ihave Hs1 := (Entails.of_eq (show (((srcM 1).view.loc (c : Thread nD τ) ↦[(srcM 1).view.set]{qOf 1} xstg m ρ c) : sProp 𝕄) = srcPts m ρ c 1 from rfl)) $$ Hs1
  ihave Hs2 := (Entails.of_eq (show (((srcM 2).view.loc (c : Thread nD τ) ↦[(srcM 2).view.set]{qOf 2} xstg m ρ c) : sProp 𝕄) = srcPts m ρ c 2 from rfl)) $$ Hs2
  ihave Hs3 := (Entails.of_eq (show (((srcM 3).view.loc (c : Thread nD τ) ↦[(srcM 3).view.set]{qOf 3} xstg m ρ c) : sProp 𝕄) = srcPts m ρ c 3 from rfl)) $$ Hs3
  ihave Hs4 := (Entails.of_eq (show (((srcM 4).view.loc (c : Thread nD τ) ↦[(srcM 4).view.set]{fullShare} sbuf m ρ c) : sProp 𝕄) = srcPts m ρ c 4 from rfl)) $$ Hs4
  ihave Hs5 := (Entails.of_eq (show (((srcM 5).view.loc (c : Thread nD τ) ↦[(srcM 5).view.set]{fullShare} sbuf m ρ c) : sProp 𝕄) = srcPts m ρ c 5 from rfl)) $$ Hs5
  iapply (P3_send_step0 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs0 Ht0 Hb0 HL]
  · isplitr; · iexact Hrec
    isplitl [Hs0]; · iexact Hs0
    isplitl [Ht0]; · iexact Ht0
    isplitl [Hb0]; · iexact Hb0
    iexact HL
  iintro ⟨Hs0, HL⟩
  iapply (P3_send_step1 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs1 Ht1 Hb1 HL]
  · isplitr; · iexact Hrec
    isplitl [Hs1]; · iexact Hs1
    isplitl [Ht1]; · iexact Ht1
    isplitl [Hb1]; · iexact Hb1
    iexact HL
  iintro ⟨Hs1, HL⟩
  iapply (P3_send_step2 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs2 Ht2 Hb2 HL]
  · isplitr; · iexact Hrec
    isplitl [Hs2]; · iexact Hs2
    isplitl [Ht2]; · iexact Ht2
    isplitl [Hb2]; · iexact Hb2
    iexact HL
  iintro ⟨Hs2, HL⟩
  iapply (P3_send_step3 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs3 Ht3 Hb3 HL]
  · isplitr; · iexact Hrec
    isplitl [Hs3]; · iexact Hs3
    isplitl [Ht3]; · iexact Ht3
    isplitl [Hb3]; · iexact Hb3
    iexact HL
  iintro ⟨Hs3, HL⟩
  iapply (P3_send_step4 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs4 Ht4 Hb4 HL]
  · isplitr; · iexact Hrec
    isplitl [Hs4]; · iexact Hs4
    isplitl [Ht4]; · iexact Ht4
    isplitl [Hb4]; · iexact Hb4
    iexact HL
  iintro ⟨Hs4, HL⟩
  iapply (P3_send_step5 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs5 Ht5 Hb5 HL]
  · isplitr; · iexact Hrec
    isplitl [Hs5]; · iexact Hs5
    isplitl [Ht5]; · iexact Ht5
    isplitl [Hb5]; · iexact Hb5
    iexact HL
  iintro ⟨Hs5, HL⟩
  iapply (wp_load 𝒱₀ (c : Thread nD τ) none Set.univ (m := xM) (S := xM.view.set) (q := fullShare.left) (View.setOn_subset_set _ _)) $$ HxL
  iintro HxL
  ihave Hsf := (Entails.of_eq (P3_bigSep_fin6 (fun d : Fin 6 => (if has c d = true then cred (tallyAt (sendCell c d) () N) else srcPts m ρ c d : sProp 𝕄))).symm)
    $$ [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  iapply (le_wp_ret _ _ _ _ _)
  isplitr; · ipureintro; rfl
  unfold stC xRest
  isplitr; · iexact Hrec
  isplitr; · iexact Hlev
  isplitl [HatB]; · iexact HatB
  isplitl [HatX]; · iexact HatX
  isplitl [HL]; · iexists _; iexact HL
  isplitl [HcrR]; · iexact HcrR
  isplitl [Hsf]; · iexact Hsf
  isplitl [Hslots]; · iexact Hslots
  isplitl [HxL Hr0 Hr1 Hr2 Hr3]
  · isplitl [HxL]; · iexact HxL
    isplitl [Hr0]; · iexact Hr0
    isplitl [Hr1]; · iexact Hr1
    isplitl [Hr2]; · iexact Hr2
    iexact Hr3
  iexact Hout

end Cert.Kernel.HP
end
-- ==== Proof.KernelPart4.lean ====
/-
  Part 4 of a device's body: the stencil of the block is stored; then, for each direction with a neighbour, the device
  waits for the neighbour's face to land in its slot and adds the plane onto the face of the output that touches the
  neighbour; then it waits for the first three of its own faces to have been read, taking the lent shares of their
  sources back. Each conditional region is proved once, for an arbitrary continuation, by cases on whether there is a
  neighbour in its direction; where there is none the region is skipped and the direction's resources stay as they were.
-/
import proofs.«900363_g7700000000000364_dist_halo3d_v7x_xyz2x2x4_s32_f32_1_alg».proof.Proof.KernelStates
import proofs.«900363_g7700000000000364_dist_halo3d_v7x_xyz2x2x4_s32_f32_1_alg».proof.Proof.KernelLaunch

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem P4_cond_iff (b : Bool) : (Scalar.cmpi .ne (Scalar.extui (bit b)) 0#32 = 1#1) ↔ b = true := by
  cases b <;> decide

theorem P4_src_credit : ∀ d : Fin 6, (srcM d).view.dmaCredit = N := by decide

theorem P4_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

variable (K : Dev nD × CellIx → ℕ) (c : Dev nD)

/-- The receive region of direction 0: wait on the receive cell, add the landed plane onto the face. -/
theorem recv_region0 {α : Type} (J : Prog (TpuEff nD τ sig (Elt F) Λ₀ .tc) α) (Q : α → sProp 𝕄) (v : BitVec 1) (hv : v = bit (has c 0))
    (o : Buf (Elt F) ((c : Thread nD τ).loc cc0_stg1_0)) (f1 : Buf (Elt F) ((c : Thread nD τ).loc cc0_scratch1)) (W : Waits sig Unit) :
    iprop(records m ρ K ∗ credR c 0 ∗ owes (c : Thread nD τ) 0 W ∗ atPos ER (recvCell c 0) 0 ∅ 0
        ∗ (if has c 0 = true then iprop(emp) else slotPts c 0 f1) ∗ outPts c o)
      ⊢ iprop((((∃ W', owes (c : Thread nD τ) 0 W') ∗ atPos ER (recvCell c 0) (rnd c 0) ∅ 0
            ∗ (if has c 0 = true then slotPts c 0 (landed m ρ c 0) else slotPts c 0 f1) ∗ outPts c (addStep m ρ c 0 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 0) (srcM 0) (slotM 0) ((View.wordExact_bits rfl).reshape _ _) ((View.wordExact_bits rfl).reshape _ _)) >>= fun _ =>
               Prog.lift (.load oM rX0.toLoadRect (View.loadsAt_vmem h_S1x32x32)) >>= fun v154 =>
               Prog.lift (.load rM rR0.toLoadRect (View.loadsAt_vmem h_S1x32x32)) >>= fun v156 =>
               Prog.lift (.load oM rX0.toLoadRect (View.loadsAt_vmem h_S1x32x32)) >>= fun _ =>
               Prog.lift (.store oM rX0 (k0_pay21 v154 v156) Finset.univ (View.stores_vmem_bits_univ h_S1x32x32 rfl) (.inl rfl)) >>= fun _ => J)
            else J) Q) := by
  subst hv
  by_cases hh : has c 0 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 0))) $$ Hinv
    iapply (Rounds.wp_wait_rest_token 𝒱₀ ER (exRd m ρ) (c : Thread nD τ) none (κ := K (c, some (true, 0)))
        (wpE_waitDma2_eq 𝒱₀ (c : Thread nD τ) none Set.univ) (Set.mem_univ _) () (O := 0) (W := W) (R := 0) (m := 0) (T := ∅)
        (by rw [Nat.zero_add, expect_recv m ρ c 0 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 0 hh)) $$ Hpay
    unfold recvPay slotPts
    have hS : rM.view.setOn rR0.toLoadRect.set ⊆ slotSet 0 := by
      rw [show slotSet 0 = _ from slot_view_set 0 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 0) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rX0) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 0))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 1: wait on the receive cell, add the landed plane onto the face. -/
theorem recv_region1 {α : Type} (J : Prog (TpuEff nD τ sig (Elt F) Λ₀ .tc) α) (Q : α → sProp 𝕄) (v : BitVec 1) (hv : v = bit (has c 1))
    (o : Buf (Elt F) ((c : Thread nD τ).loc cc0_stg1_0)) (f1 : Buf (Elt F) ((c : Thread nD τ).loc cc0_scratch1)) (W : Waits sig Unit) :
    iprop(records m ρ K ∗ credR c 1 ∗ owes (c : Thread nD τ) 0 W ∗ atPos ER (recvCell c 1) 0 ∅ 0
        ∗ (if has c 1 = true then iprop(emp) else slotPts c 1 f1) ∗ outPts c o)
      ⊢ iprop((((∃ W', owes (c : Thread nD τ) 0 W') ∗ atPos ER (recvCell c 1) (rnd c 1) ∅ 0
            ∗ (if has c 1 = true then slotPts c 1 (landed m ρ c 1) else slotPts c 1 f1) ∗ outPts c (addStep m ρ c 1 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 1) (srcM 1) (slotM 1) ((View.wordExact_bits rfl).reshape _ _) ((View.wordExact_bits rfl).reshape _ _)) >>= fun _ =>
               Prog.lift (.load oM rX31.toLoadRect (View.loadsAt_vmem h_S1x32x32)) >>= fun v154 =>
               Prog.lift (.load rM rR1.toLoadRect (View.loadsAt_vmem h_S1x32x32)) >>= fun v156 =>
               Prog.lift (.load oM rX31.toLoadRect (View.loadsAt_vmem h_S1x32x32)) >>= fun _ =>
               Prog.lift (.store oM rX31 (k0_pay22 v154 v156) Finset.univ (View.stores_vmem_bits_univ h_S1x32x32 rfl) (.inl rfl)) >>= fun _ => J)
            else J) Q) := by
  subst hv
  by_cases hh : has c 1 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 1))) $$ Hinv
    iapply (Rounds.wp_wait_rest_token 𝒱₀ ER (exRd m ρ) (c : Thread nD τ) none (κ := K (c, some (true, 1)))
        (wpE_waitDma2_eq 𝒱₀ (c : Thread nD τ) none Set.univ) (Set.mem_univ _) () (O := 0) (W := W) (R := 0) (m := 0) (T := ∅)
        (by rw [Nat.zero_add, expect_recv m ρ c 1 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 1 hh)) $$ Hpay
    unfold recvPay slotPts
    have hS : rM.view.setOn rR1.toLoadRect.set ⊆ slotSet 1 := by
      rw [show slotSet 1 = _ from slot_view_set 1 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 1) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rX31) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 1))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 2: wait on the receive cell, add the landed plane onto the face. -/
theorem recv_region2 {α : Type} (J : Prog (TpuEff nD τ sig (Elt F) Λ₀ .tc) α) (Q : α → sProp 𝕄) (v : BitVec 1) (hv : v = bit (has c 2))
    (o : Buf (Elt F) ((c : Thread nD τ).loc cc0_stg1_0)) (f1 : Buf (Elt F) ((c : Thread nD τ).loc cc0_scratch1)) (W : Waits sig Unit) :
    iprop(records m ρ K ∗ credR c 2 ∗ owes (c : Thread nD τ) 0 W ∗ atPos ER (recvCell c 2) 0 ∅ 0
        ∗ (if has c 2 = true then iprop(emp) else slotPts c 2 f1) ∗ outPts c o)
      ⊢ iprop((((∃ W', owes (c : Thread nD τ) 0 W') ∗ atPos ER (recvCell c 2) (rnd c 2) ∅ 0
            ∗ (if has c 2 = true then slotPts c 2 (landed m ρ c 2) else slotPts c 2 f1) ∗ outPts c (addStep m ρ c 2 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 2) (srcM 2) (slotM 2) ((View.wordExact_bits rfl).reshape _ _) ((View.wordExact_bits rfl).reshape _ _)) >>= fun _ =>
               Prog.lift (.load oM rY0.toLoadRect (View.loadsAt_vmem h_S32x1x32)) >>= fun v154 =>
               Prog.lift (.load rM rR2.toLoadRect (View.loadsAt_vmem h_S1x32x32)) >>= fun v156 =>
               Prog.lift (.load oM rY0.toLoadRect (View.loadsAt_vmem h_S32x1x32)) >>= fun _ =>
               Prog.lift (.store oM rY0 (k0_pay23 v154 v156) Finset.univ (View.stores_vmem_bits_univ h_S32x1x32 rfl) (.inl rfl)) >>= fun _ => J)
            else J) Q) := by
  subst hv
  by_cases hh : has c 2 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 2))) $$ Hinv
    iapply (Rounds.wp_wait_rest_token 𝒱₀ ER (exRd m ρ) (c : Thread nD τ) none (κ := K (c, some (true, 2)))
        (wpE_waitDma2_eq 𝒱₀ (c : Thread nD τ) none Set.univ) (Set.mem_univ _) () (O := 0) (W := W) (R := 0) (m := 0) (T := ∅)
        (by rw [Nat.zero_add, expect_recv m ρ c 2 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 2 hh)) $$ Hpay
    unfold recvPay slotPts
    have hS : rM.view.setOn rR2.toLoadRect.set ⊆ slotSet 2 := by
      rw [show slotSet 2 = _ from slot_view_set 2 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 2) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rY0) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 2))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 3: wait on the receive cell, add the landed plane onto the face. -/
theorem recv_region3 {α : Type} (J : Prog (TpuEff nD τ sig (Elt F) Λ₀ .tc) α) (Q : α → sProp 𝕄) (v : BitVec 1) (hv : v = bit (has c 3))
    (o : Buf (Elt F) ((c : Thread nD τ).loc cc0_stg1_0)) (f1 : Buf (Elt F) ((c : Thread nD τ).loc cc0_scratch1)) (W : Waits sig Unit) :
    iprop(records m ρ K ∗ credR c 3 ∗ owes (c : Thread nD τ) 0 W ∗ atPos ER (recvCell c 3) 0 ∅ 0
        ∗ (if has c 3 = true then iprop(emp) else slotPts c 3 f1) ∗ outPts c o)
      ⊢ iprop((((∃ W', owes (c : Thread nD τ) 0 W') ∗ atPos ER (recvCell c 3) (rnd c 3) ∅ 0
            ∗ (if has c 3 = true then slotPts c 3 (landed m ρ c 3) else slotPts c 3 f1) ∗ outPts c (addStep m ρ c 3 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 3) (srcM 3) (slotM 3) ((View.wordExact_bits rfl).reshape _ _) ((View.wordExact_bits rfl).reshape _ _)) >>= fun _ =>
               Prog.lift (.load oM rY31.toLoadRect (View.loadsAt_vmem h_S32x1x32)) >>= fun v154 =>
               Prog.lift (.load rM rR3.toLoadRect (View.loadsAt_vmem h_S1x32x32)) >>= fun v156 =>
               Prog.lift (.load oM rY31.toLoadRect (View.loadsAt_vmem h_S32x1x32)) >>= fun _ =>
               Prog.lift (.store oM rY31 (k0_pay24 v154 v156) Finset.univ (View.stores_vmem_bits_univ h_S32x1x32 rfl) (.inl rfl)) >>= fun _ => J)
            else J) Q) := by
  subst hv
  by_cases hh : has c 3 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 3))) $$ Hinv
    iapply (Rounds.wp_wait_rest_token 𝒱₀ ER (exRd m ρ) (c : Thread nD τ) none (κ := K (c, some (true, 3)))
        (wpE_waitDma2_eq 𝒱₀ (c : Thread nD τ) none Set.univ) (Set.mem_univ _) () (O := 0) (W := W) (R := 0) (m := 0) (T := ∅)
        (by rw [Nat.zero_add, expect_recv m ρ c 3 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 3 hh)) $$ Hpay
    unfold recvPay slotPts
    have hS : rM.view.setOn rR3.toLoadRect.set ⊆ slotSet 3 := by
      rw [show slotSet 3 = _ from slot_view_set 3 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 3) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rY31) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 3))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 4: wait on the receive cell, add the landed plane onto the face. -/
theorem recv_region4 {α : Type} (J : Prog (TpuEff nD τ sig (Elt F) Λ₀ .tc) α) (Q : α → sProp 𝕄) (v : BitVec 1) (hv : v = bit (has c 4))
    (o : Buf (Elt F) ((c : Thread nD τ).loc cc0_stg1_0)) (f1 : Buf (Elt F) ((c : Thread nD τ).loc cc0_scratch1)) (W : Waits sig Unit) :
    iprop(records m ρ K ∗ credR c 4 ∗ owes (c : Thread nD τ) 0 W ∗ atPos ER (recvCell c 4) 0 ∅ 0
        ∗ (if has c 4 = true then iprop(emp) else slotPts c 4 f1) ∗ outPts c o)
      ⊢ iprop((((∃ W', owes (c : Thread nD τ) 0 W') ∗ atPos ER (recvCell c 4) (rnd c 4) ∅ 0
            ∗ (if has c 4 = true then slotPts c 4 (landed m ρ c 4) else slotPts c 4 f1) ∗ outPts c (addStep m ρ c 4 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 4) (srcM 4) (slotM 4) ((View.wordExact_bits rfl).reshape _ _) ((View.wordExact_bits rfl).reshape _ _)) >>= fun _ =>
               Prog.lift (.load oM rZ0.toLoadRect (View.loadsAt_vmem h_S32x32x1)) >>= fun v154 =>
               Prog.lift (.load rM rR4.toLoadRect (View.loadsAt_vmem h_S1x32x32)) >>= fun v156 =>
               Prog.lift (.load oM rZ0.toLoadRect (View.loadsAt_vmem h_S32x32x1)) >>= fun _ =>
               Prog.lift (.store oM rZ0 (k0_pay25 v154 v156) Finset.univ (View.stores_vmem_bits_univ h_S32x32x1 rfl) (.inl rfl)) >>= fun _ => J)
            else J) Q) := by
  subst hv
  by_cases hh : has c 4 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 4))) $$ Hinv
    iapply (Rounds.wp_wait_rest_token 𝒱₀ ER (exRd m ρ) (c : Thread nD τ) none (κ := K (c, some (true, 4)))
        (wpE_waitDma2_eq 𝒱₀ (c : Thread nD τ) none Set.univ) (Set.mem_univ _) () (O := 0) (W := W) (R := 0) (m := 0) (T := ∅)
        (by rw [Nat.zero_add, expect_recv m ρ c 4 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 4 hh)) $$ Hpay
    unfold recvPay slotPts
    have hS : rM.view.setOn rR4.toLoadRect.set ⊆ slotSet 4 := by
      rw [show slotSet 4 = _ from slot_view_set 4 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 4) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rZ0) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 4))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 5: wait on the receive cell, add the landed plane onto the face. -/
theorem recv_region5 {α : Type} (J : Prog (TpuEff nD τ sig (Elt F) Λ₀ .tc) α) (Q : α → sProp 𝕄) (v : BitVec 1) (hv : v = bit (has c 5))
    (o : Buf (Elt F) ((c : Thread nD τ).loc cc0_stg1_0)) (f1 : Buf (Elt F) ((c : Thread nD τ).loc cc0_scratch1)) (W : Waits sig Unit) :
    iprop(records m ρ K ∗ credR c 5 ∗ owes (c : Thread nD τ) 0 W ∗ atPos ER (recvCell c 5) 0 ∅ 0
        ∗ (if has c 5 = true then iprop(emp) else slotPts c 5 f1) ∗ outPts c o)
      ⊢ iprop((((∃ W', owes (c : Thread nD τ) 0 W') ∗ atPos ER (recvCell c 5) (rnd c 5) ∅ 0
            ∗ (if has c 5 = true then slotPts c 5 (landed m ρ c 5) else slotPts c 5 f1) ∗ outPts c (addStep m ρ c 5 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 5) (srcM 5) (slotM 5) ((View.wordExact_bits rfl).reshape _ _) ((View.wordExact_bits rfl).reshape _ _)) >>= fun _ =>
               Prog.lift (.load oM rZ31.toLoadRect (View.loadsAt_vmem h_S32x32x1)) >>= fun v154 =>
               Prog.lift (.load rM rR5.toLoadRect (View.loadsAt_vmem h_S1x32x32)) >>= fun v156 =>
               Prog.lift (.load oM rZ31.toLoadRect (View.loadsAt_vmem h_S32x32x1)) >>= fun _ =>
               Prog.lift (.store oM rZ31 (k0_pay26 v154 v156) Finset.univ (View.stores_vmem_bits_univ h_S32x32x1 rfl) (.inl rfl)) >>= fun _ => J)
            else J) Q) := by
  subst hv
  by_cases hh : has c 5 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 5))) $$ Hinv
    iapply (Rounds.wp_wait_rest_token 𝒱₀ ER (exRd m ρ) (c : Thread nD τ) none (κ := K (c, some (true, 5)))
        (wpE_waitDma2_eq 𝒱₀ (c : Thread nD τ) none Set.univ) (Set.mem_univ _) () (O := 0) (W := W) (R := 0) (m := 0) (T := ∅)
        (by rw [Nat.zero_add, expect_recv m ρ c 5 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 5 hh)) $$ Hpay
    unfold recvPay slotPts
    have hS : rM.view.setOn rR5.toLoadRect.set ⊆ slotSet 5 := by
      rw [show slotSet 5 = _ from slot_view_set 5 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 5) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rZ31) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 5))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The send region of direction 0: wait on the send cell and take the lent source back. -/
theorem send_region0 {α : Type} (J : Prog (TpuEff nD τ sig (Elt F) Λ₀ .tc) α) (Q : α → sProp 𝕄) (v : BitVec 1) (hv : v = bit (has c 0))
    (W : Waits sig Unit) :
    iprop(records m ρ K ∗ (if has c 0 = true then cred (tallyAt (sendCell c 0) () N) else srcPts m ρ c 0)
        ∗ owes (c : Thread nD τ) 0 W ∗ atPos ER (sendCell c 0) 0 ∅ 0)
      ⊢ iprop((((∃ W', owes (c : Thread nD τ) 0 W') ∗ atPos ER (sendCell c 0) (rnd c 0) ∅ 0 ∗ srcPts m ρ c 0)
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (sendS 0) (slotM 0) (srcM 0) ((View.wordExact_bits rfl).reshape _ _) ((View.wordExact_bits rfl).reshape _ _)) >>= fun _ => J)
            else J) Q) := by
  subst hv
  by_cases hh : has c 0 = true
  · rw [dif_pos ((P4_cond_iff _).mpr hh)]
    unfold rnd
    simp only [if_pos hh]
    iintro ⟨#Hrec, Hcred, HO, Hat⟩ Hk
    unfold records
    icases Hrec with ⟨#Hinv, -⟩
    ihave HI := (inv_at m ρ K (c, some (false, 0))) $$ Hinv
    ihave Hcred := (Entails.of_eq (show (cred (tallyAt (sendCell c 0) () N) : sProp 𝕄)
      = cred (tallyAt (sendCell c 0) () (srcM 0).view.dmaCredit) by rw [P4_src_credit])) $$ Hcred
    iapply (Rounds.wp_wait_rest_token 𝒱₀ ER (exRd m ρ) (c : Thread nD τ) none (κ := K (c, some (false, 0)))
        (wpE_waitDma2_eq 𝒱₀ (c : Thread nD τ) none Set.univ) (Set.mem_univ _) () (O := 0) (W := W) (R := 0) (m := 0) (T := ∅)
        (by rw [Nat.zero_add, expect_send m ρ c 0 hh, P4_src_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hsrc := (Entails.of_eq (rest_send m ρ c 0 hh)) $$ Hpay
    unfold sendPay
    iapply Hk
    isplitl [HO]; · iexists _; iexact HO
    isplitl [Hat]; · iexact Hat
    iexact Hsrc
  · have hc : ¬ (Scalar.cmpi .ne (Scalar.extui (bit (has c 0))) 0#32 = 1#1) := fun h => hh ((P4_cond_iff _).mp h)
    rw [dif_neg hc]
    unfold rnd
    simp only [if_neg hh]
    iintro ⟨-, Hsrc, HO, Hat⟩ Hk
    iapply Hk
    isplitl [HO]; · iexists _; iexact HO
    isplitl [Hat]; · iexact Hat
    iexact Hsrc

/-- The send region of direction 1: wait on the send cell and take the lent source back. -/
theorem send_region1 {α : Type} (J : Prog (TpuEff nD τ sig (Elt F) Λ₀ .tc) α) (Q : α → sProp 𝕄) (v : BitVec 1) (hv : v = bit (has c 1))
    (W : Waits sig Unit) :
    iprop(records m ρ K ∗ (if has c 1 = true then cred (tallyAt (sendCell c 1) () N) else srcPts m ρ c 1)
        ∗ owes (c : Thread nD τ) 0 W ∗ atPos ER (sendCell c 1) 0 ∅ 0)
      ⊢ iprop((((∃ W', owes (c : Thread nD τ) 0 W') ∗ atPos ER (sendCell c 1) (rnd c 1) ∅ 0 ∗ srcPts m ρ c 1)
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (sendS 1) (slotM 1) (srcM 1) ((View.wordExact_bits rfl).reshape _ _) ((View.wordExact_bits rfl).reshape _ _)) >>= fun _ => J)
            else J) Q) := by
  subst hv
  by_cases hh : has c 1 = true
  · rw [dif_pos ((P4_cond_iff _).mpr hh)]
    unfold rnd
    simp only [if_pos hh]
    iintro ⟨#Hrec, Hcred, HO, Hat⟩ Hk
    unfold records
    icases Hrec with ⟨#Hinv, -⟩
    ihave HI := (inv_at m ρ K (c, some (false, 1))) $$ Hinv
    ihave Hcred := (Entails.of_eq (show (cred (tallyAt (sendCell c 1) () N) : sProp 𝕄)
      = cred (tallyAt (sendCell c 1) () (srcM 1).view.dmaCredit) by rw [P4_src_credit])) $$ Hcred
    iapply (Rounds.wp_wait_rest_token 𝒱₀ ER (exRd m ρ) (c : Thread nD τ) none (κ := K (c, some (false, 1)))
        (wpE_waitDma2_eq 𝒱₀ (c : Thread nD τ) none Set.univ) (Set.mem_univ _) () (O := 0) (W := W) (R := 0) (m := 0) (T := ∅)
        (by rw [Nat.zero_add, expect_send m ρ c 1 hh, P4_src_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hsrc := (Entails.of_eq (rest_send m ρ c 1 hh)) $$ Hpay
    unfold sendPay
    iapply Hk
    isplitl [HO]; · iexists _; iexact HO
    isplitl [Hat]; · iexact Hat
    iexact Hsrc
  · have hc : ¬ (Scalar.cmpi .ne (Scalar.extui (bit (has c 1))) 0#32 = 1#1) := fun h => hh ((P4_cond_iff _).mp h)
    rw [dif_neg hc]
    unfold rnd
    simp only [if_neg hh]
    iintro ⟨-, Hsrc, HO, Hat⟩ Hk
    iapply Hk
    isplitl [HO]; · iexists _; iexact HO
    isplitl [Hat]; · iexact Hat
    iexact Hsrc

/-- The send region of direction 2: wait on the send cell and take the lent source back. -/
theorem send_region2 {α : Type} (J : Prog (TpuEff nD τ sig (Elt F) Λ₀ .tc) α) (Q : α → sProp 𝕄) (v : BitVec 1) (hv : v = bit (has c 2))
    (W : Waits sig Unit) :
    iprop(records m ρ K ∗ (if has c 2 = true then cred (tallyAt (sendCell c 2) () N) else srcPts m ρ c 2)
        ∗ owes (c : Thread nD τ) 0 W ∗ atPos ER (sendCell c 2) 0 ∅ 0)
      ⊢ iprop((((∃ W', owes (c : Thread nD τ) 0 W') ∗ atPos ER (sendCell c 2) (rnd c 2) ∅ 0 ∗ srcPts m ρ c 2)
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (sendS 2) (slotM 2) (srcM 2) ((View.wordExact_bits rfl).reshape _ _) ((View.wordExact_bits rfl).reshape _ _)) >>= fun _ => J)
            else J) Q) := by
  subst hv
  by_cases hh : has c 2 = true
  · rw [dif_pos ((P4_cond_iff _).mpr hh)]
    unfold rnd
    simp only [if_pos hh]
    iintro ⟨#Hrec, Hcred, HO, Hat⟩ Hk
    unfold records
    icases Hrec with ⟨#Hinv, -⟩
    ihave HI := (inv_at m ρ K (c, some (false, 2))) $$ Hinv
    ihave Hcred := (Entails.of_eq (show (cred (tallyAt (sendCell c 2) () N) : sProp 𝕄)
      = cred (tallyAt (sendCell c 2) () (srcM 2).view.dmaCredit) by rw [P4_src_credit])) $$ Hcred
    iapply (Rounds.wp_wait_rest_token 𝒱₀ ER (exRd m ρ) (c : Thread nD τ) none (κ := K (c, some (false, 2)))
        (wpE_waitDma2_eq 𝒱₀ (c : Thread nD τ) none Set.univ) (Set.mem_univ _) () (O := 0) (W := W) (R := 0) (m := 0) (T := ∅)
        (by rw [Nat.zero_add, expect_send m ρ c 2 hh, P4_src_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hsrc := (Entails.of_eq (rest_send m ρ c 2 hh)) $$ Hpay
    unfold sendPay
    iapply Hk
    isplitl [HO]; · iexists _; iexact HO
    isplitl [Hat]; · iexact Hat
    iexact Hsrc
  · have hc : ¬ (Scalar.cmpi .ne (Scalar.extui (bit (has c 2))) 0#32 = 1#1) := fun h => hh ((P4_cond_iff _).mp h)
    rw [dif_neg hc]
    unfold rnd
    simp only [if_neg hh]
    iintro ⟨-, Hsrc, HO, Hat⟩ Hk
    iapply Hk
    isplitl [HO]; · iexists _; iexact HO
    isplitl [Hat]; · iexact Hat
    iexact Hsrc

/-- The head of part 4: a dead load of the output buffer, then the stencil stored through the whole rectangle. -/
theorem head_run {α : Type} (J : Prog (TpuEff nD τ sig (Elt F) Λ₀ .tc) α) (Q : α → sProp 𝕄)
    (X : Buf (Elt F) ((c : Thread nD τ).loc cc0_stg0_0)) (g1 : Buf (Elt F) ((c : Thread nD τ).loc cc0_stg1_0)) :
    outPts c g1
      ⊢ iprop((outPts c (out0 X) -∗ wp frame (wpE (defs₀ (F := F)) 𝒱₀ (c : Thread nD τ) none) Set.univ J Q)
        -∗ wp frame (wpE (defs₀ (F := F)) 𝒱₀ (c : Thread nD τ) none) Set.univ
            (Prog.lift (.load oM rAll.toLoadRect (View.loadsAt_vmem h_S32x32x32)) >>= fun _ =>
             Prog.lift (.store oM rAll (out0 X) Finset.univ (View.stores_vmem_bits_univ h_S32x32x32 rfl) (.inl rfl)) >>= fun _ => J) Q) := by
  unfold outPts
  iintro Hout Hk
  iapply (wp_load 𝒱₀ (c : Thread nD τ) none Set.univ (m := oM) (S := oM.view.set) (View.setOn_subset_set _ _)) $$ Hout; iintro Hout
  iapply (wp_store 𝒱₀ (c : Thread nD τ) none Set.univ (m := oM) (r := rAll) (Mk := Finset.univ) (S := oM.view.set)
    ((View.setOn_subset_set _ _).trans (View.set_slice_subset _ _))) $$ Hout; iintro Hout
  iapply Hk
  have e : ((oM.access rAll : View sig .tc _ _ _)).write (Elt F) g1 (out0 X) Finset.univ = out0 X :=
    Memref.write_access_unit_zero_univ (Elt F) cc0_stg1_0 (off := ![0, 0, 0])
      (by funext a; match a with | ⟨0, _⟩ => rfl | ⟨1, _⟩ => rfl | ⟨2, _⟩ => rfl)
      inb_S32x32x32_S32x32x32_0_0_0 g1 (out0 X)
  rw [e]
  iexact Hout

/-- PART 4 of the body: from the state after part 3 to the state after part 4. -/
theorem part4_run (g1 : Buf (Elt F) ((c : Thread nD τ).loc cc0_stg1_0)) (f1 : Buf (Elt F) ((c : Thread nD τ).loc cc0_scratch1))
    (v2 v5 v8 : BitVec 32) (v9 v10 v11 v12 v13 v14 : BitVec 1) (v15 v16 v17 v18 v19 v20 : BitVec 32)
    (h9 : v9 = bit (has c 0)) (h10 : v10 = bit (has c 1)) (h11 : v11 = bit (has c 2)) (h12 : v12 = bit (has c 3)) (h13 : v13 = bit (has c 4)) (h14 : v14 = bit (has c 5)) :
    stC m ρ K c (xstg m ρ c) g1 f1
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 v2 v5 v8 v9 v10 v11 v12 v13 v14 v15 v16 v17 v18 v19 v20
            (k0_pay10 (xM.view.readAt (Elt F) rAll.toLoadRect (xstg m ρ c))) (k0_pay13 (F := F)) (k0_pay14 (xM.view.readAt (Elt F) rAll.toLoadRect (xstg m ρ c))) (k0_pay15 (xM.view.readAt (Elt F) rAll.toLoadRect (xstg m ρ c))) (k0_pay16 (xM.view.readAt (Elt F) rAll.toLoadRect (xstg m ρ c))) (k0_pay17 (xM.view.readAt (Elt F) rAll.toLoadRect (xstg m ρ c))) (k0_pay18 (xM.view.readAt (Elt F) rAll.toLoadRect (xstg m ρ c))) (k0_pay19 (xM.view.readAt (Elt F) rAll.toLoadRect (xstg m ρ c))))
          (fun _ => stD m ρ K c (xstg m ρ c) f1) := by
  rw [k0_part4_eq_skeleton]
  unfold k0_part4_skel stC atXfer
  rw [P4_bigSep_fin6, P4_bigSep_fin6, P4_bigSep_fin6]
  iintro ⟨#Hrec, Hlev, HatB, ⟨⟨Hs0, Hr0⟩, ⟨Hs1, Hr1⟩, ⟨Hs2, Hr2⟩, ⟨Hs3, Hr3⟩, ⟨Hs4, Hr4⟩, Hs5, Hr5⟩, ⟨%W0, HO⟩, ⟨Hc0, Hc1, Hc2, Hc3, Hc4, Hc5⟩, ⟨Hq0, Hq1, Hq2, Hq3, Hq4, Hq5⟩, ⟨Hl0, Hl1, Hl2, Hl3, Hl4, Hl5⟩, HxR, Hout⟩
  iapply (head_run c _ _ (xstg m ρ c) g1) $$ Hout; iintro Hout
  iapply (recv_region0 m ρ K c _ _ v9 h9 _ f1 W0) $$ [Hc0 HO Hr0 Hl0 Hout]
  · isplitr; · iexact Hrec
    isplitl [Hc0]; · iexact Hc0
    isplitl [HO]; · iexact HO
    isplitl [Hr0]; · iexact Hr0
    isplitl [Hl0]; · iexact Hl0
    iexact Hout
  iintro ⟨⟨%W1, HO⟩, Hr0, Hl0, Hout⟩
  iapply (recv_region1 m ρ K c _ _ v10 h10 _ f1 W1) $$ [Hc1 HO Hr1 Hl1 Hout]
  · isplitr; · iexact Hrec
    isplitl [Hc1]; · iexact Hc1
    isplitl [HO]; · iexact HO
    isplitl [Hr1]; · iexact Hr1
    isplitl [Hl1]; · iexact Hl1
    iexact Hout
  iintro ⟨⟨%W2, HO⟩, Hr1, Hl1, Hout⟩
  iapply (recv_region2 m ρ K c _ _ v11 h11 _ f1 W2) $$ [Hc2 HO Hr2 Hl2 Hout]
  · isplitr; · iexact Hrec
    isplitl [Hc2]; · iexact Hc2
    isplitl [HO]; · iexact HO
    isplitl [Hr2]; · iexact Hr2
    isplitl [Hl2]; · iexact Hl2
    iexact Hout
  iintro ⟨⟨%W3, HO⟩, Hr2, Hl2, Hout⟩
  iapply (recv_region3 m ρ K c _ _ v12 h12 _ f1 W3) $$ [Hc3 HO Hr3 Hl3 Hout]
  · isplitr; · iexact Hrec
    isplitl [Hc3]; · iexact Hc3
    isplitl [HO]; · iexact HO
    isplitl [Hr3]; · iexact Hr3
    isplitl [Hl3]; · iexact Hl3
    iexact Hout
  iintro ⟨⟨%W4, HO⟩, Hr3, Hl3, Hout⟩
  iapply (recv_region4 m ρ K c _ _ v13 h13 _ f1 W4) $$ [Hc4 HO Hr4 Hl4 Hout]
  · isplitr; · iexact Hrec
    isplitl [Hc4]; · iexact Hc4
    isplitl [HO]; · iexact HO
    isplitl [Hr4]; · iexact Hr4
    isplitl [Hl4]; · iexact Hl4
    iexact Hout
  iintro ⟨⟨%W5, HO⟩, Hr4, Hl4, Hout⟩
  iapply (recv_region5 m ρ K c _ _ v14 h14 _ f1 W5) $$ [Hc5 HO Hr5 Hl5 Hout]
  · isplitr; · iexact Hrec
    isplitl [Hc5]; · iexact Hc5
    isplitl [HO]; · iexact HO
    isplitl [Hr5]; · iexact Hr5
    isplitl [Hl5]; · iexact Hl5
    iexact Hout
  iintro ⟨⟨%W6, HO⟩, Hr5, Hl5, Hout⟩
  iapply (send_region0 m ρ K c _ _ v9 h9 W6) $$ [Hq0 HO Hs0]
  · isplitr; · iexact Hrec
    isplitl [Hq0]; · iexact Hq0
    isplitl [HO]; · iexact HO
    iexact Hs0
  iintro ⟨⟨%W7, HO⟩, Hs0, Hq0⟩
  iapply (send_region1 m ρ K c _ _ v10 h10 W7) $$ [Hq1 HO Hs1]
  · isplitr; · iexact Hrec
    isplitl [Hq1]; · iexact Hq1
    isplitl [HO]; · iexact HO
    iexact Hs1
  iintro ⟨⟨%W8, HO⟩, Hs1, Hq1⟩
  iapply (send_region2 m ρ K c _ _ v11 h11 W8) $$ [Hq2 HO Hs2]
  · isplitr; · iexact Hrec
    isplitl [Hq2]; · iexact Hq2
    isplitl [HO]; · iexact HO
    iexact Hs2
  iintro ⟨⟨%W9, HO⟩, Hs2, Hq2⟩
  iapply (le_wp_ret _ _ _ PUnit.unit _)
  unfold stD atXfer
  rw [P4_bigSep_fin6, P4_bigSep_fin6, P4_bigSep_fin6]
  simp only [if_pos (show ((0 : Fin 6).val < 3) by decide), if_pos (show ((1 : Fin 6).val < 3) by decide),
    if_pos (show ((2 : Fin 6).val < 3) by decide), if_neg (show ¬((3 : Fin 6).val < 3) by decide),
    if_neg (show ¬((4 : Fin 6).val < 3) by decide), if_neg (show ¬((5 : Fin 6).val < 3) by decide)]
  isplitr; · iexact Hrec
  isplitl [Hlev]; · iexact Hlev
  isplitl [HatB]; · iexact HatB
  isplitl [Hs0 Hr0 Hs1 Hr1 Hs2 Hr2 Hs3 Hr3 Hs4 Hr4 Hs5 Hr5]
  · isplitl [Hs0 Hr0]
    · isplitl [Hs0]; · iexact Hs0
      iexact Hr0
    isplitl [Hs1 Hr1]
    · isplitl [Hs1]; · iexact Hs1
      iexact Hr1
    isplitl [Hs2 Hr2]
    · isplitl [Hs2]; · iexact Hs2
      iexact Hr2
    isplitl [Hs3 Hr3]
    · isplitl [Hs3]; · iexact Hs3
      iexact Hr3
    isplitl [Hs4 Hr4]
    · isplitl [Hs4]; · iexact Hs4
      iexact Hr4
    isplitl [Hs5]; · iexact Hs5
    iexact Hr5

  isplitl [HO]; · iexists _; iexact HO
  isplitl [Hq0 Hq1 Hq2 Hq3 Hq4 Hq5]
  · isplitl [Hq0]
    · iexact Hq0
    isplitl [Hq1]
    · iexact Hq1
    isplitl [Hq2]
    · iexact Hq2
    isplitl [Hq3]
    · iexact Hq3
    isplitl [Hq4]
    · iexact Hq4
    iexact Hq5

  isplitl [Hl0 Hl1 Hl2 Hl3 Hl4 Hl5]
  · isplitl [Hl0]
    · iexact Hl0
    isplitl [Hl1]
    · iexact Hl1
    isplitl [Hl2]
    · iexact Hl2
    isplitl [Hl3]
    · iexact Hl3
    isplitl [Hl4]
    · iexact Hl4
    iexact Hl5

  isplitl [HxR]; · iexact HxR
  iexact Hout

end Cert.Kernel.HP

end
-- ==== Proof.KernelTail.lean ====
/-
  The two kinds of region the body's tail is made of, each under a test of one mesh coordinate.

  * A wait on send cell `d`: where there is a neighbour the device holds the cell's credit, takes the round and gets the
    lent share of the face's source back; where there is none the source never left and the cell stays at round 0.
  * The store of zero on face `d` of the output, which runs exactly where there is NO neighbour.
-/
import proofs.«900363_g7700000000000364_dist_halo3d_v7x_xyz2x2x4_s32_f32_1_alg».proof.Proof.KernelWords
import proofs.«900363_g7700000000000364_dist_halo3d_v7x_xyz2x2x4_s32_f32_1_alg».proof.Proof.KernelLaunch

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every face's source credits what a slot does. -/
theorem srcM_credit : ∀ d : Fin 6, (srcM d).view.dmaCredit = N := by decide

/-- One cell's invariant and round-0 mark, out of the record of all. -/
theorem rec_inv (K : Dev nD × CellIx → ℕ) (ck : Dev nD × CellIx) : records m ρ K ⊢ cellInv ER (exRd m ρ) (K ck) (kcell ck) := by
  unfold records; iintro ⟨HI, -⟩; iapply (inv_at m ρ K ck); iexact HI

/-- The wait on send cell `d`, under a condition that holds exactly where there is a neighbour that way. -/
theorem waitsend_step (K : Dev nD × CellIx → ℕ) (c : Dev nD) (d : Fin 6) {C : Prop} [Decidable C] (hC : C ↔ has c d = true)
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    {α : Type} {J : Prog (TpuEff nD τ sig (Elt F) Λ₀ .tc) α} {Q : α → sProp 𝕄} (W : Waits sig Unit) :
    iprop(records m ρ K ∗ (if has c d = true then cred (tallyAt (sendCell c d) () N) else srcPts m ρ c d)
        ∗ atPos ER (sendCell c d) 0 ∅ 0 ∗ owes (c : Thread nD τ) 0 W)
      ⊢ iprop(((srcPts m ρ c d ∗ atPos ER (sendCell c d) (rnd c d) ∅ 0 ∗ ∃ W', owes (c : Thread nD τ) 0 W')
            -∗ wp frame (wpE (defs₀ (F := F)) 𝒱₀ (c : Thread nD τ) none) Set.univ J Q)
          -∗ wp frame (wpE (defs₀ (F := F)) 𝒱₀ (c : Thread nD τ) none) Set.univ
              (dite C (fun _ => Prog.lift (.waitDma2 (sendS d) src dst hsrc hdst) >>= fun _ => J) (fun _ => J)) Q) := by
  by_cases h : has c d = true
  · rw [dif_pos (hC.mpr h), Prog.bind_lift, if_pos h]
    unfold rnd; rw [if_pos h]
    iintro ⟨#Hrec, Hc, Hat, HO⟩ Hk
    ihave #HI := (rec_inv m ρ K (c, some (false, d))) $$ Hrec
    iapply (Rounds.wp_wait_rest_token 𝒱₀ ER (exRd m ρ) (c : Thread nD τ) none (κ := K (c, some (false, d)))
        (wpE_waitDma2_eq 𝒱₀ (c : Thread nD τ) none Set.univ) (Set.mem_univ _) () (O := 0) (W := W) (R := 0) (m := 0) (T := ∅)
        (by rw [Nat.zero_add, expect_send m ρ c d h, hcr])) $$ [Hc HO Hat]
    · isplitr; · iexact HI
      isplitl [Hc]; · rw [hcr]; iexact Hc
      isplitl [HO]; · iexact HO
      isplitr; · rw [MayWait_zero]; iempintro
      iexact Hat
    iintro ⟨HO, Hat, -, Hpay⟩
    ihave Hs := (Entails.of_eq (rest_send m ρ c d h)) $$ Hpay
    iapply Hk
    isplitl [Hs]; · unfold sendPay; iexact Hs
    isplitl [Hat]; · iexact Hat
    iexists _; iexact HO
  · have hn : ¬ C := fun hc => h (hC.mp hc)
    rw [dif_neg hn, if_neg h]
    unfold rnd; rw [if_neg h]
    iintro ⟨-, Hs, Hat, HO⟩ Hk
    iapply Hk
    isplitl [Hs]; · iexact Hs
    isplitl [Hat]; · iexact Hat
    iexists W; iexact HO

/-- The store of zero on face `d` (after a dead load of the face), under a condition that holds exactly where there is
    no neighbour that way: the output goes from `o` to `zeroStep c d o`. -/
theorem zero_step (c : Dev nD) (d : Fin 6) {C : Prop} [Decidable C] (hC : C ↔ has c d = false)
    {rl : LoadRect S32x32x32} {hl : (oM : Memref sig (c : Thread nD τ).2.kind .vmem S32x32x32 .f32).view.LoadsAt rl}
    {r : Rect S32x32x32} {w : r.shape.Idx → Elt F .f32}
    {hx : ((oM : Memref sig (c : Thread nD τ).2.kind .vmem S32x32x32 .f32).access r).Stores Finset.univ} {hm : (Finset.univ : Finset r.shape.Idx) = Finset.univ ∨ ∀ a, r.stride a = 1}
    (o : OutC (F := F))
    (hz : ((oM.access r : View sig .tc _ _ _)).write (Elt F) o w Finset.univ = zeroFace d o)
    {α : Type} {J : Prog (TpuEff nD τ sig (Elt F) Λ₀ .tc) α} {Q : α → sProp 𝕄} :
    outPts c o
      ⊢ iprop((outPts c (zeroStep c d o) -∗ wp frame (wpE (defs₀ (F := F)) 𝒱₀ (c : Thread nD τ) none) Set.univ J Q)
          -∗ wp frame (wpE (defs₀ (F := F)) 𝒱₀ (c : Thread nD τ) none) Set.univ
              (dite C (fun _ => Prog.lift (.load oM rl hl) >>= fun _ => Prog.lift (.store oM r w Finset.univ hx hm) >>= fun _ => J) (fun _ => J)) Q) := by
  unfold zeroStep outPts
  by_cases h : has c d = true
  · have hn : ¬ C := fun hc => by rw [hC.mp hc] at h; exact absurd h (by decide)
    rw [dif_neg hn, if_pos h]
    iintro Ho Hk
    iapply Hk; iexact Ho
  · have hf : has c d = false := by cases hh : has c d <;> simp_all
    rw [dif_pos (hC.mpr hf), if_neg h, Prog.bind_lift]
    iintro Ho Hk
    iapply (wp_load 𝒱₀ (c : Thread nD τ) none Set.univ (m := oM) (S := oM.view.set) (by simp only [Memref.view_whole, View.set_whole]; exact Finset.subset_univ _)) $$ Ho
    iintro Ho
    rw [Prog.bind_lift]
    iapply (wp_store 𝒱₀ (c : Thread nD τ) none Set.univ (m := oM) (r := r) (Mk := Finset.univ) (S := oM.view.set) (by simp only [Memref.view_whole, View.set_whole]; exact Finset.subset_univ _)) $$ Ho
    iintro Ho
    rw [hz]
    iapply Hk; iexact Ho

end Cert.Kernel.HP

end
-- ==== Proof.KernelGlue.lean ====
/-
  Program-independent steps around the body's composition: the six-fold products written out, the state after part 4
  opened into its pieces, and a transfer cell closed at whichever round it stands at — round 1 where the device has a
  neighbour that way (the cell's one round is taken), round 0 where it has none (the cell never had a duty).
-/
import proofs.«900363_g7700000000000364_dist_halo3d_v7x_xyz2x2x4_s32_f32_1_alg».proof.Proof.KernelTail

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bsep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Send cell `d` closes at the round it stands at after its wait. -/
theorem close_send (K : Dev nD × CellIx → ℕ) (c : Dev nD) (d : Fin 6) :
    iprop(records m ρ K ∗ atPos ER (sendCell c d) (rnd c d) ∅ 0) ⊢ |={Set.univ}=> (semVal (sendCell c d) 0 : sProp 𝕄) := by
  iintro ⟨#Hrec, Hat⟩
  ihave #HI := (rec_inv m ρ K (c, some (false, d))) $$ Hrec
  by_cases h : has c d = true
  · unfold rnd; rw [if_pos h]
    iapply (Rounds.cell_close ER (exRd m ρ) (Set.mem_univ (K (c, some (false, d)))) (fun h => h) (R := 1) (duties_later m ρ (sendCell c d)))
    isplitr; · iexact HI
    iexact Hat
  · have hf : has c d = false := by cases hh : has c d <;> simp_all
    unfold rnd; rw [if_neg h]
    iapply (Rounds.cell_close ER (exRd m ρ) (Set.mem_univ (K (c, some (false, d)))) (fun h => h) (R := 0) (fun r _ => duties_send_none m ρ c d hf r))
    isplitr; · iexact HI
    iexact Hat

/-- Receive cell `d` likewise. -/
theorem close_recv (K : Dev nD × CellIx → ℕ) (c : Dev nD) (d : Fin 6) :
    iprop(records m ρ K ∗ atPos ER (recvCell c d) (rnd c d) ∅ 0) ⊢ |={Set.univ}=> (semVal (recvCell c d) 0 : sProp 𝕄) := by
  iintro ⟨#Hrec, Hat⟩
  ihave #HI := (rec_inv m ρ K (c, some (true, d))) $$ Hrec
  by_cases h : has c d = true
  · unfold rnd; rw [if_pos h]
    iapply (Rounds.cell_close ER (exRd m ρ) (Set.mem_univ (K (c, some (true, d)))) (fun h => h) (R := 1) (duties_later m ρ (recvCell c d)))
    isplitr; · iexact HI
    iexact Hat
  · have hf : has c d = false := by cases hh : has c d <;> simp_all
    unfold rnd; rw [if_neg h]
    iapply (Rounds.cell_close ER (exRd m ρ) (Set.mem_univ (K (c, some (true, d)))) (fun h => h) (R := 0) (fun r _ => duties_recv_none m ρ c d hf r))
    isplitr; · iexact HI
    iexact Hat

/-- A slot at whichever contents it ended with is a slot at some contents. -/
theorem slot_some (c : Dev nD) (d : Fin 6) (f1 : Buf (Elt F) ((c : Thread nD τ).loc cc0_scratch1)) :
    (if has c d = true then slotPts c d (landed m ρ c d) else slotPts c d f1 : sProp 𝕄) ⊢ ∃ f, slotPts c d f := by
  split
  · iintro H; iexists _; iexact H
  · iintro H; iexists _; iexact H

/-- The state after part 4, its products over the six directions written out. -/
theorem stD_open (K : Dev nD × CellIx → ℕ) (c : Dev nD) (X : Buf (Elt F) ((c : Thread nD τ).loc cc0_stg0_0)) (f1 : Buf (Elt F) ((c : Thread nD τ).loc cc0_scratch1)) :
    stD m ρ K c X f1 = iprop(records m ρ K ∗ levAts L lv ∗ atPos ER (barCell c) 1 ∅ 0
      ∗ ((atPos ER (sendCell c 0) (rnd c 0) ∅ 0 ∗ atPos ER (recvCell c 0) (rnd c 0) ∅ 0) ∗ (atPos ER (sendCell c 1) (rnd c 1) ∅ 0 ∗ atPos ER (recvCell c 1) (rnd c 1) ∅ 0)
        ∗ (atPos ER (sendCell c 2) (rnd c 2) ∅ 0 ∗ atPos ER (recvCell c 2) (rnd c 2) ∅ 0) ∗ (atPos ER (sendCell c 3) 0 ∅ 0 ∗ atPos ER (recvCell c 3) (rnd c 3) ∅ 0)
        ∗ (atPos ER (sendCell c 4) 0 ∅ 0 ∗ atPos ER (recvCell c 4) (rnd c 4) ∅ 0) ∗ (atPos ER (sendCell c 5) 0 ∅ 0 ∗ atPos ER (recvCell c 5) (rnd c 5) ∅ 0))
      ∗ (∃ W, owes (c : Thread nD τ) 0 W)
      ∗ (srcPts m ρ c 0 ∗ srcPts m ρ c 1 ∗ srcPts m ρ c 2
        ∗ (if has c 3 = true then cred (tallyAt (sendCell c 3) () N) else srcPts m ρ c 3)
        ∗ (if has c 4 = true then cred (tallyAt (sendCell c 4) () N) else srcPts m ρ c 4)
        ∗ (if has c 5 = true then cred (tallyAt (sendCell c 5) () N) else srcPts m ρ c 5))
      ∗ ((if has c 0 = true then slotPts c 0 (landed m ρ c 0) else slotPts c 0 f1) ∗ (if has c 1 = true then slotPts c 1 (landed m ρ c 1) else slotPts c 1 f1) ∗ (if has c 2 = true then slotPts c 2 (landed m ρ c 2) else slotPts c 2 f1) ∗ (if has c 3 = true then slotPts c 3 (landed m ρ c 3) else slotPts c 3 f1) ∗ (if has c 4 = true then slotPts c 4 (landed m ρ c 4) else slotPts c 4 f1) ∗ (if has c 5 = true then slotPts c 5 (landed m ρ c 5) else slotPts c 5 f1))
      ∗ xRest c X
      ∗ outPts c (addStep m ρ c 5 (addStep m ρ c 4 (addStep m ρ c 3 (addStep m ρ c 2 (addStep m ρ c 1 (addStep m ρ c 0 (out0 X)))))))) := by
  unfold stD atXfer
  rw [bsep6, bsep6, bsep6]
  rfl

end Cert.Kernel.HP

end
-- ==== Proof.KernelBody.lean ====
/-
  One device's body: from its starting state it signals its six barrier units, fills the send buffer, takes its own
  six units, sends its faces, stores the block's stencil, adds each received plane and zeroes each outer face, and
  returns its cells closed — the pipeline library's obligation for the one grid point.
-/
import proofs.«900363_g7700000000000364_dist_halo3d_v7x_xyz2x2x4_s32_f32_1_alg».proof.Proof.KernelPart12
import proofs.«900363_g7700000000000364_dist_halo3d_v7x_xyz2x2x4_s32_f32_1_alg».proof.Proof.KernelPart3Run
import proofs.«900363_g7700000000000364_dist_halo3d_v7x_xyz2x2x4_s32_f32_1_alg».proof.Proof.KernelPart4
import proofs.«900363_g7700000000000364_dist_halo3d_v7x_xyz2x2x4_s32_f32_1_alg».proof.Proof.KernelGlue

noncomputable section

namespace Cert.Kernel.HP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A buffer held whole through its whole memref is the buffer held whole. -/
theorem whole_pts (b : Ref sig .tc) (c : Dev nD) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  simp only [Memref.view_whole, View.set_whole]

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body returns: its cells closed, nothing owed, the input block unchanged and the output at `outAt`. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))
theorem sound_body (K : Dev nD × CellIx → ℕ) (c : Dev nD) (g1 : Buf (Elt F) ((c : Thread nD τ).loc cc0_stg1_0)) (f0 : Buf (Elt F) ((c : Thread nD τ).loc cc0_scratch0)) (f1 : Buf (Elt F) ((c : Thread nD τ).loc cc0_scratch1)) (Kt : PUnit → sProp 𝕄) :
    iprop(st0 m ρ K c (xstg m ρ c) g1 f0 f1 ∗ (bodyPost m ρ c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3) Kt := by
  rw [cc0_body_eq_skeleton]; unfold cc0_body_skel
  rw [wp_bind]
  iintro ⟨H0, Hk⟩
  ihave H1 := (part1_run m ρ K c g1 f0 f1) $$ H0
  iapply (wp_wand frame (wpE (defs₀ (F := F)) 𝒱₀ (c : Thread nD τ) none) Set.univ) $$ H1
  iintro %r ⟨%hr, HA⟩
  subst hr
  dsimp (config := { zeta := false }) only [R1]
  rw [wp_bind]
  ihave H2 := (part2_run m ρ K c g1 f0 f1 (wv2 c) (wv5 c) (wv8 c) (wv11 c) (wv12 c) (wv13 c) (wv14 c) _ _ _ _ (wv31 c) (wv11_eq c) (wv12_eq c) (wv13_eq c) (wv14_eq c) (wv31_eq c)) $$ HA
  iapply (wp_wand frame (wpE (defs₀ (F := F)) 𝒱₀ (c : Thread nD τ) none) Set.univ) $$ H2
  iintro %r2 ⟨%hr2, HB⟩
  subst hr2
  rw [wp_bind]
  ihave H3 := (part3_run m ρ K c g1 f0 f1 (wv2 c) (wv5 c) (wv8 c) (wv9 c) (wv10 c) (wv11 c) (wv12 c) (wv13 c) (wv14 c) _ _ _ _ _ _) $$ HB
  iapply (wp_wand frame (wpE (defs₀ (F := F)) 𝒱₀ (c : Thread nD τ) none) Set.univ) $$ H3
  iintro %r3 ⟨%hr3, HC⟩
  subst hr3
  dsimp (config := { zeta := false }) only
  rw [wp_bind]
  ihave H4 := (part4_run m ρ K c g1 f1 (wv2 c) (wv5 c) (wv8 c) (wv9 c) (wv10 c) (wv11 c) (wv12 c) (wv13 c) (wv14 c) _ _ _ _ _ _ (wv9_eq c) (wv10_eq c) (wv11_eq c) (wv12_eq c) (wv13_eq c) (wv14_eq c)) $$ HC
  iapply (wp_wand frame (wpE (defs₀ (F := F)) 𝒱₀ (c : Thread nD τ) none) Set.univ) $$ H4
  iintro %r4 HD
  ihave HD := (Entails.of_eq (stD_open m ρ K c (xstg m ρ c) f1)) $$ HD
  icases HD with ⟨#Hrec, Hlev, HatB, ⟨⟨Hs0, Hr0⟩, ⟨Hs1, Hr1⟩, ⟨Hs2, Hr2⟩, ⟨Hs3, Hr3⟩, ⟨Hs4, Hr4⟩, Hs5, Hr5⟩, ⟨%W0, HO⟩, ⟨Hq0, Hq1, Hq2, Hq3, Hq4, Hq5⟩, ⟨Hl0, Hl1, Hl2, Hl3, Hl4, Hl5⟩, HxR, Hout⟩
  iapply (waitsend_step m ρ K c 3 (C := Scalar.cmpi .ne (Scalar.extui (wv12 c)) 0#32 = 1#1) (by rw [wv12_eq]; exact test_iff _) (srcM_credit 3) W0) $$ [Hq3 Hs3 HO]
  · isplitr; · iexact Hrec
    isplitl [Hq3]; · iexact Hq3
    isplitl [Hs3]; · iexact Hs3
    iexact HO
  iintro ⟨Hq3, Hs3, ⟨%W1, HO⟩⟩
  iapply (waitsend_step m ρ K c 4 (C := Scalar.cmpi .ne (Scalar.extui (wv13 c)) 0#32 = 1#1) (by rw [wv13_eq]; exact test_iff _) (srcM_credit 4) W1) $$ [Hq4 Hs4 HO]
  · isplitr; · iexact Hrec
    isplitl [Hq4]; · iexact Hq4
    isplitl [Hs4]; · iexact Hs4
    iexact HO
  iintro ⟨Hq4, Hs4, ⟨%W2, HO⟩⟩
  iapply (waitsend_step m ρ K c 5 (C := Scalar.cmpi .ne (Scalar.extui (wv14 c)) 0#32 = 1#1) (by rw [wv14_eq]; exact test_iff _) (srcM_credit 5) W2) $$ [Hq5 Hs5 HO]
  · isplitr; · iexact Hrec
    isplitl [Hq5]; · iexact Hq5
    isplitl [Hs5]; · iexact Hs5
    iexact HO
  iintro ⟨Hq5, Hs5, ⟨%W3, HO⟩⟩
  iapply (zero_step c 0 (C := Scalar.cmpi .ne (Scalar.extui (Scalar.xori (wv9 c) 1#1)) 0#32 = 1#1) (by rw [wv9_eq]; exact ntest_iff _) _ rfl) $$ Hout
  iintro Hout
  iapply (zero_step c 1 (C := Scalar.cmpi .ne (Scalar.extui (Scalar.xori (wv10 c) 1#1)) 0#32 = 1#1) (by rw [wv10_eq]; exact ntest_iff _) _ rfl) $$ Hout
  iintro Hout
  iapply (zero_step c 2 (C := Scalar.cmpi .ne (Scalar.extui (Scalar.xori (wv11 c) 1#1)) 0#32 = 1#1) (by rw [wv11_eq]; exact ntest_iff _) _ rfl) $$ Hout
  iintro Hout
  iapply (zero_step c 3 (C := Scalar.cmpi .ne (Scalar.extui (Scalar.xori (wv12 c) 1#1)) 0#32 = 1#1) (by rw [wv12_eq]; exact ntest_iff _) _ rfl) $$ Hout
  iintro Hout
  iapply (zero_step c 4 (C := Scalar.cmpi .ne (Scalar.extui (Scalar.xori (wv13 c) 1#1)) 0#32 = 1#1) (by rw [wv13_eq]; exact ntest_iff _) _ rfl) $$ Hout
  iintro Hout
  iapply (zero_step c 5 (C := Scalar.cmpi .ne (Scalar.extui (Scalar.xori (wv14 c) 1#1)) 0#32 = 1#1) (by rw [wv14_eq]; exact ntest_iff _) _ rfl) $$ Hout
  iintro Hout
  imod (close_send m ρ K c 0) $$ [Hs0] with Hz0
  · isplitr; · iexact Hrec
    iexact Hs0
  imod (close_send m ρ K c 1) $$ [Hs1] with Hz1
  · isplitr; · iexact Hrec
    iexact Hs1
  imod (close_send m ρ K c 2) $$ [Hs2] with Hz2
  · isplitr; · iexact Hrec
    iexact Hs2
  imod (close_send m ρ K c 3) $$ [Hs3] with Hz3
  · isplitr; · iexact Hrec
    iexact Hs3
  imod (close_send m ρ K c 4) $$ [Hs4] with Hz4
  · isplitr; · iexact Hrec
    iexact Hs4
  imod (close_send m ρ K c 5) $$ [Hs5] with Hz5
  · isplitr; · iexact Hrec
    iexact Hs5
  imod (close_recv m ρ K c 0) $$ [Hr0] with Hy0
  · isplitr; · iexact Hrec
    iexact Hr0
  imod (close_recv m ρ K c 1) $$ [Hr1] with Hy1
  · isplitr; · iexact Hrec
    iexact Hr1
  imod (close_recv m ρ K c 2) $$ [Hr2] with Hy2
  · isplitr; · iexact Hrec
    iexact Hr2
  imod (close_recv m ρ K c 3) $$ [Hr3] with Hy3
  · isplitr; · iexact Hrec
    iexact Hr3
  imod (close_recv m ρ K c 4) $$ [Hr4] with Hy4
  · isplitr; · iexact Hrec
    iexact Hr4
  imod (close_recv m ρ K c 5) $$ [Hr5] with Hy5
  · isplitr; · iexact Hrec
    iexact Hr5
  ihave Hl0 := (slot_some m ρ c 0 f1) $$ Hl0
  icases Hl0 with ⟨%e0, Hl0⟩
  ihave Hl1 := (slot_some m ρ c 1 f1) $$ Hl1
  icases Hl1 with ⟨%e1, Hl1⟩
  ihave Hl2 := (slot_some m ρ c 2 f1) $$ Hl2
  icases Hl2 with ⟨%e2, Hl2⟩
  ihave Hl3 := (slot_some m ρ c 3 f1) $$ Hl3
  icases Hl3 with ⟨%e3, Hl3⟩
  ihave Hl4 := (slot_some m ρ c 4 f1) $$ Hl4
  icases Hl4 with ⟨%e4, Hl4⟩
  ihave Hl5 := (slot_some m ρ c 5 f1) $$ Hl5
  icases Hl5 with ⟨%e5, Hl5⟩
  ihave Hrb := (join_recv c e0 e1 e2 e3 e4 e5) $$ [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  icases Hrb with ⟨%fr, Hrb⟩
  ihave Hq0 := (Entails.of_eq (show (srcPts m ρ c 0 : sProp 𝕄) = ((srcM 0).view.loc (c : Thread nD τ) ↦[(srcM 0).view.set]{qOf 0} xstg m ρ c) from rfl)) $$ Hq0
  ihave Hq1 := (Entails.of_eq (show (srcPts m ρ c 1 : sProp 𝕄) = ((srcM 1).view.loc (c : Thread nD τ) ↦[(srcM 1).view.set]{qOf 1} xstg m ρ c) from rfl)) $$ Hq1
  ihave Hq2 := (Entails.of_eq (show (srcPts m ρ c 2 : sProp 𝕄) = ((srcM 2).view.loc (c : Thread nD τ) ↦[(srcM 2).view.set]{qOf 2} xstg m ρ c) from rfl)) $$ Hq2
  ihave Hq3 := (Entails.of_eq (show (srcPts m ρ c 3 : sProp 𝕄) = ((srcM 3).view.loc (c : Thread nD τ) ↦[(srcM 3).view.set]{qOf 3} xstg m ρ c) from rfl)) $$ Hq3
  ihave Hq4 := (Entails.of_eq (show (srcPts m ρ c 4 : sProp 𝕄) = ((srcM 4).view.loc (c : Thread nD τ) ↦[(srcM 4).view.set]{fullShare} sbuf m ρ c) from rfl)) $$ Hq4
  ihave Hq5 := (Entails.of_eq (show (srcPts m ρ c 5 : sProp 𝕄) = ((srcM 5).view.loc (c : Thread nD τ) ↦[(srcM 5).view.set]{fullShare} sbuf m ρ c) from rfl)) $$ Hq5
  ihave Hsb := (carve_sbuf c (sbuf m ρ c)).2 $$ [Hq4 Hq5]
  · isplitl [Hq4]; · iexact Hq4
    iexact Hq5
  unfold xRest
  icases HxR with ⟨HxL, Hx0, Hx1, Hx2, Hx3⟩
  ihave Hx := (carve_x c (xstg m ρ c)).2 $$ [HxL Hx0 Hx1 Hx2 Hx3 Hq0 Hq1 Hq2 Hq3]
  · isplitl [HxL]; · iexact HxL
    isplitl [Hq0 Hx0]
    · isplitl [Hq0]; · iexact Hq0
      iexact Hx0
    isplitl [Hq1 Hx1]
    · isplitl [Hq1]; · iexact Hq1
      iexact Hx1
    isplitl [Hq2 Hx2]
    · isplitl [Hq2]; · iexact Hq2
      iexact Hx2
    isplitl [Hq3]; · iexact Hq3
    iexact Hx3
  ihave Hrb := (Entails.of_eq (whole_pts cc0_scratch1 c fullShare fr)) $$ Hrb
  ihave Hsb := (Entails.of_eq (whole_pts cc0_scratch0 c fullShare (sbuf m ρ c))) $$ Hsb
  ihave Hx := (Entails.of_eq (whole_pts cc0_stg0_0 c fullShare (xstg m ρ c))) $$ Hx
  unfold outPts
  ihave Hout := (Entails.of_eq (whole_pts cc0_stg1_0 c fullShare _)) $$ Hout
  iapply (le_wp_ret _ _ _ PUnit.unit _)
  iapply Hk
  unfold bodyPost Φ₁ scratch Dat.owesAt Pipeline.owesWithin
  rw [show (dats m ρ 0 c).owed t0_0.succ = 0 from rfl, bsep6]
  isplitl [Hsb Hrb Hz0 Hy0 Hz1 Hy1 Hz2 Hy2 Hz3 Hy3 Hz4 Hy4 Hz5 Hy5]
  · isplitl [Hsb Hrb]
    · isplitl [Hsb]; · iexists _; iexact Hsb
      iexists _; iexact Hrb
    isplitl [Hz0 Hy0]
    · isplitl [Hz0]; · iexact Hz0
      iexact Hy0
    isplitl [Hz1 Hy1]
    · isplitl [Hz1]; · iexact Hz1
      iexact Hy1
    isplitl [Hz2 Hy2]
    · isplitl [Hz2]; · iexact Hz2
      iexact Hy2
    isplitl [Hz3 Hy3]
    · isplitl [Hz3]; · iexact Hz3
      iexact Hy3
    isplitl [Hz4 Hy4]
    · isplitl [Hz4]; · iexact Hz4
      iexact Hy4
    isplitl [Hz5]; · iexact Hz5
    iexact Hy5
  isplitl [HO]
  · iexists W3
    isplitr; · ipureintro; exact fun _ _ => Or.inl trivial
    iexact HO
  isplitl [Hx]
  · iexists _
    isplitr; · ipureintro; rfl
    iexact Hx
  iexists _
  isplitr; · ipureintro; rfl
  iexact Hout

/-- What the pipeline hands the body at its one grid point. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start scratch ghost linear payToks
  rw [bigSep_cellIx, bsep6, bsep6, bsep6]
  iintro ⟨⟨⟨⟨%K, Hrec, ⟨HatB, ⟨Hs0, Hs1, Hs2, Hs3, Hs4, Hs5⟩, ⟨Hr0, Hr1, Hr2, Hr3, Hr4, Hr5⟩⟩, ⟨Ht0, Ht1, Ht2, Ht3, Ht4, Ht5⟩, HtRS⟩, HcB, HcR, Hlev⟩, ⟨%f0, Hsb⟩, ⟨%f1, Hrb⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave Hrb := (Entails.of_eq (whole_pts cc0_scratch1 c fullShare f1).symm) $$ Hrb
  ihave Hslots := (carve_recv c f1).1 $$ Hrb
  ihave Hsb := (Entails.of_eq (whole_pts cc0_scratch0 c fullShare f0).symm) $$ Hsb
  ihave Hx := (Entails.of_eq (whole_pts cc0_stg0_0 c fullShare (xstg m ρ c)).symm) $$ Hx
  ihave Hout := (Entails.of_eq (whole_pts cc0_stg1_0 c fullShare g1).symm) $$ Hout
  ihave HatX := (Entails.of_eq (bsep6 (fun d : Fin 6 => (iprop(atPos ER (sendCell c d) 0 ∅ 0 ∗ atPos ER (recvCell c d) 0 ∅ 0) : sProp 𝕄))).symm)
    $$ [Hs0 Hr0 Hs1 Hr1 Hs2 Hr2 Hs3 Hr3 Hs4 Hr4 Hs5 Hr5]
  · isplitl [Hs0 Hr0]
    · isplitl [Hs0]; · iexact Hs0
      iexact Hr0
    isplitl [Hs1 Hr1]
    · isplitl [Hs1]; · iexact Hs1
      iexact Hr1
    isplitl [Hs2 Hr2]
    · isplitl [Hs2]; · iexact Hs2
      iexact Hr2
    isplitl [Hs3 Hr3]
    · isplitl [Hs3]; · iexact Hs3
      iexact Hr3
    isplitl [Hs4 Hr4]
    · isplitl [Hs4]; · iexact Hs4
      iexact Hr4
    isplitl [Hs5]; · iexact Hs5
    iexact Hr5
  iapply (sound_body m ρ K c g1 f0 f1 (fun _ => bodyPost m ρ c))
  isplitr []
  · unfold st0 atXfer tokB tokRS credR xWhole outPts sbufPts
    isplitl [Hrec]; · iexact Hrec
    isplitl [Hlev]; · iexact Hlev
    isplitl [HatB]; · iexact HatB
    isplitl [HatX]; · iexact HatX
    isplitl [HO]; · iexists W; iexact HO
    isplitl [Ht0 Ht1 Ht2 Ht3 Ht4 Ht5]
    · isplitl [Ht5]; · iexact Ht5
      isplitl [Ht4]; · iexact Ht4
      isplitl [Ht3]; · iexact Ht3
      isplitl [Ht2]; · iexact Ht2
      isplitl [Ht1]; · iexact Ht1
      iexact Ht0
    isplitl [HtRS]; · iexact HtRS
    isplitl [HcB]; · iexact HcB
    isplitl [HcR]; · iexact HcR
    isplitl [Hslots]; · iexact Hslots
    isplitl [Hx]; · iexact Hx
    isplitl [Hout]; · iexact Hout
    iexact Hsb
  · iintro H; iexact H

end Cert.Kernel.HP

end
-- ==== Proof.KernelRun.lean ====
/-
  The whole program's run: every weakly fair execution on the sixteen devices terminates without a fault, each
  device's result array ends at `outAt` and its argument array is unchanged.
-/
import proofs.«900363_g7700000000000364_dist_halo3d_v7x_xyz2x2x4_s32_f32_1_alg».proof.Proof.KernelLaunch
import proofs.«900363_g7700000000000364_dist_halo3d_v7x_xyz2x2x4_s32_f32_1_alg».proof.Proof.KernelBody

noncomputable section

namespace Cert.Kernel.HP

open Cert.Kernel Cert.Kernel.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem run : θ_run (defs (F := F)) (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono
    (fun r h c => ⟨(h c (1 : Fin 2)).trans (finalA_out m ρ c), (h c (0 : Fin 2)).trans (finalA_x m ρ c)⟩)
    (run_main m ρ (body_obligation m ρ))

end Cert.Kernel.HP

end
-- ==== Proof.KernelIdealCells.lean ====
/-
  The halo exchange's vocabulary on the 2 × 2 × 4 mesh: which device lies in each of the six directions, the six face
  sources a device sends and the six slots it receives into, and the thirteen semaphore cells a device waits on — its
  barrier cell, one send cell and one receive cell per direction.

  Directions: 0 is x−, 1 is x+, 2 is y−, 3 is y+, 4 is z−, 5 is z+; `opp` swaps each pair. A device that has a
  neighbour in direction `d` sends the face of its block that touches that neighbour into the neighbour's slot
  `opp d`, crediting its own send cell `d` and the neighbour's receive cell `opp d`.
-/
import proofs.«900363_g7700000000000364_dist_halo3d_v7x_xyz2x2x4_s32_f32_1_alg».proof.Proof.Gen.KernelIdeal.Frame
import proofs.«900363_g7700000000000364_dist_halo3d_v7x_xyz2x2x4_s32_f32_1_alg».proof.Proof.Gen.KernelIdeal.Skeleton
import proofs.«900363_g7700000000000364_dist_halo3d_v7x_xyz2x2x4_s32_f32_1_alg».proof.Proof.HaloFn
import Idealize.ShloMosaic.Lib.Pipeline.Launch
import Idealize.ShloMosaic.Lib.Pipeline.Kit
import Idealize.ShloMosaic.Lib.Tactic

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's (duties named by a direction) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

abbrev has (c : Dev nD) (d : Fin 6) : Bool := Cert.Halo.has c d
abbrev nb (c : Dev nD) (d : Fin 6) : Dev nD := Cert.Halo.nb c d
def opp (d : Fin 6) : Fin 6 := ![1, 0, 3, 2, 5, 4] d

theorem opp_opp : ∀ d : Fin 6, opp (opp d) = d := by decide
theorem opp_ne : ∀ d : Fin 6, opp d ≠ d := by decide
/-- A neighbour's neighbour in the opposite direction is the device itself. -/
theorem has_back : ∀ (c : Dev nD) (d : Fin 6), has c d = true → has (nb c d) (opp d) = true := by decide
theorem nb_back : ∀ (c : Dev nD) (d : Fin 6), has c d = true → nb (nb c d) (opp d) = c := by decide
theorem nb_ne : ∀ (c : Dev nD) (d : Fin 6), has c d = true → nb c d ≠ c := by decide
theorem nb_self : ∀ (c : Dev nD) (d : Fin 6), has c d = false → nb c d = c := by decide

/-- The printed conditions: the six signals' and the six transfers' are "there is a neighbour that way". -/
theorem cond1_iff : ∀ c : Dev nD, (k0_cond1 c = 1#1) = (has c 0 = true) := by decide
theorem cond3_iff : ∀ c : Dev nD, (k0_cond3 c = 1#1) = (has c 1 = true) := by decide
theorem cond5_iff : ∀ c : Dev nD, (k0_cond5 c = 1#1) = (has c 2 = true) := by decide
theorem cond7_iff : ∀ c : Dev nD, (k0_cond7 c = 1#1) = (has c 3 = true) := by decide
theorem cond9_iff : ∀ c : Dev nD, (k0_cond9 c = 1#1) = (has c 4 = true) := by decide
theorem cond11_iff : ∀ c : Dev nD, (k0_cond11 c = 1#1) = (has c 5 = true) := by decide
theorem cond13_iff : ∀ c : Dev nD, (k0_cond13 c = 1#1) = (has c 0 = true) := by decide
theorem cond14_iff : ∀ c : Dev nD, (k0_cond14 c = 1#1) = (has c 1 = true) := by decide
theorem cond15_iff : ∀ c : Dev nD, (k0_cond15 c = 1#1) = (has c 2 = true) := by decide
theorem cond16_iff : ∀ c : Dev nD, (k0_cond16 c = 1#1) = (has c 3 = true) := by decide
theorem cond17_iff : ∀ c : Dev nD, (k0_cond17 c = 1#1) = (has c 4 = true) := by decide
theorem cond18_iff : ∀ c : Dev nD, (k0_cond18 c = 1#1) = (has c 5 = true) := by decide

/-- The printed device ids: each names the neighbour in its direction. -/
theorem dev1_eq : ∀ (c : Dev nD) (h : k0_cond1 c = 1#1), (⟨k0_dev1 c, k0_dev1_lt c h⟩ : Dev nD) = nb c 0 := by decide
theorem dev2_eq : ∀ (c : Dev nD) (h : k0_cond3 c = 1#1), (⟨k0_dev2 c, k0_dev2_lt c h⟩ : Dev nD) = nb c 1 := by decide
theorem dev3_eq : ∀ (c : Dev nD) (h : k0_cond5 c = 1#1), (⟨k0_dev3 c, k0_dev3_lt c h⟩ : Dev nD) = nb c 2 := by decide
theorem dev4_eq : ∀ (c : Dev nD) (h : k0_cond7 c = 1#1), (⟨k0_dev4 c, k0_dev4_lt c h⟩ : Dev nD) = nb c 3 := by decide
theorem dev5_eq : ∀ (c : Dev nD) (h : k0_cond9 c = 1#1), (⟨k0_dev5 c, k0_dev5_lt c h⟩ : Dev nD) = nb c 4 := by decide
theorem dev6_eq : ∀ (c : Dev nD) (h : k0_cond11 c = 1#1), (⟨k0_dev6 c, k0_dev6_lt c h⟩ : Dev nD) = nb c 5 := by decide
theorem dev7_eq : ∀ (c : Dev nD) (h : k0_cond13 c = 1#1), (⟨k0_dev7 c, k0_dev7_lt c h⟩ : Dev nD) = nb c 0 := by decide
theorem dev8_eq : ∀ (c : Dev nD) (h : k0_cond14 c = 1#1), (⟨k0_dev8 c, k0_dev8_lt c h⟩ : Dev nD) = nb c 1 := by decide
theorem dev9_eq : ∀ (c : Dev nD) (h : k0_cond15 c = 1#1), (⟨k0_dev9 c, k0_dev9_lt c h⟩ : Dev nD) = nb c 2 := by decide
theorem dev10_eq : ∀ (c : Dev nD) (h : k0_cond16 c = 1#1), (⟨k0_dev10 c, k0_dev10_lt c h⟩ : Dev nD) = nb c 3 := by decide
theorem dev11_eq : ∀ (c : Dev nD) (h : k0_cond17 c = 1#1), (⟨k0_dev11 c, k0_dev11_lt c h⟩ : Dev nD) = nb c 4 := by decide
theorem dev12_eq : ∀ (c : Dev nD) (h : k0_cond18 c = 1#1), (⟨k0_dev12 c, k0_dev12_lt c h⟩ : Dev nD) = nb c 5 := by decide

/-! ## The memrefs, as the program spells them -/

abbrev xM : Memref sig .tc .vmem S32x32x32 .f32 := Memref.whole cc0_stg0_0
abbrev oM : Memref sig .tc .vmem S32x32x32 .f32 := Memref.whole cc0_stg1_0
abbrev sM : Memref sig .tc .vmem S2x32x32 .f32 := Memref.whole cc0_scratch0
abbrev rM : Memref sig .tc .vmem S6x32x32 .f32 := Memref.whole cc0_scratch1

/-- Slot `d` of the receive buffer, as a 32 × 32 plane. -/
abbrev slotM : Fin 6 → Memref sig .tc .vmem S32x32 .f32
  | 0 => (rM.slice (Rect.unit (s := S6x32x32) ![0, 0, 0] S1x32x32.size inb_S6x32x32_S1x32x32_0_0_0) (fun _ => rfl)).squeeze S32x32 squeezes_S1x32x32_S32x32
  | 1 => (rM.slice (Rect.unit (s := S6x32x32) ![1, 0, 0] S1x32x32.size inb_S6x32x32_S1x32x32_1_0_0) (fun _ => rfl)).squeeze S32x32 squeezes_S1x32x32_S32x32
  | 2 => (rM.slice (Rect.unit (s := S6x32x32) ![2, 0, 0] S1x32x32.size inb_S6x32x32_S1x32x32_2_0_0) (fun _ => rfl)).squeeze S32x32 squeezes_S1x32x32_S32x32
  | 3 => (rM.slice (Rect.unit (s := S6x32x32) ![3, 0, 0] S1x32x32.size inb_S6x32x32_S1x32x32_3_0_0) (fun _ => rfl)).squeeze S32x32 squeezes_S1x32x32_S32x32
  | 4 => (rM.slice (Rect.unit (s := S6x32x32) ![4, 0, 0] S1x32x32.size inb_S6x32x32_S1x32x32_4_0_0) (fun _ => rfl)).squeeze S32x32 squeezes_S1x32x32_S32x32
  | 5 => (rM.slice (Rect.unit (s := S6x32x32) ![5, 0, 0] S1x32x32.size inb_S6x32x32_S1x32x32_5_0_0) (fun _ => rfl)).squeeze S32x32 squeezes_S1x32x32_S32x32
  | ⟨_ + 6, h⟩ => absurd h (Nat.not_lt.2 (Nat.le_add_left _ _))

/-- The face sent in direction `d`, as a 32 × 32 plane: four faces of the block itself, and the two z faces through
    the send buffer the body fills first. -/
abbrev srcM : Fin 6 → Memref sig .tc .vmem S32x32 .f32
  | 0 => (xM.slice (Rect.unit (s := S32x32x32) ![0, 0, 0] S1x32x32.size inb_S32x32x32_S1x32x32_0_0_0) (fun _ => rfl)).squeeze S32x32 squeezes_S1x32x32_S32x32
  | 1 => (xM.slice (Rect.unit (s := S32x32x32) ![31, 0, 0] S1x32x32.size inb_S32x32x32_S1x32x32_31_0_0) (fun _ => rfl)).squeeze S32x32 squeezes_S1x32x32_S32x32
  | 2 => (xM.slice (Rect.unit (s := S32x32x32) ![0, 0, 0] S32x1x32.size inb_S32x32x32_S32x1x32_0_0_0) (fun _ => rfl)).squeeze S32x32 squeezes_S32x1x32_S32x32
  | 3 => (xM.slice (Rect.unit (s := S32x32x32) ![0, 31, 0] S32x1x32.size inb_S32x32x32_S32x1x32_0_31_0) (fun _ => rfl)).squeeze S32x32 squeezes_S32x1x32_S32x32
  | 4 => (sM.slice (Rect.unit (s := S2x32x32) ![0, 0, 0] S1x32x32.size inb_S2x32x32_S1x32x32_0_0_0) (fun _ => rfl)).squeeze S32x32 squeezes_S1x32x32_S32x32
  | 5 => (sM.slice (Rect.unit (s := S2x32x32) ![1, 0, 0] S1x32x32.size inb_S2x32x32_S1x32x32_1_0_0) (fun _ => rfl)).squeeze S32x32 squeezes_S1x32x32_S32x32
  | ⟨_ + 6, h⟩ => absurd h (Nat.not_lt.2 (Nat.le_add_left _ _))

/-! ## The semaphores and the cells -/

/-- The runtime's barrier semaphore of collective id 0 (not scoped to the launch). -/
abbrev barS : Sem sig := (SemArray.scalar (sig.barrier 0 rfl) : Sems sig S_).sem

abbrev sendS : Fin 6 → DmaSem sig
  | 0 => ((cc0_scratch2.slice (Rect.unit (s := S6) ![0] S1.size inb_S6_S1_0)).squeeze S_ squeezes_S1_S_).sem
  | 1 => ((cc0_scratch2.slice (Rect.unit (s := S6) ![1] S1.size inb_S6_S1_1)).squeeze S_ squeezes_S1_S_).sem
  | 2 => ((cc0_scratch2.slice (Rect.unit (s := S6) ![2] S1.size inb_S6_S1_2)).squeeze S_ squeezes_S1_S_).sem
  | 3 => ((cc0_scratch2.slice (Rect.unit (s := S6) ![3] S1.size inb_S6_S1_3)).squeeze S_ squeezes_S1_S_).sem
  | 4 => ((cc0_scratch2.slice (Rect.unit (s := S6) ![4] S1.size inb_S6_S1_4)).squeeze S_ squeezes_S1_S_).sem
  | 5 => ((cc0_scratch2.slice (Rect.unit (s := S6) ![5] S1.size inb_S6_S1_5)).squeeze S_ squeezes_S1_S_).sem
  | ⟨_ + 6, h⟩ => absurd h (Nat.not_lt.2 (Nat.le_add_left _ _))

abbrev recvS : Fin 6 → DmaSem sig
  | 0 => ((cc0_scratch3.slice (Rect.unit (s := S6) ![0] S1.size inb_S6_S1_0)).squeeze S_ squeezes_S1_S_).sem
  | 1 => ((cc0_scratch3.slice (Rect.unit (s := S6) ![1] S1.size inb_S6_S1_1)).squeeze S_ squeezes_S1_S_).sem
  | 2 => ((cc0_scratch3.slice (Rect.unit (s := S6) ![2] S1.size inb_S6_S1_2)).squeeze S_ squeezes_S1_S_).sem
  | 3 => ((cc0_scratch3.slice (Rect.unit (s := S6) ![3] S1.size inb_S6_S1_3)).squeeze S_ squeezes_S1_S_).sem
  | 4 => ((cc0_scratch3.slice (Rect.unit (s := S6) ![4] S1.size inb_S6_S1_4)).squeeze S_ squeezes_S1_S_).sem
  | 5 => ((cc0_scratch3.slice (Rect.unit (s := S6) ![5] S1.size inb_S6_S1_5)).squeeze S_ squeezes_S1_S_).sem
  | ⟨_ + 6, h⟩ => absurd h (Nat.not_lt.2 (Nat.le_add_left _ _))

theorem sendS_val : ∀ d : Fin 6, (sendS d).val = 2 + d.val := by decide
theorem recvS_val : ∀ d : Fin 6, (recvS d).val = 8 + d.val := by decide

abbrev barCell (c : Dev nD) : GSem nD τ sig := ((c : Thread nD τ), .reg barS)
abbrev sendCell (c : Dev nD) (d : Fin 6) : GSem nD τ sig := ((c : Thread nD τ), .dma (sendS d))
abbrev recvCell (c : Dev nD) (d : Fin 6) : GSem nD τ sig := ((c : Thread nD τ), .dma (recvS d))

/-- The units one face's transfer credits its send cell and its receive cell. -/
abbrev N : ℕ := (slotM 0).view.dmaCredit
theorem N_pos : 0 < N := View.dmaCredit_pos _ (by decide)
theorem slot_credit : ∀ d : Fin 6, (slotM d).view.dmaCredit = N := by decide

end Cert.KernelIdeal.HP

end
-- ==== Proof.KernelIdealSched.lean ====
/-
  The halo exchange as a schedule of rounds. Every cell has one round.

  * A device's BARRIER cell has six duties of one unit, one per direction. Duty `e` is paid by the neighbour in
    direction `e` where there is one — and then hands the device that neighbour's receive slot `opp e` (the slot the
    device's own face will land in) with the fact that the neighbour stands at round 0 of the matching receive cell —
    and by the device itself, handing nothing, where there is none. So a device that has taken its six units holds
    every slot it is about to write into, on devices that are inside the kernel.
  * SEND cell `d` of a device with a neighbour that way has one duty of a face's credit, paid by the device's own
    transfer once the face has been read; it hands the lent share of the face's source back.
  * RECEIVE cell `d` of such a device has one duty of a face's credit, paid by the neighbour's transfer once the slot
    is written; it hands the device its slot `d` holding the neighbour's face.
  A barrier cell lies below the receive cells: at its barrier wait a device still owes its neighbours' receive cells.
-/
import proofs.«900363_g7700000000000364_dist_halo3d_v7x_xyz2x2x4_s32_f32_1_alg».proof.Proof.KernelIdealCells

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block, as its input staging buffer holds it. -/
def xstg (c : Dev nD) : (cc0_stg0_0 : Ref sig .tc).ty.Contents (Elt F) :=
  (win0_0.blk t0_0).view.read (Elt F) ((s₀ m ρ).mem ((c : Thread nD τ).loc main_arg0))

/-- Some contents: what a buffer holds where nothing is claimed of it. -/
def junk {ℓ : Loc nD τ sig} : Buf (Elt F) ℓ := fun _ => Classical.ofNonempty

abbrev rZ0 : Rect S32x32x32 := Rect.unit (s := S32x32x32) ![0, 0, 0] S32x32x1.size inb_S32x32x32_S32x32x1_0_0_0
abbrev rZ31 : Rect S32x32x32 := Rect.unit (s := S32x32x32) ![0, 0, 31] S32x32x1.size inb_S32x32x32_S32x32x1_0_0_31
abbrev rS0 : Rect S2x32x32 := Rect.unit (s := S2x32x32) ![0, 0, 0] S1x32x32.size inb_S2x32x32_S1x32x32_0_0_0
abbrev rS1 : Rect S2x32x32 := Rect.unit (s := S2x32x32) ![1, 0, 0] S1x32x32.size inb_S2x32x32_S1x32x32_1_0_0

/-- The send buffer once the body has filled it: the block's z = 0 face in row 0, its z = 31 face in row 1. -/
def sbuf (c : Dev nD) : (cc0_scratch0 : Ref sig .tc).ty.Contents (Elt F) :=
  ((sM.access rS1 : View sig .tc _ _ _)).write (Elt F)
    (((sM.access rS0 : View sig .tc _ _ _)).write (Elt F) (junk (ℓ := (c : Thread nD τ).loc cc0_scratch0))
      (k0_pay7 (xM.view.readAt (Elt F) rZ0.toLoadRect (xstg m ρ c))) Finset.univ)
    (k0_pay9 (k0_pay8 (xM.view.readAt (Elt F) rZ31.toLoadRect (xstg m ρ c)))) Finset.univ

/-- The face device `c` sends in direction `d`. -/
def sent (c : Dev nD) : Fin 6 → (S32x32.Idx → Elt F .f32)
  | 0 => (srcM 0).view.read (Elt F) (xstg m ρ c)
  | 1 => (srcM 1).view.read (Elt F) (xstg m ρ c)
  | 2 => (srcM 2).view.read (Elt F) (xstg m ρ c)
  | 3 => (srcM 3).view.read (Elt F) (xstg m ρ c)
  | 4 => (srcM 4).view.read (Elt F) (sbuf m ρ c)
  | 5 => (srcM 5).view.read (Elt F) (sbuf m ρ c)
  | ⟨_ + 6, h⟩ => absurd h (Nat.not_lt.2 (Nat.le_add_left _ _))

/-- Slot `d` of device `c`'s receive buffer once the neighbour's face has landed (the other slots: nothing claimed). -/
def landed (c : Dev nD) : Fin 6 → (cc0_scratch1 : Ref sig .tc).ty.Contents (Elt F)
  | 0 => (slotM 0).view.write (Elt F) (junk (ℓ := (c : Thread nD τ).loc cc0_scratch1)) (sent m ρ (nb c 0) 1) Finset.univ
  | 1 => (slotM 1).view.write (Elt F) (junk (ℓ := (c : Thread nD τ).loc cc0_scratch1)) (sent m ρ (nb c 1) 0) Finset.univ
  | 2 => (slotM 2).view.write (Elt F) (junk (ℓ := (c : Thread nD τ).loc cc0_scratch1)) (sent m ρ (nb c 2) 3) Finset.univ
  | 3 => (slotM 3).view.write (Elt F) (junk (ℓ := (c : Thread nD τ).loc cc0_scratch1)) (sent m ρ (nb c 3) 2) Finset.univ
  | 4 => (slotM 4).view.write (Elt F) (junk (ℓ := (c : Thread nD τ).loc cc0_scratch1)) (sent m ρ (nb c 4) 5) Finset.univ
  | 5 => (slotM 5).view.write (Elt F) (junk (ℓ := (c : Thread nD τ).loc cc0_scratch1)) (sent m ρ (nb c 5) 4) Finset.univ
  | ⟨_ + 6, h⟩ => absurd h (Nat.not_lt.2 (Nat.le_add_left _ _))

/-! ## Regions -/

/-- The elements of slot `d` in the receive buffer. -/
def slotSet : Fin 6 → Finset (Idx (((0 : Dev nD) : Thread nD τ).loc cc0_scratch1))
  | 0 => (slotM 0).view.set
  | 1 => (slotM 1).view.set
  | 2 => (slotM 2).view.set
  | 3 => (slotM 3).view.set
  | 4 => (slotM 4).view.set
  | 5 => (slotM 5).view.set
  | ⟨_ + 6, h⟩ => absurd h (Nat.not_lt.2 (Nat.le_add_left _ _))

/-- Slot `d` of device `c`'s receive buffer, held whole at contents `f`. -/
def slotPts (c : Dev nD) (d : Fin 6) (f : Buf (Elt F) ((c : Thread nD τ).loc cc0_scratch1)) : sProp 𝕄 :=
  ((c : Thread nD τ).loc cc0_scratch1) ↦[slotSet d]{fullShare} f

/-- The share of the input staging buffer lent to the transfer of face `d` (the four faces of the block overlap on
    edges, so each is lent at a share of its own; the left half stays with the device for its loads). -/
def qOf : Fin 6 → PosShare TreeShare
  | 0 => fullShare.right.left.left
  | 1 => fullShare.right.left.right
  | 2 => fullShare.right.right.left
  | 3 => fullShare.right.right.right
  | _ => fullShare

/-- The source of face `d` on device `c`, at the share lent to its transfer. -/
def srcPts (c : Dev nD) : Fin 6 → sProp 𝕄
  | 0 => (srcM 0).view.loc (c : Thread nD τ) ↦[(srcM 0).view.set]{qOf 0} xstg m ρ c
  | 1 => (srcM 1).view.loc (c : Thread nD τ) ↦[(srcM 1).view.set]{qOf 1} xstg m ρ c
  | 2 => (srcM 2).view.loc (c : Thread nD τ) ↦[(srcM 2).view.set]{qOf 2} xstg m ρ c
  | 3 => (srcM 3).view.loc (c : Thread nD τ) ↦[(srcM 3).view.set]{qOf 3} xstg m ρ c
  | 4 => (srcM 4).view.loc (c : Thread nD τ) ↦[(srcM 4).view.set]{qOf 4} sbuf m ρ c
  | 5 => (srcM 5).view.loc (c : Thread nD τ) ↦[(srcM 5).view.set]{qOf 5} sbuf m ρ c
  | ⟨_ + 6, h⟩ => absurd h (Nat.not_lt.2 (Nat.le_add_left _ _))

omit [FloatOps F] in
instance slotPts_storable (c : Dev nD) (d : Fin 6) (f) : BI.Storable (upEmb : UEmb _ 𝕄) (slotPts (F := F) c d f) := by unfold slotPts; infer_instance
instance srcPts_storable (c : Dev nD) (d : Fin 6) : BI.Storable (upEmb : UEmb _ 𝕄) (srcPts (F := F) m ρ c d) := by
  fin_cases d <;> (dsimp only [srcPts]; infer_instance)

/-! ## The schedule -/

/-- Which direction's send semaphore, or receive semaphore, a DMA semaphore is. -/
def sendDir (q : DmaSem sig) : Option (Fin 6) := if h : 2 ≤ q.val ∧ q.val - 2 < 6 then some ⟨q.val - 2, h.2⟩ else none
def recvDir (q : DmaSem sig) : Option (Fin 6) := if h : 8 ≤ q.val ∧ q.val - 8 < 6 then some ⟨q.val - 8, h.2⟩ else none

theorem sendDir_send : ∀ d : Fin 6, sendDir (sendS d) = some d := by decide
theorem sendDir_recv : ∀ d : Fin 6, sendDir (recvS d) = none := by decide
theorem recvDir_recv : ∀ d : Fin 6, recvDir (recvS d) = some d := by decide

def barPay (c : Dev nD) (e : Fin 6) : sProp 𝕄 :=
  if has c e = true then iprop((∃ f, slotPts (nb c e) (opp e) f) ∗ reached ER (recvCell (nb c e) (opp e)) 0) else iprop(emp)
def recvPay (c : Dev nD) (d : Fin 6) : sProp 𝕄 := slotPts c d (landed m ρ c d)
def sendPay (c : Dev nD) (d : Fin 6) : sProp 𝕄 := srcPts m ρ c d

def dutiesOf (c : Dev nD) : SemLoc sig → Finset (Fin 6)
  | .reg s => if s = barS then Finset.univ else ∅
  | .dma q => match sendDir q, recvDir q with
    | some d, _ => if has c d = true then {0} else ∅
    | none, some d => if has c d = true then {0} else ∅
    | none, none => ∅

def payOf (c : Dev nD) (e : Fin 6) : SemLoc sig → sProp 𝕄
  | .reg s => if s = barS then barPay c e else iprop(emp)
  | .dma q => match sendDir q, recvDir q with
    | some d, _ => sendPay m ρ c d
    | none, some d => recvPay m ρ c d
    | none, none => iprop(emp)

def exRd : Rounds.Schedule (GSem nD τ sig) (Fin 6) 𝕄 where
  duties g r := if r = 0 ∧ g.1.2 = .tc then dutiesOf g.1.1 g.2 else ∅
  unitless _ := False
  amount g _ _ := if g.2 = .reg barS then 1 else N
  payload g _ e := payOf m ρ g.1.1 e g.2
  amount_pos g _ _ _ := by
    by_cases h : g.2 = .reg barS
    · rw [if_pos h]; exact Nat.one_pos
    · rw [if_neg h]; exact N_pos

instance exRd_payload_storable (g : GSem nD τ sig) (r : ℕ) (e : Fin 6) :
    BI.Storable (upEmb : UEmb _ 𝕄) ((exRd (F := F) m ρ).payload g r e) := by
  show BI.Storable upEmb (payOf m ρ g.1.1 e g.2)
  unfold payOf barPay recvPay sendPay
  (repeat' split) <;> infer_instance

end Cert.KernelIdeal.HP

end
-- ==== Proof.KernelIdealTables.lean ====
/-
  The schedule's tables, cell by cell: the duties of round 0, their amounts, the units a round expects, each duty's
  payload, and what a wait that takes a whole round hands its owner.
-/
import proofs.«900363_g7700000000000364_dist_halo3d_v7x_xyz2x2x4_s32_f32_1_alg».proof.Proof.KernelIdealSched

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD) (d : Fin 6)

theorem send_ne_bar : (SemLoc.dma (sendS d) : SemLoc sig) ≠ .reg barS := fun h => by cases h
theorem recv_ne_bar : (SemLoc.dma (recvS d) : SemLoc sig) ≠ .reg barS := fun h => by cases h

theorem dutiesOf_bar : dutiesOf c (.reg barS) = Finset.univ := by unfold dutiesOf; exact if_pos rfl
theorem dutiesOf_send : dutiesOf c (.dma (sendS d)) = if has c d = true then {0} else ∅ := by
  unfold dutiesOf; simp only [sendDir_send]
theorem dutiesOf_recv : dutiesOf c (.dma (recvS d)) = if has c d = true then {0} else ∅ := by
  unfold dutiesOf; simp only [sendDir_recv, recvDir_recv]

theorem duties_bar : (exRd (F := F) m ρ).duties (barCell c) 0 = Finset.univ := by
  dsimp only [exRd]; rw [if_pos ⟨rfl, rfl⟩, dutiesOf_bar]
theorem duties_send (h : has c d = true) : (exRd (F := F) m ρ).duties (sendCell c d) 0 = {0} := by
  dsimp only [exRd]; rw [if_pos ⟨rfl, rfl⟩, dutiesOf_send, if_pos h]
theorem duties_recv (h : has c d = true) : (exRd (F := F) m ρ).duties (recvCell c d) 0 = {0} := by
  dsimp only [exRd]; rw [if_pos ⟨rfl, rfl⟩, dutiesOf_recv, if_pos h]
theorem duties_send_none (h : has c d = false) : ∀ r, (exRd (F := F) m ρ).duties (sendCell c d) r = ∅ := fun r => by
  dsimp only [exRd]; split
  · rw [dutiesOf_send, if_neg (by rw [h]; decide)]
  · rfl
theorem duties_recv_none (h : has c d = false) : ∀ r, (exRd (F := F) m ρ).duties (recvCell c d) r = ∅ := fun r => by
  dsimp only [exRd]; split
  · rw [dutiesOf_recv, if_neg (by rw [h]; decide)]
  · rfl
theorem duties_later (g : GSem nD τ sig) : ∀ r, 1 ≤ r → (exRd (F := F) m ρ).duties g r = ∅ :=
  fun r hr => by dsimp only [exRd]; rw [if_neg fun h => by omega]

theorem amount_bar (e : Fin 6) : (exRd (F := F) m ρ).amount (barCell c) 0 e = 1 := by dsimp only [exRd]; exact if_pos rfl
theorem amount_send (e : Fin 6) : (exRd (F := F) m ρ).amount (sendCell c d) 0 e = N := by dsimp only [exRd]; exact if_neg (send_ne_bar d)
theorem amount_recv (e : Fin 6) : (exRd (F := F) m ρ).amount (recvCell c d) 0 e = N := by dsimp only [exRd]; exact if_neg (recv_ne_bar d)

theorem expect_bar : (exRd (F := F) m ρ).expect (barCell c) 0 = 6 := by
  unfold Schedule.expect Schedule.amountOf
  rw [duties_bar, Finset.sum_congr rfl fun e _ => amount_bar m ρ c e, Finset.sum_const, Finset.card_univ, Fintype.card_fin, smul_eq_mul]
theorem expect_send (h : has c d = true) : (exRd (F := F) m ρ).expect (sendCell c d) 0 = N := by
  unfold Schedule.expect Schedule.amountOf; rw [duties_send m ρ c d h, Finset.sum_singleton, amount_send]
theorem expect_recv (h : has c d = true) : (exRd (F := F) m ρ).expect (recvCell c d) 0 = N := by
  unfold Schedule.expect Schedule.amountOf; rw [duties_recv m ρ c d h, Finset.sum_singleton, amount_recv]

theorem payload_bar (e : Fin 6) : (exRd (F := F) m ρ).payload (barCell c) 0 e = barPay c e := by
  dsimp only [exRd, payOf]; exact if_pos rfl
theorem payload_send (e : Fin 6) : (exRd (F := F) m ρ).payload (sendCell c d) 0 e = sendPay m ρ c d := by
  dsimp only [exRd]; unfold payOf; simp only [sendDir_send]
theorem payload_recv (e : Fin 6) : (exRd (F := F) m ρ).payload (recvCell c d) 0 e = recvPay m ρ c d := by
  dsimp only [exRd]; unfold payOf; simp only [sendDir_recv, recvDir_recv]

/-- A wait that takes the barrier cell's whole round hands over the six directions' payloads. -/
theorem rest_bar : bigSep ((exRd (F := F) m ρ).duties (barCell c) 0 \ ∅) (fun e => (exRd (F := F) m ρ).payload (barCell c) 0 e)
    = iprop(barPay c 0 ∗ barPay c 1 ∗ barPay c 2 ∗ barPay c 3 ∗ barPay c 4 ∗ barPay c 5) := by
  rw [Finset.sdiff_empty, duties_bar, bigSep_univ_eq_bigSepL [0, 1, 2, 3, 4, 5] (by decide) (by decide)]
  simp only [payload_bar]
  rfl
theorem rest_send (h : has c d = true) : bigSep ((exRd (F := F) m ρ).duties (sendCell c d) 0 \ ∅) (fun e => (exRd (F := F) m ρ).payload (sendCell c d) 0 e) = sendPay m ρ c d := by
  rw [Finset.sdiff_empty, duties_send m ρ c d h, bigSep_singleton, payload_send]
theorem rest_recv (h : has c d = true) : bigSep ((exRd (F := F) m ρ).duties (recvCell c d) 0 \ ∅) (fun e => (exRd (F := F) m ρ).payload (recvCell c d) 0 e) = recvPay m ρ c d := by
  rw [Finset.sdiff_empty, duties_recv m ρ c d h, bigSep_singleton, payload_recv]

end Tables

end Cert.KernelIdeal.HP

end
-- ==== Proof.KernelIdealGhost.lean ====
/-
  What a device starts from and what it owes.

  * A device OWES, from launch: one unit to the barrier cell of whoever stands in each of its six directions (the
    neighbour, or itself where there is none), and a face's credit to the receive cell `opp d` of its neighbour in
    each direction `d` that has one. The sum is written so that the signals, in program order, and then the
    transfers, in program order, each take the LAST summand.
  * Its GHOST state: every cell's invariant and round-0 mark (shared by all, persistent); its position at round 0 of
    its own thirteen cells; the tokens of the duties it pays — per direction the barrier duty it signals (its
    neighbour's duty `opp d`, or its own duty `d`), and where there is a neighbour the neighbour's receive duty
    and its own send duty.
  * It STARTS with that, the credit for its barrier cell's six units and for each receive cell a neighbour pays, the
    level facts, and its two scratch buffers at some contents; it ENDS with the scratch buffers at some contents and
    its twelve own semaphores at zero, their cells closed.
-/
import proofs.«900363_g7700000000000364_dist_halo3d_v7x_xyz2x2x4_s32_f32_1_alg».proof.Proof.KernelIdealTables

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What each device owes at launch; the levels -/

def oweR (c : Dev nD) (d : Fin 6) : CellTallies nD τ sig Unit :=
  tallyAt (recvCell (nb c d) (opp d)) () (if has c d = true then N else 0)
def oweB (c : Dev nD) (d : Fin 6) : CellTallies nD τ sig Unit := tallyAt (barCell (nb c d)) () 1

def O₀ (c : Dev nD) : CellTallies nD τ sig Unit :=
  oweR c 5 + oweR c 4 + oweR c 3 + oweR c 2 + oweR c 1 + oweR c 0 + oweB c 5 + oweB c 4 + oweB c 3 + oweB c 2 + oweB c 1 + oweB c 0

def L (g : GSem nD τ sig) : Finset Unit := if g.1.2 = .tc then {()} else ∅
/-- Barrier cells at 1, receive cells at 2, everything else (staging, send) at 0. -/
def lv (g : GSem nD τ sig) (_ : Unit) : ℕ := match g.2 with
  | .reg s => if s = barS then 1 else 0
  | .dma q => if (recvDir q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed -/

/-- A device's thirteen cells: its barrier cell, and per direction a send cell (`false`) and a receive cell (`true`). -/
abbrev CellIx : Type := Option (Bool × Fin 6)
abbrev csem : CellIx → SemLoc sig
  | none => .reg barS
  | some (false, d) => .dma (sendS d)
  | some (true, d) => .dma (recvS d)
abbrev kcell (ck : Dev nD × CellIx) : GSem nD τ sig := ((ck.1 : Thread nD τ), csem ck.2)

/-- The twelve semaphores scoped to the launch, as the launch theorem indexes them: six send, then six receive. -/
abbrev osem : Fin 12 → SemLoc sig := fun k => if h : k.val < 6 then .dma (sendS ⟨k.val, h⟩) else .dma (recvS ⟨k.val - 6, by omega⟩)

/-! ## Ghost state -/

def records (K : Dev nD × CellIx → ℕ) : sProp 𝕄 :=
  iprop((bigSep Finset.univ fun ck : Dev nD × CellIx => cellInv ER (exRd m ρ) (K ck) (kcell ck))
    ∗ bigSep Finset.univ fun ck : Dev nD × CellIx => reached ER (kcell ck) 0)

instance records_persistent (K : Dev nD × CellIx → ℕ) : BI.Persistent (records m ρ K) := by unfold records; infer_instance

/-- The barrier duty device `c` pays in direction `d`: its neighbour's duty `opp d`, or its own duty `d`. -/
def barDuty (c : Dev nD) (d : Fin 6) : Fin 6 := if has c d = true then opp d else d

def payToks (c : Dev nD) : sProp 𝕄 :=
  iprop((bigSep Finset.univ fun d : Fin 6 => dutyTok ER (barCell (nb c d)) 0 (barDuty c d))
    ∗ bigSep Finset.univ fun d : Fin 6 =>
        if has c d = true then iprop(dutyTok ER (recvCell (nb c d) (opp d)) 0 0 ∗ dutyTok ER (sendCell c d) 0 0) else iprop(emp))

def linear (c : Dev nD) : sProp 𝕄 :=
  iprop((bigSep Finset.univ fun k : CellIx => atPos ER (kcell (c, k)) 0 ∅ 0) ∗ payToks c)

def ghost (K : Dev nD × CellIx → ℕ) (c : Dev nD) : sProp 𝕄 := iprop(records m ρ K ∗ linear c)

/-- What device `c`'s body starts from besides its buffers. -/
def start (c : Dev nD) : sProp 𝕄 :=
  iprop((∃ K, ghost m ρ K c) ∗ cred (tallyAt (barCell c) () 6)
    ∗ (bigSep Finset.univ fun d : Fin 6 => if has c d = true then cred (tallyAt (recvCell c d) () N) else iprop(emp))
    ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
def Φ₁ (c : Dev nD) : sProp 𝕄 :=
  iprop(scratch c ∗ bigSep Finset.univ fun d : Fin 6 => iprop(semVal (sendCell c d) 0 ∗ semVal (recvCell c d) 0))

end Cert.KernelIdeal.HP

end
-- ==== Proof.KernelIdealOut.lean ====
/-
  What a device's output staging buffer holds when its body returns: the whole-block stencil stored first; then, for
  each direction that has a neighbour, the received plane added onto the face that touches it; then zero stored on each
  face that has no neighbour.
-/
import proofs.«900363_g7700000000000364_dist_halo3d_v7x_xyz2x2x4_s32_f32_1_alg».proof.Proof.KernelIdealSched

noncomputable section

namespace Cert.KernelIdeal.HP

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

abbrev rX0 : Rect S32x32x32 := Rect.unit (s := S32x32x32) ![0, 0, 0] S1x32x32.size inb_S32x32x32_S1x32x32_0_0_0
abbrev rX31 : Rect S32x32x32 := Rect.unit (s := S32x32x32) ![31, 0, 0] S1x32x32.size inb_S32x32x32_S1x32x32_31_0_0
abbrev rY0 : Rect S32x32x32 := Rect.unit (s := S32x32x32) ![0, 0, 0] S32x1x32.size inb_S32x32x32_S32x1x32_0_0_0
abbrev rY31 : Rect S32x32x32 := Rect.unit (s := S32x32x32) ![0, 31, 0] S32x1x32.size inb_S32x32x32_S32x1x32_0_31_0
abbrev rAll : Rect S32x32x32 := Rect.unit (s := S32x32x32) ![0, 0, 0] S32x32x32.size inb_S32x32x32_S32x32x32_0_0_0
abbrev rR0 : Rect S6x32x32 := Rect.unit (s := S6x32x32) ![0, 0, 0] S1x32x32.size inb_S6x32x32_S1x32x32_0_0_0
abbrev rR1 : Rect S6x32x32 := Rect.unit (s := S6x32x32) ![1, 0, 0] S1x32x32.size inb_S6x32x32_S1x32x32_1_0_0
abbrev rR2 : Rect S6x32x32 := Rect.unit (s := S6x32x32) ![2, 0, 0] S1x32x32.size inb_S6x32x32_S1x32x32_2_0_0
abbrev rR3 : Rect S6x32x32 := Rect.unit (s := S6x32x32) ![3, 0, 0] S1x32x32.size inb_S6x32x32_S1x32x32_3_0_0
abbrev rR4 : Rect S6x32x32 := Rect.unit (s := S6x32x32) ![4, 0, 0] S1x32x32.size inb_S6x32x32_S1x32x32_4_0_0
abbrev rR5 : Rect S6x32x32 := Rect.unit (s := S6x32x32) ![5, 0, 0] S1x32x32.size inb_S6x32x32_S1x32x32_5_0_0

abbrev OutC : Type := (cc0_stg1_0 : Ref sig .tc).ty.Contents (Elt F)
abbrev RecvC : Type := (cc0_scratch1 : Ref sig .tc).ty.Contents (Elt F)

/-- The whole-block stencil the body stores first: the zero-padded sum of the six shifted copies of the block minus six
    times the block. -/
def out0 (X : (cc0_stg0_0 : Ref sig .tc).ty.Contents (Elt F)) : OutC (F := F) :=
  k0_pay20 (k0_pay10 (xM.view.readAt (Elt F) rAll.toLoadRect X)) k0_pay13 (k0_pay14 (xM.view.readAt (Elt F) rAll.toLoadRect X))
    (k0_pay15 (xM.view.readAt (Elt F) rAll.toLoadRect X)) (k0_pay16 (xM.view.readAt (Elt F) rAll.toLoadRect X))
    (k0_pay17 (xM.view.readAt (Elt F) rAll.toLoadRect X)) (k0_pay18 (xM.view.readAt (Elt F) rAll.toLoadRect X))
    (k0_pay19 (xM.view.readAt (Elt F) rAll.toLoadRect X))

/-- Face `d` of the output with the plane in slot `d` of the receive buffer added. -/
def addFace : Fin 6 → OutC (F := F) → RecvC (F := F) → OutC (F := F)
  | 0 => fun o r => ((oM.access rX0 : View sig .tc _ _ _)).write (Elt F) o (k0_pay21 (oM.view.readAt (Elt F) rX0.toLoadRect o) (rM.view.readAt (Elt F) rR0.toLoadRect r)) Finset.univ
  | 1 => fun o r => ((oM.access rX31 : View sig .tc _ _ _)).write (Elt F) o (k0_pay22 (oM.view.readAt (Elt F) rX31.toLoadRect o) (rM.view.readAt (Elt F) rR1.toLoadRect r)) Finset.univ
  | 2 => fun o r => ((oM.access rY0 : View sig .tc _ _ _)).write (Elt F) o (k0_pay23 (oM.view.readAt (Elt F) rY0.toLoadRect o) (rM.view.readAt (Elt F) rR2.toLoadRect r)) Finset.univ
  | 3 => fun o r => ((oM.access rY31 : View sig .tc _ _ _)).write (Elt F) o (k0_pay24 (oM.view.readAt (Elt F) rY31.toLoadRect o) (rM.view.readAt (Elt F) rR3.toLoadRect r)) Finset.univ
  | 4 => fun o r => ((oM.access rZ0 : View sig .tc _ _ _)).write (Elt F) o (k0_pay25 (oM.view.readAt (Elt F) rZ0.toLoadRect o) (rM.view.readAt (Elt F) rR4.toLoadRect r)) Finset.univ
  | 5 => fun o r => ((oM.access rZ31 : View sig .tc _ _ _)).write (Elt F) o (k0_pay26 (oM.view.readAt (Elt F) rZ31.toLoadRect o) (rM.view.readAt (Elt F) rR5.toLoadRect r)) Finset.univ
  | ⟨_ + 6, h⟩ => absurd h (Nat.not_lt.2 (Nat.le_add_left _ _))

/-- Face `d` of the output set to zero. -/
def zeroFace : Fin 6 → OutC (F := F) → OutC (F := F)
  | 0 => fun o => ((oM.access rX0 : View sig .tc _ _ _)).write (Elt F) o (k0_pay1 (F := F)) Finset.univ
  | 1 => fun o => ((oM.access rX31 : View sig .tc _ _ _)).write (Elt F) o (k0_pay2 (F := F)) Finset.univ
  | 2 => fun o => ((oM.access rY0 : View sig .tc _ _ _)).write (Elt F) o (k0_pay3 (F := F)) Finset.univ
  | 3 => fun o => ((oM.access rY31 : View sig .tc _ _ _)).write (Elt F) o (k0_pay4 (F := F)) Finset.univ
  | 4 => fun o => ((oM.access rZ0 : View sig .tc _ _ _)).write (Elt F) o (k0_pay5 (F := F)) Finset.univ
  | 5 => fun o => ((oM.access rZ31 : View sig .tc _ _ _)).write (Elt F) o (k0_pay6 (F := F)) Finset.univ
  | ⟨_ + 6, h⟩ => absurd h (Nat.not_lt.2 (Nat.le_add_left _ _))

def addStep (c : Dev nD) (d : Fin 6) (o : OutC (F := F)) : OutC (F := F) :=
  if has c d = true then addFace d o (landed m ρ c d) else o
def zeroStep (c : Dev nD) (d : Fin 6) (o : OutC (F := F)) : OutC (F := F) :=
  if has c d = true then o else zeroFace d o

def outAt (c : Dev nD) : OutC (F := F) :=
  zeroStep c 5 (zeroStep c 4 (zeroStep c 3 (zeroStep c 2 (zeroStep c 1 (zeroStep c 0
    (addStep m ρ c 5 (addStep m ρ c 4 (addStep m ρ c 3 (addStep m ρ c 2 (addStep m ρ c 1 (addStep m ρ c 0
      (out0 (xstg m ρ c)))))))))))))

end Cert.KernelIdeal.HP

end
-- ==== Proof.KernelIdealDats.lean ====
/-
  The pipeline's proof data for one device: its block stays in the input staging buffer, the output staging buffer
  ends at `outAt`, the invariant goes from the starting state to the closed cells, and the device owes `O₀` before
  the one grid point and nothing after it.
-/
import proofs.«900363_g7700000000000364_dist_halo3d_v7x_xyz2x2x4_s32_f32_1_alg».proof.Proof.KernelIdealGhost
import proofs.«900363_g7700000000000364_dist_halo3d_v7x_xyz2x2x4_s32_f32_1_alg».proof.Proof.KernelIdealOut

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.KernelIdeal.HP

end
-- ==== Proof.KernelIdealLaunch.lean ====
/-
  The launch of the halo exchange on the 2 × 2 × 4 mesh: from "each device's body is proved" to the run of the whole
  program.

  * The launch element funds every device's thirteen cells (its barrier cell, six send cells, six receive cells) at
    round 0 and mints the tokens of their duties: the six barrier duties, and where there is a neighbour in a
    direction the send cell's and the receive cell's one duty.
  * One update over all devices at once puts every cell's counter and round state into an invariant and deals the
    tokens to the devices that PAY the duties. The pairing (c, d) ↦ (neighbour of c in direction d, opposite of d) on
    the pairs that have a neighbour, the identity on the others, is its own inverse; along it a barrier duty's token
    goes to the device standing in its direction (itself where there is none) and a receive duty's token to the
    neighbour whose transfer pays it; a send duty's token stays.
  * The launch credit: over the mesh a barrier cell is owed six units (one from whoever stands in each direction), a
    receive cell one face where there is a neighbour that way and nothing otherwise.
  * Levels: what a device owes sits at level 1 (barrier cells) or 2 (receive cells); a staging semaphore sits at 0, so
    the pipeline's own waits are always allowed.
-/
import proofs.«900363_g7700000000000364_dist_halo3d_v7x_xyz2x2x4_s32_f32_1_alg».proof.Proof.KernelIdealDats
import Idealize.ShloMosaic.Lib.Pipeline.Launch
import Idealize.ShloMosaic.Lib.Pipeline.Kit
import Idealize.ShloMosaic.Lib.Tactic

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the duty tokens -/

theorem sendS_inj {d d' : Fin 6} (h : sendS d = sendS d') : d = d' := by
  have hv : (sendS d).val = (sendS d').val := by rw [h]
  rw [sendS_val, sendS_val] at hv
  exact Fin.ext (by omega)
theorem recvS_inj {d d' : Fin 6} (h : recvS d = recvS d') : d = d' := by
  have hv : (recvS d).val = (recvS d').val := by rw [h]
  rw [recvS_val, recvS_val] at hv
  exact Fin.ext (by omega)
theorem send_ne_recv (d d' : Fin 6) : sendS d ≠ recvS d' := fun h => by
  have hv : (sendS d).val = (recvS d').val := by rw [h]
  rw [sendS_val, recvS_val] at hv
  have := d.isLt
  omega

theorem csem_injective : Function.Injective (csem : CellIx → SemLoc sig) := by
  rintro (_ | ⟨_ | _, d⟩) (_ | ⟨_ | _, d'⟩) h
  · rfl
  · cases h
  · cases h
  · cases h
  · rw [sendS_inj (SemLoc.dma.inj h)]
  · exact absurd (SemLoc.dma.inj h) (send_ne_recv d d')
  · cases h
  · exact absurd (SemLoc.dma.inj h).symm (send_ne_recv d' d)
  · rw [recvS_inj (SemLoc.dma.inj h)]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's thirteen cells. -/
def exCells : Finset (GSem nD τ sig) := Finset.univ.map ⟨kcell, kcell_injective⟩

/-- A device's own cells' duty tokens as minted: (device, direction, which) — the barrier's duty in that direction, and
    the send cell's and the receive cell's one duty. -/
abbrev tokOf (x : Dev nD × Fin 6 × Fin 3) : GSem nD τ sig × ℕ × Fin 6 := match x.2.2 with
  | 0 => (barCell x.1, 0, x.2.1) | 1 => (sendCell x.1 x.2.1, 0, 0) | 2 => (recvCell x.1 x.2.1, 0, 0)

theorem tokOf_injective : Function.Injective (tokOf : Dev nD × Fin 6 × Fin 3 → GSem nD τ sig × ℕ × Fin 6) := by
  rintro ⟨c, d, j⟩ ⟨c', d', j'⟩ h
  have h1 : c = c' := by
    have := congrArg (fun x : GSem nD τ sig × ℕ × Fin 6 => x.1.1.1) h
    fin_cases j <;> fin_cases j' <;> exact this
  subst h1
  have hs : (tokOf (c, d, j)).1.2 = (tokOf (c, d', j')).1.2 := by rw [h]
  have hd : (tokOf (c, d, j)).2.2 = (tokOf (c, d', j')).2.2 := by rw [h]
  fin_cases j <;> fin_cases j'
  · have e : d = d' := hd
    subst e; rfl
  · cases hs
  · cases hs
  · cases hs
  · have e := sendS_inj (SemLoc.dma.inj hs)
    subst e; rfl
  · exact absurd (SemLoc.dma.inj hs) (send_ne_recv d d')
  · cases hs
  · exact absurd (SemLoc.dma.inj hs).symm (send_ne_recv d' d)
  · have e := recvS_inj (SemLoc.dma.inj hs)
    subst e; rfl

/-- The tokens that are minted: every barrier duty, and a transfer's two where there is a neighbour. -/
def need (x : Dev nD × Fin 6 × Fin 3) : Bool := match x.2.2 with
  | 0 => true | _ => has x.1 x.2.1

def exToks : Finset (GSem nD τ sig × ℕ × Fin 6) := (Finset.univ.filter fun x => need x = true).map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  bigSep Finset.univ fun d : Fin 6 =>
    iprop(dutyTok ER (barCell c) 0 d
      ∗ (if has c d = true then dutyTok ER (sendCell c d) 0 0 else iprop(emp))
      ∗ (if has c d = true then dutyTok ER (recvCell c d) 0 0 else iprop(emp)))

/-- What the launch element deals device `c`. -/
def G (c : Dev nD) : sProp 𝕄 :=
  iprop((bigSep Finset.univ fun k : CellIx => roundState ER (exRd m ρ) (kcell (c, k)) 0)
    ∗ (bigSep Finset.univ fun k : CellIx => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- A family over a device's thirteen cells: the barrier cell's member, the six send cells', the six receive cells'. -/
theorem bigSep_cellIx (Φ : CellIx → sProp 𝕄) : bigSep Finset.univ Φ
    = iprop(Φ none ∗ (bigSep Finset.univ fun d : Fin 6 => Φ (some (false, d))) ∗ bigSep Finset.univ fun d : Fin 6 => Φ (some (true, d))) := by
  have he : (Finset.univ.erase (none : CellIx)) = Finset.univ.map (Function.Embedding.some : (Bool × Fin 6) ↪ CellIx) := by
    ext k; cases k <;> simp
  rw [bigSep_univ_at Φ none, he, bigSep_map, bigSep_univ_prod, bigSep_univ_eq_bigSepL [false, true] (by decide) (by decide)]
  rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CellIx => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_filter, bigSep_univ_prod]
    refine bigSep_congr fun c _ => ?_
    unfold toks; rw [bigSep_univ_prod]
    refine bigSep_congr fun d _ => ?_
    rw [bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores: the twelve scoped ones and the barrier's -/

theorem osem_send : ∀ d : Fin 6, osem (finSumFinEquiv (m := 6) (n := 6) (Sum.inl d)) = .dma (sendS d) := by decide
theorem osem_recv : ∀ d : Fin 6, osem (finSumFinEquiv (m := 6) (n := 6) (Sum.inr d)) = .dma (recvS d) := by decide

/-- The six send and six receive semaphores are the kernel's own twelve; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 6 => semVal (sendCell c d) 0) ∗ bigSep Finset.univ fun d : Fin 6 => semVal (recvCell c d) 0) := by
  unfold Pipeline.ownSems0
  rw [bigSep_univ_equiv (finSumFinEquiv (m := 6) (n := 6)), bigSep_univ_sum]
  simp only [osem_send, osem_recv]
  rfl

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (exRd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (exRd m ρ) (kcell (c, k)) 0)
      ⊢ (|={Set.univ}=> bigSep Finset.univ fun k : CellIx => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens to their payers -/

/-- The pairing of a (device, direction) that has a neighbour with (that neighbour, the opposite direction); the others
    stay. It is its own inverse. -/
def pair (p : Dev nD × Fin 6) : Dev nD × Fin 6 := if has p.1 p.2 = true then (nb p.1 p.2, opp p.2) else p
theorem pair_pair : ∀ p : Dev nD × Fin 6, pair (pair p) = p := by decide
def pairE : (Dev nD × Fin 6) ≃ (Dev nD × Fin 6) := ⟨pair, pair, pair_pair, pair_pair⟩
theorem pair_fst : ∀ (c : Dev nD) (d : Fin 6), (pair (c, d)).1 = nb c d := by decide
theorem pair_snd : ∀ (c : Dev nD) (d : Fin 6), (pair (c, d)).2 = barDuty c d := by decide
theorem pair_has : ∀ (c : Dev nD) (d : Fin 6), has (pair (c, d)).1 (pair (c, d)).2 = has c d := by decide

/-- One (device, direction): the barrier token that arrives there is the duty the device pays in that direction, and the
    receive token that arrives is its neighbour's. -/
theorem deal_at (c : Dev nD) (d : Fin 6) :
    iprop(dutyTok ER (barCell (pair (c, d)).1) 0 (pair (c, d)).2
        ∗ (if has c d = true then dutyTok ER (sendCell c d) 0 0 else iprop(emp))
        ∗ (if has (pair (c, d)).1 (pair (c, d)).2 = true then dutyTok ER (recvCell (pair (c, d)).1 (pair (c, d)).2) 0 0 else iprop(emp)))
      ⊢ (iprop(dutyTok ER (barCell (nb c d)) 0 (barDuty c d)
        ∗ (if has c d = true then iprop(dutyTok ER (recvCell (nb c d) (opp d)) 0 0 ∗ dutyTok ER (sendCell c d) 0 0) else iprop(emp))) : sProp 𝕄) := by
  rw [pair_has, pair_fst, pair_snd]
  by_cases h : has c d = true
  · have hb : barDuty c d = opp d := by unfold barDuty; rw [if_pos h]
    rw [if_pos h, if_pos h, if_pos h, hb]
    iintro ⟨HA, HS, HR⟩
    isplitl [HA]; · iexact HA
    isplitl [HR]; · iexact HR
    iexact HS
  · rw [if_neg h, if_neg h, if_neg h]
    iintro ⟨HA, -, -⟩
    isplitl [HA]; · iexact HA
    iempintro

/-- The tokens dealt over the mesh: a barrier duty's token to the neighbour in its direction (who holds it as the duty it
    pays there) or kept where there is none, a receive duty's token to the neighbour that pays it, a send duty's kept. -/
theorem toks_around : (bigSep Finset.univ fun c : Dev nD => (toks c : sProp 𝕄)) ⊢ bigSep Finset.univ fun c : Dev nD => payToks c := by
  have hL : (bigSep Finset.univ fun c : Dev nD => (toks c : sProp 𝕄))
      = bigSep Finset.univ fun p : Dev nD × Fin 6 =>
          iprop(dutyTok ER (barCell (pair p).1) 0 (pair p).2
            ∗ (if has p.1 p.2 = true then dutyTok ER (sendCell p.1 p.2) 0 0 else iprop(emp))
            ∗ (if has (pair p).1 (pair p).2 = true then dutyTok ER (recvCell (pair p).1 (pair p).2) 0 0 else iprop(emp))) := by
    unfold toks
    rw [← bigSep_univ_prod (fun p : Dev nD × Fin 6 => iprop(dutyTok ER (barCell p.1) 0 p.2
        ∗ (if has p.1 p.2 = true then dutyTok ER (sendCell p.1 p.2) 0 0 else iprop(emp))
        ∗ (if has p.1 p.2 = true then dutyTok ER (recvCell p.1 p.2) 0 0 else iprop(emp)))),
      bigSep_sep', bigSep_sep', bigSep_sep', bigSep_sep',
      bigSep_univ_equiv pairE (fun p : Dev nD × Fin 6 => (dutyTok ER (barCell p.1) 0 p.2 : sProp 𝕄)),
      bigSep_univ_equiv pairE (fun p : Dev nD × Fin 6 => (if has p.1 p.2 = true then dutyTok ER (recvCell p.1 p.2) 0 0 else iprop(emp) : sProp 𝕄))]
    rfl
  have hR : (bigSep Finset.univ fun c : Dev nD => (payToks c : sProp 𝕄))
      = bigSep Finset.univ fun p : Dev nD × Fin 6 =>
          iprop(dutyTok ER (barCell (nb p.1 p.2)) 0 (barDuty p.1 p.2)
            ∗ (if has p.1 p.2 = true then iprop(dutyTok ER (recvCell (nb p.1 p.2) (opp p.2)) 0 0 ∗ dutyTok ER (sendCell p.1 p.2) 0 0) else iprop(emp))) := by
    unfold payToks
    rw [bigSep_univ_prod]
    exact bigSep_congr fun c _ => (bigSep_sep' _ _ _).symm
  rw [hL, hR]
  exact bigSep_mono fun p _ => deal_at p.1 p.2

theorem inv_at (K : Dev nD × CellIx → ℕ) (ck : Dev nD × CellIx) :
    (bigSep Finset.univ fun ck : Dev nD × CellIx => (cellInv ER (exRd m ρ) (K ck) (kcell ck) : sProp 𝕄)) ⊢ cellInv ER (exRd m ρ) (K ck) (kcell ck) :=
  bigSep_elim (Finset.mem_univ ck)
theorem reached_at (ck : Dev nD × CellIx) :
    (bigSep Finset.univ fun ck : Dev nD × CellIx => (reached ER (kcell ck) 0 : sProp 𝕄)) ⊢ reached ER (kcell ck) 0 :=
  bigSep_elim (Finset.mem_univ ck)

theorem ghost_intro (K : Dev nD × CellIx → ℕ) (c : Dev nD) : iprop(records m ρ K ∗ linear c) ⊢ G' m ρ c := by
  unfold G' ghost
  iintro H
  iexists K
  iexact H

theorem regroup :
    (bigSep Finset.univ fun c : Dev nD => iprop((bigSep Finset.univ fun k : CellIx => iprop(∃ κ : ℕ, cellInv ER (exRd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (exRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_bar (c a : Dev nD) : (barCell c = barCell a) = (a = c) :=
  propext ⟨fun h => (Fin.ext (congrArg (fun g : GSem nD τ sig => g.1.1.val) h)).symm, fun h => h ▸ rfl⟩
theorem bar_eq_recv (c a : Dev nD) (e : Fin 6) : (barCell c = recvCell a e) = False :=
  eq_false fun h => by cases (congrArg Prod.snd h)
theorem recv_eq_bar (c a : Dev nD) (e : Fin 6) : (recvCell c e = barCell a) = False :=
  eq_false fun h => by cases (congrArg Prod.snd h)
theorem recv_eq_recv (c a : Dev nD) (d e : Fin 6) : (recvCell c d = recvCell a e) = (a = c ∧ e = d) :=
  propext ⟨fun h => ⟨(Fin.ext (congrArg (fun g : GSem nD τ sig => g.1.1.val) h)).symm, (recvS_inj (SemLoc.dma.inj (congrArg Prod.snd h))).symm⟩,
    fun ⟨h1, h2⟩ => by rw [h1, h2]⟩

/-- How many units device `d` owes device `c`'s barrier cell: one per direction in which `c` stands for `d`. -/
def barCount (d c : Dev nD) : ℕ := ∑ e : Fin 6, if nb d e = c then 1 else 0
/-- Over the whole mesh a barrier cell is owed six: one unit from whoever stands in each direction, the device itself
    included. -/
theorem barCount_sum : ∀ c : Dev nD, ∑ d : Dev nD, barCount d c = 6 := by decide

theorem owed_bar (d c : Dev nD) : O₀ d (barCell c) () = barCount d c := by
  unfold O₀ oweR oweB barCount
  simp only [Pi.add_apply, Finsupp.add_apply, tallyAt_apply, bar_eq_recv, bar_eq_bar, false_and, eq_self, and_true, ↓reduceIte,
    Fin.sum_univ_six, zero_add, add_zero]
  ac_rfl

/-- How many faces device `d` owes receive cell `e'` of device `c`. -/
def recvCount (d c : Dev nD) (e' : Fin 6) : ℕ :=
  ∑ e : Fin 6, if nb d e = c ∧ opp e = e' then (if has d e = true then 1 else 0) else 0
/-- Over the whole mesh a receive cell is owed one face where there is a neighbour that way, none otherwise. -/
theorem recvCount_sum : ∀ (c : Dev nD) (e' : Fin 6), ∑ d : Dev nD, recvCount d c e' = if has c e' = true then 1 else 0 := by decide

theorem owed_recv (d c : Dev nD) (e' : Fin 6) : O₀ d (recvCell c e') () = N * recvCount d c e' := by
  unfold O₀ oweR oweB recvCount
  simp only [Pi.add_apply, Finsupp.add_apply, tallyAt_apply, recv_eq_bar, recv_eq_recv, false_and, eq_self, and_true, ↓reduceIte,
    Fin.sum_univ_six, zero_add, add_zero, Nat.mul_add, mul_ite, mul_one, mul_zero]
  ac_rfl

theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c, barCount_sum]

theorem launch_recv (c : Dev nD) (e : Fin 6) :
    tallyOn (recvCell c e) (launchCredit (Pipeline.owing O₀) 0 (recvCell c e))
      = (tallyAt (recvCell c e) () (if has c e = true then N else 0) : CellTallies nD τ sig Unit) := by
  unfold tallyAt; refine congrArg _ (Finsupp.ext fun u => ?_); cases u
  rw [Pipeline.launchCredit_owing, Finsupp.single_eq_same, Finset.sum_congr rfl fun d _ => owed_recv d c e, ← Finset.mul_sum, recvCount_sum,
    mul_ite, mul_one, mul_zero]

theorem cred_recv (c : Dev nD) (d : Fin 6) :
    (cred (tallyOn (recvCell c d) (launchCredit (Pipeline.owing O₀) 0 (recvCell c d))) : sProp 𝕄)
      ⊢ if has c d = true then cred (tallyAt (recvCell c d) () N) else iprop(emp) := by
  rw [launch_recv]
  by_cases hh : has c d = true
  · rw [if_pos hh, if_pos hh]
  · rw [if_neg hh, if_neg hh]; iintro -; iempintro

theorem bigSep_sdiff_split' {I : Type} [DecidableEq I] {s t : Finset I} (h : t ⊆ s) (Φ : I → sProp 𝕄) :
    bigSep s Φ = iprop(bigSep t Φ ∗ bigSep (s \ t) Φ) := bigSep_sdiff_split h

theorem creds (c : Dev nD) :
    (Pipeline.launchCred O₀ c : sProp 𝕄) ⊢ iprop(cred (tallyAt (barCell c) () 6)
      ∗ bigSep Finset.univ fun d : Fin 6 => if has c d = true then cred (tallyAt (recvCell c d) () N) else iprop(emp)) := by
  unfold Pipeline.launchCred
  rw [bigSep_sdiff_split' (Finset.subset_univ (Finset.univ.map ⟨csem, csem_injective⟩)), bigSep_map, bigSep_cellIx]
  iintro ⟨⟨HB, -, HR⟩, -⟩
  isplitl [HB]
  · rw [← launch_bar]; iexact HB
  · have hm : (bigSep Finset.univ fun d : Fin 6 => (cred (tallyOn (recvCell c d) (launchCredit (Pipeline.owing O₀) 0 (recvCell c d))) : sProp 𝕄))
        ⊢ bigSep Finset.univ fun d : Fin 6 => if has c d = true then cred (tallyAt (recvCell c d) () N) else iprop(emp) :=
      bigSep_mono fun d _ => cred_recv (F := F) c d
    iapply hm
    iexact HR

/-! ### The levels: the staging cells' waits -/

theorem lv_recv (a : Dev nD) (e : Fin 6) (u : Unit) : lv (recvCell a e) u = 2 := by
  show (if (recvDir (recvS e)).isSome = true then 2 else 0) = 2
  rw [recvDir_recv]; rfl
theorem lv_bar (a : Dev nD) (u : Unit) : lv (barCell a) u = 1 := by
  show (if barS = barS then 1 else 0) = 1
  exact if_pos rfl

/-- Whatever a device owes at launch is owed to a neighbour's receive cell or to a barrier cell. -/
theorem O₀_pos {c : Dev nD} {g : GSem nD τ sig} {u : Unit} (h : 0 < O₀ c g u) :
    (∃ d : Fin 6, g = recvCell (nb c d) (opp d)) ∨ (∃ d : Fin 6, g = barCell (nb c d)) := by
  by_contra hn
  rw [not_or, not_exists, not_exists] at hn
  unfold O₀ oweR oweB at h
  simp only [Pi.add_apply, Finsupp.add_apply, tallyAt_apply, hn.1, hn.2, false_and, ↓reduceIte, add_zero] at h
  exact Nat.lt_irrefl 0 h

/-- A staging DMA semaphore (neither a receive semaphore nor the barrier) sits at level 0, below everything a device
    owes: receive cells at 2, barrier cells at 1. -/
theorem mayWait_stage (c : Dev nD) (q : DmaSem sig) (hq : recvDir q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]
        show (if (recvDir q).isSome = true then 2 else 0) ≤ 0
        rw [hq]; exact Nat.le_refl 0)
      (fun g u hg => by
        rcases O₀_pos hg with ⟨d, rfl⟩ | ⟨d, rfl⟩
        · rw [lv_recv]; decide
        · rw [lv_bar]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  rw [bigSep_sep']
  iintro ⟨Hr, HzS, HzV⟩
  isplitr; · iempintro
  isplitl [HzS HzV]
  · isplitl [HzS] <;> iassumption
  iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, and given each
    device's body: every weakly fair execution of @main — the sixteen kernels handshaking on the runtime's barrier
    semaphore, then exchanging faces with their neighbours — terminates, and every final state has each device's
    arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the one grid point is what the output staging buffer held: the one write-back covers the
    whole array. -/
theorem finalA_out (c : Dev nD) : finalA m ρ c (1 : Fin 2) = outAt m ρ c := by
  have h := (dats (F := F) m ρ 0 c).arrAt_succ (1 : Fin 2) t0_0
  rw [if_pos (flush0_1 t0_0)] at h
  refine h.trans ?_
  exact Memref.write_access_unit_zero_univ (Elt F) _ (by funext a; fin_cases a <;> rfl) _ _ _

end Cert.KernelIdeal.HP

end
-- ==== Proof.KernelIdealCarve.lean ====
/-
  Carving three of a device's buffers into the pieces the halo exchange lends and receives, and joining them back.

  * The receive buffer is six 32 × 32 slots stacked along its first axis: slot `d` is the elements whose first
    coordinate is `d`. The six are pairwise disjoint and cover the buffer, so the buffer held whole is the six slots
    held one by one, at the same contents or, joined, at some contents.
  * The send buffer is two such rows.
  * The input block is lent by SHARE: its left half stays with the device, and each of the four quarters of its right
    half is split by region into one face of the block and the rest of the block.
  * A slot written whole holds the written plane on every element it owns, whatever it held before.
-/
import proofs.«900363_g7700000000000364_dist_halo3d_v7x_xyz2x2x4_s32_f32_1_alg».proof.Proof.KernelIdealSched

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The receive buffer: six slots -/

/-- The elements of a one-row slice of the receive buffer are the row's. -/
theorem slot_view_set (k : ℕ) (inb : ∀ a, (![k, 0, 0] : Fin 3 → ℕ) a + S1x32x32.size a ≤ S6x32x32.size a) :
    ((rM.slice (Rect.unit (s := S6x32x32) ![k, 0, 0] S1x32x32.size inb) (fun _ => rfl)).squeeze S32x32
        squeezes_S1x32x32_S32x32).view.set
      = (Rect.unit (s := S6x32x32) ![k, 0, 0] S1x32x32.size inb).set := by
  show ((rM.view.slice (Rect.unit (s := S6x32x32) ![k, 0, 0] S1x32x32.size inb)).reshape S32x32 _).set = _
  rw [View.set_reshape]
  exact View.set_slice_whole cc0_scratch1 _

/-- An element is in row `k` exactly when its first coordinate is `k`. -/
theorem mem_unit_row (k : ℕ) (inb : ∀ a, (![k, 0, 0] : Fin 3 → ℕ) a + S1x32x32.size a ≤ S6x32x32.size a)
    (i : S6x32x32.Idx) : i ∈ (Rect.unit (s := S6x32x32) ![k, 0, 0] S1x32x32.size inb).set ↔ (i 0).val = k := by
  rw [Rect.mem_set_unit]
  have h1 : (i 1).val < 32 := (i 1).isLt
  have h2 : (i 2).val < 32 := (i 2).isLt
  constructor
  · intro h
    have h0 := h 0
    change k ≤ (i 0).val ∧ (i 0).val < k + 1 at h0
    omega
  · intro h a
    match a with
    | ⟨0, _⟩ => show k ≤ (i 0).val ∧ (i 0).val < k + 1; omega
    | ⟨1, _⟩ => show 0 ≤ (i 1).val ∧ (i 1).val < 0 + 32; omega
    | ⟨2, _⟩ => show 0 ≤ (i 2).val ∧ (i 2).val < 0 + 32; omega

/-- Slot `d` is the elements whose first coordinate is `d`. -/
theorem mem_slotSet : ∀ (d : Fin 6) (i : S6x32x32.Idx), i ∈ slotSet d ↔ (i 0).val = d.val
  | 0, i => by rw [show slotSet 0 = _ from slot_view_set 0 _]; exact mem_unit_row 0 _ i
  | 1, i => by rw [show slotSet 1 = _ from slot_view_set 1 _]; exact mem_unit_row 1 _ i
  | 2, i => by rw [show slotSet 2 = _ from slot_view_set 2 _]; exact mem_unit_row 2 _ i
  | 3, i => by rw [show slotSet 3 = _ from slot_view_set 3 _]; exact mem_unit_row 3 _ i
  | 4, i => by rw [show slotSet 4 = _ from slot_view_set 4 _]; exact mem_unit_row 4 _ i
  | 5, i => by rw [show slotSet 5 = _ from slot_view_set 5 _]; exact mem_unit_row 5 _ i

theorem slotSet_disjoint {a b : Fin 6} (h : a ≠ b) : Disjoint (slotSet a) (slotSet b) :=
  Finset.disjoint_left.mpr fun i ha hb =>
    h (Fin.ext (((mem_slotSet a i).mp ha).symm.trans ((mem_slotSet b i).mp hb)))

/-- The six slots cover the receive buffer. -/
theorem slotSet_cover : (rM.view.set : Finset S6x32x32.Idx)
    = slotSet 0 ∪ (slotSet 1 ∪ (slotSet 2 ∪ (slotSet 3 ∪ (slotSet 4 ∪ slotSet 5)))) := by
  rw [show (rM.view.set : Finset S6x32x32.Idx) = Finset.univ from View.set_whole cc0_scratch1]
  refine Finset.ext fun (i : S6x32x32.Idx) => ⟨fun _ => ?_, fun _ => Finset.mem_univ _⟩
  have h0 : (i 0).val < 6 := (i 0).isLt
  have h : (i 0).val = 0 ∨ (i 0).val = 1 ∨ (i 0).val = 2 ∨ (i 0).val = 3 ∨ (i 0).val = 4 ∨ (i 0).val = 5 := by omega
  rcases h with h | h | h | h | h | h
  · exact Finset.mem_union_left _ ((mem_slotSet 0 i).mpr h)
  · exact Finset.mem_union_right _ (Finset.mem_union_left _ ((mem_slotSet 1 i).mpr h))
  · exact Finset.mem_union_right _ (Finset.mem_union_right _ (Finset.mem_union_left _ ((mem_slotSet 2 i).mpr h)))
  · exact Finset.mem_union_right _ (Finset.mem_union_right _ (Finset.mem_union_right _
      (Finset.mem_union_left _ ((mem_slotSet 3 i).mpr h))))
  · exact Finset.mem_union_right _ (Finset.mem_union_right _ (Finset.mem_union_right _
      (Finset.mem_union_right _ (Finset.mem_union_left _ ((mem_slotSet 4 i).mpr h)))))
  · exact Finset.mem_union_right _ (Finset.mem_union_right _ (Finset.mem_union_right _
      (Finset.mem_union_right _ (Finset.mem_union_right _ ((mem_slotSet 5 i).mpr h)))))

/-- Slot `d` held whole, through the slot's own memref. -/
theorem slotPts_view0 (c : Dev nD) (f : Buf (Elt F) ((c : Thread nD τ).loc cc0_scratch1)) :
    slotPts c 0 f = ((slotM 0).view.loc (c : Thread nD τ) ↦[(slotM 0).view.set]{fullShare} f : sProp 𝕄) := rfl
theorem slotPts_view1 (c : Dev nD) (f : Buf (Elt F) ((c : Thread nD τ).loc cc0_scratch1)) :
    slotPts c 1 f = ((slotM 1).view.loc (c : Thread nD τ) ↦[(slotM 1).view.set]{fullShare} f : sProp 𝕄) := rfl
theorem slotPts_view2 (c : Dev nD) (f : Buf (Elt F) ((c : Thread nD τ).loc cc0_scratch1)) :
    slotPts c 2 f = ((slotM 2).view.loc (c : Thread nD τ) ↦[(slotM 2).view.set]{fullShare} f : sProp 𝕄) := rfl
theorem slotPts_view3 (c : Dev nD) (f : Buf (Elt F) ((c : Thread nD τ).loc cc0_scratch1)) :
    slotPts c 3 f = ((slotM 3).view.loc (c : Thread nD τ) ↦[(slotM 3).view.set]{fullShare} f : sProp 𝕄) := rfl
theorem slotPts_view4 (c : Dev nD) (f : Buf (Elt F) ((c : Thread nD τ).loc cc0_scratch1)) :
    slotPts c 4 f = ((slotM 4).view.loc (c : Thread nD τ) ↦[(slotM 4).view.set]{fullShare} f : sProp 𝕄) := rfl
theorem slotPts_view5 (c : Dev nD) (f : Buf (Elt F) ((c : Thread nD τ).loc cc0_scratch1)) :
    slotPts c 5 f = ((slotM 5).view.loc (c : Thread nD τ) ↦[(slotM 5).view.set]{fullShare} f : sProp 𝕄) := rfl

/-! ### Carving and joining -/

private theorem sd (a b : Fin 6) (h : a ≠ b := by decide) : Disjoint (slotSet a) (slotSet b) := slotSet_disjoint h

private theorem d4 : Disjoint (slotSet 4) (slotSet 5) := sd 4 5
private theorem d3 : Disjoint (slotSet 3) (slotSet 4 ∪ slotSet 5) :=
  Finset.disjoint_union_right.mpr ⟨sd 3 4, sd 3 5⟩
private theorem d2 : Disjoint (slotSet 2) (slotSet 3 ∪ (slotSet 4 ∪ slotSet 5)) :=
  Finset.disjoint_union_right.mpr ⟨sd 2 3, Finset.disjoint_union_right.mpr ⟨sd 2 4, sd 2 5⟩⟩
private theorem d1 : Disjoint (slotSet 1) (slotSet 2 ∪ (slotSet 3 ∪ (slotSet 4 ∪ slotSet 5))) :=
  Finset.disjoint_union_right.mpr ⟨sd 1 2, Finset.disjoint_union_right.mpr ⟨sd 1 3,
    Finset.disjoint_union_right.mpr ⟨sd 1 4, sd 1 5⟩⟩⟩
private theorem d0 : Disjoint (slotSet 0) (slotSet 1 ∪ (slotSet 2 ∪ (slotSet 3 ∪ (slotSet 4 ∪ slotSet 5)))) :=
  Finset.disjoint_union_right.mpr ⟨sd 0 1, Finset.disjoint_union_right.mpr ⟨sd 0 2,
    Finset.disjoint_union_right.mpr ⟨sd 0 3, Finset.disjoint_union_right.mpr ⟨sd 0 4, sd 0 5⟩⟩⟩⟩

/-- Along disjoint element sets, as an equation. -/
theorem pt_union_eq {ℓ : Loc nD τ sig} {I J : Finset (Idx ℓ)} {q : PosShare TreeShare} {f : Buf (Elt F) ℓ}
    (h : Disjoint I J) : (ℓ ↦[I ∪ J]{q} f : sProp 𝕄) = iprop((ℓ ↦[I]{q} f) ∗ ℓ ↦[J]{q} f) :=
  BI.equiv_iff.mp ⟨(pointsTo_union h).1, (pointsTo_union h).2⟩

/-- THE RECEIVE BUFFER, CARVED: held whole it is its six slots held one by one, at the same contents. -/
theorem carve_recv (c : Dev nD) (f : Buf (Elt F) ((c : Thread nD τ).loc cc0_scratch1)) :
    (rM.view.loc (c : Thread nD τ) ↦[rM.view.set]{fullShare} f : sProp 𝕄)
      ⊣⊢ iprop(slotPts c 0 f ∗ slotPts c 1 f ∗ slotPts c 2 f ∗ slotPts c 3 f ∗ slotPts c 4 f ∗ slotPts c 5 f) := by
  refine BiEntails.of_eq ?_
  show (((c : Thread nD τ).loc cc0_scratch1) ↦[rM.view.set]{fullShare} f : sProp 𝕄) = _
  rw [slotSet_cover, pt_union_eq (ℓ := (c : Thread nD τ).loc cc0_scratch1) d0,
    pt_union_eq (ℓ := (c : Thread nD τ).loc cc0_scratch1) d1, pt_union_eq (ℓ := (c : Thread nD τ).loc cc0_scratch1) d2,
    pt_union_eq (ℓ := (c : Thread nD τ).loc cc0_scratch1) d3, pt_union_eq (ℓ := (c : Thread nD τ).loc cc0_scratch1) d4]
  rfl

/-- THE RECEIVE BUFFER, JOINED: six slots held at contents of their own are the buffer held whole at some contents. -/
theorem join_recv (c : Dev nD) (f0 f1 f2 f3 f4 f5 : Buf (Elt F) ((c : Thread nD τ).loc cc0_scratch1)) :
    iprop(slotPts c 0 f0 ∗ slotPts c 1 f1 ∗ slotPts c 2 f2 ∗ slotPts c 3 f3 ∗ slotPts c 4 f4 ∗ slotPts c 5 f5)
      ⊢ (∃ f, rM.view.loc (c : Thread nD τ) ↦[rM.view.set]{fullShare} f : sProp 𝕄) := by
  show iprop((((c : Thread nD τ).loc cc0_scratch1) ↦[slotSet 0]{fullShare} f0)
      ∗ (((c : Thread nD τ).loc cc0_scratch1) ↦[slotSet 1]{fullShare} f1)
      ∗ (((c : Thread nD τ).loc cc0_scratch1) ↦[slotSet 2]{fullShare} f2)
      ∗ (((c : Thread nD τ).loc cc0_scratch1) ↦[slotSet 3]{fullShare} f3)
      ∗ (((c : Thread nD τ).loc cc0_scratch1) ↦[slotSet 4]{fullShare} f4)
      ∗ (((c : Thread nD τ).loc cc0_scratch1) ↦[slotSet 5]{fullShare} f5))
    ⊢ (∃ f, ((c : Thread nD τ).loc cc0_scratch1) ↦[rM.view.set]{fullShare} f : sProp 𝕄)
  refine (sep_mono_r (sep_mono_r (sep_mono_r (sep_mono_r
    (pointsTo_join (ℓ := (c : Thread nD τ).loc cc0_scratch1) d4))))).trans ?_
  refine (sep_mono_r (sep_mono_r (sep_mono_r (pointsTo_join (ℓ := (c : Thread nD τ).loc cc0_scratch1) d3)))).trans ?_
  refine (sep_mono_r (sep_mono_r (pointsTo_join (ℓ := (c : Thread nD τ).loc cc0_scratch1) d2))).trans ?_
  refine (sep_mono_r (pointsTo_join (ℓ := (c : Thread nD τ).loc cc0_scratch1) d1)).trans ?_
  refine (pointsTo_join (ℓ := (c : Thread nD τ).loc cc0_scratch1) d0).trans ?_
  rw [← slotSet_cover]
  exact exists_intro _

/-! ## A slot written whole -/

/-- A view written whole holds the written values on every element it owns, whatever it held before. -/
theorem write_univ_rebase {c : Thread nD τ} {sp : Space} {s : Shape} {e : EltTy} (v : View sig c.2.kind sp s e)
    (f g : Buf (Elt F) (v.loc c)) (p : s.Idx → Elt F e) (q : PosShare TreeShare) :
    (v.loc c ↦[v.set]{q} v.write (Elt F) f p Finset.univ : sProp 𝕄)
      = (v.loc c ↦[v.set]{q} v.write (Elt F) g p Finset.univ) := by
  refine pointsTo_congr fun i hi => ?_
  obtain ⟨z, -, rfl⟩ := Finset.mem_map.mp hi
  rw [View.write_emb_of_mem _ _ (Finset.mem_univ _), View.write_emb_of_mem _ _ (Finset.mem_univ _)]

/-- Slot 0 filled whole: what it held before does not matter. -/
theorem landed_pts0 (c : Dev nD) (fd : Buf (Elt F) ((c : Thread nD τ).loc cc0_scratch1)) (v : S32x32.Idx → Elt F .f32) :
    (((slotM 0).view.loc (c : Thread nD τ)) ↦[(slotM 0).view.set]{fullShare} ((slotM 0).view.write (Elt F) fd v Finset.univ) : sProp 𝕄)
      = ((slotM 0).view.loc (c : Thread nD τ) ↦[(slotM 0).view.set]{fullShare} ((slotM 0).view.write (Elt F) (junk (ℓ := (c : Thread nD τ).loc cc0_scratch1)) v Finset.univ)) :=
  write_univ_rebase (c := (c : Thread nD τ)) (slotM 0).view fd junk v fullShare

/-- Slot 1 filled whole: what it held before does not matter. -/
theorem landed_pts1 (c : Dev nD) (fd : Buf (Elt F) ((c : Thread nD τ).loc cc0_scratch1)) (v : S32x32.Idx → Elt F .f32) :
    (((slotM 1).view.loc (c : Thread nD τ)) ↦[(slotM 1).view.set]{fullShare} ((slotM 1).view.write (Elt F) fd v Finset.univ) : sProp 𝕄)
      = ((slotM 1).view.loc (c : Thread nD τ) ↦[(slotM 1).view.set]{fullShare} ((slotM 1).view.write (Elt F) (junk (ℓ := (c : Thread nD τ).loc cc0_scratch1)) v Finset.univ)) :=
  write_univ_rebase (c := (c : Thread nD τ)) (slotM 1).view fd junk v fullShare

/-- Slot 2 filled whole: what it held before does not matter. -/
theorem landed_pts2 (c : Dev nD) (fd : Buf (Elt F) ((c : Thread nD τ).loc cc0_scratch1)) (v : S32x32.Idx → Elt F .f32) :
    (((slotM 2).view.loc (c : Thread nD τ)) ↦[(slotM 2).view.set]{fullShare} ((slotM 2).view.write (Elt F) fd v Finset.univ) : sProp 𝕄)
      = ((slotM 2).view.loc (c : Thread nD τ) ↦[(slotM 2).view.set]{fullShare} ((slotM 2).view.write (Elt F) (junk (ℓ := (c : Thread nD τ).loc cc0_scratch1)) v Finset.univ)) :=
  write_univ_rebase (c := (c : Thread nD τ)) (slotM 2).view fd junk v fullShare

/-- Slot 3 filled whole: what it held before does not matter. -/
theorem landed_pts3 (c : Dev nD) (fd : Buf (Elt F) ((c : Thread nD τ).loc cc0_scratch1)) (v : S32x32.Idx → Elt F .f32) :
    (((slotM 3).view.loc (c : Thread nD τ)) ↦[(slotM 3).view.set]{fullShare} ((slotM 3).view.write (Elt F) fd v Finset.univ) : sProp 𝕄)
      = ((slotM 3).view.loc (c : Thread nD τ) ↦[(slotM 3).view.set]{fullShare} ((slotM 3).view.write (Elt F) (junk (ℓ := (c : Thread nD τ).loc cc0_scratch1)) v Finset.univ)) :=
  write_univ_rebase (c := (c : Thread nD τ)) (slotM 3).view fd junk v fullShare

/-- Slot 4 filled whole: what it held before does not matter. -/
theorem landed_pts4 (c : Dev nD) (fd : Buf (Elt F) ((c : Thread nD τ).loc cc0_scratch1)) (v : S32x32.Idx → Elt F .f32) :
    (((slotM 4).view.loc (c : Thread nD τ)) ↦[(slotM 4).view.set]{fullShare} ((slotM 4).view.write (Elt F) fd v Finset.univ) : sProp 𝕄)
      = ((slotM 4).view.loc (c : Thread nD τ) ↦[(slotM 4).view.set]{fullShare} ((slotM 4).view.write (Elt F) (junk (ℓ := (c : Thread nD τ).loc cc0_scratch1)) v Finset.univ)) :=
  write_univ_rebase (c := (c : Thread nD τ)) (slotM 4).view fd junk v fullShare

/-- Slot 5 filled whole: what it held before does not matter. -/
theorem landed_pts5 (c : Dev nD) (fd : Buf (Elt F) ((c : Thread nD τ).loc cc0_scratch1)) (v : S32x32.Idx → Elt F .f32) :
    (((slotM 5).view.loc (c : Thread nD τ)) ↦[(slotM 5).view.set]{fullShare} ((slotM 5).view.write (Elt F) fd v Finset.univ) : sProp 𝕄)
      = ((slotM 5).view.loc (c : Thread nD τ) ↦[(slotM 5).view.set]{fullShare} ((slotM 5).view.write (Elt F) (junk (ℓ := (c : Thread nD τ).loc cc0_scratch1)) v Finset.univ)) :=
  write_univ_rebase (c := (c : Thread nD τ)) (slotM 5).view fd junk v fullShare

/-! ## The send buffer: two rows -/

/-- The elements of a one-row slice of the send buffer are the row's. -/
theorem sbuf_view_set (k : ℕ) (inb : ∀ a, (![k, 0, 0] : Fin 3 → ℕ) a + S1x32x32.size a ≤ S2x32x32.size a) :
    ((sM.slice (Rect.unit (s := S2x32x32) ![k, 0, 0] S1x32x32.size inb) (fun _ => rfl)).squeeze S32x32
        squeezes_S1x32x32_S32x32).view.set
      = (Rect.unit (s := S2x32x32) ![k, 0, 0] S1x32x32.size inb).set := by
  show ((sM.view.slice (Rect.unit (s := S2x32x32) ![k, 0, 0] S1x32x32.size inb)).reshape S32x32 _).set = _
  rw [View.set_reshape]
  exact View.set_slice_whole cc0_scratch0 _

/-- An element of the send buffer is in row `k` exactly when its first coordinate is `k`. -/
theorem mem_sbuf_row (k : ℕ) (inb : ∀ a, (![k, 0, 0] : Fin 3 → ℕ) a + S1x32x32.size a ≤ S2x32x32.size a)
    (i : S2x32x32.Idx) : i ∈ (Rect.unit (s := S2x32x32) ![k, 0, 0] S1x32x32.size inb).set ↔ (i 0).val = k := by
  rw [Rect.mem_set_unit]
  have h1 : (i 1).val < 32 := (i 1).isLt
  have h2 : (i 2).val < 32 := (i 2).isLt
  constructor
  · intro h
    have h0 := h 0
    change k ≤ (i 0).val ∧ (i 0).val < k + 1 at h0
    omega
  · intro h a
    match a with
    | ⟨0, _⟩ => show k ≤ (i 0).val ∧ (i 0).val < k + 1; omega
    | ⟨1, _⟩ => show 0 ≤ (i 1).val ∧ (i 1).val < 0 + 32; omega
    | ⟨2, _⟩ => show 0 ≤ (i 2).val ∧ (i 2).val < 0 + 32; omega

theorem mem_src4 (i : S2x32x32.Idx) : i ∈ (srcM 4).view.set ↔ (i 0).val = 0 := by
  rw [show (srcM 4).view.set = _ from sbuf_view_set 0 _]; exact mem_sbuf_row 0 _ i
theorem mem_src5 (i : S2x32x32.Idx) : i ∈ (srcM 5).view.set ↔ (i 0).val = 1 := by
  rw [show (srcM 5).view.set = _ from sbuf_view_set 1 _]; exact mem_sbuf_row 1 _ i

theorem sbuf_disjoint : Disjoint (srcM 4).view.set (srcM 5).view.set :=
  Finset.disjoint_left.mpr fun (i : S2x32x32.Idx) h4 h5 => by
    have a := (mem_src4 i).mp h4
    have b := (mem_src5 i).mp h5
    omega

theorem sbuf_cover : (sM.view.set : Finset S2x32x32.Idx) = (srcM 4).view.set ∪ (srcM 5).view.set := by
  rw [show (sM.view.set : Finset S2x32x32.Idx) = Finset.univ from View.set_whole cc0_scratch0]
  refine Finset.ext fun (i : S2x32x32.Idx) => ⟨fun _ => ?_, fun _ => Finset.mem_univ _⟩
  have h0 : (i 0).val < 2 := (i 0).isLt
  have h : (i 0).val = 0 ∨ (i 0).val = 1 := by omega
  rcases h with h | h
  · exact Finset.mem_union_left _ ((mem_src4 i).mpr h)
  · exact Finset.mem_union_right _ ((mem_src5 i).mpr h)

/-- THE SEND BUFFER, CARVED: held whole it is its two rows, the two z faces' sources. -/
theorem carve_sbuf (c : Dev nD) (f : Buf (Elt F) ((c : Thread nD τ).loc cc0_scratch0)) :
    (sM.view.loc (c : Thread nD τ) ↦[sM.view.set]{fullShare} f : sProp 𝕄)
      ⊣⊢ iprop(((srcM 4).view.loc (c : Thread nD τ) ↦[(srcM 4).view.set]{fullShare} f) ∗ ((srcM 5).view.loc (c : Thread nD τ) ↦[(srcM 5).view.set]{fullShare} f)) := by
  refine BiEntails.of_eq ?_
  show (((c : Thread nD τ).loc cc0_scratch0) ↦[sM.view.set]{fullShare} f : sProp 𝕄)
    = iprop((((c : Thread nD τ).loc cc0_scratch0) ↦[(srcM 4).view.set]{fullShare} f) ∗ (((c : Thread nD τ).loc cc0_scratch0) ↦[(srcM 5).view.set]{fullShare} f))
  rw [sbuf_cover, pt_union_eq (ℓ := (c : Thread nD τ).loc cc0_scratch0) sbuf_disjoint]

/-! ## The input block: lent by share, each lent share split by region -/

/-- A share is its two halves, as an equation. -/
theorem pt_halves_eq {ℓ : Loc nD τ sig} {I : Finset (Idx ℓ)} (q : PosShare TreeShare) {f : Buf (Elt F) ℓ} :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

/-- Carving a subset out, as an equation. -/
theorem pt_split_eq {ℓ : Loc nD τ sig} {I S : Finset (Idx ℓ)} {q : PosShare TreeShare} {f : Buf (Elt F) ℓ}
    (h : I ⊆ S) : (ℓ ↦[S]{q} f : sProp 𝕄) = iprop((ℓ ↦[I]{q} f) ∗ ℓ ↦[S \ I]{q} f) :=
  BI.equiv_iff.mp ⟨(pointsTo_split_subset h).1, (pointsTo_split_subset h).2⟩

theorem sep_assoc_eq (P Q R : sProp 𝕄) : iprop((P ∗ Q) ∗ R) = iprop(P ∗ (Q ∗ R)) :=
  BI.equiv_iff.mp ⟨(sep_assoc (PROP := sProp 𝕄) (P := P) (Q := Q) (R := R)).1, (sep_assoc (PROP := sProp 𝕄) (P := P) (Q := Q) (R := R)).2⟩

/-- A face of the block is part of the block. -/
theorem face_subset (r : Rect S32x32x32) (hr : ∀ a, r.stride a = 1) (h : r.shape.Squeezes S32x32) :
    ((xM.slice r hr).squeeze S32x32 h).view.set ⊆ xM.view.set := by
  show ((xM.view.slice r).reshape S32x32 _).set ⊆ _
  rw [View.set_reshape]
  exact View.set_slice_subset _ _

theorem src_subset0 : (srcM 0).view.set ⊆ xM.view.set := face_subset _ (fun _ => rfl) squeezes_S1x32x32_S32x32
theorem src_subset1 : (srcM 1).view.set ⊆ xM.view.set := face_subset _ (fun _ => rfl) squeezes_S1x32x32_S32x32
theorem src_subset2 : (srcM 2).view.set ⊆ xM.view.set := face_subset _ (fun _ => rfl) squeezes_S32x1x32_S32x32
theorem src_subset3 : (srcM 3).view.set ⊆ xM.view.set := face_subset _ (fun _ => rfl) squeezes_S32x1x32_S32x32

/-- THE INPUT BLOCK, CARVED: the left half stays; each quarter of the right half is one face and the rest. -/
theorem carve_x (c : Dev nD) (X : Buf (Elt F) ((c : Thread nD τ).loc cc0_stg0_0)) :
    (xM.view.loc (c : Thread nD τ) ↦[xM.view.set]{fullShare} X : sProp 𝕄)
      ⊣⊢ iprop((xM.view.loc (c : Thread nD τ) ↦[xM.view.set]{fullShare.left} X)
          ∗ (((srcM 0).view.loc (c : Thread nD τ) ↦[(srcM 0).view.set]{qOf 0} X) ∗ (xM.view.loc (c : Thread nD τ) ↦[xM.view.set \ (srcM 0).view.set]{qOf 0} X))
          ∗ (((srcM 1).view.loc (c : Thread nD τ) ↦[(srcM 1).view.set]{qOf 1} X) ∗ (xM.view.loc (c : Thread nD τ) ↦[xM.view.set \ (srcM 1).view.set]{qOf 1} X))
          ∗ (((srcM 2).view.loc (c : Thread nD τ) ↦[(srcM 2).view.set]{qOf 2} X) ∗ (xM.view.loc (c : Thread nD τ) ↦[xM.view.set \ (srcM 2).view.set]{qOf 2} X))
          ∗ (((srcM 3).view.loc (c : Thread nD τ) ↦[(srcM 3).view.set]{qOf 3} X) ∗ (xM.view.loc (c : Thread nD τ) ↦[xM.view.set \ (srcM 3).view.set]{qOf 3} X))) := by
  refine BiEntails.of_eq ?_
  show (((c : Thread nD τ).loc cc0_stg0_0) ↦[xM.view.set]{fullShare} X : sProp 𝕄)
    = iprop((((c : Thread nD τ).loc cc0_stg0_0) ↦[xM.view.set]{fullShare.left} X)
        ∗ ((((c : Thread nD τ).loc cc0_stg0_0) ↦[(srcM 0).view.set]{fullShare.right.left.left} X) ∗ (((c : Thread nD τ).loc cc0_stg0_0) ↦[xM.view.set \ (srcM 0).view.set]{fullShare.right.left.left} X))
        ∗ ((((c : Thread nD τ).loc cc0_stg0_0) ↦[(srcM 1).view.set]{fullShare.right.left.right} X) ∗ (((c : Thread nD τ).loc cc0_stg0_0) ↦[xM.view.set \ (srcM 1).view.set]{fullShare.right.left.right} X))
        ∗ ((((c : Thread nD τ).loc cc0_stg0_0) ↦[(srcM 2).view.set]{fullShare.right.right.left} X) ∗ (((c : Thread nD τ).loc cc0_stg0_0) ↦[xM.view.set \ (srcM 2).view.set]{fullShare.right.right.left} X))
        ∗ ((((c : Thread nD τ).loc cc0_stg0_0) ↦[(srcM 3).view.set]{fullShare.right.right.right} X) ∗ (((c : Thread nD τ).loc cc0_stg0_0) ↦[xM.view.set \ (srcM 3).view.set]{fullShare.right.right.right} X)))
  rw [← pt_split_eq (ℓ := (c : Thread nD τ).loc cc0_stg0_0) src_subset0, ← pt_split_eq (ℓ := (c : Thread nD τ).loc cc0_stg0_0) src_subset1,
    ← pt_split_eq (ℓ := (c : Thread nD τ).loc cc0_stg0_0) src_subset2, ← pt_split_eq (ℓ := (c : Thread nD τ).loc cc0_stg0_0) src_subset3,
    pt_halves_eq fullShare, pt_halves_eq fullShare.right, pt_halves_eq fullShare.right.left,
    pt_halves_eq fullShare.right.right, sep_assoc_eq]

end Cert.KernelIdeal.HP

end
-- ==== Proof.KernelIdealStates.lean ====
/-
  The body's state at the four places where the printed program is cut into parts, for one device `c` whose block is
  `X`, whose output staging buffer starts at `g1`, its send buffer at `f0` and its receive buffer at `f1`.

  After part 1 the barrier signal of direction 0 is paid, and that of direction 1 is paid if it goes to a neighbour;
  after part 2 all six are paid and row 0 of the send buffer holds the z = 0 face; after part 3 the device has taken
  its own six barrier units, its faces are in flight (each lent source replaced by the send cell's credit) and the
  input block is loaded; after part 4 the stencil is stored, every received plane is added and the first three send
  cells are waited for. A direction without a neighbour keeps its slot, its source piece and its cells' positions
  untouched throughout.
-/
import proofs.«900363_g7700000000000364_dist_halo3d_v7x_xyz2x2x4_s32_f32_1_alg».proof.Proof.KernelIdealDats
import proofs.«900363_g7700000000000364_dist_halo3d_v7x_xyz2x2x4_s32_f32_1_alg».proof.Proof.KernelIdealCarve

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A coordinate test as the word the body computes. -/
def bit (b : Bool) : BitVec 1 := if b = true then 1#1 else 0#1

/-! ## Pieces -/

def tokB (c : Dev nD) (d : Fin 6) : sProp 𝕄 := dutyTok ER (barCell (nb c d)) 0 (barDuty c d)
def tokRS (c : Dev nD) (d : Fin 6) : sProp 𝕄 :=
  if has c d = true then iprop(dutyTok ER (recvCell (nb c d) (opp d)) 0 0 ∗ dutyTok ER (sendCell c d) 0 0) else iprop(emp)
def credR (c : Dev nD) (d : Fin 6) : sProp 𝕄 := if has c d = true then cred (tallyAt (recvCell c d) () N) else iprop(emp)
/-- What the device still owes its neighbours' receive cells. -/
def oR (c : Dev nD) : CellTallies nD τ sig Unit := oweR c 5 + oweR c 4 + oweR c 3 + oweR c 2 + oweR c 1 + oweR c 0

def xWhole (c : Dev nD) (X : Buf (Elt F) ((c : Thread nD τ).loc cc0_stg0_0)) : sProp 𝕄 :=
  xM.view.loc (c : Thread nD τ) ↦[xM.view.set]{fullShare} X
def outPts (c : Dev nD) (g : Buf (Elt F) ((c : Thread nD τ).loc cc0_stg1_0)) : sProp 𝕄 :=
  oM.view.loc (c : Thread nD τ) ↦[oM.view.set]{fullShare} g
def sbufPts (c : Dev nD) (f : Buf (Elt F) ((c : Thread nD τ).loc cc0_scratch0)) : sProp 𝕄 :=
  sM.view.loc (c : Thread nD τ) ↦[sM.view.set]{fullShare} f
/-- The input block after its four faces' shares are carved off: the kept half and the four rests. -/
def xRest (c : Dev nD) (X : Buf (Elt F) ((c : Thread nD τ).loc cc0_stg0_0)) : sProp 𝕄 :=
  iprop((xM.view.loc (c : Thread nD τ) ↦[xM.view.set]{fullShare.left} X)
    ∗ (xM.view.loc (c : Thread nD τ) ↦[xM.view.set \ (srcM 0).view.set]{qOf 0} X) ∗ (xM.view.loc (c : Thread nD τ) ↦[xM.view.set \ (srcM 1).view.set]{qOf 1} X)
    ∗ (xM.view.loc (c : Thread nD τ) ↦[xM.view.set \ (srcM 2).view.set]{qOf 2} X) ∗ (xM.view.loc (c : Thread nD τ) ↦[xM.view.set \ (srcM 3).view.set]{qOf 3} X))

/-- The positions of the twelve own transfer cells, send cell `d` at round `rs d`, receive cell `d` at round `rr d`. -/
def atXfer (c : Dev nD) (rs rr : Fin 6 → ℕ) : sProp 𝕄 :=
  bigSep Finset.univ fun d : Fin 6 => iprop(atPos ER (sendCell c d) (rs d) ∅ 0 ∗ atPos ER (recvCell c d) (rr d) ∅ 0)

/-- One if there is a neighbour in direction `d`, else zero: the round a waited-for cell stands at. -/
def rnd (c : Dev nD) (d : Fin 6) : ℕ := if has c d = true then 1 else 0

/-- The row-0 store's send buffer. -/
def sbuf0 (c : Dev nD) (X : Buf (Elt F) ((c : Thread nD τ).loc cc0_stg0_0)) (f0 : Buf (Elt F) ((c : Thread nD τ).loc cc0_scratch0)) :
    Buf (Elt F) ((c : Thread nD τ).loc cc0_scratch0) :=
  ((sM.access rS0 : View sig .tc _ _ _)).write (Elt F) f0 (k0_pay7 (xM.view.readAt (Elt F) rZ0.toLoadRect X)) Finset.univ

variable (K : Dev nD × CellIx → ℕ) (c : Dev nD)
variable (X : Buf (Elt F) ((c : Thread nD τ).loc cc0_stg0_0)) (g1 : Buf (Elt F) ((c : Thread nD τ).loc cc0_stg1_0))
variable (f0 : Buf (Elt F) ((c : Thread nD τ).loc cc0_scratch0)) (f1 : Buf (Elt F) ((c : Thread nD τ).loc cc0_scratch1))

/-! ## The states -/

/-- Before part 1. -/
def st0 : sProp 𝕄 :=
  iprop(records m ρ K ∗ levAts L lv ∗ atPos ER (barCell c) 0 ∅ 0 ∗ atXfer c (fun _ => 0) (fun _ => 0)
    ∗ (∃ W, owes (c : Thread nD τ) (O₀ c) W)
    ∗ (tokB c 5 ∗ tokB c 4 ∗ tokB c 3 ∗ tokB c 2 ∗ tokB c 1 ∗ tokB c 0)
    ∗ (bigSep Finset.univ fun d => tokRS c d) ∗ cred (tallyAt (barCell c) () 6) ∗ (bigSep Finset.univ fun d => credR c d)
    ∗ (slotPts c 0 f1 ∗ slotPts c 1 f1 ∗ slotPts c 2 f1 ∗ slotPts c 3 f1 ∗ slotPts c 4 f1 ∗ slotPts c 5 f1)
    ∗ xWhole c X ∗ outPts c g1 ∗ sbufPts c f0)

/-- After part 1: direction 0's signal paid; direction 1's paid if it went to a neighbour. -/
def stA : sProp 𝕄 :=
  iprop(records m ρ K ∗ levAts L lv ∗ atPos ER (barCell c) 0 ∅ 0 ∗ atXfer c (fun _ => 0) (fun _ => 0)
    ∗ (∃ W, owes (c : Thread nD τ) (oR c + oweB c 5 + oweB c 4 + oweB c 3 + oweB c 2 + (if has c 1 = true then 0 else oweB c 1)) W)
    ∗ (tokB c 5 ∗ tokB c 4 ∗ tokB c 3 ∗ tokB c 2 ∗ (if has c 1 = true then iprop(emp) else tokB c 1))
    ∗ (bigSep Finset.univ fun d => tokRS c d) ∗ cred (tallyAt (barCell c) () 6) ∗ (bigSep Finset.univ fun d => credR c d)
    ∗ ((if has c 0 = true then iprop(emp) else slotPts c 0 f1) ∗ (if has c 1 = true then iprop(emp) else slotPts c 1 f1) ∗ slotPts c 2 f1 ∗ slotPts c 3 f1 ∗ slotPts c 4 f1 ∗ slotPts c 5 f1)
    ∗ xWhole c X ∗ outPts c g1 ∗ sbufPts c f0)

/-- After part 2: all six signals paid; row 0 of the send buffer stored. -/
def stB : sProp 𝕄 :=
  iprop(records m ρ K ∗ levAts L lv ∗ atPos ER (barCell c) 0 ∅ 0 ∗ atXfer c (fun _ => 0) (fun _ => 0)
    ∗ (∃ W, owes (c : Thread nD τ) (oR c) W)
    ∗ (bigSep Finset.univ fun d => tokRS c d) ∗ cred (tallyAt (barCell c) () 6) ∗ (bigSep Finset.univ fun d => credR c d)
    ∗ ((if has c 0 = true then iprop(emp) else slotPts c 0 f1) ∗ (if has c 1 = true then iprop(emp) else slotPts c 1 f1) ∗ (if has c 2 = true then iprop(emp) else slotPts c 2 f1) ∗ (if has c 3 = true then iprop(emp) else slotPts c 3 f1) ∗ (if has c 4 = true then iprop(emp) else slotPts c 4 f1) ∗ (if has c 5 = true then iprop(emp) else slotPts c 5 f1))
    ∗ xWhole c X ∗ outPts c g1 ∗ sbufPts c (sbuf0 c X f0))

/-- After part 3: the barrier round taken, every face in flight, the block's shares carved. -/
def stC : sProp 𝕄 :=
  iprop(records m ρ K ∗ levAts L lv ∗ atPos ER (barCell c) 1 ∅ 0 ∗ atXfer c (fun _ => 0) (fun _ => 0)
    ∗ (∃ W, owes (c : Thread nD τ) 0 W)
    ∗ (bigSep Finset.univ fun d => credR c d)
    ∗ (bigSep Finset.univ fun d : Fin 6 => if has c d = true then cred (tallyAt (sendCell c d) () N) else srcPts m ρ c d)
    ∗ ((if has c 0 = true then iprop(emp) else slotPts c 0 f1) ∗ (if has c 1 = true then iprop(emp) else slotPts c 1 f1) ∗ (if has c 2 = true then iprop(emp) else slotPts c 2 f1) ∗ (if has c 3 = true then iprop(emp) else slotPts c 3 f1) ∗ (if has c 4 = true then iprop(emp) else slotPts c 4 f1) ∗ (if has c 5 = true then iprop(emp) else slotPts c 5 f1))
    ∗ xRest c X ∗ outPts c g1)

/-- After part 4: the stencil stored, the received planes added, send cells 0, 1, 2 waited for. -/
def stD : sProp 𝕄 :=
  iprop(records m ρ K ∗ levAts L lv ∗ atPos ER (barCell c) 1 ∅ 0
    ∗ atXfer c (fun d => if d.val < 3 then rnd c d else 0) (fun d => rnd c d)
    ∗ (∃ W, owes (c : Thread nD τ) 0 W)
    ∗ (bigSep Finset.univ fun d : Fin 6 =>
        if d.val < 3 then srcPts m ρ c d else if has c d = true then cred (tallyAt (sendCell c d) () N) else srcPts m ρ c d)
    ∗ (bigSep Finset.univ fun d : Fin 6 => if has c d = true then slotPts c d (landed m ρ c d) else slotPts c d f1)
    ∗ xRest c X
    ∗ outPts c (addStep m ρ c 5 (addStep m ρ c 4 (addStep m ρ c 3 (addStep m ρ c 2 (addStep m ρ c 1 (addStep m ρ c 0 (out0 X))))))))

end Cert.KernelIdeal.HP

end
-- ==== Proof.KernelIdealWords.lean ====
/-
  The words a device computes from its id at the head of its body — its three mesh coordinates, the six tests "is
  there a device in direction d", and the neighbouring coordinates — and the facts that tie the tests to `has c d`.
-/
import proofs.«900363_g7700000000000364_dist_halo3d_v7x_xyz2x2x4_s32_f32_1_alg».proof.Proof.KernelIdealStates

noncomputable section

namespace Cert.KernelIdeal.HP

open Cert.KernelIdeal Cert.KernelIdeal.Gen

open Idealize.ShloMosaic
open Idealize.ShloMosaic.TcCoe

def wv2 (c : Dev nD) : BitVec 32 := Scalar.remsi (Scalar.divsi (Dev.word c) 8#32) 2#32
def wv5 (c : Dev nD) : BitVec 32 := Scalar.remsi (Scalar.divsi (Dev.word c) 4#32) 2#32
def wv8 (c : Dev nD) : BitVec 32 := Scalar.remsi (Scalar.divsi (Dev.word c) 1#32) 4#32
def wv9 (c : Dev nD) : BitVec 1 := Scalar.cmpi .sgt (wv2 c) 0#32
def wv10 (c : Dev nD) : BitVec 1 := Scalar.cmpi .slt (wv2 c) 1#32
def wv11 (c : Dev nD) : BitVec 1 := Scalar.cmpi .sgt (wv5 c) 0#32
def wv12 (c : Dev nD) : BitVec 1 := Scalar.cmpi .slt (wv5 c) 1#32
def wv13 (c : Dev nD) : BitVec 1 := Scalar.cmpi .sgt (wv8 c) 0#32
def wv14 (c : Dev nD) : BitVec 1 := Scalar.cmpi .slt (wv8 c) 3#32
def wv31 (c : Dev nD) : BitVec 1 := Scalar.cmpi .ne (Scalar.extui (Scalar.xori (wv10 c) 1#1)) 0#32

/-- What part 1 returns on device `c`. -/
def R1 (c : Dev nD) : Σ' (d0 : Dev nD) (v2 : BitVec 32) (v5 : BitVec 32) (v8 : BitVec 32) (v9 : BitVec 1) (v10 : BitVec 1) (v11 : BitVec 1) (v12 : BitVec 1) (v13 : BitVec 1) (v14 : BitVec 1) (v15 : BitVec 32) (v16 : BitVec 32) (v17 : BitVec 32) (v18 : BitVec 32) (v19 : BitVec 32) (v20 : BitVec 32) (v21 : Sems sig S_), BitVec 1 :=
  ⟨c, wv2 c, wv5 c, wv8 c, wv9 c, wv10 c, wv11 c, wv12 c, wv13 c, wv14 c,
    Scalar.subi (wv2 c) 1#32, Scalar.addi (wv2 c) 1#32, Scalar.subi (wv5 c) 1#32, Scalar.addi (wv5 c) 1#32, Scalar.subi (wv8 c) 1#32, Scalar.addi (wv8 c) 1#32,
    SemArray.scalar (sig.barrier 0 rfl), wv31 c⟩

theorem wv9_eq : ∀ c : Dev nD, wv9 c = bit (has c 0) := by decide
theorem wv10_eq : ∀ c : Dev nD, wv10 c = bit (has c 1) := by decide
theorem wv11_eq : ∀ c : Dev nD, wv11 c = bit (has c 2) := by decide
theorem wv12_eq : ∀ c : Dev nD, wv12 c = bit (has c 3) := by decide
theorem wv13_eq : ∀ c : Dev nD, wv13 c = bit (has c 4) := by decide
theorem wv14_eq : ∀ c : Dev nD, wv14 c = bit (has c 5) := by decide
theorem wv31_eq : ∀ c : Dev nD, wv31 c = bit (!has c 1) := by decide

/-- A region guarded by a coordinate test runs exactly where there is a device that way; one guarded by the test's
    complement exactly where there is none. -/
theorem test_iff : ∀ b : Bool, (Scalar.cmpi .ne (Scalar.extui (bit b)) 0#32 = 1#1) ↔ b = true := by decide
theorem ntest_iff : ∀ b : Bool, (Scalar.cmpi .ne (Scalar.extui (Scalar.xori (bit b) 1#1)) 0#32 = 1#1) ↔ b = false := by decide
theorem bit_not_iff : ∀ b : Bool, (bit (!b) = 1#1) ↔ b = false := by decide

end Cert.KernelIdeal.HP

end
-- ==== Proof.KernelIdealPart12.lean ====
/-
  The first two parts of a device's body: the twelve regions that pay the barrier signals — per direction one that
  signals the neighbour's barrier semaphore where there is a neighbour, and one that signals the device's own where
  there is none — and the store of the block's z = 0 face into row 0 of the send buffer.

  A pair of regions of one direction `d` takes the token of the barrier duty the device pays that way, its receive
  slot `d` and the unit it owes; it leaves the owed sum without that unit, and the slot only where there is no
  neighbour (where there is one the slot goes to the neighbour with the signal). Each kind of region is one lemma,
  generic in what follows it; the case split on "is there a neighbour in direction `d`" happens inside the lemma.
-/
import proofs.«900363_g7700000000000364_dist_halo3d_v7x_xyz2x2x4_s32_f32_1_alg».proof.Proof.KernelIdealWords
import proofs.«900363_g7700000000000364_dist_halo3d_v7x_xyz2x2x4_s32_f32_1_alg».proof.Proof.KernelIdealLaunch
import Idealize.ShloMosaic.Lib.Pipeline.Launch
import Idealize.ShloMosaic.Lib.Pipeline.Kit
import Idealize.ShloMosaic.Lib.Tactic

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier signals, region by region -/

section Regions

variable (K : Dev nD × CellIx → ℕ) (c : Dev nD)

/-- Reading the device id at the head of a program. -/
theorem P12_wp_devId_bind {α : Type} (k : Dev nD → Prog (TpuEff nD τ sig (Elt F) Λ₀ .tc) α) (Q : α → sProp 𝕄) :
    wp frame (wpE (defs₀ (F := F)) 𝒱₀ (c : Thread nD τ) none) Set.univ (k c) Q
      ⊢ wp frame (wpE (defs₀ (F := F)) 𝒱₀ (c : Thread nD τ) none) Set.univ (Prog.lift .deviceId >>= k) Q := by
  rw [Prog.bind_lift, wp_deviceId]

/-- The signal of direction `d` that goes to a neighbour: where there is one, the device pays its neighbour's barrier
    duty `opp d`, handing over its own receive slot `d` and that its receive cell `d` stands at round 0; where there
    is none, nothing happens. -/
theorem P12_wp_sig_remote (d : Fin 6) {α : Type} {C : Prop} [Decidable C] (hC : C ↔ has c d = true)
    (dst : C → Dev nD) (hdst : ∀ h, dst h = nb c d) {hn : (1#32).msb = false}
    {J : Prog (TpuEff nD τ sig (Elt F) Λ₀ .tc) α} {Q : α → sProp 𝕄}
    (O : CellTallies nD τ sig Unit) (f1 : Buf (Elt F) ((c : Thread nD τ).loc cc0_scratch1)) :
    iprop(records m ρ K ∗ (∃ W, owes (c : Thread nD τ) (O + oweB c d) W) ∗ tokB c d ∗ slotPts c d f1)
      ⊢ iprop((((∃ W, owes (c : Thread nD τ) (O + (if has c d = true then 0 else oweB c d)) W)
            ∗ (if has c d = true then iprop(emp) else tokB c d)
            ∗ (if has c d = true then iprop(emp) else slotPts c d f1))
              -∗ wp frame (wpE (defs₀ (F := F)) 𝒱₀ (c : Thread nD τ) none) Set.univ J Q)
          -∗ wp frame (wpE (defs₀ (F := F)) 𝒱₀ (c : Thread nD τ) none) Set.univ
              (dite C (fun h => semSignalWord (dst h) barS 1#32 hn >>= fun _ => J) (fun _ => J)) Q) := by
  by_cases h : has c d = true
  · have hc : C := hC.mpr h
    have hb : barDuty c d = opp d := if_pos h
    rw [dif_pos hc, hdst hc, if_pos h, if_pos h, if_pos h, add_zero,
      show (semSignalWord (p := Proc.tc) (nb c d) barS 1#32 hn >>= fun _ => J)
        = Prog.op (.semSignal ((nb c d : Thread nD τ)) barS 1) (fun _ => J) from rfl]
    unfold records tokB
    rw [hb]
    iintro ⟨⟨#HI, #HR⟩, HO, Htok, Hslot⟩ Hk
    icases HO with ⟨%W, HO⟩
    iapply (Rounds.wp_signal 𝒱₀ ER (exRd m ρ) (c : Thread nD τ) none (dst := (nb c d : Thread nD τ)) (sem := barS) (r := 0)
        (κ := K (nb c d, none)) (d := opp d) (k' := 1) (by rw [duties_bar]; exact Finset.mem_univ _) (amount_bar m ρ (nb c d) (opp d)) ()
        (O₀ := O + oweB c d) O rfl (hr := Topo.routes_tc _ _)) $$ [HO Htok Hslot]
    · isplitr; · iapply (inv_at m ρ K (nb c d, none)); iexact HI
      isplitl [HO]; · iexact HO
      isplitl [Htok]; · iexact Htok
      isplitl [Hslot]
      · rw [payload_bar]; unfold barPay
        rw [if_pos (has_back c d h), nb_back c d h, opp_opp]
        isplitl [Hslot]; · iexists f1; iexact Hslot
        iapply (reached_at (F := F) (c, some (true, d))); iexact HR
      · iapply (reached_at (F := F) (nb c d, none)); iexact HR
    iintro HO
    iapply Hk
    isplitl [HO]; · iexists W; iexact HO
    isplitl; · iempintro
    iempintro
  · have hc : ¬ C := fun x => h (hC.mp x)
    rw [dif_neg hc, if_neg h, if_neg h, if_neg h]
    iintro ⟨-, HO, Htok, Hslot⟩ Hk
    iapply Hk
    isplitl [HO]; · iexact HO
    isplitl [Htok]; · iexact Htok
    iexact Hslot

/-- The signal of direction `d` that goes to the device's own barrier semaphore: where there is no neighbour, the
    device pays its own barrier duty `d`, handing over nothing; where there is one, nothing happens. -/
theorem P12_wp_sig_self (d : Fin 6) {α : Type} {C : Prop} [Decidable C] (hC : C ↔ has c d = false) {hn : (1#32).msb = false}
    {J : Prog (TpuEff nD τ sig (Elt F) Λ₀ .tc) α} {Q : α → sProp 𝕄}
    (O : CellTallies nD τ sig Unit) :
    iprop(records m ρ K ∗ (∃ W, owes (c : Thread nD τ) (O + (if has c d = true then 0 else oweB c d)) W)
        ∗ (if has c d = true then iprop(emp) else tokB c d))
      ⊢ iprop(((∃ W, owes (c : Thread nD τ) O W) -∗ wp frame (wpE (defs₀ (F := F)) 𝒱₀ (c : Thread nD τ) none) Set.univ J Q)
          -∗ wp frame (wpE (defs₀ (F := F)) 𝒱₀ (c : Thread nD τ) none) Set.univ
              (dite C (fun _ => semSignalHereWord barS 1#32 hn >>= fun _ => J) (fun _ => J)) Q) := by
  by_cases h : has c d = true
  · have hc : ¬ C := fun x => by rw [hC.mp x] at h; exact Bool.false_ne_true h
    rw [dif_neg hc, if_pos h, if_pos h, add_zero]
    iintro ⟨-, HO, -⟩ Hk
    iapply Hk
    iexact HO
  · have hf : has c d = false := Bool.eq_false_iff.mpr h
    have hc : C := hC.mpr hf
    have hb : barDuty c d = d := if_neg h
    rw [dif_pos hc, if_neg h, if_neg h,
      show (semSignalHereWord (p := Proc.tc) barS 1#32 hn >>= fun _ => J)
        = Prog.op .deviceId (fun x => Prog.op (.semSignal ((x, Proc.tc) : Thread nD τ) barS 1) (fun _ => J)) from rfl,
      wp_deviceId]
    unfold records tokB oweB
    rw [hb, nb_self c d hf]
    iintro ⟨⟨#HI, #HR⟩, HO, Htok⟩ Hk
    icases HO with ⟨%W, HO⟩
    iapply (Rounds.wp_signal 𝒱₀ ER (exRd m ρ) (c : Thread nD τ) none (dst := (c : Thread nD τ)) (sem := barS) (r := 0)
        (κ := K (c, none)) (d := d) (k' := 1) (by rw [duties_bar]; exact Finset.mem_univ _) (amount_bar m ρ c d) ()
        (O₀ := O + tallyAt (barCell c) () 1) O rfl (hr := Topo.routes_self _)) $$ [HO Htok]
    · isplitr; · iapply (inv_at m ρ K (c, none)); iexact HI
      isplitl [HO]; · iexact HO
      isplitl [Htok]; · iexact Htok
      isplitr
      · rw [payload_bar]; unfold barPay
        rw [if_neg h]; iempintro
      · iapply (reached_at (F := F) (c, none)); iexact HR
    iintro HO
    iapply Hk
    iexists W; iexact HO

end Regions

/-! ## Loads and stores at the head of a sequence -/

section Mem

variable (c : Dev nD)

theorem P12_wp_load_bind {α : Type} {cs : CoreSpace} {s : Shape} {e : EltTy} {mr : Memref sig (c : Thread nD τ).2.kind cs s e} {r : LoadRect s}
    {hl : mr.view.LoadsAt r} {k : (r.shape.Idx → Elt F e) → Prog (TpuEff nD τ sig (Elt F) Λ₀ .tc) α} {Q : α → sProp 𝕄}
    {S : Finset (Idx (mr.view.loc (c : Thread nD τ)))} {q : PosShare TreeShare} {f : Buf (Elt F) (mr.view.loc (c : Thread nD τ))}
    (hS : mr.view.setOn r.set ⊆ S) :
    (mr.view.loc (c : Thread nD τ) ↦[S]{q} f)
      ⊢ iprop(((mr.view.loc (c : Thread nD τ) ↦[S]{q} f)
            -∗ wp frame (wpE (defs₀ (F := F)) 𝒱₀ (c : Thread nD τ) none) Set.univ (k (mr.view.readAt (Elt F) r f)) Q)
          -∗ wp frame (wpE (defs₀ (F := F)) 𝒱₀ (c : Thread nD τ) none) Set.univ (Prog.lift (.load mr r hl) >>= k) Q) := by
  rw [Prog.bind_lift]
  exact wp_load 𝒱₀ (c : Thread nD τ) none Set.univ hS

theorem P12_wp_store_bind {α : Type} {cs : CoreSpace} {s : Shape} {e : EltTy} {mr : Memref sig (c : Thread nD τ).2.kind cs s e} {r : Rect s}
    {w : r.shape.Idx → Elt F e} {Mk : Finset r.shape.Idx} {hx : (mr.access r).Stores Mk} {hm : Mk = Finset.univ ∨ ∀ a, r.stride a = 1}
    {k : PUnit → Prog (TpuEff nD τ sig (Elt F) Λ₀ .tc) α} {Q : α → sProp 𝕄}
    {S : Finset (Idx ((mr.access r).loc (c : Thread nD τ)))} {f : Buf (Elt F) ((mr.access r).loc (c : Thread nD τ))}
    (hS : (mr.access r).setOn Mk ⊆ S) :
    ((mr.access r).loc (c : Thread nD τ) ↦[S]{fullShare} f)
      ⊢ iprop((((mr.access r).loc (c : Thread nD τ) ↦[S]{fullShare} ((mr.access r).write (Elt F) f w Mk))
            -∗ wp frame (wpE (defs₀ (F := F)) 𝒱₀ (c : Thread nD τ) none) Set.univ (k ⟨⟩) Q)
          -∗ wp frame (wpE (defs₀ (F := F)) 𝒱₀ (c : Thread nD τ) none) Set.univ (Prog.lift (.store mr r w Mk hx hm) >>= k) Q) := by
  rw [Prog.bind_lift]
  exact wp_store 𝒱₀ (c : Thread nD τ) none Set.univ hS

end Mem

/-! ## Part 1: the device's words, both signals of direction 0, the neighbour's signal of direction 1 -/

theorem part1_run (K : Dev nD × CellIx → ℕ) (c : Dev nD) (g1 : Buf (Elt F) ((c : Thread nD τ).loc cc0_stg1_0)) (f0 : Buf (Elt F) ((c : Thread nD τ).loc cc0_scratch0)) (f1 : Buf (Elt F) ((c : Thread nD τ).loc cc0_scratch1)) :
      st0 m ρ K c (xstg m ρ c) g1 f0 f1
        ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3)
            (fun r => iprop(⌜r = R1 c⌝ ∗ stA m ρ K c (xstg m ρ c) g1 f0 f1)) := by
  have hC0 : (Scalar.cmpi .ne (Scalar.extui (Scalar.xori (wv9 c) 1#1)) 0#32 = 1#1) ↔ has c 0 = false := by
    rw [wv9_eq]; exact ntest_iff _
  rw [k0_part1_eq_skeleton]
  unfold k0_part1_skel st0 stA
  iintro ⟨#Hrec, Hlev, HatB, HatX, HO, ⟨T5, T4, T3, T2, T1, T0⟩, HtRS, HcB, HcR, ⟨S0, S1, S2, S3, S4, S5⟩, Hx, Hout, Hsb⟩
  iapply (P12_wp_devId_bind c _ _)
  -- direction 0, to the neighbour
  iapply (P12_wp_sig_remote m ρ K c 0 (Iff.of_eq (cond1_iff c)) (fun h => ⟨k0_dev1 c, k0_dev1_lt c h⟩) (dev1_eq c)
      (oR c + oweB c 5 + oweB c 4 + oweB c 3 + oweB c 2 + oweB c 1) f1) $$ [HO T0 S0]
  · isplitr; · iexact Hrec
    isplitl [HO]; · iexact HO
    isplitl [T0]; · iexact T0
    iexact S0
  iintro ⟨HO, T0, S0⟩
  -- direction 0, to the device itself
  iapply (P12_wp_sig_self m ρ K c 0 hC0 (oR c + oweB c 5 + oweB c 4 + oweB c 3 + oweB c 2 + oweB c 1)) $$ [HO T0]
  · isplitr; · iexact Hrec
    isplitl [HO]; · iexact HO
    iexact T0
  iintro HO
  -- direction 1, to the neighbour
  iapply (P12_wp_sig_remote m ρ K c 1 (Iff.of_eq (cond3_iff c)) (fun h => ⟨k0_dev2 c, k0_dev2_lt c h⟩) (dev2_eq c)
      (oR c + oweB c 5 + oweB c 4 + oweB c 3 + oweB c 2) f1) $$ [HO T1 S1]
  · isplitr; · iexact Hrec
    isplitl [HO]; · iexact HO
    isplitl [T1]; · iexact T1
    iexact S1
  iintro ⟨HO, T1, S1⟩
  -- the words the part returns
  iapply (le_wp_ret _ _ _ _ _)
  isplitr; · ipureintro; rfl
  isplitr; · iexact Hrec
  isplitl [Hlev]; · iexact Hlev
  isplitl [HatB]; · iexact HatB
  isplitl [HatX]; · iexact HatX
  isplitl [HO]; · iexact HO
  isplitl [T5 T4 T3 T2 T1]
  · isplitl [T5]; · iexact T5
    isplitl [T4]; · iexact T4
    isplitl [T3]; · iexact T3
    isplitl [T2]; · iexact T2
    iexact T1
  isplitl [HtRS]; · iexact HtRS
  isplitl [HcB]; · iexact HcB
  isplitl [HcR]; · iexact HcR
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [Hx]; · iexact Hx
  isplitl [Hout]; · iexact Hout
  iexact Hsb

/-! ## Part 2: the other nine signals, and the block's z = 0 face into row 0 of the send buffer -/

theorem part2_run (K : Dev nD × CellIx → ℕ) (c : Dev nD) (g1 : Buf (Elt F) ((c : Thread nD τ).loc cc0_stg1_0)) (f0 : Buf (Elt F) ((c : Thread nD τ).loc cc0_scratch0)) (f1 : Buf (Elt F) ((c : Thread nD τ).loc cc0_scratch1))
      (v2 v5 v8 : BitVec 32) (v11 v12 v13 v14 : BitVec 1) (v17 v18 v19 v20 : BitVec 32) (v31 : BitVec 1)
      (h11 : v11 = bit (has c 2)) (h12 : v12 = bit (has c 3)) (h13 : v13 = bit (has c 4)) (h14 : v14 = bit (has c 5)) (h31 : v31 = bit (!has c 1)) :
      stA m ρ K c (xstg m ρ c) g1 f0 f1
        ⊢ wp frame (wpE (defs₀ (F := F)) 𝒱₀ (c : Thread nD τ) none) Set.univ
            (k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v2 v5 v8 v11 v12 v13 v14 v17 v18 v19 v20 (SemArray.scalar (sig.barrier 0 rfl)) v31)
            (fun r => iprop(⌜r = k0_pay8 (xM.view.readAt (Elt F) rZ31.toLoadRect (xstg m ρ c))⌝ ∗ stB m ρ K c (xstg m ρ c) g1 f0 f1)) := by
  have hC1 : v31 = 1#1 ↔ has c 1 = false := by rw [h31]; exact bit_not_iff _
  have hC2 : (Scalar.cmpi .ne (Scalar.extui (Scalar.xori v11 1#1)) 0#32 = 1#1) ↔ has c 2 = false := by rw [h11]; exact ntest_iff _
  have hC3 : (Scalar.cmpi .ne (Scalar.extui (Scalar.xori v12 1#1)) 0#32 = 1#1) ↔ has c 3 = false := by rw [h12]; exact ntest_iff _
  have hC4 : (Scalar.cmpi .ne (Scalar.extui (Scalar.xori v13 1#1)) 0#32 = 1#1) ↔ has c 4 = false := by rw [h13]; exact ntest_iff _
  have hC5 : (Scalar.cmpi .ne (Scalar.extui (Scalar.xori v14 1#1)) 0#32 = 1#1) ↔ has c 5 = false := by rw [h14]; exact ntest_iff _
  rw [k0_part2_eq_skeleton]
  unfold k0_part2_skel stA stB xWhole sbufPts
  iintro ⟨#Hrec, Hlev, HatB, HatX, HO, ⟨T5, T4, T3, T2, T1⟩, HtRS, HcB, HcR, ⟨S0, S1, S2, S3, S4, S5⟩, Hx, Hout, Hsb⟩
  -- direction 1, to the device itself
  iapply (P12_wp_sig_self m ρ K c 1 hC1 (oR c + oweB c 5 + oweB c 4 + oweB c 3 + oweB c 2)) $$ [HO T1]
  · isplitr; · iexact Hrec
    isplitl [HO]; · iexact HO
    iexact T1
  iintro HO
  -- direction 2, to the neighbour
  iapply (P12_wp_sig_remote m ρ K c 2 (Iff.of_eq (cond5_iff c)) (fun h => ⟨k0_dev3 c, k0_dev3_lt c h⟩) (dev3_eq c)
      (oR c + oweB c 5 + oweB c 4 + oweB c 3) f1) $$ [HO T2 S2]
  · isplitr; · iexact Hrec
    isplitl [HO]; · iexact HO
    isplitl [T2]; · iexact T2
    iexact S2
  iintro ⟨HO, T2, S2⟩
  -- direction 2, to the device itself
  iapply (P12_wp_sig_self m ρ K c 2 hC2 (oR c + oweB c 5 + oweB c 4 + oweB c 3)) $$ [HO T2]
  · isplitr; · iexact Hrec
    isplitl [HO]; · iexact HO
    iexact T2
  iintro HO
  -- direction 3, to the neighbour
  iapply (P12_wp_sig_remote m ρ K c 3 (Iff.of_eq (cond7_iff c)) (fun h => ⟨k0_dev4 c, k0_dev4_lt c h⟩) (dev4_eq c)
      (oR c + oweB c 5 + oweB c 4) f1) $$ [HO T3 S3]
  · isplitr; · iexact Hrec
    isplitl [HO]; · iexact HO
    isplitl [T3]; · iexact T3
    iexact S3
  iintro ⟨HO, T3, S3⟩
  -- direction 3, to the device itself
  iapply (P12_wp_sig_self m ρ K c 3 hC3 (oR c + oweB c 5 + oweB c 4)) $$ [HO T3]
  · isplitr; · iexact Hrec
    isplitl [HO]; · iexact HO
    iexact T3
  iintro HO
  -- direction 4, to the neighbour
  iapply (P12_wp_sig_remote m ρ K c 4 (Iff.of_eq (cond9_iff c)) (fun h => ⟨k0_dev5 c, k0_dev5_lt c h⟩) (dev5_eq c)
      (oR c + oweB c 5) f1) $$ [HO T4 S4]
  · isplitr; · iexact Hrec
    isplitl [HO]; · iexact HO
    isplitl [T4]; · iexact T4
    iexact S4
  iintro ⟨HO, T4, S4⟩
  -- direction 4, to the device itself
  iapply (P12_wp_sig_self m ρ K c 4 hC4 (oR c + oweB c 5)) $$ [HO T4]
  · isplitr; · iexact Hrec
    isplitl [HO]; · iexact HO
    iexact T4
  iintro HO
  -- direction 5, to the neighbour
  iapply (P12_wp_sig_remote m ρ K c 5 (Iff.of_eq (cond11_iff c)) (fun h => ⟨k0_dev6 c, k0_dev6_lt c h⟩) (dev6_eq c)
      (oR c) f1) $$ [HO T5 S5]
  · isplitr; · iexact Hrec
    isplitl [HO]; · iexact HO
    isplitl [T5]; · iexact T5
    iexact S5
  iintro ⟨HO, T5, S5⟩
  -- direction 5, to the device itself
  iapply (P12_wp_sig_self m ρ K c 5 hC5 (oR c)) $$ [HO T5]
  · isplitr; · iexact Hrec
    isplitl [HO]; · iexact HO
    iexact T5
  iintro HO
  -- the z = 0 face of the block
  iapply (P12_wp_load_bind c (mr := xM) (View.setOn_subset_set _ _)) $$ Hx
  iintro Hx
  -- row 0 of the send buffer, read and not used
  iapply (P12_wp_load_bind c (mr := sM) (View.setOn_subset_set _ _)) $$ Hsb
  iintro Hsb
  -- the face into row 0
  iapply (P12_wp_store_bind c (mr := sM) (r := rS0) (Mk := Finset.univ) (Memref.setOn_access_subset _ _ _)) $$ Hsb
  iintro Hsb
  -- the z = 31 face of the block
  iapply (P12_wp_load_bind c (mr := xM) (View.setOn_subset_set _ _)) $$ Hx
  iintro Hx
  iapply (le_wp_ret _ _ _ _ _)
  isplitr; · ipureintro; rfl
  isplitr; · iexact Hrec
  isplitl [Hlev]; · iexact Hlev
  isplitl [HatB]; · iexact HatB
  isplitl [HatX]; · iexact HatX
  isplitl [HO]; · iexact HO
  isplitl [HtRS]; · iexact HtRS
  isplitl [HcB]; · iexact HcB
  isplitl [HcR]; · iexact HcR
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [Hx]; · iexact Hx
  isplitl [Hout]; · iexact Hout
  iexact Hsb

end Cert.KernelIdeal.HP

end
-- ==== Proof.KernelIdealSendRule.lean ====
/-
  One face's transfer to a neighbour, as one rule per direction: the device lends its face's source at the share set
  aside for it and gives up the neighbour's slot, its transfer owes the neighbour's receive cell a face's credit, and
  when the transfer is enqueued the device holds the credit of its own send cell and owes the receive cell no more.
  The send cell's duty hands the lent share of the source back; the receive cell's duty hands the neighbour its slot
  holding the face, whatever the slot held before.
-/
import proofs.«900363_g7700000000000364_dist_halo3d_v7x_xyz2x2x4_s32_f32_1_alg».proof.Proof.KernelIdealTables
import proofs.«900363_g7700000000000364_dist_halo3d_v7x_xyz2x2x4_s32_f32_1_alg».proof.Proof.KernelIdealCarve
import proofs.«900363_g7700000000000364_dist_halo3d_v7x_xyz2x2x4_s32_f32_1_alg».proof.Proof.KernelIdealGhost

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The face sent in direction 0 lands in the neighbour's slot 1. -/
theorem landed_of_send0 (c : Dev nD) (h : has c 0 = true) :
    landed m ρ (nb c 0) 1 = (slotM 1).view.write (Elt F) (junk (ℓ := ((nb c 0 : Dev nD) : Thread nD τ).loc cc0_scratch1))
      ((srcM 0).view.read (Elt F) (xstg m ρ c)) Finset.univ := by
  show (slotM 1).view.write (Elt F) (junk (ℓ := ((nb c 0 : Dev nD) : Thread nD τ).loc cc0_scratch1)) (sent m ρ (nb (nb c 0) 1) 0) Finset.univ = _
  rw [show nb (nb c 0) 1 = c from nb_back c 0 h]
  rfl

theorem wp_send_halo0 (c : Dev nD) (h : has c 0 = true) (K : GSem nD τ sig → ℕ)
    {hsc : ((slotM 1) : Memref sig (Dev.tc (nb c 0) : Thread nD τ).2.kind .vmem S32x32 .f32).view.ref.isScScratch = false}
    {hsrc : (srcM 0).view.WordExact} {hdst : (slotM 1).view.WordExact}
    {hsem : DmaTarget.Typed .vmem (.dma (recvS 1)) (.remote (Dev.tc (nb c 0) : Thread nD τ) (slotM 1) (.dma (sendS 0)) hsc)}
    {α : Type} {Q : α → sProp 𝕄} {k : PUnit → Prog (TpuEff nD τ sig (Elt F) Λ₀ .tc) α}
    (fn : Buf (Elt F) (((nb c 0) : Thread nD τ).loc cc0_scratch1)) (W : Waits sig Unit) (O : CellTallies nD τ sig Unit) :
    iprop(cellInv ER (exRd m ρ) (K (sendCell c 0)) (sendCell c 0) ∗ cellInv ER (exRd m ρ) (K (recvCell (nb c 0) 1)) (recvCell (nb c 0) 1)
        ∗ srcPts m ρ c 0 ∗ slotPts (nb c 0) 1 fn
        ∗ owes (c : Thread nD τ) (O + tallyAt (recvCell (nb c 0) 1) () N) W
        ∗ dutyTok ER (sendCell c 0) 0 0 ∗ reached ER (sendCell c 0) 0
        ∗ dutyTok ER (recvCell (nb c 0) 1) 0 0 ∗ reached ER (recvCell (nb c 0) 1) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 0) (.remote (Dev.tc (nb c 0) : Thread nD τ) (slotM 1) (.dma (sendS 0)) hsc) (.dma (recvS 1)) hsrc hdst hsem) k) Q) := by
  have hd₁ : (0 : Fin 6) ∈ (exRd (F := F) m ρ).duties (sendCell c 0) 0 := by
    rw [duties_send m ρ c 0 h]; exact Finset.mem_singleton_self _
  have hd₂ : (0 : Fin 6) ∈ (exRd (F := F) m ρ).duties (recvCell (nb c 0) 1) 0 := by
    rw [duties_recv m ρ (nb c 0) 1 (has_back c 0 h)]; exact Finset.mem_singleton_self _
  have hpay₁ : ((srcM 0).view.loc (c : Thread nD τ) ↦[(srcM 0).view.set]{qOf 0} xstg m ρ c : sProp 𝕄)
      ⊢ (exRd m ρ).payload (sendCell c 0) 0 0 := by
    rw [payload_send]; exact .rfl
  have hpay₂ : ((slotM 1).view.loc ((nb c 0 : Dev nD) : Thread nD τ) ↦[(slotM 1).view.set]{fullShare}
        ((slotM 1).view.write (Elt F) fn ((srcM 0).view.read (Elt F) (xstg m ρ c)) Finset.univ) : sProp 𝕄)
      ⊢ (exRd m ρ).payload (recvCell (nb c 0) 1) 0 0 := by
    rw [payload_recv, landed_pts1]
    unfold recvPay
    rw [landed_of_send0 m ρ c h, slotPts_view1]
  exact Rounds.wp_send_pointsTo 𝒱₀ ER (exRd m ρ) (c : Thread nD τ) none
    (c' := (Dev.tc (nb c 0) : Thread nD τ)) (src := srcM 0) (dst := slotM 1) (q := qOf 0)
    (fs := xstg m ρ c) (fd := fn)
    hd₁ hd₂ () () N (slot_credit 1) (amount_send m ρ c 0 0) (amount_recv m ρ (nb c 0) 1 0) O rfl hpay₁ hpay₂

/-- The face sent in direction 1 lands in the neighbour's slot 0. -/
theorem landed_of_send1 (c : Dev nD) (h : has c 1 = true) :
    landed m ρ (nb c 1) 0 = (slotM 0).view.write (Elt F) (junk (ℓ := ((nb c 1 : Dev nD) : Thread nD τ).loc cc0_scratch1))
      ((srcM 1).view.read (Elt F) (xstg m ρ c)) Finset.univ := by
  show (slotM 0).view.write (Elt F) (junk (ℓ := ((nb c 1 : Dev nD) : Thread nD τ).loc cc0_scratch1)) (sent m ρ (nb (nb c 1) 0) 1) Finset.univ = _
  rw [show nb (nb c 1) 0 = c from nb_back c 1 h]
  rfl

theorem wp_send_halo1 (c : Dev nD) (h : has c 1 = true) (K : GSem nD τ sig → ℕ)
    {hsc : ((slotM 0) : Memref sig (Dev.tc (nb c 1) : Thread nD τ).2.kind .vmem S32x32 .f32).view.ref.isScScratch = false}
    {hsrc : (srcM 1).view.WordExact} {hdst : (slotM 0).view.WordExact}
    {hsem : DmaTarget.Typed .vmem (.dma (recvS 0)) (.remote (Dev.tc (nb c 1) : Thread nD τ) (slotM 0) (.dma (sendS 1)) hsc)}
    {α : Type} {Q : α → sProp 𝕄} {k : PUnit → Prog (TpuEff nD τ sig (Elt F) Λ₀ .tc) α}
    (fn : Buf (Elt F) (((nb c 1) : Thread nD τ).loc cc0_scratch1)) (W : Waits sig Unit) (O : CellTallies nD τ sig Unit) :
    iprop(cellInv ER (exRd m ρ) (K (sendCell c 1)) (sendCell c 1) ∗ cellInv ER (exRd m ρ) (K (recvCell (nb c 1) 0)) (recvCell (nb c 1) 0)
        ∗ srcPts m ρ c 1 ∗ slotPts (nb c 1) 0 fn
        ∗ owes (c : Thread nD τ) (O + tallyAt (recvCell (nb c 1) 0) () N) W
        ∗ dutyTok ER (sendCell c 1) 0 0 ∗ reached ER (sendCell c 1) 0
        ∗ dutyTok ER (recvCell (nb c 1) 0) 0 0 ∗ reached ER (recvCell (nb c 1) 0) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 1) (.remote (Dev.tc (nb c 1) : Thread nD τ) (slotM 0) (.dma (sendS 1)) hsc) (.dma (recvS 0)) hsrc hdst hsem) k) Q) := by
  have hd₁ : (0 : Fin 6) ∈ (exRd (F := F) m ρ).duties (sendCell c 1) 0 := by
    rw [duties_send m ρ c 1 h]; exact Finset.mem_singleton_self _
  have hd₂ : (0 : Fin 6) ∈ (exRd (F := F) m ρ).duties (recvCell (nb c 1) 0) 0 := by
    rw [duties_recv m ρ (nb c 1) 0 (has_back c 1 h)]; exact Finset.mem_singleton_self _
  have hpay₁ : ((srcM 1).view.loc (c : Thread nD τ) ↦[(srcM 1).view.set]{qOf 1} xstg m ρ c : sProp 𝕄)
      ⊢ (exRd m ρ).payload (sendCell c 1) 0 0 := by
    rw [payload_send]; exact .rfl
  have hpay₂ : ((slotM 0).view.loc ((nb c 1 : Dev nD) : Thread nD τ) ↦[(slotM 0).view.set]{fullShare}
        ((slotM 0).view.write (Elt F) fn ((srcM 1).view.read (Elt F) (xstg m ρ c)) Finset.univ) : sProp 𝕄)
      ⊢ (exRd m ρ).payload (recvCell (nb c 1) 0) 0 0 := by
    rw [payload_recv, landed_pts0]
    unfold recvPay
    rw [landed_of_send1 m ρ c h, slotPts_view0]
  exact Rounds.wp_send_pointsTo 𝒱₀ ER (exRd m ρ) (c : Thread nD τ) none
    (c' := (Dev.tc (nb c 1) : Thread nD τ)) (src := srcM 1) (dst := slotM 0) (q := qOf 1)
    (fs := xstg m ρ c) (fd := fn)
    hd₁ hd₂ () () N (slot_credit 0) (amount_send m ρ c 1 0) (amount_recv m ρ (nb c 1) 0 0) O rfl hpay₁ hpay₂

/-- The face sent in direction 2 lands in the neighbour's slot 3. -/
theorem landed_of_send2 (c : Dev nD) (h : has c 2 = true) :
    landed m ρ (nb c 2) 3 = (slotM 3).view.write (Elt F) (junk (ℓ := ((nb c 2 : Dev nD) : Thread nD τ).loc cc0_scratch1))
      ((srcM 2).view.read (Elt F) (xstg m ρ c)) Finset.univ := by
  show (slotM 3).view.write (Elt F) (junk (ℓ := ((nb c 2 : Dev nD) : Thread nD τ).loc cc0_scratch1)) (sent m ρ (nb (nb c 2) 3) 2) Finset.univ = _
  rw [show nb (nb c 2) 3 = c from nb_back c 2 h]
  rfl

theorem wp_send_halo2 (c : Dev nD) (h : has c 2 = true) (K : GSem nD τ sig → ℕ)
    {hsc : ((slotM 3) : Memref sig (Dev.tc (nb c 2) : Thread nD τ).2.kind .vmem S32x32 .f32).view.ref.isScScratch = false}
    {hsrc : (srcM 2).view.WordExact} {hdst : (slotM 3).view.WordExact}
    {hsem : DmaTarget.Typed .vmem (.dma (recvS 3)) (.remote (Dev.tc (nb c 2) : Thread nD τ) (slotM 3) (.dma (sendS 2)) hsc)}
    {α : Type} {Q : α → sProp 𝕄} {k : PUnit → Prog (TpuEff nD τ sig (Elt F) Λ₀ .tc) α}
    (fn : Buf (Elt F) (((nb c 2) : Thread nD τ).loc cc0_scratch1)) (W : Waits sig Unit) (O : CellTallies nD τ sig Unit) :
    iprop(cellInv ER (exRd m ρ) (K (sendCell c 2)) (sendCell c 2) ∗ cellInv ER (exRd m ρ) (K (recvCell (nb c 2) 3)) (recvCell (nb c 2) 3)
        ∗ srcPts m ρ c 2 ∗ slotPts (nb c 2) 3 fn
        ∗ owes (c : Thread nD τ) (O + tallyAt (recvCell (nb c 2) 3) () N) W
        ∗ dutyTok ER (sendCell c 2) 0 0 ∗ reached ER (sendCell c 2) 0
        ∗ dutyTok ER (recvCell (nb c 2) 3) 0 0 ∗ reached ER (recvCell (nb c 2) 3) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 2) (.remote (Dev.tc (nb c 2) : Thread nD τ) (slotM 3) (.dma (sendS 2)) hsc) (.dma (recvS 3)) hsrc hdst hsem) k) Q) := by
  have hd₁ : (0 : Fin 6) ∈ (exRd (F := F) m ρ).duties (sendCell c 2) 0 := by
    rw [duties_send m ρ c 2 h]; exact Finset.mem_singleton_self _
  have hd₂ : (0 : Fin 6) ∈ (exRd (F := F) m ρ).duties (recvCell (nb c 2) 3) 0 := by
    rw [duties_recv m ρ (nb c 2) 3 (has_back c 2 h)]; exact Finset.mem_singleton_self _
  have hpay₁ : ((srcM 2).view.loc (c : Thread nD τ) ↦[(srcM 2).view.set]{qOf 2} xstg m ρ c : sProp 𝕄)
      ⊢ (exRd m ρ).payload (sendCell c 2) 0 0 := by
    rw [payload_send]; exact .rfl
  have hpay₂ : ((slotM 3).view.loc ((nb c 2 : Dev nD) : Thread nD τ) ↦[(slotM 3).view.set]{fullShare}
        ((slotM 3).view.write (Elt F) fn ((srcM 2).view.read (Elt F) (xstg m ρ c)) Finset.univ) : sProp 𝕄)
      ⊢ (exRd m ρ).payload (recvCell (nb c 2) 3) 0 0 := by
    rw [payload_recv, landed_pts3]
    unfold recvPay
    rw [landed_of_send2 m ρ c h, slotPts_view3]
  exact Rounds.wp_send_pointsTo 𝒱₀ ER (exRd m ρ) (c : Thread nD τ) none
    (c' := (Dev.tc (nb c 2) : Thread nD τ)) (src := srcM 2) (dst := slotM 3) (q := qOf 2)
    (fs := xstg m ρ c) (fd := fn)
    hd₁ hd₂ () () N (slot_credit 3) (amount_send m ρ c 2 0) (amount_recv m ρ (nb c 2) 3 0) O rfl hpay₁ hpay₂

/-- The face sent in direction 3 lands in the neighbour's slot 2. -/
theorem landed_of_send3 (c : Dev nD) (h : has c 3 = true) :
    landed m ρ (nb c 3) 2 = (slotM 2).view.write (Elt F) (junk (ℓ := ((nb c 3 : Dev nD) : Thread nD τ).loc cc0_scratch1))
      ((srcM 3).view.read (Elt F) (xstg m ρ c)) Finset.univ := by
  show (slotM 2).view.write (Elt F) (junk (ℓ := ((nb c 3 : Dev nD) : Thread nD τ).loc cc0_scratch1)) (sent m ρ (nb (nb c 3) 2) 3) Finset.univ = _
  rw [show nb (nb c 3) 2 = c from nb_back c 3 h]
  rfl

theorem wp_send_halo3 (c : Dev nD) (h : has c 3 = true) (K : GSem nD τ sig → ℕ)
    {hsc : ((slotM 2) : Memref sig (Dev.tc (nb c 3) : Thread nD τ).2.kind .vmem S32x32 .f32).view.ref.isScScratch = false}
    {hsrc : (srcM 3).view.WordExact} {hdst : (slotM 2).view.WordExact}
    {hsem : DmaTarget.Typed .vmem (.dma (recvS 2)) (.remote (Dev.tc (nb c 3) : Thread nD τ) (slotM 2) (.dma (sendS 3)) hsc)}
    {α : Type} {Q : α → sProp 𝕄} {k : PUnit → Prog (TpuEff nD τ sig (Elt F) Λ₀ .tc) α}
    (fn : Buf (Elt F) (((nb c 3) : Thread nD τ).loc cc0_scratch1)) (W : Waits sig Unit) (O : CellTallies nD τ sig Unit) :
    iprop(cellInv ER (exRd m ρ) (K (sendCell c 3)) (sendCell c 3) ∗ cellInv ER (exRd m ρ) (K (recvCell (nb c 3) 2)) (recvCell (nb c 3) 2)
        ∗ srcPts m ρ c 3 ∗ slotPts (nb c 3) 2 fn
        ∗ owes (c : Thread nD τ) (O + tallyAt (recvCell (nb c 3) 2) () N) W
        ∗ dutyTok ER (sendCell c 3) 0 0 ∗ reached ER (sendCell c 3) 0
        ∗ dutyTok ER (recvCell (nb c 3) 2) 0 0 ∗ reached ER (recvCell (nb c 3) 2) 0)
      ⊢ iprop(((cred (tallyAt (sendCell c 3) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 3) (.remote (Dev.tc (nb c 3) : Thread nD τ) (slotM 2) (.dma (sendS 3)) hsc) (.dma (recvS 2)) hsrc hdst hsem) k) Q) := by
  have hd₁ : (0 : Fin 6) ∈ (exRd (F := F) m ρ).duties (sendCell c 3) 0 := by
    rw [duties_send m ρ c 3 h]; exact Finset.mem_singleton_self _
  have hd₂ : (0 : Fin 6) ∈ (exRd (F := F) m ρ).duties (recvCell (nb c 3) 2) 0 := by
    rw [duties_recv m ρ (nb c 3) 2 (has_back c 3 h)]; exact Finset.mem_singleton_self _
  have hpay₁ : ((srcM 3).view.loc (c : Thread nD τ) ↦[(srcM 3).view.set]{qOf 3} xstg m ρ c : sProp 𝕄)
      ⊢ (exRd m ρ).payload (sendCell c 3) 0 0 := by
    rw [payload_send]; exact .rfl
  have hpay₂ : ((slotM 2).view.loc ((nb c 3 : Dev nD) : Thread nD τ) ↦[(slotM 2).view.set]{fullShare}
        ((slotM 2).view.write (Elt F) fn ((srcM 3).view.read (Elt F) (xstg m ρ c)) Finset.univ) : sProp 𝕄)
      ⊢ (exRd m ρ).payload (recvCell (nb c 3) 2) 0 0 := by
    rw [payload_recv, landed_pts2]
    unfold recvPay
    rw [landed_of_send3 m ρ c h, slotPts_view2]
  exact Rounds.wp_send_pointsTo 𝒱₀ ER (exRd m ρ) (c : Thread nD τ) none
    (c' := (Dev.tc (nb c 3) : Thread nD τ)) (src := srcM 3) (dst := slotM 2) (q := qOf 3)
    (fs := xstg m ρ c) (fd := fn)
    hd₁ hd₂ () () N (slot_credit 2) (amount_send m ρ c 3 0) (amount_recv m ρ (nb c 3) 2 0) O rfl hpay₁ hpay₂

/-- The face sent in direction 4 lands in the neighbour's slot 5. -/
theorem landed_of_send4 (c : Dev nD) (h : has c 4 = true) :
    landed m ρ (nb c 4) 5 = (slotM 5).view.write (Elt F) (junk (ℓ := ((nb c 4 : Dev nD) : Thread nD τ).loc cc0_scratch1))
      ((srcM 4).view.read (Elt F) (sbuf m ρ c)) Finset.univ := by
  show (slotM 5).view.write (Elt F) (junk (ℓ := ((nb c 4 : Dev nD) : Thread nD τ).loc cc0_scratch1)) (sent m ρ (nb (nb c 4) 5) 4) Finset.univ = _
  rw [show nb (nb c 4) 5 = c from nb_back c 4 h]
  rfl

theorem wp_send_halo4 (c : Dev nD) (h : has c 4 = true) (K : GSem nD τ sig → ℕ)
    {hsc : ((slotM 5) : Memref sig (Dev.tc (nb c 4) : Thread nD τ).2.kind .vmem S32x32 .f32).view.ref.isScScratch = false}
    {hsrc : (srcM 4).view.WordExact} {hdst : (slotM 5).view.WordExact}
    {hsem : DmaTarget.Typed .vmem (.dma (recvS 5)) (.remote (Dev.tc (nb c 4) : Thread nD τ) (slotM 5) (.dma (sendS 4)) hsc)}
    {α : Type} {Q : α → sProp 𝕄} {k : PUnit → Prog (TpuEff nD τ sig (Elt F) Λ₀ .tc) α}
    (fn : Buf (Elt F) (((nb c 4) : Thread nD τ).loc cc0_scratch1)) (W : Waits sig Unit) (O : CellTallies nD τ sig Unit) :
    iprop(cellInv ER (exRd m ρ) (K (sendCell c 4)) (sendCell c 4) ∗ cellInv ER (exRd m ρ) (K (recvCell (nb c 4) 5)) (recvCell (nb c 4) 5)
        ∗ srcPts m ρ c 4 ∗ slotPts (nb c 4) 5 fn
        ∗ owes (c : Thread nD τ) (O + tallyAt (recvCell (nb c 4) 5) () N) W
        ∗ dutyTok ER (sendCell c 4) 0 0 ∗ reached ER (sendCell c 4) 0
        ∗ dutyTok ER (recvCell (nb c 4) 5) 0 0 ∗ reached ER (recvCell (nb c 4) 5) 0)
      ⊢ iprop(((cred (tallyAt (sendCell c 4) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 4) (.remote (Dev.tc (nb c 4) : Thread nD τ) (slotM 5) (.dma (sendS 4)) hsc) (.dma (recvS 5)) hsrc hdst hsem) k) Q) := by
  have hd₁ : (0 : Fin 6) ∈ (exRd (F := F) m ρ).duties (sendCell c 4) 0 := by
    rw [duties_send m ρ c 4 h]; exact Finset.mem_singleton_self _
  have hd₂ : (0 : Fin 6) ∈ (exRd (F := F) m ρ).duties (recvCell (nb c 4) 5) 0 := by
    rw [duties_recv m ρ (nb c 4) 5 (has_back c 4 h)]; exact Finset.mem_singleton_self _
  have hpay₁ : ((srcM 4).view.loc (c : Thread nD τ) ↦[(srcM 4).view.set]{qOf 4} sbuf m ρ c : sProp 𝕄)
      ⊢ (exRd m ρ).payload (sendCell c 4) 0 0 := by
    rw [payload_send]; exact .rfl
  have hpay₂ : ((slotM 5).view.loc ((nb c 4 : Dev nD) : Thread nD τ) ↦[(slotM 5).view.set]{fullShare}
        ((slotM 5).view.write (Elt F) fn ((srcM 4).view.read (Elt F) (sbuf m ρ c)) Finset.univ) : sProp 𝕄)
      ⊢ (exRd m ρ).payload (recvCell (nb c 4) 5) 0 0 := by
    rw [payload_recv, landed_pts5]
    unfold recvPay
    rw [landed_of_send4 m ρ c h, slotPts_view5]
  exact Rounds.wp_send_pointsTo 𝒱₀ ER (exRd m ρ) (c : Thread nD τ) none
    (c' := (Dev.tc (nb c 4) : Thread nD τ)) (src := srcM 4) (dst := slotM 5) (q := qOf 4)
    (fs := sbuf m ρ c) (fd := fn)
    hd₁ hd₂ () () N (slot_credit 5) (amount_send m ρ c 4 0) (amount_recv m ρ (nb c 4) 5 0) O rfl hpay₁ hpay₂

/-- The face sent in direction 5 lands in the neighbour's slot 4. -/
theorem landed_of_send5 (c : Dev nD) (h : has c 5 = true) :
    landed m ρ (nb c 5) 4 = (slotM 4).view.write (Elt F) (junk (ℓ := ((nb c 5 : Dev nD) : Thread nD τ).loc cc0_scratch1))
      ((srcM 5).view.read (Elt F) (sbuf m ρ c)) Finset.univ := by
  show (slotM 4).view.write (Elt F) (junk (ℓ := ((nb c 5 : Dev nD) : Thread nD τ).loc cc0_scratch1)) (sent m ρ (nb (nb c 5) 4) 5) Finset.univ = _
  rw [show nb (nb c 5) 4 = c from nb_back c 5 h]
  rfl

theorem wp_send_halo5 (c : Dev nD) (h : has c 5 = true) (K : GSem nD τ sig → ℕ)
    {hsc : ((slotM 4) : Memref sig (Dev.tc (nb c 5) : Thread nD τ).2.kind .vmem S32x32 .f32).view.ref.isScScratch = false}
    {hsrc : (srcM 5).view.WordExact} {hdst : (slotM 4).view.WordExact}
    {hsem : DmaTarget.Typed .vmem (.dma (recvS 4)) (.remote (Dev.tc (nb c 5) : Thread nD τ) (slotM 4) (.dma (sendS 5)) hsc)}
    {α : Type} {Q : α → sProp 𝕄} {k : PUnit → Prog (TpuEff nD τ sig (Elt F) Λ₀ .tc) α}
    (fn : Buf (Elt F) (((nb c 5) : Thread nD τ).loc cc0_scratch1)) (W : Waits sig Unit) (O : CellTallies nD τ sig Unit) :
    iprop(cellInv ER (exRd m ρ) (K (sendCell c 5)) (sendCell c 5) ∗ cellInv ER (exRd m ρ) (K (recvCell (nb c 5) 4)) (recvCell (nb c 5) 4)
        ∗ srcPts m ρ c 5 ∗ slotPts (nb c 5) 4 fn
        ∗ owes (c : Thread nD τ) (O + tallyAt (recvCell (nb c 5) 4) () N) W
        ∗ dutyTok ER (sendCell c 5) 0 0 ∗ reached ER (sendCell c 5) 0
        ∗ dutyTok ER (recvCell (nb c 5) 4) 0 0 ∗ reached ER (recvCell (nb c 5) 4) 0)
      ⊢ iprop(((cred (tallyAt (sendCell c 5) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM 5) (.remote (Dev.tc (nb c 5) : Thread nD τ) (slotM 4) (.dma (sendS 5)) hsc) (.dma (recvS 4)) hsrc hdst hsem) k) Q) := by
  have hd₁ : (0 : Fin 6) ∈ (exRd (F := F) m ρ).duties (sendCell c 5) 0 := by
    rw [duties_send m ρ c 5 h]; exact Finset.mem_singleton_self _
  have hd₂ : (0 : Fin 6) ∈ (exRd (F := F) m ρ).duties (recvCell (nb c 5) 4) 0 := by
    rw [duties_recv m ρ (nb c 5) 4 (has_back c 5 h)]; exact Finset.mem_singleton_self _
  have hpay₁ : ((srcM 5).view.loc (c : Thread nD τ) ↦[(srcM 5).view.set]{qOf 5} sbuf m ρ c : sProp 𝕄)
      ⊢ (exRd m ρ).payload (sendCell c 5) 0 0 := by
    rw [payload_send]; exact .rfl
  have hpay₂ : ((slotM 4).view.loc ((nb c 5 : Dev nD) : Thread nD τ) ↦[(slotM 4).view.set]{fullShare}
        ((slotM 4).view.write (Elt F) fn ((srcM 5).view.read (Elt F) (sbuf m ρ c)) Finset.univ) : sProp 𝕄)
      ⊢ (exRd m ρ).payload (recvCell (nb c 5) 4) 0 0 := by
    rw [payload_recv, landed_pts4]
    unfold recvPay
    rw [landed_of_send5 m ρ c h, slotPts_view4]
  exact Rounds.wp_send_pointsTo 𝒱₀ ER (exRd m ρ) (c : Thread nD τ) none
    (c' := (Dev.tc (nb c 5) : Thread nD τ)) (src := srcM 5) (dst := slotM 4) (q := qOf 5)
    (fs := sbuf m ρ c) (fd := fn)
    hd₁ hd₂ () () N (slot_credit 4) (amount_send m ρ c 5 0) (amount_recv m ρ (nb c 5) 4 0) O rfl hpay₁ hpay₂

end Cert.KernelIdeal.HP

end
-- ==== Proof.KernelIdealPart3.lean ====
/-
  Part 3 of a device's body: the second row of the send buffer is stored, the device waits for its barrier cell's six
  units (it then holds every slot it is about to write into), lends the four faces of its block by share and the two
  rows of the send buffer whole, enqueues the transfer to each neighbour that exists, and loads the block.

  Each guarded transfer is one lemma over the program's own conditional: where there is a neighbour, the transfer rule
  turns the lent source, the neighbour's slot and the two duty tokens into the send cell's credit and takes the
  receive cell's due off what the device owes; where there is none, nothing is owed that way and the source piece stays.
-/
import proofs.«900363_g7700000000000364_dist_halo3d_v7x_xyz2x2x4_s32_f32_1_alg».proof.Proof.KernelIdealStates
import proofs.«900363_g7700000000000364_dist_halo3d_v7x_xyz2x2x4_s32_f32_1_alg».proof.Proof.KernelIdealSendRule
import proofs.«900363_g7700000000000364_dist_halo3d_v7x_xyz2x2x4_s32_f32_1_alg».proof.Proof.KernelIdealLaunch

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts -/

theorem P3_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem P3_semWaitWord_bind {α : Type} (sem : Sem sig) (n : BitVec 32) (h : n.msb = false)
    (f : PUnit → Prog (TpuEff nD τ sig (Elt F) Λ₀ .tc) α) :
    semWaitWord sem n h >>= f = Prog.op (.semWait sem n.toNat) f := rfl

/-- Whatever is still owed to receive cells is owed to a neighbour's. -/
theorem P3_oR_pos {c : Dev nD} {g : GSem nD τ sig} {u : Unit} (h : 0 < oR c g u) :
    ∃ d : Fin 6, g = recvCell (nb c d) (opp d) := by
  by_contra hn
  rw [not_exists] at hn
  unfold oR oweR at h
  simp only [Pi.add_apply, Finsupp.add_apply, tallyAt_apply, hn, false_and, ↓reduceIte, add_zero] at h
  exact Nat.lt_irrefl 0 h

/-- At its barrier wait a device owes receive cells only: level 2, above the barrier cell's level 1. -/
theorem P3_mayWait_bar (c : Dev nD) : (levAts L lv : sProp 𝕄) ⊢ MayWait (c : Thread nD τ) (.reg barS) () (oR c) :=
  MayOwe.of_cut (L := L) (lev := lv) 1
    (fun p hp => by rw [Finset.mem_singleton.mp hp, L_tc]; exact Finset.mem_singleton_self _)
    (fun g u hg => by obtain ⟨d, rfl⟩ := P3_oR_pos hg; exact Finset.mem_singleton_self _)
    (fun p hp => by rw [Finset.mem_singleton.mp hp]; exact (lv_bar c ()).le)
    (fun g u hg => by obtain ⟨d, rfl⟩ := P3_oR_pos hg; rw [lv_recv]; decide)

/-! ## The send buffer after both stores -/

/-- Both rows of the send buffer are overwritten, so what it held before does not matter: after the row-1 store it
    holds the block's two z faces. -/
theorem P3_sbuf_eq (c : Dev nD) (f0 : Buf (Elt F) ((c : Thread nD τ).loc cc0_scratch0)) :
    ((sM.access rS1 : View sig .tc _ _ _)).write (Elt F) (sbuf0 c (xstg m ρ c) f0)
        (k0_pay9 (k0_pay8 (xM.view.readAt (Elt F) rZ31.toLoadRect (xstg m ρ c)))) Finset.univ
      = sbuf m ρ c := by
  unfold sbuf sbuf0
  generalize (k0_pay9 (k0_pay8 (xM.view.readAt (Elt F) rZ31.toLoadRect (xstg m ρ c)))) = b
  generalize (k0_pay7 (xM.view.readAt (Elt F) rZ0.toLoadRect (xstg m ρ c))) = a
  have e4 : (sM.access rS0 : View sig .tc _ _ _).setOn Finset.univ = (srcM 4).view.set := (View.set_reshape _ _).symm
  have e5 : (sM.access rS1 : View sig .tc _ _ _).setOn Finset.univ = (srcM 5).view.set := (View.set_reshape _ _).symm
  rw [View.write_eq_piecewise (v := (sM.access rS1 : View sig .tc _ _ _)) _
    (((sM.access rS0 : View sig .tc _ _ _)).write (Elt F) (junk (ℓ := (c : Thread nD τ).loc cc0_scratch0)) a Finset.univ) b Finset.univ]
  refine funext fun (i : S2x32x32.Idx) => ?_
  by_cases hi : i ∈ (sM.access rS1 : View sig .tc _ _ _).setOn Finset.univ
  · rw [Finset.piecewise_eq_of_mem _ _ _ hi]
  · rw [Finset.piecewise_eq_of_notMem _ _ _ hi, View.write_of_not_mem _ _ _ hi]
    have h0 : i ∈ (sM.access rS0 : View sig .tc _ _ _).setOn Finset.univ := by
      rw [e4, mem_src4]
      rw [e5, mem_src5] at hi
      have := (i 0).isLt
      have h2 : (i 0).val < 2 := this
      omega
    rw [View.write_eq_piecewise (v := (sM.access rS0 : View sig .tc _ _ _)) f0 (junk (ℓ := (c : Thread nD τ).loc cc0_scratch0)) a Finset.univ,
      Finset.piecewise_eq_of_mem _ _ _ h0]

/-! ## One guarded transfer, per direction -/

theorem P3_send_step0 (K : Dev nD × CellIx → ℕ) (c : Dev nD) (O : CellTallies nD τ sig Unit) (W : Waits sig Unit)
    {hsc : ∀ h : k0_cond13 c = 1#1, ((slotM 1) : Memref sig (Dev.tc (⟨k0_dev7 c, k0_dev7_lt c h⟩ : Dev nD) : Thread nD τ).2.kind .vmem S32x32 .f32).view.ref.isScScratch = false}
    {hsrc : (srcM 0).view.WordExact} {hdst : (slotM 1).view.WordExact}
    {hsem : ∀ h : k0_cond13 c = 1#1, DmaTarget.Typed .vmem (.dma (recvS 1)) (.remote (Dev.tc (⟨k0_dev7 c, k0_dev7_lt c h⟩ : Dev nD) : Thread nD τ) (slotM 1) (.dma (sendS 0)) (hsc h))}
    {α : Type} {Q : α → sProp 𝕄} {J : Prog (TpuEff nD τ sig (Elt F) Λ₀ .tc) α} :
    iprop(records m ρ K ∗ srcPts m ρ c 0 ∗ tokRS c 0 ∗ barPay c 0 ∗ owes (c : Thread nD τ) (O + oweR c 0) W)
      ⊢ iprop((((if has c 0 = true then cred (tallyAt (sendCell c 0) () N) else srcPts m ρ c 0) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond13 c = 1#1)
                (fun h => Prog.lift (.enqueueDma (srcM 0) (.remote (Dev.tc (⟨k0_dev7 c, k0_dev7_lt c h⟩ : Dev nD) : Thread nD τ) (slotM 1) (.dma (sendS 0)) (hsc h)) (.dma (recvS 1)) hsrc hdst (hsem h)) >>= fun _ => J)
                (fun _ => J)) Q) := by
  by_cases h : has c 0 = true
  · have hc : k0_cond13 c = 1#1 := by rw [cond13_iff]; exact h
    rw [dif_pos hc, Prog.bind_lift]
    generalize hsem hc = hs
    generalize hsc hc = hq at hs ⊢
    have e := dev7_eq c hc
    generalize (⟨k0_dev7 c, k0_dev7_lt c hc⟩ : Dev nD) = x at e hs ⊢
    subst e
    unfold tokRS barPay oweR records
    simp only [h, ↓reduceIte]
    let K' : GSem nD τ sig → ℕ := fun g => if g = sendCell c 0 then K (c, some (false, 0)) else K (nb c 0, some (true, 1))
    have e1 : K' (sendCell c 0) = K (c, some (false, 0)) := if_pos rfl
    have e2 : K' (recvCell (nb c 0) 1) = K (nb c 0, some (true, 1)) :=
      if_neg fun hh => absurd (SemLoc.dma.inj (congrArg Prod.snd hh)).symm (send_ne_recv 0 1)
    have c1 : (cellInv ER (exRd m ρ) (K (c, some (false, 0))) (sendCell c 0) : sProp 𝕄)
        ⊢ cellInv ER (exRd m ρ) (K' (sendCell c 0)) (sendCell c 0) := Entails.of_eq (by rw [e1])
    have c2 : (cellInv ER (exRd m ρ) (K (nb c 0, some (true, 1))) (recvCell (nb c 0) 1) : sProp 𝕄)
        ⊢ cellInv ER (exRd m ρ) (K' (recvCell (nb c 0) 1)) (recvCell (nb c 0) 1) := Entails.of_eq (by rw [e2])
    iintro ⟨⟨#HI, #HR⟩, Hsrc, ⟨HtR, HtS⟩, ⟨⟨%fn, Hslot⟩, #Hreach⟩, HL⟩ Hk
    iapply (wp_send_halo0 m ρ c h K' fn W O) $$ [Hsrc HtR HtS Hslot HL]
    · isplitr; · iapply c1; iapply (inv_at m ρ K (c, some (false, 0))); iexact HI
      isplitr; · iapply c2; iapply (inv_at m ρ K (nb c 0, some (true, 1))); iexact HI
      isplitl [Hsrc]; · iexact Hsrc
      isplitl [Hslot]; · iexact Hslot
      isplitl [HL]; · iexact HL
      isplitl [HtS]; · iexact HtS
      isplitr; · iapply (reached_at (F := F) (c, some (false, 0))); iexact HR
      isplitl [HtR]; · iexact HtR
      iexact Hreach
    · iexact Hk
  · have hf : has c 0 = false := by simpa using h
    have hc : ¬ k0_cond13 c = 1#1 := by rw [cond13_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step1 (K : Dev nD × CellIx → ℕ) (c : Dev nD) (O : CellTallies nD τ sig Unit) (W : Waits sig Unit)
    {hsc : ∀ h : k0_cond14 c = 1#1, ((slotM 0) : Memref sig (Dev.tc (⟨k0_dev8 c, k0_dev8_lt c h⟩ : Dev nD) : Thread nD τ).2.kind .vmem S32x32 .f32).view.ref.isScScratch = false}
    {hsrc : (srcM 1).view.WordExact} {hdst : (slotM 0).view.WordExact}
    {hsem : ∀ h : k0_cond14 c = 1#1, DmaTarget.Typed .vmem (.dma (recvS 0)) (.remote (Dev.tc (⟨k0_dev8 c, k0_dev8_lt c h⟩ : Dev nD) : Thread nD τ) (slotM 0) (.dma (sendS 1)) (hsc h))}
    {α : Type} {Q : α → sProp 𝕄} {J : Prog (TpuEff nD τ sig (Elt F) Λ₀ .tc) α} :
    iprop(records m ρ K ∗ srcPts m ρ c 1 ∗ tokRS c 1 ∗ barPay c 1 ∗ owes (c : Thread nD τ) (O + oweR c 1) W)
      ⊢ iprop((((if has c 1 = true then cred (tallyAt (sendCell c 1) () N) else srcPts m ρ c 1) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond14 c = 1#1)
                (fun h => Prog.lift (.enqueueDma (srcM 1) (.remote (Dev.tc (⟨k0_dev8 c, k0_dev8_lt c h⟩ : Dev nD) : Thread nD τ) (slotM 0) (.dma (sendS 1)) (hsc h)) (.dma (recvS 0)) hsrc hdst (hsem h)) >>= fun _ => J)
                (fun _ => J)) Q) := by
  by_cases h : has c 1 = true
  · have hc : k0_cond14 c = 1#1 := by rw [cond14_iff]; exact h
    rw [dif_pos hc, Prog.bind_lift]
    generalize hsem hc = hs
    generalize hsc hc = hq at hs ⊢
    have e := dev8_eq c hc
    generalize (⟨k0_dev8 c, k0_dev8_lt c hc⟩ : Dev nD) = x at e hs ⊢
    subst e
    unfold tokRS barPay oweR records
    simp only [h, ↓reduceIte]
    let K' : GSem nD τ sig → ℕ := fun g => if g = sendCell c 1 then K (c, some (false, 1)) else K (nb c 1, some (true, 0))
    have e1 : K' (sendCell c 1) = K (c, some (false, 1)) := if_pos rfl
    have e2 : K' (recvCell (nb c 1) 0) = K (nb c 1, some (true, 0)) :=
      if_neg fun hh => absurd (SemLoc.dma.inj (congrArg Prod.snd hh)).symm (send_ne_recv 1 0)
    have c1 : (cellInv ER (exRd m ρ) (K (c, some (false, 1))) (sendCell c 1) : sProp 𝕄)
        ⊢ cellInv ER (exRd m ρ) (K' (sendCell c 1)) (sendCell c 1) := Entails.of_eq (by rw [e1])
    have c2 : (cellInv ER (exRd m ρ) (K (nb c 1, some (true, 0))) (recvCell (nb c 1) 0) : sProp 𝕄)
        ⊢ cellInv ER (exRd m ρ) (K' (recvCell (nb c 1) 0)) (recvCell (nb c 1) 0) := Entails.of_eq (by rw [e2])
    iintro ⟨⟨#HI, #HR⟩, Hsrc, ⟨HtR, HtS⟩, ⟨⟨%fn, Hslot⟩, #Hreach⟩, HL⟩ Hk
    iapply (wp_send_halo1 m ρ c h K' fn W O) $$ [Hsrc HtR HtS Hslot HL]
    · isplitr; · iapply c1; iapply (inv_at m ρ K (c, some (false, 1))); iexact HI
      isplitr; · iapply c2; iapply (inv_at m ρ K (nb c 1, some (true, 0))); iexact HI
      isplitl [Hsrc]; · iexact Hsrc
      isplitl [Hslot]; · iexact Hslot
      isplitl [HL]; · iexact HL
      isplitl [HtS]; · iexact HtS
      isplitr; · iapply (reached_at (F := F) (c, some (false, 1))); iexact HR
      isplitl [HtR]; · iexact HtR
      iexact Hreach
    · iexact Hk
  · have hf : has c 1 = false := by simpa using h
    have hc : ¬ k0_cond14 c = 1#1 := by rw [cond14_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step2 (K : Dev nD × CellIx → ℕ) (c : Dev nD) (O : CellTallies nD τ sig Unit) (W : Waits sig Unit)
    {hsc : ∀ h : k0_cond15 c = 1#1, ((slotM 3) : Memref sig (Dev.tc (⟨k0_dev9 c, k0_dev9_lt c h⟩ : Dev nD) : Thread nD τ).2.kind .vmem S32x32 .f32).view.ref.isScScratch = false}
    {hsrc : (srcM 2).view.WordExact} {hdst : (slotM 3).view.WordExact}
    {hsem : ∀ h : k0_cond15 c = 1#1, DmaTarget.Typed .vmem (.dma (recvS 3)) (.remote (Dev.tc (⟨k0_dev9 c, k0_dev9_lt c h⟩ : Dev nD) : Thread nD τ) (slotM 3) (.dma (sendS 2)) (hsc h))}
    {α : Type} {Q : α → sProp 𝕄} {J : Prog (TpuEff nD τ sig (Elt F) Λ₀ .tc) α} :
    iprop(records m ρ K ∗ srcPts m ρ c 2 ∗ tokRS c 2 ∗ barPay c 2 ∗ owes (c : Thread nD τ) (O + oweR c 2) W)
      ⊢ iprop((((if has c 2 = true then cred (tallyAt (sendCell c 2) () N) else srcPts m ρ c 2) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond15 c = 1#1)
                (fun h => Prog.lift (.enqueueDma (srcM 2) (.remote (Dev.tc (⟨k0_dev9 c, k0_dev9_lt c h⟩ : Dev nD) : Thread nD τ) (slotM 3) (.dma (sendS 2)) (hsc h)) (.dma (recvS 3)) hsrc hdst (hsem h)) >>= fun _ => J)
                (fun _ => J)) Q) := by
  by_cases h : has c 2 = true
  · have hc : k0_cond15 c = 1#1 := by rw [cond15_iff]; exact h
    rw [dif_pos hc, Prog.bind_lift]
    generalize hsem hc = hs
    generalize hsc hc = hq at hs ⊢
    have e := dev9_eq c hc
    generalize (⟨k0_dev9 c, k0_dev9_lt c hc⟩ : Dev nD) = x at e hs ⊢
    subst e
    unfold tokRS barPay oweR records
    simp only [h, ↓reduceIte]
    let K' : GSem nD τ sig → ℕ := fun g => if g = sendCell c 2 then K (c, some (false, 2)) else K (nb c 2, some (true, 3))
    have e1 : K' (sendCell c 2) = K (c, some (false, 2)) := if_pos rfl
    have e2 : K' (recvCell (nb c 2) 3) = K (nb c 2, some (true, 3)) :=
      if_neg fun hh => absurd (SemLoc.dma.inj (congrArg Prod.snd hh)).symm (send_ne_recv 2 3)
    have c1 : (cellInv ER (exRd m ρ) (K (c, some (false, 2))) (sendCell c 2) : sProp 𝕄)
        ⊢ cellInv ER (exRd m ρ) (K' (sendCell c 2)) (sendCell c 2) := Entails.of_eq (by rw [e1])
    have c2 : (cellInv ER (exRd m ρ) (K (nb c 2, some (true, 3))) (recvCell (nb c 2) 3) : sProp 𝕄)
        ⊢ cellInv ER (exRd m ρ) (K' (recvCell (nb c 2) 3)) (recvCell (nb c 2) 3) := Entails.of_eq (by rw [e2])
    iintro ⟨⟨#HI, #HR⟩, Hsrc, ⟨HtR, HtS⟩, ⟨⟨%fn, Hslot⟩, #Hreach⟩, HL⟩ Hk
    iapply (wp_send_halo2 m ρ c h K' fn W O) $$ [Hsrc HtR HtS Hslot HL]
    · isplitr; · iapply c1; iapply (inv_at m ρ K (c, some (false, 2))); iexact HI
      isplitr; · iapply c2; iapply (inv_at m ρ K (nb c 2, some (true, 3))); iexact HI
      isplitl [Hsrc]; · iexact Hsrc
      isplitl [Hslot]; · iexact Hslot
      isplitl [HL]; · iexact HL
      isplitl [HtS]; · iexact HtS
      isplitr; · iapply (reached_at (F := F) (c, some (false, 2))); iexact HR
      isplitl [HtR]; · iexact HtR
      iexact Hreach
    · iexact Hk
  · have hf : has c 2 = false := by simpa using h
    have hc : ¬ k0_cond15 c = 1#1 := by rw [cond15_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step3 (K : Dev nD × CellIx → ℕ) (c : Dev nD) (O : CellTallies nD τ sig Unit) (W : Waits sig Unit)
    {hsc : ∀ h : k0_cond16 c = 1#1, ((slotM 2) : Memref sig (Dev.tc (⟨k0_dev10 c, k0_dev10_lt c h⟩ : Dev nD) : Thread nD τ).2.kind .vmem S32x32 .f32).view.ref.isScScratch = false}
    {hsrc : (srcM 3).view.WordExact} {hdst : (slotM 2).view.WordExact}
    {hsem : ∀ h : k0_cond16 c = 1#1, DmaTarget.Typed .vmem (.dma (recvS 2)) (.remote (Dev.tc (⟨k0_dev10 c, k0_dev10_lt c h⟩ : Dev nD) : Thread nD τ) (slotM 2) (.dma (sendS 3)) (hsc h))}
    {α : Type} {Q : α → sProp 𝕄} {J : Prog (TpuEff nD τ sig (Elt F) Λ₀ .tc) α} :
    iprop(records m ρ K ∗ srcPts m ρ c 3 ∗ tokRS c 3 ∗ barPay c 3 ∗ owes (c : Thread nD τ) (O + oweR c 3) W)
      ⊢ iprop((((if has c 3 = true then cred (tallyAt (sendCell c 3) () N) else srcPts m ρ c 3) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond16 c = 1#1)
                (fun h => Prog.lift (.enqueueDma (srcM 3) (.remote (Dev.tc (⟨k0_dev10 c, k0_dev10_lt c h⟩ : Dev nD) : Thread nD τ) (slotM 2) (.dma (sendS 3)) (hsc h)) (.dma (recvS 2)) hsrc hdst (hsem h)) >>= fun _ => J)
                (fun _ => J)) Q) := by
  by_cases h : has c 3 = true
  · have hc : k0_cond16 c = 1#1 := by rw [cond16_iff]; exact h
    rw [dif_pos hc, Prog.bind_lift]
    generalize hsem hc = hs
    generalize hsc hc = hq at hs ⊢
    have e := dev10_eq c hc
    generalize (⟨k0_dev10 c, k0_dev10_lt c hc⟩ : Dev nD) = x at e hs ⊢
    subst e
    unfold tokRS barPay oweR records
    simp only [h, ↓reduceIte]
    let K' : GSem nD τ sig → ℕ := fun g => if g = sendCell c 3 then K (c, some (false, 3)) else K (nb c 3, some (true, 2))
    have e1 : K' (sendCell c 3) = K (c, some (false, 3)) := if_pos rfl
    have e2 : K' (recvCell (nb c 3) 2) = K (nb c 3, some (true, 2)) :=
      if_neg fun hh => absurd (SemLoc.dma.inj (congrArg Prod.snd hh)).symm (send_ne_recv 3 2)
    have c1 : (cellInv ER (exRd m ρ) (K (c, some (false, 3))) (sendCell c 3) : sProp 𝕄)
        ⊢ cellInv ER (exRd m ρ) (K' (sendCell c 3)) (sendCell c 3) := Entails.of_eq (by rw [e1])
    have c2 : (cellInv ER (exRd m ρ) (K (nb c 3, some (true, 2))) (recvCell (nb c 3) 2) : sProp 𝕄)
        ⊢ cellInv ER (exRd m ρ) (K' (recvCell (nb c 3) 2)) (recvCell (nb c 3) 2) := Entails.of_eq (by rw [e2])
    iintro ⟨⟨#HI, #HR⟩, Hsrc, ⟨HtR, HtS⟩, ⟨⟨%fn, Hslot⟩, #Hreach⟩, HL⟩ Hk
    iapply (wp_send_halo3 m ρ c h K' fn W O) $$ [Hsrc HtR HtS Hslot HL]
    · isplitr; · iapply c1; iapply (inv_at m ρ K (c, some (false, 3))); iexact HI
      isplitr; · iapply c2; iapply (inv_at m ρ K (nb c 3, some (true, 2))); iexact HI
      isplitl [Hsrc]; · iexact Hsrc
      isplitl [Hslot]; · iexact Hslot
      isplitl [HL]; · iexact HL
      isplitl [HtS]; · iexact HtS
      isplitr; · iapply (reached_at (F := F) (c, some (false, 3))); iexact HR
      isplitl [HtR]; · iexact HtR
      iexact Hreach
    · iexact Hk
  · have hf : has c 3 = false := by simpa using h
    have hc : ¬ k0_cond16 c = 1#1 := by rw [cond16_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step4 (K : Dev nD × CellIx → ℕ) (c : Dev nD) (O : CellTallies nD τ sig Unit) (W : Waits sig Unit)
    {hsc : ∀ h : k0_cond17 c = 1#1, ((slotM 5) : Memref sig (Dev.tc (⟨k0_dev11 c, k0_dev11_lt c h⟩ : Dev nD) : Thread nD τ).2.kind .vmem S32x32 .f32).view.ref.isScScratch = false}
    {hsrc : (srcM 4).view.WordExact} {hdst : (slotM 5).view.WordExact}
    {hsem : ∀ h : k0_cond17 c = 1#1, DmaTarget.Typed .vmem (.dma (recvS 5)) (.remote (Dev.tc (⟨k0_dev11 c, k0_dev11_lt c h⟩ : Dev nD) : Thread nD τ) (slotM 5) (.dma (sendS 4)) (hsc h))}
    {α : Type} {Q : α → sProp 𝕄} {J : Prog (TpuEff nD τ sig (Elt F) Λ₀ .tc) α} :
    iprop(records m ρ K ∗ srcPts m ρ c 4 ∗ tokRS c 4 ∗ barPay c 4 ∗ owes (c : Thread nD τ) (O + oweR c 4) W)
      ⊢ iprop((((if has c 4 = true then cred (tallyAt (sendCell c 4) () N) else srcPts m ρ c 4) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond17 c = 1#1)
                (fun h => Prog.lift (.enqueueDma (srcM 4) (.remote (Dev.tc (⟨k0_dev11 c, k0_dev11_lt c h⟩ : Dev nD) : Thread nD τ) (slotM 5) (.dma (sendS 4)) (hsc h)) (.dma (recvS 5)) hsrc hdst (hsem h)) >>= fun _ => J)
                (fun _ => J)) Q) := by
  by_cases h : has c 4 = true
  · have hc : k0_cond17 c = 1#1 := by rw [cond17_iff]; exact h
    rw [dif_pos hc, Prog.bind_lift]
    generalize hsem hc = hs
    generalize hsc hc = hq at hs ⊢
    have e := dev11_eq c hc
    generalize (⟨k0_dev11 c, k0_dev11_lt c hc⟩ : Dev nD) = x at e hs ⊢
    subst e
    unfold tokRS barPay oweR records
    simp only [h, ↓reduceIte]
    let K' : GSem nD τ sig → ℕ := fun g => if g = sendCell c 4 then K (c, some (false, 4)) else K (nb c 4, some (true, 5))
    have e1 : K' (sendCell c 4) = K (c, some (false, 4)) := if_pos rfl
    have e2 : K' (recvCell (nb c 4) 5) = K (nb c 4, some (true, 5)) :=
      if_neg fun hh => absurd (SemLoc.dma.inj (congrArg Prod.snd hh)).symm (send_ne_recv 4 5)
    have c1 : (cellInv ER (exRd m ρ) (K (c, some (false, 4))) (sendCell c 4) : sProp 𝕄)
        ⊢ cellInv ER (exRd m ρ) (K' (sendCell c 4)) (sendCell c 4) := Entails.of_eq (by rw [e1])
    have c2 : (cellInv ER (exRd m ρ) (K (nb c 4, some (true, 5))) (recvCell (nb c 4) 5) : sProp 𝕄)
        ⊢ cellInv ER (exRd m ρ) (K' (recvCell (nb c 4) 5)) (recvCell (nb c 4) 5) := Entails.of_eq (by rw [e2])
    iintro ⟨⟨#HI, #HR⟩, Hsrc, ⟨HtR, HtS⟩, ⟨⟨%fn, Hslot⟩, #Hreach⟩, HL⟩ Hk
    iapply (wp_send_halo4 m ρ c h K' fn W O) $$ [Hsrc HtR HtS Hslot HL]
    · isplitr; · iapply c1; iapply (inv_at m ρ K (c, some (false, 4))); iexact HI
      isplitr; · iapply c2; iapply (inv_at m ρ K (nb c 4, some (true, 5))); iexact HI
      isplitl [Hsrc]; · iexact Hsrc
      isplitl [Hslot]; · iexact Hslot
      isplitl [HL]; · iexact HL
      isplitl [HtS]; · iexact HtS
      isplitr; · iapply (reached_at (F := F) (c, some (false, 4))); iexact HR
      isplitl [HtR]; · iexact HtR
      iexact Hreach
    · iexact Hk
  · have hf : has c 4 = false := by simpa using h
    have hc : ¬ k0_cond17 c = 1#1 := by rw [cond17_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_send_step5 (K : Dev nD × CellIx → ℕ) (c : Dev nD) (O : CellTallies nD τ sig Unit) (W : Waits sig Unit)
    {hsc : ∀ h : k0_cond18 c = 1#1, ((slotM 4) : Memref sig (Dev.tc (⟨k0_dev12 c, k0_dev12_lt c h⟩ : Dev nD) : Thread nD τ).2.kind .vmem S32x32 .f32).view.ref.isScScratch = false}
    {hsrc : (srcM 5).view.WordExact} {hdst : (slotM 4).view.WordExact}
    {hsem : ∀ h : k0_cond18 c = 1#1, DmaTarget.Typed .vmem (.dma (recvS 4)) (.remote (Dev.tc (⟨k0_dev12 c, k0_dev12_lt c h⟩ : Dev nD) : Thread nD τ) (slotM 4) (.dma (sendS 5)) (hsc h))}
    {α : Type} {Q : α → sProp 𝕄} {J : Prog (TpuEff nD τ sig (Elt F) Λ₀ .tc) α} :
    iprop(records m ρ K ∗ srcPts m ρ c 5 ∗ tokRS c 5 ∗ barPay c 5 ∗ owes (c : Thread nD τ) (O + oweR c 5) W)
      ⊢ iprop((((if has c 5 = true then cred (tallyAt (sendCell c 5) () N) else srcPts m ρ c 5) ∗ owes (c : Thread nD τ) O W)
            -∗ wp frame (wpE (defs₀ (F := F)) 𝒱₀ (c : Thread nD τ) none) Set.univ J Q)
          -∗ wp frame (wpE (defs₀ (F := F)) 𝒱₀ (c : Thread nD τ) none) Set.univ
              (dite (k0_cond18 c = 1#1)
                (fun h => Prog.lift (.enqueueDma (srcM 5) (.remote (Dev.tc (⟨k0_dev12 c, k0_dev12_lt c h⟩ : Dev nD) : Thread nD τ) (slotM 4) (.dma (sendS 5)) (hsc h)) (.dma (recvS 4)) hsrc hdst (hsem h)) >>= fun _ => J)
                (fun _ => J)) Q) := by
  by_cases h : has c 5 = true
  · have hc : k0_cond18 c = 1#1 := by rw [cond18_iff]; exact h
    rw [dif_pos hc, Prog.bind_lift]
    generalize hsem hc = hs
    generalize hsc hc = hq at hs ⊢
    have e := dev12_eq c hc
    generalize (⟨k0_dev12 c, k0_dev12_lt c hc⟩ : Dev nD) = x at e hs ⊢
    subst e
    unfold tokRS barPay oweR records
    simp only [h, ↓reduceIte]
    let K' : GSem nD τ sig → ℕ := fun g => if g = sendCell c 5 then K (c, some (false, 5)) else K (nb c 5, some (true, 4))
    have e1 : K' (sendCell c 5) = K (c, some (false, 5)) := if_pos rfl
    have e2 : K' (recvCell (nb c 5) 4) = K (nb c 5, some (true, 4)) :=
      if_neg fun hh => absurd (SemLoc.dma.inj (congrArg Prod.snd hh)).symm (send_ne_recv 5 4)
    have c1 : (cellInv ER (exRd m ρ) (K (c, some (false, 5))) (sendCell c 5) : sProp 𝕄)
        ⊢ cellInv ER (exRd m ρ) (K' (sendCell c 5)) (sendCell c 5) := Entails.of_eq (by rw [e1])
    have c2 : (cellInv ER (exRd m ρ) (K (nb c 5, some (true, 4))) (recvCell (nb c 5) 4) : sProp 𝕄)
        ⊢ cellInv ER (exRd m ρ) (K' (recvCell (nb c 5) 4)) (recvCell (nb c 5) 4) := Entails.of_eq (by rw [e2])
    iintro ⟨⟨#HI, #HR⟩, Hsrc, ⟨HtR, HtS⟩, ⟨⟨%fn, Hslot⟩, #Hreach⟩, HL⟩ Hk
    iapply (wp_send_halo5 m ρ c h K' fn W O) $$ [Hsrc HtR HtS Hslot HL]
    · isplitr; · iapply c1; iapply (inv_at m ρ K (c, some (false, 5))); iexact HI
      isplitr; · iapply c2; iapply (inv_at m ρ K (nb c 5, some (true, 4))); iexact HI
      isplitl [Hsrc]; · iexact Hsrc
      isplitl [Hslot]; · iexact Hslot
      isplitl [HL]; · iexact HL
      isplitl [HtS]; · iexact HtS
      isplitr; · iapply (reached_at (F := F) (c, some (false, 5))); iexact HR
      isplitl [HtR]; · iexact HtR
      iexact Hreach
    · iexact Hk
  · have hf : has c 5 = false := by simpa using h
    have hc : ¬ k0_cond18 c = 1#1 := by rw [cond18_iff]; exact h
    rw [dif_neg hc]
    unfold tokRS barPay oweR
    simp only [hf, Bool.false_eq_true, ↓reduceIte, tallyAt_zero, add_zero]
    iintro ⟨-, Hsrc, -, -, HL⟩ Hk
    iapply Hk
    isplitl [Hsrc]; · iexact Hsrc
    iexact HL

theorem P3_rec_inv (K : Dev nD × CellIx → ℕ) (ck : Dev nD × CellIx) :
    records m ρ K ⊢ cellInv ER (exRd m ρ) (K ck) (kcell ck) := by
  unfold records
  iintro ⟨HI, -⟩
  iapply (inv_at m ρ K ck); iexact HI

end Cert.KernelIdeal.HP

end
-- ==== Proof.KernelIdealPart3Run.lean ====
/-
  Part 3 of a device's body, assembled from its regions: the second row of the send buffer is stored, the device takes
  its own six barrier units — and with them the six slots its faces will land in —, carves its block's shares, sends
  each face where there is a neighbour, and loads the whole block.
-/
import proofs.«900363_g7700000000000364_dist_halo3d_v7x_xyz2x2x4_s32_f32_1_alg».proof.Proof.KernelIdealPart3

noncomputable section

namespace Cert.KernelIdeal.HP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)
theorem part3_run (K : Dev nD × CellIx → ℕ) (c : Dev nD) (g1 : Buf (Elt F) ((c : Thread nD τ).loc cc0_stg1_0))
    (f0 : Buf (Elt F) ((c : Thread nD τ).loc cc0_scratch0)) (f1 : Buf (Elt F) ((c : Thread nD τ).loc cc0_scratch1))
    (v2 v5 v8 : BitVec 32) (v9 v10 v11 v12 v13 v14 : BitVec 1) (v15 v16 v17 v18 v19 v20 : BitVec 32) :
    stB m ρ K c (xstg m ρ c) g1 f0 f1
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v2 v5 v8 v9 v10 v11 v12 v13 v14 v15 v16 v17 v18 v19 v20 (SemArray.scalar (sig.barrier 0 rfl)) (k0_pay8 (xM.view.readAt (Elt F) rZ31.toLoadRect (xstg m ρ c))))
          (fun r => iprop(⌜r = ⟨k0_pay10 (xM.view.readAt (Elt F) rAll.toLoadRect (xstg m ρ c)), k0_pay13 (F := F),
              k0_pay14 (xM.view.readAt (Elt F) rAll.toLoadRect (xstg m ρ c)), k0_pay15 (xM.view.readAt (Elt F) rAll.toLoadRect (xstg m ρ c)),
              k0_pay16 (xM.view.readAt (Elt F) rAll.toLoadRect (xstg m ρ c)), k0_pay17 (xM.view.readAt (Elt F) rAll.toLoadRect (xstg m ρ c)),
              k0_pay18 (xM.view.readAt (Elt F) rAll.toLoadRect (xstg m ρ c)), k0_pay19 (xM.view.readAt (Elt F) rAll.toLoadRect (xstg m ρ c))⟩⌝
            ∗ stC m ρ K c (xstg m ρ c) g1 f1)) := by
  have hS1 : (sM.access rS1 : View sig .tc _ _ _).setOn Finset.univ ⊆ (sM.view.set : Finset S2x32x32.Idx) := by
    rw [show (sM.view.set : Finset S2x32x32.Idx) = Finset.univ from View.set_whole cc0_scratch0]; exact Finset.subset_univ _
  have hO : oR c = 0 + oweR c 5 + oweR c 4 + oweR c 3 + oweR c 2 + oweR c 1 + oweR c 0 := by unfold oR; rw [zero_add]
  rw [k0_part3_eq_skeleton]
  unfold k0_part3_skel stB xWhole sbufPts
  iintro ⟨#Hrec, #Hlev, HatB, HatX, ⟨%W, HL⟩, Htok, Hcr6, HcrR, Hslots, Hx, Hout, Hsb⟩
  -- the dead load of row 1
  rw [Prog.bind_lift]
  iapply (wp_load 𝒱₀ (c : Thread nD τ) none Set.univ (m := sM) (S := sM.view.set) (q := fullShare) (View.setOn_subset_set _ _)) $$ Hsb
  iintro Hsb
  -- the store of row 1
  rw [Prog.bind_lift]
  iapply (wp_store 𝒱₀ (c : Thread nD τ) none Set.univ (m := sM) (r := rS1) (S := sM.view.set) hS1) $$ Hsb
  iintro Hsb
  rw [P3_sbuf_eq m ρ c f0]
  ihave Hsb' := (carve_sbuf c (sbuf m ρ c)).1 $$ Hsb
  icases Hsb' with ⟨Hs4, Hs5⟩
  -- the barrier wait
  rw [P3_semWaitWord_bind]
  iapply (Rounds.wp_wait_rest_token 𝒱₀ ER (exRd m ρ) (c : Thread nD τ) none (sm := .reg barS) (k' := 6) (κ := K (c, none))
      (R := 0) (m := 0) (T := ∅) (O := oR c) (W := W) (fun _ => rfl) (Set.mem_univ _) () (by rw [expect_bar])) $$ [HatB Hcr6 HL]
  · isplitr; · iapply (P3_rec_inv m ρ K (c, none)); iexact Hrec
    isplitl [Hcr6]; · iexact Hcr6
    isplitl [HL]; · iexact HL
    isplitr; · iapply (P3_mayWait_bar (F := F) c); iexact Hlev
    iexact HatB
  iintro ⟨HL, HatB, -, Hpay⟩
  rw [hO]
  ihave Hpay' := (Entails.of_eq (rest_bar m ρ c)) $$ Hpay
  icases Hpay' with ⟨Hb0, Hb1, Hb2, Hb3, Hb4, Hb5⟩
  ihave Htok' := (Entails.of_eq (P3_bigSep_fin6 (fun d => tokRS (F := F) c d))) $$ Htok
  icases Htok' with ⟨Ht0, Ht1, Ht2, Ht3, Ht4, Ht5⟩
  ihave Hx' := (carve_x c (xstg m ρ c)).1 $$ Hx
  icases Hx' with ⟨HxL, ⟨Hs0, Hr0⟩, ⟨Hs1, Hr1⟩, ⟨Hs2, Hr2⟩, ⟨Hs3, Hr3⟩⟩
  ihave Hs0 := (Entails.of_eq (show (((srcM 0).view.loc (c : Thread nD τ) ↦[(srcM 0).view.set]{qOf 0} xstg m ρ c) : sProp 𝕄) = srcPts m ρ c 0 from rfl)) $$ Hs0
  ihave Hs1 := (Entails.of_eq (show (((srcM 1).view.loc (c : Thread nD τ) ↦[(srcM 1).view.set]{qOf 1} xstg m ρ c) : sProp 𝕄) = srcPts m ρ c 1 from rfl)) $$ Hs1
  ihave Hs2 := (Entails.of_eq (show (((srcM 2).view.loc (c : Thread nD τ) ↦[(srcM 2).view.set]{qOf 2} xstg m ρ c) : sProp 𝕄) = srcPts m ρ c 2 from rfl)) $$ Hs2
  ihave Hs3 := (Entails.of_eq (show (((srcM 3).view.loc (c : Thread nD τ) ↦[(srcM 3).view.set]{qOf 3} xstg m ρ c) : sProp 𝕄) = srcPts m ρ c 3 from rfl)) $$ Hs3
  ihave Hs4 := (Entails.of_eq (show (((srcM 4).view.loc (c : Thread nD τ) ↦[(srcM 4).view.set]{fullShare} sbuf m ρ c) : sProp 𝕄) = srcPts m ρ c 4 from rfl)) $$ Hs4
  ihave Hs5 := (Entails.of_eq (show (((srcM 5).view.loc (c : Thread nD τ) ↦[(srcM 5).view.set]{fullShare} sbuf m ρ c) : sProp 𝕄) = srcPts m ρ c 5 from rfl)) $$ Hs5
  iapply (P3_send_step0 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs0 Ht0 Hb0 HL]
  · isplitr; · iexact Hrec
    isplitl [Hs0]; · iexact Hs0
    isplitl [Ht0]; · iexact Ht0
    isplitl [Hb0]; · iexact Hb0
    iexact HL
  iintro ⟨Hs0, HL⟩
  iapply (P3_send_step1 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs1 Ht1 Hb1 HL]
  · isplitr; · iexact Hrec
    isplitl [Hs1]; · iexact Hs1
    isplitl [Ht1]; · iexact Ht1
    isplitl [Hb1]; · iexact Hb1
    iexact HL
  iintro ⟨Hs1, HL⟩
  iapply (P3_send_step2 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs2 Ht2 Hb2 HL]
  · isplitr; · iexact Hrec
    isplitl [Hs2]; · iexact Hs2
    isplitl [Ht2]; · iexact Ht2
    isplitl [Hb2]; · iexact Hb2
    iexact HL
  iintro ⟨Hs2, HL⟩
  iapply (P3_send_step3 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs3 Ht3 Hb3 HL]
  · isplitr; · iexact Hrec
    isplitl [Hs3]; · iexact Hs3
    isplitl [Ht3]; · iexact Ht3
    isplitl [Hb3]; · iexact Hb3
    iexact HL
  iintro ⟨Hs3, HL⟩
  iapply (P3_send_step4 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs4 Ht4 Hb4 HL]
  · isplitr; · iexact Hrec
    isplitl [Hs4]; · iexact Hs4
    isplitl [Ht4]; · iexact Ht4
    isplitl [Hb4]; · iexact Hb4
    iexact HL
  iintro ⟨Hs4, HL⟩
  iapply (P3_send_step5 m ρ K c _ _ (hsc := fun _ => rfl) (hsrc := (View.wordExact_bits rfl).reshape _ _) (hdst := (View.wordExact_bits rfl).reshape _ _)
      (hsem := fun _ => ⟨⟨rfl, Or.inl rfl⟩, trivial⟩)) $$ [Hs5 Ht5 Hb5 HL]
  · isplitr; · iexact Hrec
    isplitl [Hs5]; · iexact Hs5
    isplitl [Ht5]; · iexact Ht5
    isplitl [Hb5]; · iexact Hb5
    iexact HL
  iintro ⟨Hs5, HL⟩
  iapply (wp_load 𝒱₀ (c : Thread nD τ) none Set.univ (m := xM) (S := xM.view.set) (q := fullShare.left) (View.setOn_subset_set _ _)) $$ HxL
  iintro HxL
  ihave Hsf := (Entails.of_eq (P3_bigSep_fin6 (fun d : Fin 6 => (if has c d = true then cred (tallyAt (sendCell c d) () N) else srcPts m ρ c d : sProp 𝕄))).symm)
    $$ [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  iapply (le_wp_ret _ _ _ _ _)
  isplitr; · ipureintro; rfl
  unfold stC xRest
  isplitr; · iexact Hrec
  isplitr; · iexact Hlev
  isplitl [HatB]; · iexact HatB
  isplitl [HatX]; · iexact HatX
  isplitl [HL]; · iexists _; iexact HL
  isplitl [HcrR]; · iexact HcrR
  isplitl [Hsf]; · iexact Hsf
  isplitl [Hslots]; · iexact Hslots
  isplitl [HxL Hr0 Hr1 Hr2 Hr3]
  · isplitl [HxL]; · iexact HxL
    isplitl [Hr0]; · iexact Hr0
    isplitl [Hr1]; · iexact Hr1
    isplitl [Hr2]; · iexact Hr2
    iexact Hr3
  iexact Hout

end Cert.KernelIdeal.HP
end
-- ==== Proof.KernelIdealPart4.lean ====
/-
  Part 4 of a device's body: the stencil of the block is stored; then, for each direction with a neighbour, the device
  waits for the neighbour's face to land in its slot and adds the plane onto the face of the output that touches the
  neighbour; then it waits for the first three of its own faces to have been read, taking the lent shares of their
  sources back. Each conditional region is proved once, for an arbitrary continuation, by cases on whether there is a
  neighbour in its direction; where there is none the region is skipped and the direction's resources stay as they were.
-/
import proofs.«900363_g7700000000000364_dist_halo3d_v7x_xyz2x2x4_s32_f32_1_alg».proof.Proof.KernelIdealStates
import proofs.«900363_g7700000000000364_dist_halo3d_v7x_xyz2x2x4_s32_f32_1_alg».proof.Proof.KernelIdealLaunch

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem P4_cond_iff (b : Bool) : (Scalar.cmpi .ne (Scalar.extui (bit b)) 0#32 = 1#1) ↔ b = true := by
  cases b <;> decide

theorem P4_src_credit : ∀ d : Fin 6, (srcM d).view.dmaCredit = N := by decide

theorem P4_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

variable (K : Dev nD × CellIx → ℕ) (c : Dev nD)

/-- The receive region of direction 0: wait on the receive cell, add the landed plane onto the face. -/
theorem recv_region0 {α : Type} (J : Prog (TpuEff nD τ sig (Elt F) Λ₀ .tc) α) (Q : α → sProp 𝕄) (v : BitVec 1) (hv : v = bit (has c 0))
    (o : Buf (Elt F) ((c : Thread nD τ).loc cc0_stg1_0)) (f1 : Buf (Elt F) ((c : Thread nD τ).loc cc0_scratch1)) (W : Waits sig Unit) :
    iprop(records m ρ K ∗ credR c 0 ∗ owes (c : Thread nD τ) 0 W ∗ atPos ER (recvCell c 0) 0 ∅ 0
        ∗ (if has c 0 = true then iprop(emp) else slotPts c 0 f1) ∗ outPts c o)
      ⊢ iprop((((∃ W', owes (c : Thread nD τ) 0 W') ∗ atPos ER (recvCell c 0) (rnd c 0) ∅ 0
            ∗ (if has c 0 = true then slotPts c 0 (landed m ρ c 0) else slotPts c 0 f1) ∗ outPts c (addStep m ρ c 0 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 0) (srcM 0) (slotM 0) ((View.wordExact_bits rfl).reshape _ _) ((View.wordExact_bits rfl).reshape _ _)) >>= fun _ =>
               Prog.lift (.load oM rX0.toLoadRect (View.loadsAt_vmem h_S1x32x32)) >>= fun v154 =>
               Prog.lift (.load rM rR0.toLoadRect (View.loadsAt_vmem h_S1x32x32)) >>= fun v156 =>
               Prog.lift (.load oM rX0.toLoadRect (View.loadsAt_vmem h_S1x32x32)) >>= fun _ =>
               Prog.lift (.store oM rX0 (k0_pay21 v154 v156) Finset.univ (View.stores_vmem_bits_univ h_S1x32x32 rfl) (.inl rfl)) >>= fun _ => J)
            else J) Q) := by
  subst hv
  by_cases hh : has c 0 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 0))) $$ Hinv
    iapply (Rounds.wp_wait_rest_token 𝒱₀ ER (exRd m ρ) (c : Thread nD τ) none (κ := K (c, some (true, 0)))
        (wpE_waitDma2_eq 𝒱₀ (c : Thread nD τ) none Set.univ) (Set.mem_univ _) () (O := 0) (W := W) (R := 0) (m := 0) (T := ∅)
        (by rw [Nat.zero_add, expect_recv m ρ c 0 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 0 hh)) $$ Hpay
    unfold recvPay slotPts
    have hS : rM.view.setOn rR0.toLoadRect.set ⊆ slotSet 0 := by
      rw [show slotSet 0 = _ from slot_view_set 0 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 0) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rX0) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 0))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 1: wait on the receive cell, add the landed plane onto the face. -/
theorem recv_region1 {α : Type} (J : Prog (TpuEff nD τ sig (Elt F) Λ₀ .tc) α) (Q : α → sProp 𝕄) (v : BitVec 1) (hv : v = bit (has c 1))
    (o : Buf (Elt F) ((c : Thread nD τ).loc cc0_stg1_0)) (f1 : Buf (Elt F) ((c : Thread nD τ).loc cc0_scratch1)) (W : Waits sig Unit) :
    iprop(records m ρ K ∗ credR c 1 ∗ owes (c : Thread nD τ) 0 W ∗ atPos ER (recvCell c 1) 0 ∅ 0
        ∗ (if has c 1 = true then iprop(emp) else slotPts c 1 f1) ∗ outPts c o)
      ⊢ iprop((((∃ W', owes (c : Thread nD τ) 0 W') ∗ atPos ER (recvCell c 1) (rnd c 1) ∅ 0
            ∗ (if has c 1 = true then slotPts c 1 (landed m ρ c 1) else slotPts c 1 f1) ∗ outPts c (addStep m ρ c 1 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 1) (srcM 1) (slotM 1) ((View.wordExact_bits rfl).reshape _ _) ((View.wordExact_bits rfl).reshape _ _)) >>= fun _ =>
               Prog.lift (.load oM rX31.toLoadRect (View.loadsAt_vmem h_S1x32x32)) >>= fun v154 =>
               Prog.lift (.load rM rR1.toLoadRect (View.loadsAt_vmem h_S1x32x32)) >>= fun v156 =>
               Prog.lift (.load oM rX31.toLoadRect (View.loadsAt_vmem h_S1x32x32)) >>= fun _ =>
               Prog.lift (.store oM rX31 (k0_pay22 v154 v156) Finset.univ (View.stores_vmem_bits_univ h_S1x32x32 rfl) (.inl rfl)) >>= fun _ => J)
            else J) Q) := by
  subst hv
  by_cases hh : has c 1 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 1))) $$ Hinv
    iapply (Rounds.wp_wait_rest_token 𝒱₀ ER (exRd m ρ) (c : Thread nD τ) none (κ := K (c, some (true, 1)))
        (wpE_waitDma2_eq 𝒱₀ (c : Thread nD τ) none Set.univ) (Set.mem_univ _) () (O := 0) (W := W) (R := 0) (m := 0) (T := ∅)
        (by rw [Nat.zero_add, expect_recv m ρ c 1 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 1 hh)) $$ Hpay
    unfold recvPay slotPts
    have hS : rM.view.setOn rR1.toLoadRect.set ⊆ slotSet 1 := by
      rw [show slotSet 1 = _ from slot_view_set 1 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 1) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rX31) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 1))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 2: wait on the receive cell, add the landed plane onto the face. -/
theorem recv_region2 {α : Type} (J : Prog (TpuEff nD τ sig (Elt F) Λ₀ .tc) α) (Q : α → sProp 𝕄) (v : BitVec 1) (hv : v = bit (has c 2))
    (o : Buf (Elt F) ((c : Thread nD τ).loc cc0_stg1_0)) (f1 : Buf (Elt F) ((c : Thread nD τ).loc cc0_scratch1)) (W : Waits sig Unit) :
    iprop(records m ρ K ∗ credR c 2 ∗ owes (c : Thread nD τ) 0 W ∗ atPos ER (recvCell c 2) 0 ∅ 0
        ∗ (if has c 2 = true then iprop(emp) else slotPts c 2 f1) ∗ outPts c o)
      ⊢ iprop((((∃ W', owes (c : Thread nD τ) 0 W') ∗ atPos ER (recvCell c 2) (rnd c 2) ∅ 0
            ∗ (if has c 2 = true then slotPts c 2 (landed m ρ c 2) else slotPts c 2 f1) ∗ outPts c (addStep m ρ c 2 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 2) (srcM 2) (slotM 2) ((View.wordExact_bits rfl).reshape _ _) ((View.wordExact_bits rfl).reshape _ _)) >>= fun _ =>
               Prog.lift (.load oM rY0.toLoadRect (View.loadsAt_vmem h_S32x1x32)) >>= fun v154 =>
               Prog.lift (.load rM rR2.toLoadRect (View.loadsAt_vmem h_S1x32x32)) >>= fun v156 =>
               Prog.lift (.load oM rY0.toLoadRect (View.loadsAt_vmem h_S32x1x32)) >>= fun _ =>
               Prog.lift (.store oM rY0 (k0_pay23 v154 v156) Finset.univ (View.stores_vmem_bits_univ h_S32x1x32 rfl) (.inl rfl)) >>= fun _ => J)
            else J) Q) := by
  subst hv
  by_cases hh : has c 2 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 2))) $$ Hinv
    iapply (Rounds.wp_wait_rest_token 𝒱₀ ER (exRd m ρ) (c : Thread nD τ) none (κ := K (c, some (true, 2)))
        (wpE_waitDma2_eq 𝒱₀ (c : Thread nD τ) none Set.univ) (Set.mem_univ _) () (O := 0) (W := W) (R := 0) (m := 0) (T := ∅)
        (by rw [Nat.zero_add, expect_recv m ρ c 2 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 2 hh)) $$ Hpay
    unfold recvPay slotPts
    have hS : rM.view.setOn rR2.toLoadRect.set ⊆ slotSet 2 := by
      rw [show slotSet 2 = _ from slot_view_set 2 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 2) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rY0) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 2))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 3: wait on the receive cell, add the landed plane onto the face. -/
theorem recv_region3 {α : Type} (J : Prog (TpuEff nD τ sig (Elt F) Λ₀ .tc) α) (Q : α → sProp 𝕄) (v : BitVec 1) (hv : v = bit (has c 3))
    (o : Buf (Elt F) ((c : Thread nD τ).loc cc0_stg1_0)) (f1 : Buf (Elt F) ((c : Thread nD τ).loc cc0_scratch1)) (W : Waits sig Unit) :
    iprop(records m ρ K ∗ credR c 3 ∗ owes (c : Thread nD τ) 0 W ∗ atPos ER (recvCell c 3) 0 ∅ 0
        ∗ (if has c 3 = true then iprop(emp) else slotPts c 3 f1) ∗ outPts c o)
      ⊢ iprop((((∃ W', owes (c : Thread nD τ) 0 W') ∗ atPos ER (recvCell c 3) (rnd c 3) ∅ 0
            ∗ (if has c 3 = true then slotPts c 3 (landed m ρ c 3) else slotPts c 3 f1) ∗ outPts c (addStep m ρ c 3 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 3) (srcM 3) (slotM 3) ((View.wordExact_bits rfl).reshape _ _) ((View.wordExact_bits rfl).reshape _ _)) >>= fun _ =>
               Prog.lift (.load oM rY31.toLoadRect (View.loadsAt_vmem h_S32x1x32)) >>= fun v154 =>
               Prog.lift (.load rM rR3.toLoadRect (View.loadsAt_vmem h_S1x32x32)) >>= fun v156 =>
               Prog.lift (.load oM rY31.toLoadRect (View.loadsAt_vmem h_S32x1x32)) >>= fun _ =>
               Prog.lift (.store oM rY31 (k0_pay24 v154 v156) Finset.univ (View.stores_vmem_bits_univ h_S32x1x32 rfl) (.inl rfl)) >>= fun _ => J)
            else J) Q) := by
  subst hv
  by_cases hh : has c 3 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 3))) $$ Hinv
    iapply (Rounds.wp_wait_rest_token 𝒱₀ ER (exRd m ρ) (c : Thread nD τ) none (κ := K (c, some (true, 3)))
        (wpE_waitDma2_eq 𝒱₀ (c : Thread nD τ) none Set.univ) (Set.mem_univ _) () (O := 0) (W := W) (R := 0) (m := 0) (T := ∅)
        (by rw [Nat.zero_add, expect_recv m ρ c 3 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 3 hh)) $$ Hpay
    unfold recvPay slotPts
    have hS : rM.view.setOn rR3.toLoadRect.set ⊆ slotSet 3 := by
      rw [show slotSet 3 = _ from slot_view_set 3 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 3) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rY31) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 3))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 4: wait on the receive cell, add the landed plane onto the face. -/
theorem recv_region4 {α : Type} (J : Prog (TpuEff nD τ sig (Elt F) Λ₀ .tc) α) (Q : α → sProp 𝕄) (v : BitVec 1) (hv : v = bit (has c 4))
    (o : Buf (Elt F) ((c : Thread nD τ).loc cc0_stg1_0)) (f1 : Buf (Elt F) ((c : Thread nD τ).loc cc0_scratch1)) (W : Waits sig Unit) :
    iprop(records m ρ K ∗ credR c 4 ∗ owes (c : Thread nD τ) 0 W ∗ atPos ER (recvCell c 4) 0 ∅ 0
        ∗ (if has c 4 = true then iprop(emp) else slotPts c 4 f1) ∗ outPts c o)
      ⊢ iprop((((∃ W', owes (c : Thread nD τ) 0 W') ∗ atPos ER (recvCell c 4) (rnd c 4) ∅ 0
            ∗ (if has c 4 = true then slotPts c 4 (landed m ρ c 4) else slotPts c 4 f1) ∗ outPts c (addStep m ρ c 4 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 4) (srcM 4) (slotM 4) ((View.wordExact_bits rfl).reshape _ _) ((View.wordExact_bits rfl).reshape _ _)) >>= fun _ =>
               Prog.lift (.load oM rZ0.toLoadRect (View.loadsAt_vmem h_S32x32x1)) >>= fun v154 =>
               Prog.lift (.load rM rR4.toLoadRect (View.loadsAt_vmem h_S1x32x32)) >>= fun v156 =>
               Prog.lift (.load oM rZ0.toLoadRect (View.loadsAt_vmem h_S32x32x1)) >>= fun _ =>
               Prog.lift (.store oM rZ0 (k0_pay25 v154 v156) Finset.univ (View.stores_vmem_bits_univ h_S32x32x1 rfl) (.inl rfl)) >>= fun _ => J)
            else J) Q) := by
  subst hv
  by_cases hh : has c 4 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 4))) $$ Hinv
    iapply (Rounds.wp_wait_rest_token 𝒱₀ ER (exRd m ρ) (c : Thread nD τ) none (κ := K (c, some (true, 4)))
        (wpE_waitDma2_eq 𝒱₀ (c : Thread nD τ) none Set.univ) (Set.mem_univ _) () (O := 0) (W := W) (R := 0) (m := 0) (T := ∅)
        (by rw [Nat.zero_add, expect_recv m ρ c 4 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 4 hh)) $$ Hpay
    unfold recvPay slotPts
    have hS : rM.view.setOn rR4.toLoadRect.set ⊆ slotSet 4 := by
      rw [show slotSet 4 = _ from slot_view_set 4 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 4) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rZ0) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 4))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The receive region of direction 5: wait on the receive cell, add the landed plane onto the face. -/
theorem recv_region5 {α : Type} (J : Prog (TpuEff nD τ sig (Elt F) Λ₀ .tc) α) (Q : α → sProp 𝕄) (v : BitVec 1) (hv : v = bit (has c 5))
    (o : Buf (Elt F) ((c : Thread nD τ).loc cc0_stg1_0)) (f1 : Buf (Elt F) ((c : Thread nD τ).loc cc0_scratch1)) (W : Waits sig Unit) :
    iprop(records m ρ K ∗ credR c 5 ∗ owes (c : Thread nD τ) 0 W ∗ atPos ER (recvCell c 5) 0 ∅ 0
        ∗ (if has c 5 = true then iprop(emp) else slotPts c 5 f1) ∗ outPts c o)
      ⊢ iprop((((∃ W', owes (c : Thread nD τ) 0 W') ∗ atPos ER (recvCell c 5) (rnd c 5) ∅ 0
            ∗ (if has c 5 = true then slotPts c 5 (landed m ρ c 5) else slotPts c 5 f1) ∗ outPts c (addStep m ρ c 5 o))
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (recvS 5) (srcM 5) (slotM 5) ((View.wordExact_bits rfl).reshape _ _) ((View.wordExact_bits rfl).reshape _ _)) >>= fun _ =>
               Prog.lift (.load oM rZ31.toLoadRect (View.loadsAt_vmem h_S32x32x1)) >>= fun v154 =>
               Prog.lift (.load rM rR5.toLoadRect (View.loadsAt_vmem h_S1x32x32)) >>= fun v156 =>
               Prog.lift (.load oM rZ31.toLoadRect (View.loadsAt_vmem h_S32x32x1)) >>= fun _ =>
               Prog.lift (.store oM rZ31 (k0_pay26 v154 v156) Finset.univ (View.stores_vmem_bits_univ h_S32x32x1 rfl) (.inl rfl)) >>= fun _ => J)
            else J) Q) := by
  subst hv
  by_cases hh : has c 5 = true
  · rw [dif_pos ((P4_cond_iff _).mpr hh)]
    unfold credR rnd addStep outPts
    simp only [if_pos hh]
    iintro ⟨#Hrec, Hcred, HO, Hat, -, Hout⟩ Hk
    unfold records
    icases Hrec with ⟨#Hinv, -⟩
    ihave HI := (inv_at m ρ K (c, some (true, 5))) $$ Hinv
    iapply (Rounds.wp_wait_rest_token 𝒱₀ ER (exRd m ρ) (c : Thread nD τ) none (κ := K (c, some (true, 5)))
        (wpE_waitDma2_eq 𝒱₀ (c : Thread nD τ) none Set.univ) (Set.mem_univ _) () (O := 0) (W := W) (R := 0) (m := 0) (T := ∅)
        (by rw [Nat.zero_add, expect_recv m ρ c 5 hh, slot_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hslot := (Entails.of_eq (rest_recv m ρ c 5 hh)) $$ Hpay
    unfold recvPay slotPts
    have hS : rM.view.setOn rR5.toLoadRect.set ⊆ slotSet 5 := by
      rw [show slotSet 5 = _ from slot_view_set 5 _]
      show Finset.map (View.whole cc0_scratch1).emb _ ⊆ _
      rw [View.emb_whole, Finset.map_refl]
    iapply (wp_load 𝒱₀ (c : Thread nD τ) none Set.univ (m := oM) (S := oM.view.set) (View.setOn_subset_set _ _)) $$ Hout; iintro Hout
    iapply (wp_load 𝒱₀ (c : Thread nD τ) none Set.univ (m := rM) (S := slotSet 5) hS) $$ Hslot; iintro Hslot
    iapply (wp_load 𝒱₀ (c : Thread nD τ) none Set.univ (m := oM) (S := oM.view.set) (View.setOn_subset_set _ _)) $$ Hout; iintro Hout
    iapply (wp_store 𝒱₀ (c : Thread nD τ) none Set.univ (m := oM) (r := rZ31) (Mk := Finset.univ) (S := oM.view.set)
      ((View.setOn_subset_set _ _).trans (View.set_slice_subset _ _))) $$ Hout; iintro Hout
    iapply Hk
    isplitl [HO]; · iexists _; iexact HO
    isplitl [Hat]; · iexact Hat
    isplitl [Hslot]; · iexact Hslot
    iexact Hout
  · have hc : ¬ (Scalar.cmpi .ne (Scalar.extui (bit (has c 5))) 0#32 = 1#1) := fun h => hh ((P4_cond_iff _).mp h)
    rw [dif_neg hc]
    unfold rnd addStep
    simp only [if_neg hh]
    iintro ⟨-, -, HO, Hat, Hslot, Hout⟩ Hk
    iapply Hk
    isplitl [HO]; · iexists _; iexact HO
    isplitl [Hat]; · iexact Hat
    isplitl [Hslot]; · iexact Hslot
    iexact Hout

/-- The send region of direction 0: wait on the send cell and take the lent source back. -/
theorem send_region0 {α : Type} (J : Prog (TpuEff nD τ sig (Elt F) Λ₀ .tc) α) (Q : α → sProp 𝕄) (v : BitVec 1) (hv : v = bit (has c 0))
    (W : Waits sig Unit) :
    iprop(records m ρ K ∗ (if has c 0 = true then cred (tallyAt (sendCell c 0) () N) else srcPts m ρ c 0)
        ∗ owes (c : Thread nD τ) 0 W ∗ atPos ER (sendCell c 0) 0 ∅ 0)
      ⊢ iprop((((∃ W', owes (c : Thread nD τ) 0 W') ∗ atPos ER (sendCell c 0) (rnd c 0) ∅ 0 ∗ srcPts m ρ c 0)
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (sendS 0) (slotM 0) (srcM 0) ((View.wordExact_bits rfl).reshape _ _) ((View.wordExact_bits rfl).reshape _ _)) >>= fun _ => J)
            else J) Q) := by
  subst hv
  by_cases hh : has c 0 = true
  · rw [dif_pos ((P4_cond_iff _).mpr hh)]
    unfold rnd
    simp only [if_pos hh]
    iintro ⟨#Hrec, Hcred, HO, Hat⟩ Hk
    unfold records
    icases Hrec with ⟨#Hinv, -⟩
    ihave HI := (inv_at m ρ K (c, some (false, 0))) $$ Hinv
    ihave Hcred := (Entails.of_eq (show (cred (tallyAt (sendCell c 0) () N) : sProp 𝕄)
      = cred (tallyAt (sendCell c 0) () (srcM 0).view.dmaCredit) by rw [P4_src_credit])) $$ Hcred
    iapply (Rounds.wp_wait_rest_token 𝒱₀ ER (exRd m ρ) (c : Thread nD τ) none (κ := K (c, some (false, 0)))
        (wpE_waitDma2_eq 𝒱₀ (c : Thread nD τ) none Set.univ) (Set.mem_univ _) () (O := 0) (W := W) (R := 0) (m := 0) (T := ∅)
        (by rw [Nat.zero_add, expect_send m ρ c 0 hh, P4_src_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hsrc := (Entails.of_eq (rest_send m ρ c 0 hh)) $$ Hpay
    unfold sendPay
    iapply Hk
    isplitl [HO]; · iexists _; iexact HO
    isplitl [Hat]; · iexact Hat
    iexact Hsrc
  · have hc : ¬ (Scalar.cmpi .ne (Scalar.extui (bit (has c 0))) 0#32 = 1#1) := fun h => hh ((P4_cond_iff _).mp h)
    rw [dif_neg hc]
    unfold rnd
    simp only [if_neg hh]
    iintro ⟨-, Hsrc, HO, Hat⟩ Hk
    iapply Hk
    isplitl [HO]; · iexists _; iexact HO
    isplitl [Hat]; · iexact Hat
    iexact Hsrc

/-- The send region of direction 1: wait on the send cell and take the lent source back. -/
theorem send_region1 {α : Type} (J : Prog (TpuEff nD τ sig (Elt F) Λ₀ .tc) α) (Q : α → sProp 𝕄) (v : BitVec 1) (hv : v = bit (has c 1))
    (W : Waits sig Unit) :
    iprop(records m ρ K ∗ (if has c 1 = true then cred (tallyAt (sendCell c 1) () N) else srcPts m ρ c 1)
        ∗ owes (c : Thread nD τ) 0 W ∗ atPos ER (sendCell c 1) 0 ∅ 0)
      ⊢ iprop((((∃ W', owes (c : Thread nD τ) 0 W') ∗ atPos ER (sendCell c 1) (rnd c 1) ∅ 0 ∗ srcPts m ρ c 1)
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (sendS 1) (slotM 1) (srcM 1) ((View.wordExact_bits rfl).reshape _ _) ((View.wordExact_bits rfl).reshape _ _)) >>= fun _ => J)
            else J) Q) := by
  subst hv
  by_cases hh : has c 1 = true
  · rw [dif_pos ((P4_cond_iff _).mpr hh)]
    unfold rnd
    simp only [if_pos hh]
    iintro ⟨#Hrec, Hcred, HO, Hat⟩ Hk
    unfold records
    icases Hrec with ⟨#Hinv, -⟩
    ihave HI := (inv_at m ρ K (c, some (false, 1))) $$ Hinv
    ihave Hcred := (Entails.of_eq (show (cred (tallyAt (sendCell c 1) () N) : sProp 𝕄)
      = cred (tallyAt (sendCell c 1) () (srcM 1).view.dmaCredit) by rw [P4_src_credit])) $$ Hcred
    iapply (Rounds.wp_wait_rest_token 𝒱₀ ER (exRd m ρ) (c : Thread nD τ) none (κ := K (c, some (false, 1)))
        (wpE_waitDma2_eq 𝒱₀ (c : Thread nD τ) none Set.univ) (Set.mem_univ _) () (O := 0) (W := W) (R := 0) (m := 0) (T := ∅)
        (by rw [Nat.zero_add, expect_send m ρ c 1 hh, P4_src_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hsrc := (Entails.of_eq (rest_send m ρ c 1 hh)) $$ Hpay
    unfold sendPay
    iapply Hk
    isplitl [HO]; · iexists _; iexact HO
    isplitl [Hat]; · iexact Hat
    iexact Hsrc
  · have hc : ¬ (Scalar.cmpi .ne (Scalar.extui (bit (has c 1))) 0#32 = 1#1) := fun h => hh ((P4_cond_iff _).mp h)
    rw [dif_neg hc]
    unfold rnd
    simp only [if_neg hh]
    iintro ⟨-, Hsrc, HO, Hat⟩ Hk
    iapply Hk
    isplitl [HO]; · iexists _; iexact HO
    isplitl [Hat]; · iexact Hat
    iexact Hsrc

/-- The send region of direction 2: wait on the send cell and take the lent source back. -/
theorem send_region2 {α : Type} (J : Prog (TpuEff nD τ sig (Elt F) Λ₀ .tc) α) (Q : α → sProp 𝕄) (v : BitVec 1) (hv : v = bit (has c 2))
    (W : Waits sig Unit) :
    iprop(records m ρ K ∗ (if has c 2 = true then cred (tallyAt (sendCell c 2) () N) else srcPts m ρ c 2)
        ∗ owes (c : Thread nD τ) 0 W ∗ atPos ER (sendCell c 2) 0 ∅ 0)
      ⊢ iprop((((∃ W', owes (c : Thread nD τ) 0 W') ∗ atPos ER (sendCell c 2) (rnd c 2) ∅ 0 ∗ srcPts m ρ c 2)
          -∗ wp frame (wpE (defs₀ (F := F)) 𝒱₀ (c : Thread nD τ) none) Set.univ J Q)
        -∗ wp frame (wpE (defs₀ (F := F)) 𝒱₀ (c : Thread nD τ) none) Set.univ
            (if h : Scalar.cmpi .ne (Scalar.extui v) 0#32 = 1#1 then
              (Prog.lift (.waitDma2 (sendS 2) (slotM 2) (srcM 2) ((View.wordExact_bits rfl).reshape _ _) ((View.wordExact_bits rfl).reshape _ _)) >>= fun _ => J)
            else J) Q) := by
  subst hv
  by_cases hh : has c 2 = true
  · rw [dif_pos ((P4_cond_iff _).mpr hh)]
    unfold rnd
    simp only [if_pos hh]
    iintro ⟨#Hrec, Hcred, HO, Hat⟩ Hk
    unfold records
    icases Hrec with ⟨#Hinv, -⟩
    ihave HI := (inv_at m ρ K (c, some (false, 2))) $$ Hinv
    ihave Hcred := (Entails.of_eq (show (cred (tallyAt (sendCell c 2) () N) : sProp 𝕄)
      = cred (tallyAt (sendCell c 2) () (srcM 2).view.dmaCredit) by rw [P4_src_credit])) $$ Hcred
    iapply (Rounds.wp_wait_rest_token 𝒱₀ ER (exRd m ρ) (c : Thread nD τ) none (κ := K (c, some (false, 2)))
        (wpE_waitDma2_eq 𝒱₀ (c : Thread nD τ) none Set.univ) (Set.mem_univ _) () (O := 0) (W := W) (R := 0) (m := 0) (T := ∅)
        (by rw [Nat.zero_add, expect_send m ρ c 2 hh, P4_src_credit])) $$ [Hcred HO Hat]
    · isplitr; · iexact HI
      isplitl [Hcred]; · iexact Hcred
      isplitl [HO]; · iexact HO
      isplitr; · rw [MayWait_zero]; iempintro
      iexact Hat
    iintro ⟨HO, Hat, -, Hpay⟩
    ihave Hsrc := (Entails.of_eq (rest_send m ρ c 2 hh)) $$ Hpay
    unfold sendPay
    iapply Hk
    isplitl [HO]; · iexists _; iexact HO
    isplitl [Hat]; · iexact Hat
    iexact Hsrc
  · have hc : ¬ (Scalar.cmpi .ne (Scalar.extui (bit (has c 2))) 0#32 = 1#1) := fun h => hh ((P4_cond_iff _).mp h)
    rw [dif_neg hc]
    unfold rnd
    simp only [if_neg hh]
    iintro ⟨-, Hsrc, HO, Hat⟩ Hk
    iapply Hk
    isplitl [HO]; · iexists _; iexact HO
    isplitl [Hat]; · iexact Hat
    iexact Hsrc

/-- The head of part 4: a dead load of the output buffer, then the stencil stored through the whole rectangle. -/
theorem head_run {α : Type} (J : Prog (TpuEff nD τ sig (Elt F) Λ₀ .tc) α) (Q : α → sProp 𝕄)
    (X : Buf (Elt F) ((c : Thread nD τ).loc cc0_stg0_0)) (g1 : Buf (Elt F) ((c : Thread nD τ).loc cc0_stg1_0)) :
    outPts c g1
      ⊢ iprop((outPts c (out0 X) -∗ wp frame (wpE (defs₀ (F := F)) 𝒱₀ (c : Thread nD τ) none) Set.univ J Q)
        -∗ wp frame (wpE (defs₀ (F := F)) 𝒱₀ (c : Thread nD τ) none) Set.univ
            (Prog.lift (.load oM rAll.toLoadRect (View.loadsAt_vmem h_S32x32x32)) >>= fun _ =>
             Prog.lift (.store oM rAll (out0 X) Finset.univ (View.stores_vmem_bits_univ h_S32x32x32 rfl) (.inl rfl)) >>= fun _ => J) Q) := by
  unfold outPts
  iintro Hout Hk
  iapply (wp_load 𝒱₀ (c : Thread nD τ) none Set.univ (m := oM) (S := oM.view.set) (View.setOn_subset_set _ _)) $$ Hout; iintro Hout
  iapply (wp_store 𝒱₀ (c : Thread nD τ) none Set.univ (m := oM) (r := rAll) (Mk := Finset.univ) (S := oM.view.set)
    ((View.setOn_subset_set _ _).trans (View.set_slice_subset _ _))) $$ Hout; iintro Hout
  iapply Hk
  have e : ((oM.access rAll : View sig .tc _ _ _)).write (Elt F) g1 (out0 X) Finset.univ = out0 X :=
    Memref.write_access_unit_zero_univ (Elt F) cc0_stg1_0 (off := ![0, 0, 0])
      (by funext a; match a with | ⟨0, _⟩ => rfl | ⟨1, _⟩ => rfl | ⟨2, _⟩ => rfl)
      inb_S32x32x32_S32x32x32_0_0_0 g1 (out0 X)
  rw [e]
  iexact Hout

/-- PART 4 of the body: from the state after part 3 to the state after part 4. -/
theorem part4_run (g1 : Buf (Elt F) ((c : Thread nD τ).loc cc0_stg1_0)) (f1 : Buf (Elt F) ((c : Thread nD τ).loc cc0_scratch1))
    (v2 v5 v8 : BitVec 32) (v9 v10 v11 v12 v13 v14 : BitVec 1) (v15 v16 v17 v18 v19 v20 : BitVec 32)
    (h9 : v9 = bit (has c 0)) (h10 : v10 = bit (has c 1)) (h11 : v11 = bit (has c 2)) (h12 : v12 = bit (has c 3)) (h13 : v13 = bit (has c 4)) (h14 : v14 = bit (has c 5)) :
    stC m ρ K c (xstg m ρ c) g1 f1
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 v2 v5 v8 v9 v10 v11 v12 v13 v14 v15 v16 v17 v18 v19 v20
            (k0_pay10 (xM.view.readAt (Elt F) rAll.toLoadRect (xstg m ρ c))) (k0_pay13 (F := F)) (k0_pay14 (xM.view.readAt (Elt F) rAll.toLoadRect (xstg m ρ c))) (k0_pay15 (xM.view.readAt (Elt F) rAll.toLoadRect (xstg m ρ c))) (k0_pay16 (xM.view.readAt (Elt F) rAll.toLoadRect (xstg m ρ c))) (k0_pay17 (xM.view.readAt (Elt F) rAll.toLoadRect (xstg m ρ c))) (k0_pay18 (xM.view.readAt (Elt F) rAll.toLoadRect (xstg m ρ c))) (k0_pay19 (xM.view.readAt (Elt F) rAll.toLoadRect (xstg m ρ c))))
          (fun _ => stD m ρ K c (xstg m ρ c) f1) := by
  rw [k0_part4_eq_skeleton]
  unfold k0_part4_skel stC atXfer
  rw [P4_bigSep_fin6, P4_bigSep_fin6, P4_bigSep_fin6]
  iintro ⟨#Hrec, Hlev, HatB, ⟨⟨Hs0, Hr0⟩, ⟨Hs1, Hr1⟩, ⟨Hs2, Hr2⟩, ⟨Hs3, Hr3⟩, ⟨Hs4, Hr4⟩, Hs5, Hr5⟩, ⟨%W0, HO⟩, ⟨Hc0, Hc1, Hc2, Hc3, Hc4, Hc5⟩, ⟨Hq0, Hq1, Hq2, Hq3, Hq4, Hq5⟩, ⟨Hl0, Hl1, Hl2, Hl3, Hl4, Hl5⟩, HxR, Hout⟩
  iapply (head_run c _ _ (xstg m ρ c) g1) $$ Hout; iintro Hout
  iapply (recv_region0 m ρ K c _ _ v9 h9 _ f1 W0) $$ [Hc0 HO Hr0 Hl0 Hout]
  · isplitr; · iexact Hrec
    isplitl [Hc0]; · iexact Hc0
    isplitl [HO]; · iexact HO
    isplitl [Hr0]; · iexact Hr0
    isplitl [Hl0]; · iexact Hl0
    iexact Hout
  iintro ⟨⟨%W1, HO⟩, Hr0, Hl0, Hout⟩
  iapply (recv_region1 m ρ K c _ _ v10 h10 _ f1 W1) $$ [Hc1 HO Hr1 Hl1 Hout]
  · isplitr; · iexact Hrec
    isplitl [Hc1]; · iexact Hc1
    isplitl [HO]; · iexact HO
    isplitl [Hr1]; · iexact Hr1
    isplitl [Hl1]; · iexact Hl1
    iexact Hout
  iintro ⟨⟨%W2, HO⟩, Hr1, Hl1, Hout⟩
  iapply (recv_region2 m ρ K c _ _ v11 h11 _ f1 W2) $$ [Hc2 HO Hr2 Hl2 Hout]
  · isplitr; · iexact Hrec
    isplitl [Hc2]; · iexact Hc2
    isplitl [HO]; · iexact HO
    isplitl [Hr2]; · iexact Hr2
    isplitl [Hl2]; · iexact Hl2
    iexact Hout
  iintro ⟨⟨%W3, HO⟩, Hr2, Hl2, Hout⟩
  iapply (recv_region3 m ρ K c _ _ v12 h12 _ f1 W3) $$ [Hc3 HO Hr3 Hl3 Hout]
  · isplitr; · iexact Hrec
    isplitl [Hc3]; · iexact Hc3
    isplitl [HO]; · iexact HO
    isplitl [Hr3]; · iexact Hr3
    isplitl [Hl3]; · iexact Hl3
    iexact Hout
  iintro ⟨⟨%W4, HO⟩, Hr3, Hl3, Hout⟩
  iapply (recv_region4 m ρ K c _ _ v13 h13 _ f1 W4) $$ [Hc4 HO Hr4 Hl4 Hout]
  · isplitr; · iexact Hrec
    isplitl [Hc4]; · iexact Hc4
    isplitl [HO]; · iexact HO
    isplitl [Hr4]; · iexact Hr4
    isplitl [Hl4]; · iexact Hl4
    iexact Hout
  iintro ⟨⟨%W5, HO⟩, Hr4, Hl4, Hout⟩
  iapply (recv_region5 m ρ K c _ _ v14 h14 _ f1 W5) $$ [Hc5 HO Hr5 Hl5 Hout]
  · isplitr; · iexact Hrec
    isplitl [Hc5]; · iexact Hc5
    isplitl [HO]; · iexact HO
    isplitl [Hr5]; · iexact Hr5
    isplitl [Hl5]; · iexact Hl5
    iexact Hout
  iintro ⟨⟨%W6, HO⟩, Hr5, Hl5, Hout⟩
  iapply (send_region0 m ρ K c _ _ v9 h9 W6) $$ [Hq0 HO Hs0]
  · isplitr; · iexact Hrec
    isplitl [Hq0]; · iexact Hq0
    isplitl [HO]; · iexact HO
    iexact Hs0
  iintro ⟨⟨%W7, HO⟩, Hs0, Hq0⟩
  iapply (send_region1 m ρ K c _ _ v10 h10 W7) $$ [Hq1 HO Hs1]
  · isplitr; · iexact Hrec
    isplitl [Hq1]; · iexact Hq1
    isplitl [HO]; · iexact HO
    iexact Hs1
  iintro ⟨⟨%W8, HO⟩, Hs1, Hq1⟩
  iapply (send_region2 m ρ K c _ _ v11 h11 W8) $$ [Hq2 HO Hs2]
  · isplitr; · iexact Hrec
    isplitl [Hq2]; · iexact Hq2
    isplitl [HO]; · iexact HO
    iexact Hs2
  iintro ⟨⟨%W9, HO⟩, Hs2, Hq2⟩
  iapply (le_wp_ret _ _ _ PUnit.unit _)
  unfold stD atXfer
  rw [P4_bigSep_fin6, P4_bigSep_fin6, P4_bigSep_fin6]
  simp only [if_pos (show ((0 : Fin 6).val < 3) by decide), if_pos (show ((1 : Fin 6).val < 3) by decide),
    if_pos (show ((2 : Fin 6).val < 3) by decide), if_neg (show ¬((3 : Fin 6).val < 3) by decide),
    if_neg (show ¬((4 : Fin 6).val < 3) by decide), if_neg (show ¬((5 : Fin 6).val < 3) by decide)]
  isplitr; · iexact Hrec
  isplitl [Hlev]; · iexact Hlev
  isplitl [HatB]; · iexact HatB
  isplitl [Hs0 Hr0 Hs1 Hr1 Hs2 Hr2 Hs3 Hr3 Hs4 Hr4 Hs5 Hr5]
  · isplitl [Hs0 Hr0]
    · isplitl [Hs0]; · iexact Hs0
      iexact Hr0
    isplitl [Hs1 Hr1]
    · isplitl [Hs1]; · iexact Hs1
      iexact Hr1
    isplitl [Hs2 Hr2]
    · isplitl [Hs2]; · iexact Hs2
      iexact Hr2
    isplitl [Hs3 Hr3]
    · isplitl [Hs3]; · iexact Hs3
      iexact Hr3
    isplitl [Hs4 Hr4]
    · isplitl [Hs4]; · iexact Hs4
      iexact Hr4
    isplitl [Hs5]; · iexact Hs5
    iexact Hr5

  isplitl [HO]; · iexists _; iexact HO
  isplitl [Hq0 Hq1 Hq2 Hq3 Hq4 Hq5]
  · isplitl [Hq0]
    · iexact Hq0
    isplitl [Hq1]
    · iexact Hq1
    isplitl [Hq2]
    · iexact Hq2
    isplitl [Hq3]
    · iexact Hq3
    isplitl [Hq4]
    · iexact Hq4
    iexact Hq5

  isplitl [Hl0 Hl1 Hl2 Hl3 Hl4 Hl5]
  · isplitl [Hl0]
    · iexact Hl0
    isplitl [Hl1]
    · iexact Hl1
    isplitl [Hl2]
    · iexact Hl2
    isplitl [Hl3]
    · iexact Hl3
    isplitl [Hl4]
    · iexact Hl4
    iexact Hl5

  isplitl [HxR]; · iexact HxR
  iexact Hout

end Cert.KernelIdeal.HP

end
-- ==== Proof.KernelIdealTail.lean ====
/-
  The two kinds of region the body's tail is made of, each under a test of one mesh coordinate.

  * A wait on send cell `d`: where there is a neighbour the device holds the cell's credit, takes the round and gets the
    lent share of the face's source back; where there is none the source never left and the cell stays at round 0.
  * The store of zero on face `d` of the output, which runs exactly where there is NO neighbour.
-/
import proofs.«900363_g7700000000000364_dist_halo3d_v7x_xyz2x2x4_s32_f32_1_alg».proof.Proof.KernelIdealWords
import proofs.«900363_g7700000000000364_dist_halo3d_v7x_xyz2x2x4_s32_f32_1_alg».proof.Proof.KernelIdealLaunch

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every face's source credits what a slot does. -/
theorem srcM_credit : ∀ d : Fin 6, (srcM d).view.dmaCredit = N := by decide

/-- One cell's invariant and round-0 mark, out of the record of all. -/
theorem rec_inv (K : Dev nD × CellIx → ℕ) (ck : Dev nD × CellIx) : records m ρ K ⊢ cellInv ER (exRd m ρ) (K ck) (kcell ck) := by
  unfold records; iintro ⟨HI, -⟩; iapply (inv_at m ρ K ck); iexact HI

/-- The wait on send cell `d`, under a condition that holds exactly where there is a neighbour that way. -/
theorem waitsend_step (K : Dev nD × CellIx → ℕ) (c : Dev nD) (d : Fin 6) {C : Prop} [Decidable C] (hC : C ↔ has c d = true)
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    {α : Type} {J : Prog (TpuEff nD τ sig (Elt F) Λ₀ .tc) α} {Q : α → sProp 𝕄} (W : Waits sig Unit) :
    iprop(records m ρ K ∗ (if has c d = true then cred (tallyAt (sendCell c d) () N) else srcPts m ρ c d)
        ∗ atPos ER (sendCell c d) 0 ∅ 0 ∗ owes (c : Thread nD τ) 0 W)
      ⊢ iprop(((srcPts m ρ c d ∗ atPos ER (sendCell c d) (rnd c d) ∅ 0 ∗ ∃ W', owes (c : Thread nD τ) 0 W')
            -∗ wp frame (wpE (defs₀ (F := F)) 𝒱₀ (c : Thread nD τ) none) Set.univ J Q)
          -∗ wp frame (wpE (defs₀ (F := F)) 𝒱₀ (c : Thread nD τ) none) Set.univ
              (dite C (fun _ => Prog.lift (.waitDma2 (sendS d) src dst hsrc hdst) >>= fun _ => J) (fun _ => J)) Q) := by
  by_cases h : has c d = true
  · rw [dif_pos (hC.mpr h), Prog.bind_lift, if_pos h]
    unfold rnd; rw [if_pos h]
    iintro ⟨#Hrec, Hc, Hat, HO⟩ Hk
    ihave #HI := (rec_inv m ρ K (c, some (false, d))) $$ Hrec
    iapply (Rounds.wp_wait_rest_token 𝒱₀ ER (exRd m ρ) (c : Thread nD τ) none (κ := K (c, some (false, d)))
        (wpE_waitDma2_eq 𝒱₀ (c : Thread nD τ) none Set.univ) (Set.mem_univ _) () (O := 0) (W := W) (R := 0) (m := 0) (T := ∅)
        (by rw [Nat.zero_add, expect_send m ρ c d h, hcr])) $$ [Hc HO Hat]
    · isplitr; · iexact HI
      isplitl [Hc]; · rw [hcr]; iexact Hc
      isplitl [HO]; · iexact HO
      isplitr; · rw [MayWait_zero]; iempintro
      iexact Hat
    iintro ⟨HO, Hat, -, Hpay⟩
    ihave Hs := (Entails.of_eq (rest_send m ρ c d h)) $$ Hpay
    iapply Hk
    isplitl [Hs]; · unfold sendPay; iexact Hs
    isplitl [Hat]; · iexact Hat
    iexists _; iexact HO
  · have hn : ¬ C := fun hc => h (hC.mp hc)
    rw [dif_neg hn, if_neg h]
    unfold rnd; rw [if_neg h]
    iintro ⟨-, Hs, Hat, HO⟩ Hk
    iapply Hk
    isplitl [Hs]; · iexact Hs
    isplitl [Hat]; · iexact Hat
    iexists W; iexact HO

/-- The store of zero on face `d` (after a dead load of the face), under a condition that holds exactly where there is
    no neighbour that way: the output goes from `o` to `zeroStep c d o`. -/
theorem zero_step (c : Dev nD) (d : Fin 6) {C : Prop} [Decidable C] (hC : C ↔ has c d = false)
    {rl : LoadRect S32x32x32} {hl : (oM : Memref sig (c : Thread nD τ).2.kind .vmem S32x32x32 .f32).view.LoadsAt rl}
    {r : Rect S32x32x32} {w : r.shape.Idx → Elt F .f32}
    {hx : ((oM : Memref sig (c : Thread nD τ).2.kind .vmem S32x32x32 .f32).access r).Stores Finset.univ} {hm : (Finset.univ : Finset r.shape.Idx) = Finset.univ ∨ ∀ a, r.stride a = 1}
    (o : OutC (F := F))
    (hz : ((oM.access r : View sig .tc _ _ _)).write (Elt F) o w Finset.univ = zeroFace d o)
    {α : Type} {J : Prog (TpuEff nD τ sig (Elt F) Λ₀ .tc) α} {Q : α → sProp 𝕄} :
    outPts c o
      ⊢ iprop((outPts c (zeroStep c d o) -∗ wp frame (wpE (defs₀ (F := F)) 𝒱₀ (c : Thread nD τ) none) Set.univ J Q)
          -∗ wp frame (wpE (defs₀ (F := F)) 𝒱₀ (c : Thread nD τ) none) Set.univ
              (dite C (fun _ => Prog.lift (.load oM rl hl) >>= fun _ => Prog.lift (.store oM r w Finset.univ hx hm) >>= fun _ => J) (fun _ => J)) Q) := by
  unfold zeroStep outPts
  by_cases h : has c d = true
  · have hn : ¬ C := fun hc => by rw [hC.mp hc] at h; exact absurd h (by decide)
    rw [dif_neg hn, if_pos h]
    iintro Ho Hk
    iapply Hk; iexact Ho
  · have hf : has c d = false := by cases hh : has c d <;> simp_all
    rw [dif_pos (hC.mpr hf), if_neg h, Prog.bind_lift]
    iintro Ho Hk
    iapply (wp_load 𝒱₀ (c : Thread nD τ) none Set.univ (m := oM) (S := oM.view.set) (by simp only [Memref.view_whole, View.set_whole]; exact Finset.subset_univ _)) $$ Ho
    iintro Ho
    rw [Prog.bind_lift]
    iapply (wp_store 𝒱₀ (c : Thread nD τ) none Set.univ (m := oM) (r := r) (Mk := Finset.univ) (S := oM.view.set) (by simp only [Memref.view_whole, View.set_whole]; exact Finset.subset_univ _)) $$ Ho
    iintro Ho
    rw [hz]
    iapply Hk; iexact Ho

end Cert.KernelIdeal.HP

end
-- ==== Proof.KernelIdealGlue.lean ====
/-
  Program-independent steps around the body's composition: the six-fold products written out, the state after part 4
  opened into its pieces, and a transfer cell closed at whichever round it stands at — round 1 where the device has a
  neighbour that way (the cell's one round is taken), round 0 where it has none (the cell never had a duty).
-/
import proofs.«900363_g7700000000000364_dist_halo3d_v7x_xyz2x2x4_s32_f32_1_alg».proof.Proof.KernelIdealTail

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bsep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Send cell `d` closes at the round it stands at after its wait. -/
theorem close_send (K : Dev nD × CellIx → ℕ) (c : Dev nD) (d : Fin 6) :
    iprop(records m ρ K ∗ atPos ER (sendCell c d) (rnd c d) ∅ 0) ⊢ |={Set.univ}=> (semVal (sendCell c d) 0 : sProp 𝕄) := by
  iintro ⟨#Hrec, Hat⟩
  ihave #HI := (rec_inv m ρ K (c, some (false, d))) $$ Hrec
  by_cases h : has c d = true
  · unfold rnd; rw [if_pos h]
    iapply (Rounds.cell_close ER (exRd m ρ) (Set.mem_univ (K (c, some (false, d)))) (fun h => h) (R := 1) (duties_later m ρ (sendCell c d)))
    isplitr; · iexact HI
    iexact Hat
  · have hf : has c d = false := by cases hh : has c d <;> simp_all
    unfold rnd; rw [if_neg h]
    iapply (Rounds.cell_close ER (exRd m ρ) (Set.mem_univ (K (c, some (false, d)))) (fun h => h) (R := 0) (fun r _ => duties_send_none m ρ c d hf r))
    isplitr; · iexact HI
    iexact Hat

/-- Receive cell `d` likewise. -/
theorem close_recv (K : Dev nD × CellIx → ℕ) (c : Dev nD) (d : Fin 6) :
    iprop(records m ρ K ∗ atPos ER (recvCell c d) (rnd c d) ∅ 0) ⊢ |={Set.univ}=> (semVal (recvCell c d) 0 : sProp 𝕄) := by
  iintro ⟨#Hrec, Hat⟩
  ihave #HI := (rec_inv m ρ K (c, some (true, d))) $$ Hrec
  by_cases h : has c d = true
  · unfold rnd; rw [if_pos h]
    iapply (Rounds.cell_close ER (exRd m ρ) (Set.mem_univ (K (c, some (true, d)))) (fun h => h) (R := 1) (duties_later m ρ (recvCell c d)))
    isplitr; · iexact HI
    iexact Hat
  · have hf : has c d = false := by cases hh : has c d <;> simp_all
    unfold rnd; rw [if_neg h]
    iapply (Rounds.cell_close ER (exRd m ρ) (Set.mem_univ (K (c, some (true, d)))) (fun h => h) (R := 0) (fun r _ => duties_recv_none m ρ c d hf r))
    isplitr; · iexact HI
    iexact Hat

/-- A slot at whichever contents it ended with is a slot at some contents. -/
theorem slot_some (c : Dev nD) (d : Fin 6) (f1 : Buf (Elt F) ((c : Thread nD τ).loc cc0_scratch1)) :
    (if has c d = true then slotPts c d (landed m ρ c d) else slotPts c d f1 : sProp 𝕄) ⊢ ∃ f, slotPts c d f := by
  split
  · iintro H; iexists _; iexact H
  · iintro H; iexists _; iexact H

/-- The state after part 4, its products over the six directions written out. -/
theorem stD_open (K : Dev nD × CellIx → ℕ) (c : Dev nD) (X : Buf (Elt F) ((c : Thread nD τ).loc cc0_stg0_0)) (f1 : Buf (Elt F) ((c : Thread nD τ).loc cc0_scratch1)) :
    stD m ρ K c X f1 = iprop(records m ρ K ∗ levAts L lv ∗ atPos ER (barCell c) 1 ∅ 0
      ∗ ((atPos ER (sendCell c 0) (rnd c 0) ∅ 0 ∗ atPos ER (recvCell c 0) (rnd c 0) ∅ 0) ∗ (atPos ER (sendCell c 1) (rnd c 1) ∅ 0 ∗ atPos ER (recvCell c 1) (rnd c 1) ∅ 0)
        ∗ (atPos ER (sendCell c 2) (rnd c 2) ∅ 0 ∗ atPos ER (recvCell c 2) (rnd c 2) ∅ 0) ∗ (atPos ER (sendCell c 3) 0 ∅ 0 ∗ atPos ER (recvCell c 3) (rnd c 3) ∅ 0)
        ∗ (atPos ER (sendCell c 4) 0 ∅ 0 ∗ atPos ER (recvCell c 4) (rnd c 4) ∅ 0) ∗ (atPos ER (sendCell c 5) 0 ∅ 0 ∗ atPos ER (recvCell c 5) (rnd c 5) ∅ 0))
      ∗ (∃ W, owes (c : Thread nD τ) 0 W)
      ∗ (srcPts m ρ c 0 ∗ srcPts m ρ c 1 ∗ srcPts m ρ c 2
        ∗ (if has c 3 = true then cred (tallyAt (sendCell c 3) () N) else srcPts m ρ c 3)
        ∗ (if has c 4 = true then cred (tallyAt (sendCell c 4) () N) else srcPts m ρ c 4)
        ∗ (if has c 5 = true then cred (tallyAt (sendCell c 5) () N) else srcPts m ρ c 5))
      ∗ ((if has c 0 = true then slotPts c 0 (landed m ρ c 0) else slotPts c 0 f1) ∗ (if has c 1 = true then slotPts c 1 (landed m ρ c 1) else slotPts c 1 f1) ∗ (if has c 2 = true then slotPts c 2 (landed m ρ c 2) else slotPts c 2 f1) ∗ (if has c 3 = true then slotPts c 3 (landed m ρ c 3) else slotPts c 3 f1) ∗ (if has c 4 = true then slotPts c 4 (landed m ρ c 4) else slotPts c 4 f1) ∗ (if has c 5 = true then slotPts c 5 (landed m ρ c 5) else slotPts c 5 f1))
      ∗ xRest c X
      ∗ outPts c (addStep m ρ c 5 (addStep m ρ c 4 (addStep m ρ c 3 (addStep m ρ c 2 (addStep m ρ c 1 (addStep m ρ c 0 (out0 X)))))))) := by
  unfold stD atXfer
  rw [bsep6, bsep6, bsep6]
  rfl

end Cert.KernelIdeal.HP

end
-- ==== Proof.KernelIdealBody.lean ====
/-
  One device's body: from its starting state it signals its six barrier units, fills the send buffer, takes its own
  six units, sends its faces, stores the block's stencil, adds each received plane and zeroes each outer face, and
  returns its cells closed — the pipeline library's obligation for the one grid point.
-/
import proofs.«900363_g7700000000000364_dist_halo3d_v7x_xyz2x2x4_s32_f32_1_alg».proof.Proof.KernelIdealPart12
import proofs.«900363_g7700000000000364_dist_halo3d_v7x_xyz2x2x4_s32_f32_1_alg».proof.Proof.KernelIdealPart3Run
import proofs.«900363_g7700000000000364_dist_halo3d_v7x_xyz2x2x4_s32_f32_1_alg».proof.Proof.KernelIdealPart4
import proofs.«900363_g7700000000000364_dist_halo3d_v7x_xyz2x2x4_s32_f32_1_alg».proof.Proof.KernelIdealGlue

noncomputable section

namespace Cert.KernelIdeal.HP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A buffer held whole through its whole memref is the buffer held whole. -/
theorem whole_pts (b : Ref sig .tc) (c : Dev nD) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  simp only [Memref.view_whole, View.set_whole]

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body returns: its cells closed, nothing owed, the input block unchanged and the output at `outAt`. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))
theorem sound_body (K : Dev nD × CellIx → ℕ) (c : Dev nD) (g1 : Buf (Elt F) ((c : Thread nD τ).loc cc0_stg1_0)) (f0 : Buf (Elt F) ((c : Thread nD τ).loc cc0_scratch0)) (f1 : Buf (Elt F) ((c : Thread nD τ).loc cc0_scratch1)) (Kt : PUnit → sProp 𝕄) :
    iprop(st0 m ρ K c (xstg m ρ c) g1 f0 f1 ∗ (bodyPost m ρ c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3) Kt := by
  rw [cc0_body_eq_skeleton]; unfold cc0_body_skel
  rw [wp_bind]
  iintro ⟨H0, Hk⟩
  ihave H1 := (part1_run m ρ K c g1 f0 f1) $$ H0
  iapply (wp_wand frame (wpE (defs₀ (F := F)) 𝒱₀ (c : Thread nD τ) none) Set.univ) $$ H1
  iintro %r ⟨%hr, HA⟩
  subst hr
  dsimp (config := { zeta := false }) only [R1]
  rw [wp_bind]
  ihave H2 := (part2_run m ρ K c g1 f0 f1 (wv2 c) (wv5 c) (wv8 c) (wv11 c) (wv12 c) (wv13 c) (wv14 c) _ _ _ _ (wv31 c) (wv11_eq c) (wv12_eq c) (wv13_eq c) (wv14_eq c) (wv31_eq c)) $$ HA
  iapply (wp_wand frame (wpE (defs₀ (F := F)) 𝒱₀ (c : Thread nD τ) none) Set.univ) $$ H2
  iintro %r2 ⟨%hr2, HB⟩
  subst hr2
  rw [wp_bind]
  ihave H3 := (part3_run m ρ K c g1 f0 f1 (wv2 c) (wv5 c) (wv8 c) (wv9 c) (wv10 c) (wv11 c) (wv12 c) (wv13 c) (wv14 c) _ _ _ _ _ _) $$ HB
  iapply (wp_wand frame (wpE (defs₀ (F := F)) 𝒱₀ (c : Thread nD τ) none) Set.univ) $$ H3
  iintro %r3 ⟨%hr3, HC⟩
  subst hr3
  dsimp (config := { zeta := false }) only
  rw [wp_bind]
  ihave H4 := (part4_run m ρ K c g1 f1 (wv2 c) (wv5 c) (wv8 c) (wv9 c) (wv10 c) (wv11 c) (wv12 c) (wv13 c) (wv14 c) _ _ _ _ _ _ (wv9_eq c) (wv10_eq c) (wv11_eq c) (wv12_eq c) (wv13_eq c) (wv14_eq c)) $$ HC
  iapply (wp_wand frame (wpE (defs₀ (F := F)) 𝒱₀ (c : Thread nD τ) none) Set.univ) $$ H4
  iintro %r4 HD
  ihave HD := (Entails.of_eq (stD_open m ρ K c (xstg m ρ c) f1)) $$ HD
  icases HD with ⟨#Hrec, Hlev, HatB, ⟨⟨Hs0, Hr0⟩, ⟨Hs1, Hr1⟩, ⟨Hs2, Hr2⟩, ⟨Hs3, Hr3⟩, ⟨Hs4, Hr4⟩, Hs5, Hr5⟩, ⟨%W0, HO⟩, ⟨Hq0, Hq1, Hq2, Hq3, Hq4, Hq5⟩, ⟨Hl0, Hl1, Hl2, Hl3, Hl4, Hl5⟩, HxR, Hout⟩
  iapply (waitsend_step m ρ K c 3 (C := Scalar.cmpi .ne (Scalar.extui (wv12 c)) 0#32 = 1#1) (by rw [wv12_eq]; exact test_iff _) (srcM_credit 3) W0) $$ [Hq3 Hs3 HO]
  · isplitr; · iexact Hrec
    isplitl [Hq3]; · iexact Hq3
    isplitl [Hs3]; · iexact Hs3
    iexact HO
  iintro ⟨Hq3, Hs3, ⟨%W1, HO⟩⟩
  iapply (waitsend_step m ρ K c 4 (C := Scalar.cmpi .ne (Scalar.extui (wv13 c)) 0#32 = 1#1) (by rw [wv13_eq]; exact test_iff _) (srcM_credit 4) W1) $$ [Hq4 Hs4 HO]
  · isplitr; · iexact Hrec
    isplitl [Hq4]; · iexact Hq4
    isplitl [Hs4]; · iexact Hs4
    iexact HO
  iintro ⟨Hq4, Hs4, ⟨%W2, HO⟩⟩
  iapply (waitsend_step m ρ K c 5 (C := Scalar.cmpi .ne (Scalar.extui (wv14 c)) 0#32 = 1#1) (by rw [wv14_eq]; exact test_iff _) (srcM_credit 5) W2) $$ [Hq5 Hs5 HO]
  · isplitr; · iexact Hrec
    isplitl [Hq5]; · iexact Hq5
    isplitl [Hs5]; · iexact Hs5
    iexact HO
  iintro ⟨Hq5, Hs5, ⟨%W3, HO⟩⟩
  iapply (zero_step c 0 (C := Scalar.cmpi .ne (Scalar.extui (Scalar.xori (wv9 c) 1#1)) 0#32 = 1#1) (by rw [wv9_eq]; exact ntest_iff _) _ rfl) $$ Hout
  iintro Hout
  iapply (zero_step c 1 (C := Scalar.cmpi .ne (Scalar.extui (Scalar.xori (wv10 c) 1#1)) 0#32 = 1#1) (by rw [wv10_eq]; exact ntest_iff _) _ rfl) $$ Hout
  iintro Hout
  iapply (zero_step c 2 (C := Scalar.cmpi .ne (Scalar.extui (Scalar.xori (wv11 c) 1#1)) 0#32 = 1#1) (by rw [wv11_eq]; exact ntest_iff _) _ rfl) $$ Hout
  iintro Hout
  iapply (zero_step c 3 (C := Scalar.cmpi .ne (Scalar.extui (Scalar.xori (wv12 c) 1#1)) 0#32 = 1#1) (by rw [wv12_eq]; exact ntest_iff _) _ rfl) $$ Hout
  iintro Hout
  iapply (zero_step c 4 (C := Scalar.cmpi .ne (Scalar.extui (Scalar.xori (wv13 c) 1#1)) 0#32 = 1#1) (by rw [wv13_eq]; exact ntest_iff _) _ rfl) $$ Hout
  iintro Hout
  iapply (zero_step c 5 (C := Scalar.cmpi .ne (Scalar.extui (Scalar.xori (wv14 c) 1#1)) 0#32 = 1#1) (by rw [wv14_eq]; exact ntest_iff _) _ rfl) $$ Hout
  iintro Hout
  imod (close_send m ρ K c 0) $$ [Hs0] with Hz0
  · isplitr; · iexact Hrec
    iexact Hs0
  imod (close_send m ρ K c 1) $$ [Hs1] with Hz1
  · isplitr; · iexact Hrec
    iexact Hs1
  imod (close_send m ρ K c 2) $$ [Hs2] with Hz2
  · isplitr; · iexact Hrec
    iexact Hs2
  imod (close_send m ρ K c 3) $$ [Hs3] with Hz3
  · isplitr; · iexact Hrec
    iexact Hs3
  imod (close_send m ρ K c 4) $$ [Hs4] with Hz4
  · isplitr; · iexact Hrec
    iexact Hs4
  imod (close_send m ρ K c 5) $$ [Hs5] with Hz5
  · isplitr; · iexact Hrec
    iexact Hs5
  imod (close_recv m ρ K c 0) $$ [Hr0] with Hy0
  · isplitr; · iexact Hrec
    iexact Hr0
  imod (close_recv m ρ K c 1) $$ [Hr1] with Hy1
  · isplitr; · iexact Hrec
    iexact Hr1
  imod (close_recv m ρ K c 2) $$ [Hr2] with Hy2
  · isplitr; · iexact Hrec
    iexact Hr2
  imod (close_recv m ρ K c 3) $$ [Hr3] with Hy3
  · isplitr; · iexact Hrec
    iexact Hr3
  imod (close_recv m ρ K c 4) $$ [Hr4] with Hy4
  · isplitr; · iexact Hrec
    iexact Hr4
  imod (close_recv m ρ K c 5) $$ [Hr5] with Hy5
  · isplitr; · iexact Hrec
    iexact Hr5
  ihave Hl0 := (slot_some m ρ c 0 f1) $$ Hl0
  icases Hl0 with ⟨%e0, Hl0⟩
  ihave Hl1 := (slot_some m ρ c 1 f1) $$ Hl1
  icases Hl1 with ⟨%e1, Hl1⟩
  ihave Hl2 := (slot_some m ρ c 2 f1) $$ Hl2
  icases Hl2 with ⟨%e2, Hl2⟩
  ihave Hl3 := (slot_some m ρ c 3 f1) $$ Hl3
  icases Hl3 with ⟨%e3, Hl3⟩
  ihave Hl4 := (slot_some m ρ c 4 f1) $$ Hl4
  icases Hl4 with ⟨%e4, Hl4⟩
  ihave Hl5 := (slot_some m ρ c 5 f1) $$ Hl5
  icases Hl5 with ⟨%e5, Hl5⟩
  ihave Hrb := (join_recv c e0 e1 e2 e3 e4 e5) $$ [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  icases Hrb with ⟨%fr, Hrb⟩
  ihave Hq0 := (Entails.of_eq (show (srcPts m ρ c 0 : sProp 𝕄) = ((srcM 0).view.loc (c : Thread nD τ) ↦[(srcM 0).view.set]{qOf 0} xstg m ρ c) from rfl)) $$ Hq0
  ihave Hq1 := (Entails.of_eq (show (srcPts m ρ c 1 : sProp 𝕄) = ((srcM 1).view.loc (c : Thread nD τ) ↦[(srcM 1).view.set]{qOf 1} xstg m ρ c) from rfl)) $$ Hq1
  ihave Hq2 := (Entails.of_eq (show (srcPts m ρ c 2 : sProp 𝕄) = ((srcM 2).view.loc (c : Thread nD τ) ↦[(srcM 2).view.set]{qOf 2} xstg m ρ c) from rfl)) $$ Hq2
  ihave Hq3 := (Entails.of_eq (show (srcPts m ρ c 3 : sProp 𝕄) = ((srcM 3).view.loc (c : Thread nD τ) ↦[(srcM 3).view.set]{qOf 3} xstg m ρ c) from rfl)) $$ Hq3
  ihave Hq4 := (Entails.of_eq (show (srcPts m ρ c 4 : sProp 𝕄) = ((srcM 4).view.loc (c : Thread nD τ) ↦[(srcM 4).view.set]{fullShare} sbuf m ρ c) from rfl)) $$ Hq4
  ihave Hq5 := (Entails.of_eq (show (srcPts m ρ c 5 : sProp 𝕄) = ((srcM 5).view.loc (c : Thread nD τ) ↦[(srcM 5).view.set]{fullShare} sbuf m ρ c) from rfl)) $$ Hq5
  ihave Hsb := (carve_sbuf c (sbuf m ρ c)).2 $$ [Hq4 Hq5]
  · isplitl [Hq4]; · iexact Hq4
    iexact Hq5
  unfold xRest
  icases HxR with ⟨HxL, Hx0, Hx1, Hx2, Hx3⟩
  ihave Hx := (carve_x c (xstg m ρ c)).2 $$ [HxL Hx0 Hx1 Hx2 Hx3 Hq0 Hq1 Hq2 Hq3]
  · isplitl [HxL]; · iexact HxL
    isplitl [Hq0 Hx0]
    · isplitl [Hq0]; · iexact Hq0
      iexact Hx0
    isplitl [Hq1 Hx1]
    · isplitl [Hq1]; · iexact Hq1
      iexact Hx1
    isplitl [Hq2 Hx2]
    · isplitl [Hq2]; · iexact Hq2
      iexact Hx2
    isplitl [Hq3]; · iexact Hq3
    iexact Hx3
  ihave Hrb := (Entails.of_eq (whole_pts cc0_scratch1 c fullShare fr)) $$ Hrb
  ihave Hsb := (Entails.of_eq (whole_pts cc0_scratch0 c fullShare (sbuf m ρ c))) $$ Hsb
  ihave Hx := (Entails.of_eq (whole_pts cc0_stg0_0 c fullShare (xstg m ρ c))) $$ Hx
  unfold outPts
  ihave Hout := (Entails.of_eq (whole_pts cc0_stg1_0 c fullShare _)) $$ Hout
  iapply (le_wp_ret _ _ _ PUnit.unit _)
  iapply Hk
  unfold bodyPost Φ₁ scratch Dat.owesAt Pipeline.owesWithin
  rw [show (dats m ρ 0 c).owed t0_0.succ = 0 from rfl, bsep6]
  isplitl [Hsb Hrb Hz0 Hy0 Hz1 Hy1 Hz2 Hy2 Hz3 Hy3 Hz4 Hy4 Hz5 Hy5]
  · isplitl [Hsb Hrb]
    · isplitl [Hsb]; · iexists _; iexact Hsb
      iexists _; iexact Hrb
    isplitl [Hz0 Hy0]
    · isplitl [Hz0]; · iexact Hz0
      iexact Hy0
    isplitl [Hz1 Hy1]
    · isplitl [Hz1]; · iexact Hz1
      iexact Hy1
    isplitl [Hz2 Hy2]
    · isplitl [Hz2]; · iexact Hz2
      iexact Hy2
    isplitl [Hz3 Hy3]
    · isplitl [Hz3]; · iexact Hz3
      iexact Hy3
    isplitl [Hz4 Hy4]
    · isplitl [Hz4]; · iexact Hz4
      iexact Hy4
    isplitl [Hz5]; · iexact Hz5
    iexact Hy5
  isplitl [HO]
  · iexists W3
    isplitr; · ipureintro; exact fun _ _ => Or.inl trivial
    iexact HO
  isplitl [Hx]
  · iexists _
    isplitr; · ipureintro; rfl
    iexact Hx
  iexists _
  isplitr; · ipureintro; rfl
  iexact Hout

/-- What the pipeline hands the body at its one grid point. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start scratch ghost linear payToks
  rw [bigSep_cellIx, bsep6, bsep6, bsep6]
  iintro ⟨⟨⟨⟨%K, Hrec, ⟨HatB, ⟨Hs0, Hs1, Hs2, Hs3, Hs4, Hs5⟩, ⟨Hr0, Hr1, Hr2, Hr3, Hr4, Hr5⟩⟩, ⟨Ht0, Ht1, Ht2, Ht3, Ht4, Ht5⟩, HtRS⟩, HcB, HcR, Hlev⟩, ⟨%f0, Hsb⟩, ⟨%f1, Hrb⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave Hrb := (Entails.of_eq (whole_pts cc0_scratch1 c fullShare f1).symm) $$ Hrb
  ihave Hslots := (carve_recv c f1).1 $$ Hrb
  ihave Hsb := (Entails.of_eq (whole_pts cc0_scratch0 c fullShare f0).symm) $$ Hsb
  ihave Hx := (Entails.of_eq (whole_pts cc0_stg0_0 c fullShare (xstg m ρ c)).symm) $$ Hx
  ihave Hout := (Entails.of_eq (whole_pts cc0_stg1_0 c fullShare g1).symm) $$ Hout
  ihave HatX := (Entails.of_eq (bsep6 (fun d : Fin 6 => (iprop(atPos ER (sendCell c d) 0 ∅ 0 ∗ atPos ER (recvCell c d) 0 ∅ 0) : sProp 𝕄))).symm)
    $$ [Hs0 Hr0 Hs1 Hr1 Hs2 Hr2 Hs3 Hr3 Hs4 Hr4 Hs5 Hr5]
  · isplitl [Hs0 Hr0]
    · isplitl [Hs0]; · iexact Hs0
      iexact Hr0
    isplitl [Hs1 Hr1]
    · isplitl [Hs1]; · iexact Hs1
      iexact Hr1
    isplitl [Hs2 Hr2]
    · isplitl [Hs2]; · iexact Hs2
      iexact Hr2
    isplitl [Hs3 Hr3]
    · isplitl [Hs3]; · iexact Hs3
      iexact Hr3
    isplitl [Hs4 Hr4]
    · isplitl [Hs4]; · iexact Hs4
      iexact Hr4
    isplitl [Hs5]; · iexact Hs5
    iexact Hr5
  iapply (sound_body m ρ K c g1 f0 f1 (fun _ => bodyPost m ρ c))
  isplitr []
  · unfold st0 atXfer tokB tokRS credR xWhole outPts sbufPts
    isplitl [Hrec]; · iexact Hrec
    isplitl [Hlev]; · iexact Hlev
    isplitl [HatB]; · iexact HatB
    isplitl [HatX]; · iexact HatX
    isplitl [HO]; · iexists W; iexact HO
    isplitl [Ht0 Ht1 Ht2 Ht3 Ht4 Ht5]
    · isplitl [Ht5]; · iexact Ht5
      isplitl [Ht4]; · iexact Ht4
      isplitl [Ht3]; · iexact Ht3
      isplitl [Ht2]; · iexact Ht2
      isplitl [Ht1]; · iexact Ht1
      iexact Ht0
    isplitl [HtRS]; · iexact HtRS
    isplitl [HcB]; · iexact HcB
    isplitl [HcR]; · iexact HcR
    isplitl [Hslots]; · iexact Hslots
    isplitl [Hx]; · iexact Hx
    isplitl [Hout]; · iexact Hout
    iexact Hsb
  · iintro H; iexact H

end Cert.KernelIdeal.HP

end
-- ==== Proof.KernelIdealRun.lean ====
/-
  The whole program's run: every weakly fair execution on the sixteen devices terminates without a fault, each
  device's result array ends at `outAt` and its argument array is unchanged.
-/
import proofs.«900363_g7700000000000364_dist_halo3d_v7x_xyz2x2x4_s32_f32_1_alg».proof.Proof.KernelIdealLaunch
import proofs.«900363_g7700000000000364_dist_halo3d_v7x_xyz2x2x4_s32_f32_1_alg».proof.Proof.KernelIdealBody

noncomputable section

namespace Cert.KernelIdeal.HP

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem run : θ_run (defs (F := F)) (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono
    (fun r h c => ⟨(h c (1 : Fin 2)).trans (finalA_out m ρ c), (h c (0 : Fin 2)).trans (finalA_x m ρ c)⟩)
    (run_main m ρ (body_obligation m ρ))

end Cert.KernelIdeal.HP

end
-- ==== Proof.KernelIdealValue.lean ====
/-
  What a device's output staging buffer holds when its body returns, read at an index: the function `Cert.Halo.outFn`
  of the device's block and its neighbours' face planes.
-/
import proofs.«900363_g7700000000000364_dist_halo3d_v7x_xyz2x2x4_s32_f32_1_alg».proof.Proof.KernelIdealOut
import proofs.«900363_g7700000000000364_dist_halo3d_v7x_xyz2x2x4_s32_f32_1_alg».proof.Proof.HaloFn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HP

open Cert.KernelIdeal Cert.KernelIdeal.Gen

open Idealize.ShloMosaic
open Idealize.ShloMosaic.TcCoe
open Idealize.ShloMosaic.ValueIdx

/-! ## Loads, zeros and shape casts at an index -/

/-- A load through a unit-stride rectangle of a buffer held whole reads the buffer at the shifted index. -/
theorem readAt_whole_unit {b : Ref sig .tc} (f : b.ty.Contents (Elt Ideal)) (off size : Fin b.ty.shape.rank → ℕ)
    (inb : ∀ a, off a + size a ≤ b.ty.shape.size a) (x : (Rect.unit off size inb).shape.Idx) (y : b.ty.shape.Idx)
    (hy : ∀ a, (y a).val = off a + (x a).val) :
    (Memref.whole b).view.readAt (Elt Ideal) (Rect.unit off size inb).toLoadRect f x = f y := by
  have e : (Rect.unit off size inb).toLoadRect.idx x = y := by
    funext a
    apply Fin.ext
    rw [LoadRect.idx_apply]
    show off a + 1 * (x a).val = _
    rw [hy a, Nat.one_mul]
  rw [View.readAt_apply, View.read_apply, e]
  rfl

/-- The zero word is zero. -/
theorem zero_word : (Scalar.ofBits .f32 0x00000000#32 : Ideal .f32) = 0 := Ideal.ofBits_zero_f32

theorem pay10_apply (R : Vec Ideal S32x32x32 .f32) (I : S32x32x32.Idx) : k0_pay10 R I = R I := by
  unfold k0_pay10
  rw [shapeCast_self]

theorem pay11_apply (I : S1x32x32.Idx) : k0_pay11 (F := Ideal) I = 0 := zero_word
theorem pay12_apply (I : S32x1x32.Idx) : k0_pay12 (F := Ideal) I = 0 := zero_word
theorem pay13_apply (I : S32x32x1.Idx) : k0_pay13 (F := Ideal) I = 0 := zero_word

/-! ## The whole-block stencil at an index -/

theorem pay14_apply (R : Vec Ideal S32x32x32 .f32) (i j k : Fin 32) :
    k0_pay14 R (ix3 i j k)
      = if h : 0 < i.val then (R : S32x32x32.Idx → EReal) (ix3 ⟨i.val - 1, by omega⟩ j k) else 0 := by
  unfold k0_pay14
  by_cases h : 0 < i.val
  · rw [dif_pos h]
    refine (concatenate_pair_apply_right (t := S32x32x32) (s₁ := S1x32x32) (s₂ := S31x32x32) (0 : Fin 3) _ _ concatenates_S1x32x32_S31x32x32_S32x32x32_d0 (ix3 i j k) rfl rfl
      (ix3 (⟨i.val - 1, by omega⟩ : Fin 31) j k) (fun b hb => ?_) ?_).trans ?_
    · match b with
      | ⟨0, _⟩ => exact absurd rfl hb
      | ⟨1, _⟩ => rfl
      | ⟨2, _⟩ => rfl
    · show i.val - 1 + 1 = i.val
      omega
    · refine (extractStridedSlice_apply (s := S32x32x32) (t := S31x32x32) ![0, 0, 0] _ slices_S32x32x32_o0_0_0_S31x32x32 _ (ix3 (⟨i.val - 1, by omega⟩ : Fin 32) j k) (fun b => ?_)).trans (pay10_apply R _)
      match b with
      | ⟨0, _⟩ => (show i.val - 1 = 0 + (i.val - 1); omega)
      | ⟨1, _⟩ => (show j.val = 0 + j.val; omega)
      | ⟨2, _⟩ => (show k.val = 0 + k.val; omega)
  · rw [dif_neg h]
    refine (concatenate_pair_apply_left (t := S32x32x32) (s₁ := S1x32x32) (s₂ := S31x32x32) (0 : Fin 3) _ _ concatenates_S1x32x32_S31x32x32_S32x32x32_d0 (ix3 i j k) rfl
      (ix3 (⟨0, Nat.one_pos⟩ : Fin 1) j k) (fun b => ?_)).trans (pay11_apply _)
    match b with
    | ⟨0, _⟩ => (show 0 = i.val; omega)
    | ⟨1, _⟩ => rfl
    | ⟨2, _⟩ => rfl

theorem pay15_apply (R : Vec Ideal S32x32x32 .f32) (i j k : Fin 32) :
    k0_pay15 R (ix3 i j k)
      = if h : i.val + 1 < 32 then (R : S32x32x32.Idx → EReal) (ix3 ⟨i.val + 1, h⟩ j k) else 0 := by
  unfold k0_pay15
  by_cases h : i.val + 1 < 32
  · rw [dif_pos h]
    refine (concatenate_pair_apply_left (t := S32x32x32) (s₁ := S31x32x32) (s₂ := S1x32x32) (0 : Fin 3) _ _ concatenates_S31x32x32_S1x32x32_S32x32x32_d0 (ix3 i j k) rfl
      (ix3 (⟨i.val, by omega⟩ : Fin 31) j k) (fun b => ?_)).trans ?_
    · match b with
      | ⟨0, _⟩ => rfl
      | ⟨1, _⟩ => rfl
      | ⟨2, _⟩ => rfl
    · refine (extractStridedSlice_apply (s := S32x32x32) (t := S31x32x32) ![1, 0, 0] _ slices_S32x32x32_o1_0_0_S31x32x32 _ (ix3 (⟨i.val + 1, h⟩ : Fin 32) j k) (fun b => ?_)).trans (pay10_apply R _)
      match b with
      | ⟨0, _⟩ => (show i.val + 1 = 1 + i.val; omega)
      | ⟨1, _⟩ => (show j.val = 0 + j.val; omega)
      | ⟨2, _⟩ => (show k.val = 0 + k.val; omega)
  · rw [dif_neg h]
    refine (concatenate_pair_apply_right (t := S32x32x32) (s₁ := S31x32x32) (s₂ := S1x32x32) (0 : Fin 3) _ _ concatenates_S31x32x32_S1x32x32_S32x32x32_d0 (ix3 i j k) rfl rfl
      (ix3 (⟨0, Nat.one_pos⟩ : Fin 1) j k) (fun b hb => ?_) ?_).trans (pay11_apply _)
    · match b with
      | ⟨0, _⟩ => exact absurd rfl hb
      | ⟨1, _⟩ => rfl
      | ⟨2, _⟩ => rfl
    · show 0 + 31 = i.val
      omega

theorem pay16_apply (R : Vec Ideal S32x32x32 .f32) (i j k : Fin 32) :
    k0_pay16 R (ix3 i j k)
      = if h : 0 < j.val then (R : S32x32x32.Idx → EReal) (ix3 i ⟨j.val - 1, by omega⟩ k) else 0 := by
  unfold k0_pay16
  by_cases h : 0 < j.val
  · rw [dif_pos h]
    refine (concatenate_pair_apply_right (t := S32x32x32) (s₁ := S32x1x32) (s₂ := S32x31x32) (1 : Fin 3) _ _ concatenates_S32x1x32_S32x31x32_S32x32x32_d1 (ix3 i j k) rfl rfl
      (ix3 i (⟨j.val - 1, by omega⟩ : Fin 31) k) (fun b hb => ?_) ?_).trans ?_
    · match b with
      | ⟨0, _⟩ => rfl
      | ⟨1, _⟩ => exact absurd rfl hb
      | ⟨2, _⟩ => rfl
    · show j.val - 1 + 1 = j.val
      omega
    · refine (extractStridedSlice_apply (s := S32x32x32) (t := S32x31x32) ![0, 0, 0] _ slices_S32x32x32_o0_0_0_S32x31x32 _ (ix3 i (⟨j.val - 1, by omega⟩ : Fin 32) k) (fun b => ?_)).trans (pay10_apply R _)
      match b with
      | ⟨0, _⟩ => (show i.val = 0 + i.val; omega)
      | ⟨1, _⟩ => (show j.val - 1 = 0 + (j.val - 1); omega)
      | ⟨2, _⟩ => (show k.val = 0 + k.val; omega)
  · rw [dif_neg h]
    refine (concatenate_pair_apply_left (t := S32x32x32) (s₁ := S32x1x32) (s₂ := S32x31x32) (1 : Fin 3) _ _ concatenates_S32x1x32_S32x31x32_S32x32x32_d1 (ix3 i j k) rfl
      (ix3 i (⟨0, Nat.one_pos⟩ : Fin 1) k) (fun b => ?_)).trans (pay12_apply _)
    match b with
    | ⟨0, _⟩ => rfl
    | ⟨1, _⟩ => (show 0 = j.val; omega)
    | ⟨2, _⟩ => rfl

theorem pay17_apply (R : Vec Ideal S32x32x32 .f32) (i j k : Fin 32) :
    k0_pay17 R (ix3 i j k)
      = if h : j.val + 1 < 32 then (R : S32x32x32.Idx → EReal) (ix3 i ⟨j.val + 1, h⟩ k) else 0 := by
  unfold k0_pay17
  by_cases h : j.val + 1 < 32
  · rw [dif_pos h]
    refine (concatenate_pair_apply_left (t := S32x32x32) (s₁ := S32x31x32) (s₂ := S32x1x32) (1 : Fin 3) _ _ concatenates_S32x31x32_S32x1x32_S32x32x32_d1 (ix3 i j k) rfl
      (ix3 i (⟨j.val, by omega⟩ : Fin 31) k) (fun b => ?_)).trans ?_
    · match b with
      | ⟨0, _⟩ => rfl
      | ⟨1, _⟩ => rfl
      | ⟨2, _⟩ => rfl
    · refine (extractStridedSlice_apply (s := S32x32x32) (t := S32x31x32) ![0, 1, 0] _ slices_S32x32x32_o0_1_0_S32x31x32 _ (ix3 i (⟨j.val + 1, h⟩ : Fin 32) k) (fun b => ?_)).trans (pay10_apply R _)
      match b with
      | ⟨0, _⟩ => (show i.val = 0 + i.val; omega)
      | ⟨1, _⟩ => (show j.val + 1 = 1 + j.val; omega)
      | ⟨2, _⟩ => (show k.val = 0 + k.val; omega)
  · rw [dif_neg h]
    refine (concatenate_pair_apply_right (t := S32x32x32) (s₁ := S32x31x32) (s₂ := S32x1x32) (1 : Fin 3) _ _ concatenates_S32x31x32_S32x1x32_S32x32x32_d1 (ix3 i j k) rfl rfl
      (ix3 i (⟨0, Nat.one_pos⟩ : Fin 1) k) (fun b hb => ?_) ?_).trans (pay12_apply _)
    · match b with
      | ⟨0, _⟩ => rfl
      | ⟨1, _⟩ => exact absurd rfl hb
      | ⟨2, _⟩ => rfl
    · show 0 + 31 = j.val
      omega

theorem pay18_apply (R : Vec Ideal S32x32x32 .f32) (i j k : Fin 32) :
    k0_pay18 R (ix3 i j k)
      = if h : 0 < k.val then (R : S32x32x32.Idx → EReal) (ix3 i j ⟨k.val - 1, by omega⟩) else 0 := by
  unfold k0_pay18
  by_cases h : 0 < k.val
  · rw [dif_pos h]
    refine (concatenate_pair_apply_right (t := S32x32x32) (s₁ := S32x32x1) (s₂ := S32x32x31) (2 : Fin 3) _ _ concatenates_S32x32x1_S32x32x31_S32x32x32_d2 (ix3 i j k) rfl rfl
      (ix3 i j (⟨k.val - 1, by omega⟩ : Fin 31)) (fun b hb => ?_) ?_).trans ?_
    · match b with
      | ⟨0, _⟩ => rfl
      | ⟨1, _⟩ => rfl
      | ⟨2, _⟩ => exact absurd rfl hb
    · show k.val - 1 + 1 = k.val
      omega
    · refine (extractStridedSlice_apply (s := S32x32x32) (t := S32x32x31) ![0, 0, 0] _ slices_S32x32x32_o0_0_0_S32x32x31 _ (ix3 i j (⟨k.val - 1, by omega⟩ : Fin 32)) (fun b => ?_)).trans (pay10_apply R _)
      match b with
      | ⟨0, _⟩ => (show i.val = 0 + i.val; omega)
      | ⟨1, _⟩ => (show j.val = 0 + j.val; omega)
      | ⟨2, _⟩ => (show k.val - 1 = 0 + (k.val - 1); omega)
  · rw [dif_neg h]
    refine (concatenate_pair_apply_left (t := S32x32x32) (s₁ := S32x32x1) (s₂ := S32x32x31) (2 : Fin 3) _ _ concatenates_S32x32x1_S32x32x31_S32x32x32_d2 (ix3 i j k) rfl
      (ix3 i j (⟨0, Nat.one_pos⟩ : Fin 1)) (fun b => ?_)).trans (pay13_apply _)
    match b with
    | ⟨0, _⟩ => rfl
    | ⟨1, _⟩ => rfl
    | ⟨2, _⟩ => (show 0 = k.val; omega)

theorem pay19c_apply (R : Vec Ideal S32x32x32 .f32) (i j k : Fin 32) :
    concatenate S32x32x32 2 [⟨S32x32x31, k0_pay19 R⟩, ⟨S32x32x1, k0_pay13 (F := Ideal)⟩] concatenates_S32x32x31_S32x32x1_S32x32x32_d2 (ix3 i j k)
      = if h : k.val + 1 < 32 then (R : S32x32x32.Idx → EReal) (ix3 i j ⟨k.val + 1, h⟩) else 0 := by
  unfold k0_pay19
  by_cases h : k.val + 1 < 32
  · rw [dif_pos h]
    refine (concatenate_pair_apply_left (t := S32x32x32) (s₁ := S32x32x31) (s₂ := S32x32x1) (2 : Fin 3) _ _ concatenates_S32x32x31_S32x32x1_S32x32x32_d2 (ix3 i j k) rfl
      (ix3 i j (⟨k.val, by omega⟩ : Fin 31)) (fun b => ?_)).trans ?_
    · match b with
      | ⟨0, _⟩ => rfl
      | ⟨1, _⟩ => rfl
      | ⟨2, _⟩ => rfl
    · refine (extractStridedSlice_apply (s := S32x32x32) (t := S32x32x31) ![0, 0, 1] _ slices_S32x32x32_o0_0_1_S32x32x31 _ (ix3 i j (⟨k.val + 1, h⟩ : Fin 32)) (fun b => ?_)).trans (pay10_apply R _)
      match b with
      | ⟨0, _⟩ => (show i.val = 0 + i.val; omega)
      | ⟨1, _⟩ => (show j.val = 0 + j.val; omega)
      | ⟨2, _⟩ => (show k.val + 1 = 1 + k.val; omega)
  · rw [dif_neg h]
    refine (concatenate_pair_apply_right (t := S32x32x32) (s₁ := S32x32x31) (s₂ := S32x32x1) (2 : Fin 3) _ _ concatenates_S32x32x31_S32x32x1_S32x32x32_d2 (ix3 i j k) rfl rfl
      (ix3 i j (⟨0, Nat.one_pos⟩ : Fin 1)) (fun b hb => ?_) ?_).trans (pay13_apply _)
    · match b with
      | ⟨0, _⟩ => rfl
      | ⟨1, _⟩ => rfl
      | ⟨2, _⟩ => exact absurd rfl hb
    · show 0 + 31 = k.val
      omega

/-- The whole-block store at an index: the stencil of the block alone. -/
theorem out0_apply (X : S32x32x32.Idx → EReal) (i j k : Fin 32) :
    (out0 (F := Ideal) X : S32x32x32.Idx → EReal) (ix3 i j k) = Cert.Halo.base X i j k := by
  have hR : ∀ I : S32x32x32.Idx, xM.view.readAt (Elt Ideal) rAll.toLoadRect X I = X I := fun I =>
    readAt_whole_unit (b := cc0_stg0_0) X ![0, 0, 0] S32x32x32.size inb_S32x32x32_S32x32x32_0_0_0 I I (fun a => by
      match a with
      | ⟨0, _⟩ => (show (I 0).val = 0 + (I 0).val; omega)
      | ⟨1, _⟩ => (show (I 1).val = 0 + (I 1).val; omega)
      | ⟨2, _⟩ => (show (I 2).val = 0 + (I 2).val; omega))
  unfold out0 k0_pay20
  show (k0_pay14 _ (ix3 i j k) + k0_pay15 _ (ix3 i j k) + k0_pay16 _ (ix3 i j k) + k0_pay17 _ (ix3 i j k)
      + k0_pay18 _ (ix3 i j k) + concatenate S32x32x32 2 [⟨S32x32x31, k0_pay19 _⟩, ⟨S32x32x1, k0_pay13 (F := Ideal)⟩]
          concatenates_S32x32x31_S32x32x1_S32x32x32_d2 (ix3 i j k))
      - Cert.Halo.six * k0_pay10 _ (ix3 i j k) = _
  rw [pay14_apply, pay15_apply, pay16_apply, pay17_apply, pay18_apply, pay19c_apply, pay10_apply]
  simp only [hR]
  rfl

/-! ## The shape casts between a face and a plane -/

theorem cast_a1b_ab (x : S32x1x32.Idx → EReal) (h : S32x1x32.ShapeCasts S32x32) (i j : Fin 32) :
    shapeCast S32x32 x h (ix2 i j) = x (ix3 i (⟨0, Nat.one_pos⟩ : Fin 1) j) :=
  shapeCast_apply x h _ _ (by
    rw [Shape.rowMajor_val_three, Shape.rowMajor_val_two]
    show (i.val * 1 + 0) * 32 + j.val = i.val * 32 + j.val
    omega)

theorem cast_ab_a1b (x : S32x32.Idx → EReal) (h : S32x32.ShapeCasts S32x1x32) (i : Fin 32) (u : Fin 1) (j : Fin 32) :
    shapeCast S32x1x32 x h (ix3 i u j) = x (ix2 i j) :=
  shapeCast_apply x h _ _ (by
    have hu : u.val = 0 := by omega
    rw [Shape.rowMajor_val_three, Shape.rowMajor_val_two]
    show i.val * 32 + j.val = (i.val * 1 + u.val) * 32 + j.val
    omega)

theorem cast_ab1_ab (x : S32x32x1.Idx → EReal) (h : S32x32x1.ShapeCasts S32x32) (i j : Fin 32) :
    shapeCast S32x32 x h (ix2 i j) = x (ix3 i j (⟨0, Nat.one_pos⟩ : Fin 1)) :=
  shapeCast_apply x h _ _ (by
    rw [Shape.rowMajor_val_three, Shape.rowMajor_val_two]
    show (i.val * 32 + j.val) * 1 + 0 = i.val * 32 + j.val
    omega)

theorem cast_ab_ab1 (x : S32x32.Idx → EReal) (h : S32x32.ShapeCasts S32x32x1) (i j : Fin 32) (u : Fin 1) :
    shapeCast S32x32x1 x h (ix3 i j u) = x (ix2 i j) :=
  shapeCast_apply x h _ _ (by
    have hu : u.val = 0 := by omega
    rw [Shape.rowMajor_val_three, Shape.rowMajor_val_two]
    show i.val * 32 + j.val = (i.val * 32 + j.val) * 1 + u.val
    omega)

/-! ## The add payloads at an index -/

theorem pay21_apply (A B : Vec Ideal S1x32x32 .f32) (u : Fin 1) (j k : Fin 32) :
    k0_pay21 A B (ix3 u j k) = A (ix3 u j k) + shapeCast S32x32 B shapeCasts_S1x32x32_S32x32 (ix2 j k) := by
  unfold k0_pay21
  rw [shapeCast_ab_1ab_apply]
  show shapeCast S32x32 A shapeCasts_S1x32x32_S32x32 (ix2 j k) + _ = _
  rw [shapeCast_1ab_ab_apply]
  obtain rfl : u = 0 := Subsingleton.elim _ _
  rfl

theorem pay22_apply (A B : Vec Ideal S1x32x32 .f32) (u : Fin 1) (j k : Fin 32) :
    k0_pay22 A B (ix3 u j k) = A (ix3 u j k) + shapeCast S32x32 B shapeCasts_S1x32x32_S32x32 (ix2 j k) := by
  unfold k0_pay22
  rw [shapeCast_ab_1ab_apply]
  show shapeCast S32x32 A shapeCasts_S1x32x32_S32x32 (ix2 j k) + _ = _
  rw [shapeCast_1ab_ab_apply]
  obtain rfl : u = 0 := Subsingleton.elim _ _
  rfl

theorem pay23_apply (A : Vec Ideal S32x1x32 .f32) (B : Vec Ideal S1x32x32 .f32) (i : Fin 32) (u : Fin 1) (k : Fin 32) :
    k0_pay23 A B (ix3 i u k) = A (ix3 i u k) + shapeCast S32x32 B shapeCasts_S1x32x32_S32x32 (ix2 i k) := by
  unfold k0_pay23
  rw [cast_ab_a1b]
  show shapeCast S32x32 A shapeCasts_S32x1x32_S32x32 (ix2 i k) + _ = _
  rw [cast_a1b_ab]
  obtain rfl : u = ⟨0, Nat.one_pos⟩ := Subsingleton.elim _ _
  rfl

theorem pay24_apply (A : Vec Ideal S32x1x32 .f32) (B : Vec Ideal S1x32x32 .f32) (i : Fin 32) (u : Fin 1) (k : Fin 32) :
    k0_pay24 A B (ix3 i u k) = A (ix3 i u k) + shapeCast S32x32 B shapeCasts_S1x32x32_S32x32 (ix2 i k) := by
  unfold k0_pay24
  rw [cast_ab_a1b]
  show shapeCast S32x32 A shapeCasts_S32x1x32_S32x32 (ix2 i k) + _ = _
  rw [cast_a1b_ab]
  obtain rfl : u = ⟨0, Nat.one_pos⟩ := Subsingleton.elim _ _
  rfl

theorem pay25_apply (A : Vec Ideal S32x32x1 .f32) (B : Vec Ideal S1x32x32 .f32) (i j : Fin 32) (u : Fin 1) :
    k0_pay25 A B (ix3 i j u) = A (ix3 i j u) + shapeCast S32x32 B shapeCasts_S1x32x32_S32x32 (ix2 i j) := by
  unfold k0_pay25
  rw [cast_ab_ab1]
  show shapeCast S32x32 A shapeCasts_S32x32x1_S32x32 (ix2 i j) + _ = _
  rw [cast_ab1_ab]
  obtain rfl : u = ⟨0, Nat.one_pos⟩ := Subsingleton.elim _ _
  rfl

theorem pay26_apply (A : Vec Ideal S32x32x1 .f32) (B : Vec Ideal S1x32x32 .f32) (i j : Fin 32) (u : Fin 1) :
    k0_pay26 A B (ix3 i j u) = A (ix3 i j u) + shapeCast S32x32 B shapeCasts_S1x32x32_S32x32 (ix2 i j) := by
  unfold k0_pay26
  rw [cast_ab_ab1]
  show shapeCast S32x32 A shapeCasts_S32x32x1_S32x32 (ix2 i j) + _ = _
  rw [cast_ab1_ab]
  obtain rfl : u = ⟨0, Nat.one_pos⟩ := Subsingleton.elim _ _
  rfl

theorem pay1_apply (I : S1x32x32.Idx) : k0_pay1 (F := Ideal) I = 0 := zero_word
theorem pay2_apply (I : S1x32x32.Idx) : k0_pay2 (F := Ideal) I = 0 := zero_word
theorem pay3_apply (I : S32x1x32.Idx) : k0_pay3 (F := Ideal) I = 0 := zero_word
theorem pay4_apply (I : S32x1x32.Idx) : k0_pay4 (F := Ideal) I = 0 := zero_word
theorem pay5_apply (I : S32x32x1.Idx) : k0_pay5 (F := Ideal) I = 0 := zero_word
theorem pay6_apply (I : S32x32x1.Idx) : k0_pay6 (F := Ideal) I = 0 := zero_word

/-! ## An update on one face, read at an index -/

theorem upd_faceX (p : ℕ) (h : S32x32x32.Slices ![p, 0, 0] S1x32x32)
    (o : S32x32x32.Idx → EReal) (w : S1x32x32.Idx → EReal) (i j k : Fin 32) :
    updateSlice o w ![p, 0, 0] h (ix3 i j k) = if i.val = p then w (ix3 (⟨0, Nat.one_pos⟩ : Fin 1) j k) else o (ix3 i j k) := by
  have hi := i.isLt
  have hj := j.isLt
  have hk := k.isLt
  unfold updateSlice
  split
  · next hin =>
    have h0 := hin 0
    change p ≤ i.val ∧ i.val < p + 1 at h0
    rw [if_pos (by omega)]
    congr 1
    funext b
    apply Fin.ext
    match b with
    | ⟨0, _⟩ => (show i.val - p = 0; omega)
    | ⟨1, _⟩ => (show j.val - 0 = j.val; omega)
    | ⟨2, _⟩ => (show k.val - 0 = k.val; omega)
  · next hout =>
    rw [if_neg]
    intro hp
    refine hout fun a => ?_
    match a with
    | ⟨0, _⟩ => (show p ≤ i.val ∧ i.val < p + 1; omega)
    | ⟨1, _⟩ => (show 0 ≤ j.val ∧ j.val < 0 + 32; omega)
    | ⟨2, _⟩ => (show 0 ≤ k.val ∧ k.val < 0 + 32; omega)

theorem upd_faceY (p : ℕ) (h : S32x32x32.Slices ![0, p, 0] S32x1x32)
    (o : S32x32x32.Idx → EReal) (w : S32x1x32.Idx → EReal) (i j k : Fin 32) :
    updateSlice o w ![0, p, 0] h (ix3 i j k) = if j.val = p then w (ix3 i (⟨0, Nat.one_pos⟩ : Fin 1) k) else o (ix3 i j k) := by
  have hi := i.isLt
  have hj := j.isLt
  have hk := k.isLt
  unfold updateSlice
  split
  · next hin =>
    have h0 := hin 1
    change p ≤ j.val ∧ j.val < p + 1 at h0
    rw [if_pos (by omega)]
    congr 1
    funext b
    apply Fin.ext
    match b with
    | ⟨0, _⟩ => (show i.val - 0 = i.val; omega)
    | ⟨1, _⟩ => (show j.val - p = 0; omega)
    | ⟨2, _⟩ => (show k.val - 0 = k.val; omega)
  · next hout =>
    rw [if_neg]
    intro hp
    refine hout fun a => ?_
    match a with
    | ⟨0, _⟩ => (show 0 ≤ i.val ∧ i.val < 0 + 32; omega)
    | ⟨1, _⟩ => (show p ≤ j.val ∧ j.val < p + 1; omega)
    | ⟨2, _⟩ => (show 0 ≤ k.val ∧ k.val < 0 + 32; omega)

theorem upd_faceZ (p : ℕ) (h : S32x32x32.Slices ![0, 0, p] S32x32x1)
    (o : S32x32x32.Idx → EReal) (w : S32x32x1.Idx → EReal) (i j k : Fin 32) :
    updateSlice o w ![0, 0, p] h (ix3 i j k) = if k.val = p then w (ix3 i j (⟨0, Nat.one_pos⟩ : Fin 1)) else o (ix3 i j k) := by
  have hi := i.isLt
  have hj := j.isLt
  have hk := k.isLt
  unfold updateSlice
  split
  · next hin =>
    have h0 := hin 2
    change p ≤ k.val ∧ k.val < p + 1 at h0
    rw [if_pos (by omega)]
    congr 1
    funext b
    apply Fin.ext
    match b with
    | ⟨0, _⟩ => (show i.val - 0 = i.val; omega)
    | ⟨1, _⟩ => (show j.val - 0 = j.val; omega)
    | ⟨2, _⟩ => (show k.val - p = 0; omega)
  · next hout =>
    rw [if_neg]
    intro hp
    refine hout fun a => ?_
    match a with
    | ⟨0, _⟩ => (show 0 ≤ i.val ∧ i.val < 0 + 32; omega)
    | ⟨1, _⟩ => (show 0 ≤ j.val ∧ j.val < 0 + 32; omega)
    | ⟨2, _⟩ => (show p ≤ k.val ∧ k.val < p + 1; omega)

/-! ## The faces sent, and the slots they land in -/

section Run
variable (m : (ℓ : Loc nD τ sig) → Buf (Elt Ideal) ℓ) (ρ : Dev nD → PrngReg)

theorem sent0_apply (c' : Dev nD) (a b : Fin 32) : sent (F := Ideal) m ρ c' 0 (ix2 a b) = (xstg (F := Ideal) m ρ c' : S32x32x32.Idx → EReal) (ix3 0 a b) := by
  show shapeCast S32x32 (xM.view.readAt (Elt Ideal) rX0.toLoadRect (xstg m ρ c')) shapeCasts_S1x32x32_S32x32 (ix2 a b) = _
  rw [shapeCast_1ab_ab_apply]
  exact readAt_whole_unit (b := cc0_stg0_0) _ ![0, 0, 0] S1x32x32.size inb_S32x32x32_S1x32x32_0_0_0 _ _ (fun q => by
    match q with
    | ⟨0, _⟩ => (show (0 : ℕ) = 0 + 0; omega)
    | ⟨1, _⟩ => (show a.val = 0 + a.val; omega)
    | ⟨2, _⟩ => (show b.val = 0 + b.val; omega))

theorem sent1_apply (c' : Dev nD) (a b : Fin 32) : sent (F := Ideal) m ρ c' 1 (ix2 a b) = (xstg (F := Ideal) m ρ c' : S32x32x32.Idx → EReal) (ix3 31 a b) := by
  show shapeCast S32x32 (xM.view.readAt (Elt Ideal) rX31.toLoadRect (xstg m ρ c')) shapeCasts_S1x32x32_S32x32 (ix2 a b) = _
  rw [shapeCast_1ab_ab_apply]
  exact readAt_whole_unit (b := cc0_stg0_0) _ ![31, 0, 0] S1x32x32.size inb_S32x32x32_S1x32x32_31_0_0 _ _ (fun q => by
    match q with
    | ⟨0, _⟩ => (show (31 : ℕ) = 31 + 0; omega)
    | ⟨1, _⟩ => (show a.val = 0 + a.val; omega)
    | ⟨2, _⟩ => (show b.val = 0 + b.val; omega))

theorem sent2_apply (c' : Dev nD) (a b : Fin 32) : sent (F := Ideal) m ρ c' 2 (ix2 a b) = (xstg (F := Ideal) m ρ c' : S32x32x32.Idx → EReal) (ix3 a 0 b) := by
  show shapeCast S32x32 (xM.view.readAt (Elt Ideal) rY0.toLoadRect (xstg m ρ c')) shapeCasts_S32x1x32_S32x32 (ix2 a b) = _
  rw [cast_a1b_ab]
  exact readAt_whole_unit (b := cc0_stg0_0) _ ![0, 0, 0] S32x1x32.size inb_S32x32x32_S32x1x32_0_0_0 _ _ (fun q => by
    match q with
    | ⟨0, _⟩ => (show a.val = 0 + a.val; omega)
    | ⟨1, _⟩ => (show (0 : ℕ) = 0 + 0; omega)
    | ⟨2, _⟩ => (show b.val = 0 + b.val; omega))

theorem sent3_apply (c' : Dev nD) (a b : Fin 32) : sent (F := Ideal) m ρ c' 3 (ix2 a b) = (xstg (F := Ideal) m ρ c' : S32x32x32.Idx → EReal) (ix3 a 31 b) := by
  show shapeCast S32x32 (xM.view.readAt (Elt Ideal) rY31.toLoadRect (xstg m ρ c')) shapeCasts_S32x1x32_S32x32 (ix2 a b) = _
  rw [cast_a1b_ab]
  exact readAt_whole_unit (b := cc0_stg0_0) _ ![0, 31, 0] S32x1x32.size inb_S32x32x32_S32x1x32_0_31_0 _ _ (fun q => by
    match q with
    | ⟨0, _⟩ => (show a.val = 0 + a.val; omega)
    | ⟨1, _⟩ => (show (31 : ℕ) = 31 + 0; omega)
    | ⟨2, _⟩ => (show b.val = 0 + b.val; omega))

theorem sbuf_rows_disjoint : Disjoint (sM.view.slice rS0).set ((sM.view.slice rS1).setOn Finset.univ) := by
  rw [View.setOn_univ]
  show Disjoint ((View.whole cc0_scratch0).slice rS0).set ((View.whole cc0_scratch0).slice rS1).set
  rw [View.set_slice_whole, View.set_slice_whole]
  exact Rect.unit_disjoint 0 (Or.inl (by decide))

theorem sent4_apply (c' : Dev nD) (a b : Fin 32) : sent (F := Ideal) m ρ c' 4 (ix2 a b) = (xstg (F := Ideal) m ρ c' : S32x32x32.Idx → EReal) (ix3 a b 0) := by
  show shapeCast S32x32 ((sM.view.slice rS0).read (Elt Ideal) (sbuf m ρ c')) shapeCasts_S1x32x32_S32x32 (ix2 a b) = _
  unfold sbuf
  rw [View.read_slice_write_slice_of_disjoint rS0 rS1 _ _ _ sbuf_rows_disjoint, View.read_write_univ]
  show shapeCast S32x32 (shapeCast S1x32x32 (shapeCast S32x32 (xM.view.readAt (Elt Ideal) rZ0.toLoadRect (xstg m ρ c'))
      shapeCasts_S32x32x1_S32x32) shapeCasts_S32x32_S1x32x32) shapeCasts_S1x32x32_S32x32 (ix2 a b) = _
  rw [shapeCast_shapeCast, cast_ab1_ab]
  exact readAt_whole_unit (b := cc0_stg0_0) _ ![0, 0, 0] S32x32x1.size inb_S32x32x32_S32x32x1_0_0_0 _ _ (fun q => by
    match q with
    | ⟨0, _⟩ => (show a.val = 0 + a.val; omega)
    | ⟨1, _⟩ => (show b.val = 0 + b.val; omega)
    | ⟨2, _⟩ => (show (0 : ℕ) = 0 + 0; omega))

theorem sent5_apply (c' : Dev nD) (a b : Fin 32) : sent (F := Ideal) m ρ c' 5 (ix2 a b) = (xstg (F := Ideal) m ρ c' : S32x32x32.Idx → EReal) (ix3 a b 31) := by
  show shapeCast S32x32 ((sM.view.slice rS1).read (Elt Ideal) (sbuf m ρ c')) shapeCasts_S1x32x32_S32x32 (ix2 a b) = _
  unfold sbuf
  rw [View.read_write_univ]
  show shapeCast S32x32 (shapeCast S1x32x32 (shapeCast S32x32 (xM.view.readAt (Elt Ideal) rZ31.toLoadRect (xstg m ρ c'))
      shapeCasts_S32x32x1_S32x32) shapeCasts_S32x32_S1x32x32) shapeCasts_S1x32x32_S32x32 (ix2 a b) = _
  rw [shapeCast_shapeCast, cast_ab1_ab]
  exact readAt_whole_unit (b := cc0_stg0_0) _ ![0, 0, 31] S32x32x1.size inb_S32x32x32_S32x32x1_0_0_31 _ _ (fun q => by
    match q with
    | ⟨0, _⟩ => (show a.val = 0 + a.val; omega)
    | ⟨1, _⟩ => (show b.val = 0 + b.val; omega)
    | ⟨2, _⟩ => (show (31 : ℕ) = 31 + 0; omega))

theorem landed0_read (c : Dev nD) :
    shapeCast S32x32 (rM.view.readAt (Elt Ideal) rR0.toLoadRect (landed (F := Ideal) m ρ c 0)) shapeCasts_S1x32x32_S32x32
      = sent (F := Ideal) m ρ (nb c 0) 1 :=
  View.read_write_univ (v := (slotM 0).view) (Val := Elt Ideal) _ _
theorem landed1_read (c : Dev nD) :
    shapeCast S32x32 (rM.view.readAt (Elt Ideal) rR1.toLoadRect (landed (F := Ideal) m ρ c 1)) shapeCasts_S1x32x32_S32x32
      = sent (F := Ideal) m ρ (nb c 1) 0 :=
  View.read_write_univ (v := (slotM 1).view) (Val := Elt Ideal) _ _
theorem landed2_read (c : Dev nD) :
    shapeCast S32x32 (rM.view.readAt (Elt Ideal) rR2.toLoadRect (landed (F := Ideal) m ρ c 2)) shapeCasts_S1x32x32_S32x32
      = sent (F := Ideal) m ρ (nb c 2) 3 :=
  View.read_write_univ (v := (slotM 2).view) (Val := Elt Ideal) _ _
theorem landed3_read (c : Dev nD) :
    shapeCast S32x32 (rM.view.readAt (Elt Ideal) rR3.toLoadRect (landed (F := Ideal) m ρ c 3)) shapeCasts_S1x32x32_S32x32
      = sent (F := Ideal) m ρ (nb c 3) 2 :=
  View.read_write_univ (v := (slotM 3).view) (Val := Elt Ideal) _ _
theorem landed4_read (c : Dev nD) :
    shapeCast S32x32 (rM.view.readAt (Elt Ideal) rR4.toLoadRect (landed (F := Ideal) m ρ c 4)) shapeCasts_S1x32x32_S32x32
      = sent (F := Ideal) m ρ (nb c 4) 5 :=
  View.read_write_univ (v := (slotM 4).view) (Val := Elt Ideal) _ _
theorem landed5_read (c : Dev nD) :
    shapeCast S32x32 (rM.view.readAt (Elt Ideal) rR5.toLoadRect (landed (F := Ideal) m ρ c 5)) shapeCasts_S1x32x32_S32x32
      = sent (F := Ideal) m ρ (nb c 5) 4 :=
  View.read_write_univ (v := (slotM 5).view) (Val := Elt Ideal) _ _

/-! ## One face of the output: a received plane added, or zero stored -/

/-- A device's output buffer's contents, as a function to the extended reals. -/
abbrev toB (o : OutC (F := Ideal)) : S32x32x32.Idx → EReal := o
/-- A 32 × 32 plane, as a function to the extended reals. -/
abbrev toP (p : S32x32.Idx → Elt Ideal .f32) : S32x32.Idx → EReal := p

theorem addFace0_apply (o : OutC (F := Ideal)) (r : RecvC (F := Ideal)) (i j k : Fin 32) :
    toB (addFace (F := Ideal) 0 o r) (ix3 i j k)
      = if i.val = 0 then toB o (ix3 i j k)
          + toP (shapeCast S32x32 (rM.view.readAt (Elt Ideal) rR0.toLoadRect r) shapeCasts_S1x32x32_S32x32) (ix2 j k)
        else toB o (ix3 i j k) := by
  refine (congrFun (View.write_whole_slice_unit (Val := Elt Ideal) cc0_stg1_0 ![0, 0, 0] S1x32x32.size inb_S32x32x32_S1x32x32_0_0_0 o
    (k0_pay21 (oM.view.readAt (Elt Ideal) rX0.toLoadRect o) (rM.view.readAt (Elt Ideal) rR0.toLoadRect r))) (ix3 i j k)).trans ?_
  refine (upd_faceX 0 _ (toB o) _ i j k).trans ?_
  by_cases h : i.val = 0
  · rw [if_pos h, if_pos h, pay21_apply]
    congr 1
    exact readAt_whole_unit (b := cc0_stg1_0) o ![0, 0, 0] S1x32x32.size inb_S32x32x32_S1x32x32_0_0_0 _ _ (fun q => by
    match q with
    | ⟨0, _⟩ => (show i.val = 0 + 0; omega)
    | ⟨1, _⟩ => (show j.val = 0 + j.val; omega)
    | ⟨2, _⟩ => (show k.val = 0 + k.val; omega))
  · rw [if_neg h, if_neg h]

theorem zeroFace0_apply (o : OutC (F := Ideal)) (i j k : Fin 32) :
    toB (zeroFace (F := Ideal) 0 o) (ix3 i j k) = if i.val = 0 then 0 else toB o (ix3 i j k) := by
  refine (congrFun (View.write_whole_slice_unit (Val := Elt Ideal) cc0_stg1_0 ![0, 0, 0] S1x32x32.size inb_S32x32x32_S1x32x32_0_0_0 o
    (k0_pay1 (F := Ideal))) (ix3 i j k)).trans ?_
  refine (upd_faceX 0 _ (toB o) _ i j k).trans ?_
  rw [pay1_apply]

theorem addFace1_apply (o : OutC (F := Ideal)) (r : RecvC (F := Ideal)) (i j k : Fin 32) :
    toB (addFace (F := Ideal) 1 o r) (ix3 i j k)
      = if i.val = 31 then toB o (ix3 i j k)
          + toP (shapeCast S32x32 (rM.view.readAt (Elt Ideal) rR1.toLoadRect r) shapeCasts_S1x32x32_S32x32) (ix2 j k)
        else toB o (ix3 i j k) := by
  refine (congrFun (View.write_whole_slice_unit (Val := Elt Ideal) cc0_stg1_0 ![31, 0, 0] S1x32x32.size inb_S32x32x32_S1x32x32_31_0_0 o
    (k0_pay22 (oM.view.readAt (Elt Ideal) rX31.toLoadRect o) (rM.view.readAt (Elt Ideal) rR1.toLoadRect r))) (ix3 i j k)).trans ?_
  refine (upd_faceX 31 _ (toB o) _ i j k).trans ?_
  by_cases h : i.val = 31
  · rw [if_pos h, if_pos h, pay22_apply]
    congr 1
    exact readAt_whole_unit (b := cc0_stg1_0) o ![31, 0, 0] S1x32x32.size inb_S32x32x32_S1x32x32_31_0_0 _ _ (fun q => by
    match q with
    | ⟨0, _⟩ => (show i.val = 31 + 0; omega)
    | ⟨1, _⟩ => (show j.val = 0 + j.val; omega)
    | ⟨2, _⟩ => (show k.val = 0 + k.val; omega))
  · rw [if_neg h, if_neg h]

theorem zeroFace1_apply (o : OutC (F := Ideal)) (i j k : Fin 32) :
    toB (zeroFace (F := Ideal) 1 o) (ix3 i j k) = if i.val = 31 then 0 else toB o (ix3 i j k) := by
  refine (congrFun (View.write_whole_slice_unit (Val := Elt Ideal) cc0_stg1_0 ![31, 0, 0] S1x32x32.size inb_S32x32x32_S1x32x32_31_0_0 o
    (k0_pay2 (F := Ideal))) (ix3 i j k)).trans ?_
  refine (upd_faceX 31 _ (toB o) _ i j k).trans ?_
  rw [pay2_apply]

theorem addFace2_apply (o : OutC (F := Ideal)) (r : RecvC (F := Ideal)) (i j k : Fin 32) :
    toB (addFace (F := Ideal) 2 o r) (ix3 i j k)
      = if j.val = 0 then toB o (ix3 i j k)
          + toP (shapeCast S32x32 (rM.view.readAt (Elt Ideal) rR2.toLoadRect r) shapeCasts_S1x32x32_S32x32) (ix2 i k)
        else toB o (ix3 i j k) := by
  refine (congrFun (View.write_whole_slice_unit (Val := Elt Ideal) cc0_stg1_0 ![0, 0, 0] S32x1x32.size inb_S32x32x32_S32x1x32_0_0_0 o
    (k0_pay23 (oM.view.readAt (Elt Ideal) rY0.toLoadRect o) (rM.view.readAt (Elt Ideal) rR2.toLoadRect r))) (ix3 i j k)).trans ?_
  refine (upd_faceY 0 _ (toB o) _ i j k).trans ?_
  by_cases h : j.val = 0
  · rw [if_pos h, if_pos h, pay23_apply]
    congr 1
    exact readAt_whole_unit (b := cc0_stg1_0) o ![0, 0, 0] S32x1x32.size inb_S32x32x32_S32x1x32_0_0_0 _ _ (fun q => by
    match q with
    | ⟨0, _⟩ => (show i.val = 0 + i.val; omega)
    | ⟨1, _⟩ => (show j.val = 0 + 0; omega)
    | ⟨2, _⟩ => (show k.val = 0 + k.val; omega))
  · rw [if_neg h, if_neg h]

theorem zeroFace2_apply (o : OutC (F := Ideal)) (i j k : Fin 32) :
    toB (zeroFace (F := Ideal) 2 o) (ix3 i j k) = if j.val = 0 then 0 else toB o (ix3 i j k) := by
  refine (congrFun (View.write_whole_slice_unit (Val := Elt Ideal) cc0_stg1_0 ![0, 0, 0] S32x1x32.size inb_S32x32x32_S32x1x32_0_0_0 o
    (k0_pay3 (F := Ideal))) (ix3 i j k)).trans ?_
  refine (upd_faceY 0 _ (toB o) _ i j k).trans ?_
  rw [pay3_apply]

theorem addFace3_apply (o : OutC (F := Ideal)) (r : RecvC (F := Ideal)) (i j k : Fin 32) :
    toB (addFace (F := Ideal) 3 o r) (ix3 i j k)
      = if j.val = 31 then toB o (ix3 i j k)
          + toP (shapeCast S32x32 (rM.view.readAt (Elt Ideal) rR3.toLoadRect r) shapeCasts_S1x32x32_S32x32) (ix2 i k)
        else toB o (ix3 i j k) := by
  refine (congrFun (View.write_whole_slice_unit (Val := Elt Ideal) cc0_stg1_0 ![0, 31, 0] S32x1x32.size inb_S32x32x32_S32x1x32_0_31_0 o
    (k0_pay24 (oM.view.readAt (Elt Ideal) rY31.toLoadRect o) (rM.view.readAt (Elt Ideal) rR3.toLoadRect r))) (ix3 i j k)).trans ?_
  refine (upd_faceY 31 _ (toB o) _ i j k).trans ?_
  by_cases h : j.val = 31
  · rw [if_pos h, if_pos h, pay24_apply]
    congr 1
    exact readAt_whole_unit (b := cc0_stg1_0) o ![0, 31, 0] S32x1x32.size inb_S32x32x32_S32x1x32_0_31_0 _ _ (fun q => by
    match q with
    | ⟨0, _⟩ => (show i.val = 0 + i.val; omega)
    | ⟨1, _⟩ => (show j.val = 31 + 0; omega)
    | ⟨2, _⟩ => (show k.val = 0 + k.val; omega))
  · rw [if_neg h, if_neg h]

theorem zeroFace3_apply (o : OutC (F := Ideal)) (i j k : Fin 32) :
    toB (zeroFace (F := Ideal) 3 o) (ix3 i j k) = if j.val = 31 then 0 else toB o (ix3 i j k) := by
  refine (congrFun (View.write_whole_slice_unit (Val := Elt Ideal) cc0_stg1_0 ![0, 31, 0] S32x1x32.size inb_S32x32x32_S32x1x32_0_31_0 o
    (k0_pay4 (F := Ideal))) (ix3 i j k)).trans ?_
  refine (upd_faceY 31 _ (toB o) _ i j k).trans ?_
  rw [pay4_apply]

theorem addFace4_apply (o : OutC (F := Ideal)) (r : RecvC (F := Ideal)) (i j k : Fin 32) :
    toB (addFace (F := Ideal) 4 o r) (ix3 i j k)
      = if k.val = 0 then toB o (ix3 i j k)
          + toP (shapeCast S32x32 (rM.view.readAt (Elt Ideal) rR4.toLoadRect r) shapeCasts_S1x32x32_S32x32) (ix2 i j)
        else toB o (ix3 i j k) := by
  refine (congrFun (View.write_whole_slice_unit (Val := Elt Ideal) cc0_stg1_0 ![0, 0, 0] S32x32x1.size inb_S32x32x32_S32x32x1_0_0_0 o
    (k0_pay25 (oM.view.readAt (Elt Ideal) rZ0.toLoadRect o) (rM.view.readAt (Elt Ideal) rR4.toLoadRect r))) (ix3 i j k)).trans ?_
  refine (upd_faceZ 0 _ (toB o) _ i j k).trans ?_
  by_cases h : k.val = 0
  · rw [if_pos h, if_pos h, pay25_apply]
    congr 1
    exact readAt_whole_unit (b := cc0_stg1_0) o ![0, 0, 0] S32x32x1.size inb_S32x32x32_S32x32x1_0_0_0 _ _ (fun q => by
    match q with
    | ⟨0, _⟩ => (show i.val = 0 + i.val; omega)
    | ⟨1, _⟩ => (show j.val = 0 + j.val; omega)
    | ⟨2, _⟩ => (show k.val = 0 + 0; omega))
  · rw [if_neg h, if_neg h]

theorem zeroFace4_apply (o : OutC (F := Ideal)) (i j k : Fin 32) :
    toB (zeroFace (F := Ideal) 4 o) (ix3 i j k) = if k.val = 0 then 0 else toB o (ix3 i j k) := by
  refine (congrFun (View.write_whole_slice_unit (Val := Elt Ideal) cc0_stg1_0 ![0, 0, 0] S32x32x1.size inb_S32x32x32_S32x32x1_0_0_0 o
    (k0_pay5 (F := Ideal))) (ix3 i j k)).trans ?_
  refine (upd_faceZ 0 _ (toB o) _ i j k).trans ?_
  rw [pay5_apply]

theorem addFace5_apply (o : OutC (F := Ideal)) (r : RecvC (F := Ideal)) (i j k : Fin 32) :
    toB (addFace (F := Ideal) 5 o r) (ix3 i j k)
      = if k.val = 31 then toB o (ix3 i j k)
          + toP (shapeCast S32x32 (rM.view.readAt (Elt Ideal) rR5.toLoadRect r) shapeCasts_S1x32x32_S32x32) (ix2 i j)
        else toB o (ix3 i j k) := by
  refine (congrFun (View.write_whole_slice_unit (Val := Elt Ideal) cc0_stg1_0 ![0, 0, 31] S32x32x1.size inb_S32x32x32_S32x32x1_0_0_31 o
    (k0_pay26 (oM.view.readAt (Elt Ideal) rZ31.toLoadRect o) (rM.view.readAt (Elt Ideal) rR5.toLoadRect r))) (ix3 i j k)).trans ?_
  refine (upd_faceZ 31 _ (toB o) _ i j k).trans ?_
  by_cases h : k.val = 31
  · rw [if_pos h, if_pos h, pay26_apply]
    congr 1
    exact readAt_whole_unit (b := cc0_stg1_0) o ![0, 0, 31] S32x32x1.size inb_S32x32x32_S32x32x1_0_0_31 _ _ (fun q => by
    match q with
    | ⟨0, _⟩ => (show i.val = 0 + i.val; omega)
    | ⟨1, _⟩ => (show j.val = 0 + j.val; omega)
    | ⟨2, _⟩ => (show k.val = 31 + 0; omega))
  · rw [if_neg h, if_neg h]

theorem zeroFace5_apply (o : OutC (F := Ideal)) (i j k : Fin 32) :
    toB (zeroFace (F := Ideal) 5 o) (ix3 i j k) = if k.val = 31 then 0 else toB o (ix3 i j k) := by
  refine (congrFun (View.write_whole_slice_unit (Val := Elt Ideal) cc0_stg1_0 ![0, 0, 31] S32x32x1.size inb_S32x32x32_S32x32x1_0_0_31 o
    (k0_pay6 (F := Ideal))) (ix3 i j k)).trans ?_
  refine (upd_faceZ 31 _ (toB o) _ i j k).trans ?_
  rw [pay6_apply]

/-! ## The twelve steps -/

theorem addStep0_apply (c : Dev nD) (o : OutC (F := Ideal)) (i j k : Fin 32) :
    toB (addStep (F := Ideal) m ρ c 0 o) (ix3 i j k)
      = if has c 0 = true ∧ i.val = 0 then toB o (ix3 i j k) + Cert.Halo.halo (fun c' => (xstg (F := Ideal) m ρ c' : S32x32x32.Idx → EReal)) c 0 j k
        else toB o (ix3 i j k) := by
  unfold addStep
  by_cases hh : has c 0 = true
  · rw [if_pos hh, addFace0_apply, landed0_read]
    by_cases hi : i.val = 0
    · rw [if_pos hi, if_pos ⟨hh, hi⟩]
      congr 1
      exact sent1_apply m ρ (nb c 0) _ _
    · rw [if_neg hi, if_neg (fun h => hi h.2)]
  · rw [if_neg hh, if_neg (fun h => hh h.1)]

theorem zeroStep0_apply (c : Dev nD) (o : OutC (F := Ideal)) (i j k : Fin 32) :
    toB (zeroStep (F := Ideal) c 0 o) (ix3 i j k)
      = if has c 0 = false ∧ i.val = 0 then 0 else toB o (ix3 i j k) := by
  unfold zeroStep
  by_cases hh : has c 0 = true
  · rw [if_pos hh, if_neg (fun h => Bool.noConfusion (hh.symm.trans h.1))]
  · rw [if_neg hh, zeroFace0_apply]
    have hf : has c 0 = false := (Bool.not_eq_true _).mp hh
    by_cases hi : i.val = 0
    · rw [if_pos hi, if_pos ⟨hf, hi⟩]
    · rw [if_neg hi, if_neg (fun h => hi h.2)]

theorem addStep1_apply (c : Dev nD) (o : OutC (F := Ideal)) (i j k : Fin 32) :
    toB (addStep (F := Ideal) m ρ c 1 o) (ix3 i j k)
      = if has c 1 = true ∧ i.val = 31 then toB o (ix3 i j k) + Cert.Halo.halo (fun c' => (xstg (F := Ideal) m ρ c' : S32x32x32.Idx → EReal)) c 1 j k
        else toB o (ix3 i j k) := by
  unfold addStep
  by_cases hh : has c 1 = true
  · rw [if_pos hh, addFace1_apply, landed1_read]
    by_cases hi : i.val = 31
    · rw [if_pos hi, if_pos ⟨hh, hi⟩]
      congr 1
      exact sent0_apply m ρ (nb c 1) _ _
    · rw [if_neg hi, if_neg (fun h => hi h.2)]
  · rw [if_neg hh, if_neg (fun h => hh h.1)]

theorem zeroStep1_apply (c : Dev nD) (o : OutC (F := Ideal)) (i j k : Fin 32) :
    toB (zeroStep (F := Ideal) c 1 o) (ix3 i j k)
      = if has c 1 = false ∧ i.val = 31 then 0 else toB o (ix3 i j k) := by
  unfold zeroStep
  by_cases hh : has c 1 = true
  · rw [if_pos hh, if_neg (fun h => Bool.noConfusion (hh.symm.trans h.1))]
  · rw [if_neg hh, zeroFace1_apply]
    have hf : has c 1 = false := (Bool.not_eq_true _).mp hh
    by_cases hi : i.val = 31
    · rw [if_pos hi, if_pos ⟨hf, hi⟩]
    · rw [if_neg hi, if_neg (fun h => hi h.2)]

theorem addStep2_apply (c : Dev nD) (o : OutC (F := Ideal)) (i j k : Fin 32) :
    toB (addStep (F := Ideal) m ρ c 2 o) (ix3 i j k)
      = if has c 2 = true ∧ j.val = 0 then toB o (ix3 i j k) + Cert.Halo.halo (fun c' => (xstg (F := Ideal) m ρ c' : S32x32x32.Idx → EReal)) c 2 i k
        else toB o (ix3 i j k) := by
  unfold addStep
  by_cases hh : has c 2 = true
  · rw [if_pos hh, addFace2_apply, landed2_read]
    by_cases hi : j.val = 0
    · rw [if_pos hi, if_pos ⟨hh, hi⟩]
      congr 1
      exact sent3_apply m ρ (nb c 2) _ _
    · rw [if_neg hi, if_neg (fun h => hi h.2)]
  · rw [if_neg hh, if_neg (fun h => hh h.1)]

theorem zeroStep2_apply (c : Dev nD) (o : OutC (F := Ideal)) (i j k : Fin 32) :
    toB (zeroStep (F := Ideal) c 2 o) (ix3 i j k)
      = if has c 2 = false ∧ j.val = 0 then 0 else toB o (ix3 i j k) := by
  unfold zeroStep
  by_cases hh : has c 2 = true
  · rw [if_pos hh, if_neg (fun h => Bool.noConfusion (hh.symm.trans h.1))]
  · rw [if_neg hh, zeroFace2_apply]
    have hf : has c 2 = false := (Bool.not_eq_true _).mp hh
    by_cases hi : j.val = 0
    · rw [if_pos hi, if_pos ⟨hf, hi⟩]
    · rw [if_neg hi, if_neg (fun h => hi h.2)]

theorem addStep3_apply (c : Dev nD) (o : OutC (F := Ideal)) (i j k : Fin 32) :
    toB (addStep (F := Ideal) m ρ c 3 o) (ix3 i j k)
      = if has c 3 = true ∧ j.val = 31 then toB o (ix3 i j k) + Cert.Halo.halo (fun c' => (xstg (F := Ideal) m ρ c' : S32x32x32.Idx → EReal)) c 3 i k
        else toB o (ix3 i j k) := by
  unfold addStep
  by_cases hh : has c 3 = true
  · rw [if_pos hh, addFace3_apply, landed3_read]
    by_cases hi : j.val = 31
    · rw [if_pos hi, if_pos ⟨hh, hi⟩]
      congr 1
      exact sent2_apply m ρ (nb c 3) _ _
    · rw [if_neg hi, if_neg (fun h => hi h.2)]
  · rw [if_neg hh, if_neg (fun h => hh h.1)]

theorem zeroStep3_apply (c : Dev nD) (o : OutC (F := Ideal)) (i j k : Fin 32) :
    toB (zeroStep (F := Ideal) c 3 o) (ix3 i j k)
      = if has c 3 = false ∧ j.val = 31 then 0 else toB o (ix3 i j k) := by
  unfold zeroStep
  by_cases hh : has c 3 = true
  · rw [if_pos hh, if_neg (fun h => Bool.noConfusion (hh.symm.trans h.1))]
  · rw [if_neg hh, zeroFace3_apply]
    have hf : has c 3 = false := (Bool.not_eq_true _).mp hh
    by_cases hi : j.val = 31
    · rw [if_pos hi, if_pos ⟨hf, hi⟩]
    · rw [if_neg hi, if_neg (fun h => hi h.2)]

theorem addStep4_apply (c : Dev nD) (o : OutC (F := Ideal)) (i j k : Fin 32) :
    toB (addStep (F := Ideal) m ρ c 4 o) (ix3 i j k)
      = if has c 4 = true ∧ k.val = 0 then toB o (ix3 i j k) + Cert.Halo.halo (fun c' => (xstg (F := Ideal) m ρ c' : S32x32x32.Idx → EReal)) c 4 i j
        else toB o (ix3 i j k) := by
  unfold addStep
  by_cases hh : has c 4 = true
  · rw [if_pos hh, addFace4_apply, landed4_read]
    by_cases hi : k.val = 0
    · rw [if_pos hi, if_pos ⟨hh, hi⟩]
      congr 1
      exact sent5_apply m ρ (nb c 4) _ _
    · rw [if_neg hi, if_neg (fun h => hi h.2)]
  · rw [if_neg hh, if_neg (fun h => hh h.1)]

theorem zeroStep4_apply (c : Dev nD) (o : OutC (F := Ideal)) (i j k : Fin 32) :
    toB (zeroStep (F := Ideal) c 4 o) (ix3 i j k)
      = if has c 4 = false ∧ k.val = 0 then 0 else toB o (ix3 i j k) := by
  unfold zeroStep
  by_cases hh : has c 4 = true
  · rw [if_pos hh, if_neg (fun h => Bool.noConfusion (hh.symm.trans h.1))]
  · rw [if_neg hh, zeroFace4_apply]
    have hf : has c 4 = false := (Bool.not_eq_true _).mp hh
    by_cases hi : k.val = 0
    · rw [if_pos hi, if_pos ⟨hf, hi⟩]
    · rw [if_neg hi, if_neg (fun h => hi h.2)]

theorem addStep5_apply (c : Dev nD) (o : OutC (F := Ideal)) (i j k : Fin 32) :
    toB (addStep (F := Ideal) m ρ c 5 o) (ix3 i j k)
      = if has c 5 = true ∧ k.val = 31 then toB o (ix3 i j k) + Cert.Halo.halo (fun c' => (xstg (F := Ideal) m ρ c' : S32x32x32.Idx → EReal)) c 5 i j
        else toB o (ix3 i j k) := by
  unfold addStep
  by_cases hh : has c 5 = true
  · rw [if_pos hh, addFace5_apply, landed5_read]
    by_cases hi : k.val = 31
    · rw [if_pos hi, if_pos ⟨hh, hi⟩]
      congr 1
      exact sent4_apply m ρ (nb c 5) _ _
    · rw [if_neg hi, if_neg (fun h => hi h.2)]
  · rw [if_neg hh, if_neg (fun h => hh h.1)]

theorem zeroStep5_apply (c : Dev nD) (o : OutC (F := Ideal)) (i j k : Fin 32) :
    toB (zeroStep (F := Ideal) c 5 o) (ix3 i j k)
      = if has c 5 = false ∧ k.val = 31 then 0 else toB o (ix3 i j k) := by
  unfold zeroStep
  by_cases hh : has c 5 = true
  · rw [if_pos hh, if_neg (fun h => Bool.noConfusion (hh.symm.trans h.1))]
  · rw [if_neg hh, zeroFace5_apply]
    have hf : has c 5 = false := (Bool.not_eq_true _).mp hh
    by_cases hi : k.val = 31
    · rw [if_pos hi, if_pos ⟨hf, hi⟩]
    · rw [if_neg hi, if_neg (fun h => hi h.2)]

end Run

/-- Six nested "zero here" tests are one test of their disjunction. -/
theorem ite_or6 (p0 p1 p2 p3 p4 p5 : Prop) [Decidable p0] [Decidable p1] [Decidable p2] [Decidable p3] [Decidable p4]
    [Decidable p5] (v : EReal) :
    (if p5 then 0 else if p4 then 0 else if p3 then 0 else if p2 then 0 else if p1 then 0 else if p0 then 0 else v)
      = if p0 ∨ p1 ∨ p2 ∨ p3 ∨ p4 ∨ p5 then 0 else v := by
  by_cases h0 : p0 <;> by_cases h1 : p1 <;> by_cases h2 : p2 <;> by_cases h3 : p3 <;> by_cases h4 : p4 <;>
    by_cases h5 : p5 <;> simp [h0, h1, h2, h3, h4, h5]

/-- THE OUTPUT AT AN INDEX: what the device's output staging buffer ends with is `outFn` of its block and its
    neighbours' face planes. -/
theorem outAt_eq_outFn (m : (ℓ : Loc nD τ sig) → Buf (Elt Ideal) ℓ) (ρ : Dev nD → PrngReg) (c : Dev nD) :
    (outAt (F := Ideal) m ρ c : S32x32x32.Idx → EReal)
      = fun i => Cert.Halo.outFn (Cert.Halo.has c) (xstg (F := Ideal) m ρ c) (Cert.Halo.halo (fun c' => xstg (F := Ideal) m ρ c') c) (i 0) (i 1) (i 2) := by
  funext I
  obtain ⟨i, j, k, rfl⟩ : ∃ i j k : Fin 32, I = ix3 i j k := ⟨I 0, I 1, I 2, eq_ix3 I⟩
  show toB (outAt (F := Ideal) m ρ c) (ix3 i j k)
    = Cert.Halo.outFn (Cert.Halo.has c) (xstg (F := Ideal) m ρ c : S32x32x32.Idx → EReal)
        (Cert.Halo.halo (fun c' => (xstg (F := Ideal) m ρ c' : S32x32x32.Idx → EReal)) c) i j k
  unfold outAt
  rw [zeroStep5_apply, zeroStep4_apply, zeroStep3_apply, zeroStep2_apply, zeroStep1_apply, zeroStep0_apply, ite_or6,
    addStep5_apply, addStep4_apply, addStep3_apply, addStep2_apply, addStep1_apply, addStep0_apply]
  rw [show toB (out0 (F := Ideal) (xstg (F := Ideal) m ρ c)) (ix3 i j k)
      = Cert.Halo.base (xstg (F := Ideal) m ρ c : S32x32x32.Idx → EReal) i j k from out0_apply _ i j k]
  rfl

end Cert.KernelIdeal.HP

end
-- ==== Proof.HaloBlock.lean ====
/-
  Each device's share of the whole-array stencil.

  A device of the 2 × 2 × 4 mesh at mesh coordinates (a, b, d) holds the 32 × 32 × 32 block of the whole
  64 × 64 × 128 array that starts at (32 a, 32 b, 32 d). Reading the whole array at natural-number coordinates
  (`ext`, zero outside the box) turns every read of a block, of a neighbouring block's face, and of the
  whole-array stencil into a read at coordinates that are sums of naturals. Along each axis and in each
  direction the block's own neighbour (zero on the block's face) plus the neighbouring block's plane (present
  only on that face, and only where there is a neighbouring device) is the whole array's neighbour; this needs
  only `0 + a = a` and `a + 0 = a`. The six such sums are then regrouped by commutativity and associativity
  of addition on the extended reals, with `a - b = a + -b`; nothing is cancelled and nothing is distributed.
  On the boundary of the whole box both sides are zero.
-/
import proofs.«900363_g7700000000000364_dist_halo3d_v7x_xyz2x2x4_s32_f32_1_alg».proof.Proof.HaloFn

noncomputable section

namespace Cert.Halo

open Idealize.ShloMosaic Idealize.ShloMosaic.ValueIdx

/-! ## The whole array at natural-number coordinates -/

/-- The whole array read at natural-number coordinates, zero outside the box. -/
def ext (U : Whole.Idx → EReal) (x y z : ℕ) : EReal :=
  if h : x < 64 ∧ y < 64 ∧ z < 128 then U (ix3 ⟨x, h.1⟩ ⟨y, h.2.1⟩ ⟨z, h.2.2⟩) else 0

theorem ext_ix3 (U : Whole.Idx → EReal) (x : Fin 64) (y : Fin 64) (z : Fin 128) :
    U (ix3 x y z) = ext U x.val y.val z.val := by
  unfold ext; rw [dif_pos ⟨x.isLt, y.isLt, z.isLt⟩]

theorem ext_idx (U : Whole.Idx → EReal) (I : Whole.Idx) : U I = ext U (I 0).val (I 1).val (I 2).val := by
  conv_lhs => rw [eq_ix3 I]
  exact ext_ix3 U (I 0) (I 1) (I 2)

/-- The whole-array stencil at natural-number coordinates. -/
def lapN (U : Whole.Idx → EReal) (X Y Z : ℕ) : EReal :=
  if 1 ≤ X ∧ X ≤ 62 ∧ 1 ≤ Y ∧ Y ≤ 62 ∧ 1 ≤ Z ∧ Z ≤ 126 then
    ext U (X - 1) Y Z + ext U (X + 1) Y Z + ext U X (Y - 1) Z + ext U X (Y + 1) Z
      + ext U X Y (Z - 1) + ext U X Y (Z + 1) - six * ext U X Y Z
  else 0

theorem lap_idx (U : Whole.Idx → EReal) (I : Whole.Idx) : lap U I = lapN U (I 0).val (I 1).val (I 2).val := by
  unfold lap lapN
  by_cases h : 1 ≤ (I 0).val ∧ (I 0).val ≤ 62 ∧ 1 ≤ (I 1).val ∧ (I 1).val ≤ 62 ∧ 1 ≤ (I 2).val ∧ (I 2).val ≤ 126
  · rw [dif_pos h, if_pos h, ext_idx U I]
    simp only [ext_ix3]
  · rw [dif_neg h, if_neg h]

/-! ## The mesh -/

/-- The block coordinates the layout gives device `c` are its mesh coordinates. -/
theorem mesh_val : ∀ c : Fin 16,
    (Layout.meshBlock [2, 2, 4] ![[0], [1], [2]] c (by decide) 0).val = cx c
      ∧ (Layout.meshBlock [2, 2, 4] ![[0], [1], [2]] c (by decide) 1).val = cy c
      ∧ (Layout.meshBlock [2, 2, 4] ![[0], [1], [2]] c (by decide) 2).val = cz c := by
  decide

theorem mesh_lt : ∀ c : Fin 16, cx c < 2 ∧ cy c < 2 ∧ cz c < 4 := by decide

/-- A neighbouring device's mesh coordinates: one step along one axis. -/
theorem nb_coords : ∀ c : Fin 16,
    (has c 0 = true → cx (nb c 0) = cx c - 1 ∧ cy (nb c 0) = cy c ∧ cz (nb c 0) = cz c)
      ∧ (has c 1 = true → cx (nb c 1) = cx c + 1 ∧ cy (nb c 1) = cy c ∧ cz (nb c 1) = cz c)
      ∧ (has c 2 = true → cx (nb c 2) = cx c ∧ cy (nb c 2) = cy c - 1 ∧ cz (nb c 2) = cz c)
      ∧ (has c 3 = true → cx (nb c 3) = cx c ∧ cy (nb c 3) = cy c + 1 ∧ cz (nb c 3) = cz c)
      ∧ (has c 4 = true → cx (nb c 4) = cx c ∧ cy (nb c 4) = cy c ∧ cz (nb c 4) = cz c - 1)
      ∧ (has c 5 = true → cx (nb c 5) = cx c ∧ cy (nb c 5) = cy c ∧ cz (nb c 5) = cz c + 1) := by
  decide

theorem has0 (c : Fin 16) : (has c 0 = true) = (0 < cx c) := by simp [has]
theorem has1 (c : Fin 16) : (has c 1 = true) = (cx c < 1) := by simp [has]
theorem has2 (c : Fin 16) : (has c 2 = true) = (0 < cy c) := by simp [has]
theorem has3 (c : Fin 16) : (has c 3 = true) = (cy c < 1) := by simp [has]
theorem has4 (c : Fin 16) : (has c 4 = true) = (0 < cz c) := by simp [has]
theorem has5 (c : Fin 16) : (has c 5 = true) = (cz c < 3) := by simp [has]

/-- A function of the whole array's indices that only depends on their values, read in device `c`'s block. -/
theorem block_read (W : Whole.Idx → EReal) (g : ℕ → ℕ → ℕ → EReal)
    (hg : ∀ I : Whole.Idx, W I = g (I 0).val (I 1).val (I 2).val) (c : Fin 16) (i j k : Fin 32) :
    Layout.blockN ⟨3, ![32, 32, 32]⟩ ⟨3, ![64, 64, 128]⟩ (Layout.meshBlock [2, 2, 4] ![[0], [1], [2]] c) W (by decide) (ix3 i j k)
      = g (cx c * 32 + i.val) (cy c * 32 + j.val) (cz c * 32 + k.val) := by
  rw [Layout.blockN_apply, hg]
  show g ((Layout.meshBlock [2, 2, 4] ![[0], [1], [2]] c (by decide) 0).val * 32 + i.val)
      ((Layout.meshBlock [2, 2, 4] ![[0], [1], [2]] c (by decide) 1).val * 32 + j.val)
      ((Layout.meshBlock [2, 2, 4] ![[0], [1], [2]] c (by decide) 2).val * 32 + k.val) = _
  rw [(mesh_val c).1, (mesh_val c).2.1, (mesh_val c).2.2]

/-! ## One axis, one direction -/

/-- Towards smaller coordinates: the block's own neighbour, or on the block's first plane the last plane of the
    block before it, is the whole array's neighbour. -/
theorem axis_minus (f : ℕ → EReal) (a i : ℕ) (hX : 1 ≤ a * 32 + i) :
    (if 0 < i then f (a * 32 + (i - 1)) else 0) + (if 0 < a ∧ i = 0 then f ((a - 1) * 32 + 31) else 0)
      = f (a * 32 + i - 1) := by
  by_cases hi : 0 < i
  · rw [if_pos hi, if_neg (by omega), add_zero]
    congr 1
    omega
  · have hi0 : i = 0 := by omega
    subst hi0
    rw [if_neg hi, if_pos ⟨by omega, rfl⟩, zero_add]
    congr 1
    omega

/-- Towards larger coordinates: the block's own neighbour, or on the block's last plane the first plane of the
    block after it, is the whole array's neighbour. -/
theorem axis_plus (f : ℕ → EReal) (m a i : ℕ) (hi : i < 32) (hX : a * 32 + i + 1 < (m + 1) * 32) :
    (if i + 1 < 32 then f (a * 32 + (i + 1)) else 0) + (if a < m ∧ i = 31 then f ((a + 1) * 32 + 0) else 0)
      = f (a * 32 + i + 1) := by
  by_cases h : i + 1 < 32
  · rw [if_pos h, if_neg (by omega), add_zero]
    congr 1
  · have hi1 : i = 31 := by omega
    subst hi1
    rw [if_neg h, if_pos ⟨by omega, rfl⟩, zero_add]
    congr 1
    omega

/-- Regrouping: six pairs summed after the centre term has been taken off are the six pair sums with the centre
    term taken off. -/
theorem assemble {a0 a1 a2 a3 a4 a5 e0 e1 e2 e3 e4 e5 t0 t1 t2 t3 t4 t5 : EReal} (s : EReal)
    (h0 : a0 + e0 = t0) (h1 : a1 + e1 = t1) (h2 : a2 + e2 = t2) (h3 : a3 + e3 = t3) (h4 : a4 + e4 = t4)
    (h5 : a5 + e5 = t5) :
    a0 + a1 + a2 + a3 + a4 + a5 - s + e0 + e1 + e2 + e3 + e4 + e5 = t0 + t1 + t2 + t3 + t4 + t5 - s := by
  subst h0 h1 h2 h3 h4 h5
  simp only [sub_eq_add_neg]
  ac_rfl

/-- A term added under a condition is the term or zero, added. -/
theorem ite_add_zero (q : Prop) [Decidable q] (v g : EReal) : (if q then v + g else v) = v + (if q then g else 0) := by
  by_cases h : q
  · rw [if_pos h, if_pos h]
  · rw [if_neg h, if_neg h, add_zero]

theorem outFn_eq (p : Fin 6 → Bool) (x : Blk.Idx → EReal) (h : Fin 6 → Fin 32 → Fin 32 → EReal) (i j k : Fin 32) :
    outFn p x h i j k =
      if (p 0 = false ∧ i.val = 0) ∨ (p 1 = false ∧ i.val = 31) ∨ (p 2 = false ∧ j.val = 0) ∨ (p 3 = false ∧ j.val = 31)
          ∨ (p 4 = false ∧ k.val = 0) ∨ (p 5 = false ∧ k.val = 31) then 0
      else base x i j k + (if p 0 = true ∧ i.val = 0 then h 0 j k else 0) + (if p 1 = true ∧ i.val = 31 then h 1 j k else 0)
        + (if p 2 = true ∧ j.val = 0 then h 2 i k else 0) + (if p 3 = true ∧ j.val = 31 then h 3 i k else 0)
        + (if p 4 = true ∧ k.val = 0 then h 4 i j else 0) + (if p 5 = true ∧ k.val = 31 then h 5 i j else 0) := by
  unfold outFn
  simp only [ite_add_zero]

/-! ## The blocks of one whole array -/

section
variable (U : Whole.Idx → EReal) (xs : Fin 16 → Blk.Idx → EReal)
  (hxs : ∀ c : Fin 16, xs c = Layout.blockN ⟨3, ![32, 32, 32]⟩ ⟨3, ![64, 64, 128]⟩ (Layout.meshBlock [2, 2, 4] ![[0], [1], [2]] c) U)
include hxs

theorem xs_read (c : Fin 16) (i j k : Fin 32) :
    xs c (ix3 i j k) = ext U (cx c * 32 + i.val) (cy c * 32 + j.val) (cz c * 32 + k.val) := by
  rw [hxs c]
  exact block_read U (ext U) (ext_idx U) c i j k

theorem xm_read (c : Fin 16) (i j k : Fin 32) : xm (xs c) i j k
    = if 0 < i.val then ext U (cx c * 32 + (i.val - 1)) (cy c * 32 + j.val) (cz c * 32 + k.val) else 0 := by
  unfold xm
  by_cases h : 0 < i.val
  · rw [dif_pos h, if_pos h, xs_read U xs hxs]
  · rw [dif_neg h, if_neg h]

theorem xp_read (c : Fin 16) (i j k : Fin 32) : xp (xs c) i j k
    = if i.val + 1 < 32 then ext U (cx c * 32 + (i.val + 1)) (cy c * 32 + j.val) (cz c * 32 + k.val) else 0 := by
  unfold xp
  by_cases h : i.val + 1 < 32
  · rw [dif_pos h, if_pos h, xs_read U xs hxs]
  · rw [dif_neg h, if_neg h]

theorem ym_read (c : Fin 16) (i j k : Fin 32) : ym (xs c) i j k
    = if 0 < j.val then ext U (cx c * 32 + i.val) (cy c * 32 + (j.val - 1)) (cz c * 32 + k.val) else 0 := by
  unfold ym
  by_cases h : 0 < j.val
  · rw [dif_pos h, if_pos h, xs_read U xs hxs]
  · rw [dif_neg h, if_neg h]

theorem yp_read (c : Fin 16) (i j k : Fin 32) : yp (xs c) i j k
    = if j.val + 1 < 32 then ext U (cx c * 32 + i.val) (cy c * 32 + (j.val + 1)) (cz c * 32 + k.val) else 0 := by
  unfold yp
  by_cases h : j.val + 1 < 32
  · rw [dif_pos h, if_pos h, xs_read U xs hxs]
  · rw [dif_neg h, if_neg h]

theorem zm_read (c : Fin 16) (i j k : Fin 32) : zm (xs c) i j k
    = if 0 < k.val then ext U (cx c * 32 + i.val) (cy c * 32 + j.val) (cz c * 32 + (k.val - 1)) else 0 := by
  unfold zm
  by_cases h : 0 < k.val
  · rw [dif_pos h, if_pos h, xs_read U xs hxs]
  · rw [dif_neg h, if_neg h]

theorem zp_read (c : Fin 16) (i j k : Fin 32) : zp (xs c) i j k
    = if k.val + 1 < 32 then ext U (cx c * 32 + i.val) (cy c * 32 + j.val) (cz c * 32 + (k.val + 1)) else 0 := by
  unfold zp
  by_cases h : k.val + 1 < 32
  · rw [dif_pos h, if_pos h, xs_read U xs hxs]
  · rw [dif_neg h, if_neg h]

/-! The six halo planes, each present only where there is a neighbouring device. -/

theorem e0_read (c : Fin 16) (i j k : Fin 32) : (if has c 0 = true ∧ i.val = 0 then halo xs c 0 j k else 0)
    = if 0 < cx c ∧ i.val = 0 then ext U ((cx c - 1) * 32 + 31) (cy c * 32 + j.val) (cz c * 32 + k.val) else 0 := by
  by_cases h : has c 0 = true ∧ i.val = 0
  · have hn := (nb_coords c).1 h.1
    rw [if_pos h, if_pos (by rwa [has0] at h)]
    show xs (nb c 0) (ix3 31 j k) = _
    rw [xs_read U xs hxs, hn.1, hn.2.1, hn.2.2]
    rfl
  · rw [if_neg h, if_neg (by rwa [has0] at h)]

theorem e1_read (c : Fin 16) (i j k : Fin 32) : (if has c 1 = true ∧ i.val = 31 then halo xs c 1 j k else 0)
    = if cx c < 1 ∧ i.val = 31 then ext U ((cx c + 1) * 32 + 0) (cy c * 32 + j.val) (cz c * 32 + k.val) else 0 := by
  by_cases h : has c 1 = true ∧ i.val = 31
  · have hn := (nb_coords c).2.1 h.1
    rw [if_pos h, if_pos (by rwa [has1] at h)]
    show xs (nb c 1) (ix3 0 j k) = _
    rw [xs_read U xs hxs, hn.1, hn.2.1, hn.2.2]
    rfl
  · rw [if_neg h, if_neg (by rwa [has1] at h)]

theorem e2_read (c : Fin 16) (i j k : Fin 32) : (if has c 2 = true ∧ j.val = 0 then halo xs c 2 i k else 0)
    = if 0 < cy c ∧ j.val = 0 then ext U (cx c * 32 + i.val) ((cy c - 1) * 32 + 31) (cz c * 32 + k.val) else 0 := by
  by_cases h : has c 2 = true ∧ j.val = 0
  · have hn := (nb_coords c).2.2.1 h.1
    rw [if_pos h, if_pos (by rwa [has2] at h)]
    show xs (nb c 2) (ix3 i 31 k) = _
    rw [xs_read U xs hxs, hn.1, hn.2.1, hn.2.2]
    rfl
  · rw [if_neg h, if_neg (by rwa [has2] at h)]

theorem e3_read (c : Fin 16) (i j k : Fin 32) : (if has c 3 = true ∧ j.val = 31 then halo xs c 3 i k else 0)
    = if cy c < 1 ∧ j.val = 31 then ext U (cx c * 32 + i.val) ((cy c + 1) * 32 + 0) (cz c * 32 + k.val) else 0 := by
  by_cases h : has c 3 = true ∧ j.val = 31
  · have hn := (nb_coords c).2.2.2.1 h.1
    rw [if_pos h, if_pos (by rwa [has3] at h)]
    show xs (nb c 3) (ix3 i 0 k) = _
    rw [xs_read U xs hxs, hn.1, hn.2.1, hn.2.2]
    rfl
  · rw [if_neg h, if_neg (by rwa [has3] at h)]

theorem e4_read (c : Fin 16) (i j k : Fin 32) : (if has c 4 = true ∧ k.val = 0 then halo xs c 4 i j else 0)
    = if 0 < cz c ∧ k.val = 0 then ext U (cx c * 32 + i.val) (cy c * 32 + j.val) ((cz c - 1) * 32 + 31) else 0 := by
  by_cases h : has c 4 = true ∧ k.val = 0
  · have hn := (nb_coords c).2.2.2.2.1 h.1
    rw [if_pos h, if_pos (by rwa [has4] at h)]
    show xs (nb c 4) (ix3 i j 31) = _
    rw [xs_read U xs hxs, hn.1, hn.2.1, hn.2.2]
    rfl
  · rw [if_neg h, if_neg (by rwa [has4] at h)]

theorem e5_read (c : Fin 16) (i j k : Fin 32) : (if has c 5 = true ∧ k.val = 31 then halo xs c 5 i j else 0)
    = if cz c < 3 ∧ k.val = 31 then ext U (cx c * 32 + i.val) (cy c * 32 + j.val) ((cz c + 1) * 32 + 0) else 0 := by
  by_cases h : has c 5 = true ∧ k.val = 31
  · have hn := (nb_coords c).2.2.2.2.2 h.1
    rw [if_pos h, if_pos (by rwa [has5] at h)]
    show xs (nb c 5) (ix3 i j 0) = _
    rw [xs_read U xs hxs, hn.1, hn.2.1, hn.2.2]
    rfl
  · rw [if_neg h, if_neg (by rwa [has5] at h)]

/-- A face of the block without a neighbouring device is a face of the whole box. -/
theorem boundary_iff (c : Fin 16) (i j k : Fin 32) :
    ((has c 0 = false ∧ i.val = 0) ∨ (has c 1 = false ∧ i.val = 31) ∨ (has c 2 = false ∧ j.val = 0)
        ∨ (has c 3 = false ∧ j.val = 31) ∨ (has c 4 = false ∧ k.val = 0) ∨ (has c 5 = false ∧ k.val = 31))
      ↔ ¬(1 ≤ cx c * 32 + i.val ∧ cx c * 32 + i.val ≤ 62 ∧ 1 ≤ cy c * 32 + j.val ∧ cy c * 32 + j.val ≤ 62
          ∧ 1 ≤ cz c * 32 + k.val ∧ cz c * 32 + k.val ≤ 126) := by
  have hc := mesh_lt c
  have hi := i.isLt
  have hj := j.isLt
  have hk := k.isLt
  simp only [← Bool.not_eq_true, has0, has1, has2, has3, has4, has5]
  omega

/-- THE BLOCK OF THE STENCIL: what device `c` ends with is its block of the whole-array stencil. -/
theorem outFn_block (c : Fin 16) :
    (fun i : Blk.Idx => outFn (has c) (xs c) (halo xs c) (i 0) (i 1) (i 2))
      = Layout.blockN ⟨3, ![32, 32, 32]⟩ ⟨3, ![64, 64, 128]⟩ (Layout.meshBlock [2, 2, 4] ![[0], [1], [2]] c) (lap U) := by
  funext I
  obtain ⟨i, j, k, rfl⟩ : ∃ i j k : Fin 32, I = ix3 i j k := ⟨I 0, I 1, I 2, eq_ix3 I⟩
  rw [block_read (lap U) (lapN U) (lap_idx U) c i j k]
  show outFn (has c) (xs c) (halo xs c) i j k = _
  rw [outFn_eq]
  unfold lapN
  by_cases hb : 1 ≤ cx c * 32 + i.val ∧ cx c * 32 + i.val ≤ 62 ∧ 1 ≤ cy c * 32 + j.val ∧ cy c * 32 + j.val ≤ 62
      ∧ 1 ≤ cz c * 32 + k.val ∧ cz c * 32 + k.val ≤ 126
  · rw [if_neg (fun hbd => ((boundary_iff U xs hxs c i j k).mp hbd) hb), if_pos hb]
    unfold base
    rw [xm_read U xs hxs, xp_read U xs hxs, ym_read U xs hxs, yp_read U xs hxs, zm_read U xs hxs, zp_read U xs hxs,
      xs_read U xs hxs, e0_read U xs hxs, e1_read U xs hxs, e2_read U xs hxs, e3_read U xs hxs, e4_read U xs hxs,
      e5_read U xs hxs]
    have hi := i.isLt
    have hj := j.isLt
    have hk := k.isLt
    exact assemble _
      (axis_minus (fun n => ext U n (cy c * 32 + j.val) (cz c * 32 + k.val)) (cx c) i.val hb.1)
      (axis_plus (fun n => ext U n (cy c * 32 + j.val) (cz c * 32 + k.val)) 1 (cx c) i.val hi (by omega))
      (axis_minus (fun n => ext U (cx c * 32 + i.val) n (cz c * 32 + k.val)) (cy c) j.val hb.2.2.1)
      (axis_plus (fun n => ext U (cx c * 32 + i.val) n (cz c * 32 + k.val)) 1 (cy c) j.val hj (by omega))
      (axis_minus (fun n => ext U (cx c * 32 + i.val) (cy c * 32 + j.val) n) (cz c) k.val hb.2.2.2.2.1)
      (axis_plus (fun n => ext U (cx c * 32 + i.val) (cy c * 32 + j.val) n) 3 (cz c) k.val hk (by omega))
  · rw [if_pos ((boundary_iff U xs hxs c i j k).mpr hb), if_neg hb]

end

end Cert.Halo

end
-- ==== Proof.HaloRef.lean ====
/-
  The reference program computes the whole-array stencil with a zero boundary.

  The reference adds six shifted 62 × 62 × 126 slices of the array, takes six times the centre slice off, and
  writes the result into an array of zeros at offset (1, 1, 1) by one scatter whose body returns the update.
  A scatter is a fold of single-element writes over all update indices; read at ONE index of the result it is
  the update that lands there (all updates landing there carry the same value) or, when none does, the operand.
  Here the scatter indices are three ones, so update index `j` lands at `(1 + j 0, 1 + j 1, 1 + j 2)`: exactly
  the indices strictly inside the box are hit, each by the stencil value at that index, and the boundary keeps
  the operand's zero.
-/
import proofs.«900363_g7700000000000364_dist_halo3d_v7x_xyz2x2x4_s32_f32_1_alg».proof.Proof.HaloFn
import proofs.«900363_g7700000000000364_dist_halo3d_v7x_xyz2x2x4_s32_f32_1_alg».proof.Defs
import proofs.«900363_g7700000000000364_dist_halo3d_v7x_xyz2x2x4_s32_f32_1_alg».proof.Proof.Gen.ReferenceIdeal.Run
import proofs.«900363_g7700000000000364_dist_halo3d_v7x_xyz2x2x4_s32_f32_1_alg».proof.Proof.Gen.ReferenceIdeal.Read
import proofs.«900363_g7700000000000364_dist_halo3d_v7x_xyz2x2x4_s32_f32_1_alg».proof.Proof.Gen.Pre_finite_inputs_ReferenceIdeal

noncomputable section

namespace Cert.Halo

open Idealize.ShloMosaic Idealize.ShloMosaic.ValueIdx Idealize.SL.Sem Cert.ReferenceIdeal

/-! ## A fold of writes, read at one index -/

/-- A fold of steps each of which either writes `val n` at index `i'` (when `hit n`) or leaves index `i'` alone:
    if every step that hits `i'` writes `v`, and either some step hits or the start already has `v` there, the
    result has `v` at `i'`. -/
theorem foldl_at {β ι α : Type} (step : (ι → α) → β → ι → α) (hit : β → Prop) (val : β → α) (i' : ι) (v : α)
    (h1 : ∀ r n, hit n → step r n i' = val n) (h2 : ∀ r n, ¬hit n → step r n i' = r i')
    (L : List β) (hv : ∀ n ∈ L, hit n → val n = v) :
    ∀ r : ι → α, (r i' = v ∨ ∃ n ∈ L, hit n) → L.foldl step r i' = v := by
  induction L with
  | nil =>
    intro r h
    rcases h with h | ⟨n, hn, _⟩
    · exact h
    · exact absurd hn (List.not_mem_nil)
  | cons a L ih =>
    intro r h
    rw [List.foldl_cons]
    apply ih (fun n hn => hv n (List.mem_cons_of_mem _ hn))
    by_cases ha : hit a
    · left
      rw [h1 r a ha]
      exact hv a (List.mem_cons_self ..) ha
    · rcases h with h | ⟨n, hn, hnh⟩
      · left
        rw [h2 r a ha]
        exact h
      · rcases List.mem_cons.mp hn with rfl | hn'
        · exact absurd hnh ha
        · right
          exact ⟨n, hn', hnh⟩

/-- A scatter whose body returns the update, read at one index `i'`: the common value `v` of the updates that
    land at `i'`, when some update lands there or the operand already has `v` there. -/
theorem scatter_set_apply {s si u : Shape} {w : Nat} {α : Type} (d : ScatterDims s si u) (x : s.Idx → α)
    (idx : IVec si w) (upd : u.Idx → α) (i' : s.Idx) (v : α)
    (hv : ∀ j : u.Idx, d.resultIdx? j idx = some i' → upd j = v)
    (hx : x i' = v ∨ ∃ j : u.Idx, d.resultIdx? j idx = some i') :
    Host.scatter d (fun _ b => b) x idx upd i' = v := by
  unfold Host.scatter
  refine foldl_at _ (fun n => d.resultIdx? (u.rowMajor.symm n) idx = some i') (fun n => upd (u.rowMajor.symm n)) i' v
    ?_ ?_ _ (fun n _ h => hv _ h) x ?_
  · intro r n h
    simp only [h]
    exact if_pos trivial
  · intro r n h
    dsimp only
    cases hq : d.resultIdx? (u.rowMajor.symm n) idx with
    | none => rfl
    | some i =>
      show (if i' = i then _ else r i') = r i'
      exact if_neg (fun e => h (hq.trans (congrArg some e.symm)))
  · rcases hx with hx | ⟨j, hj⟩
    · exact Or.inl hx
    · exact Or.inr ⟨u.rowMajor j, List.mem_finRange _, by rw [Equiv.symm_apply_apply]; exact hj⟩

/-! ## Where the reference's updates land -/

/-- The scatter indices are three ones. -/
theorem start_ones (k : S3.Idx) : Read.val_main_v19 (F := Ideal) k = 1#32 := by
  revert k
  decide

/-- Every window starts at one on every axis. -/
theorem start_eq (j : S62x62x126.Idx) (a : Fin S64x64x128.rank) :
    scatter_S64x64x128_S3_S62x62x126_012_n_012_0.start j (Read.val_main_v19 (F := Ideal)) a = 1 := by
  unfold ScatterDims.start
  have ha : a ∈ scatter_S64x64x128_S3_S62x62x126_012_n_012_0.scatterDimsToOperandDims := by
    revert a
    decide
  rw [dif_pos ha, start_ones]
  rfl

/-- The window coordinate on an axis is the update index's coordinate on that axis. -/
theorem window_eq (j : S62x62x126.Idx) (a : Fin S64x64x128.rank) :
    scatter_S64x64x128_S3_S62x62x126_012_n_012_0.window j a = (j a).val := by
  match a with
  | ⟨0, _⟩ => rfl
  | ⟨1, _⟩ => rfl
  | ⟨2, _⟩ => rfl

/-- Update index `j` lands one step further along every axis. -/
theorem resultIdx_eq (j : S62x62x126.Idx) :
    scatter_S64x64x128_S3_S62x62x126_012_n_012_0.resultIdx? j (Read.val_main_v19 (F := Ideal)) = some (Read.idx_main_v12 j) := by
  have h0 : (j 0).val < 62 := (j 0).isLt
  have h1 : (j 1).val < 62 := (j 1).isLt
  have h2 : (j 2).val < 126 := (j 2).isLt
  unfold ScatterDims.resultIdx?
  split
  · next H =>
    congr 1
    funext a
    apply Fin.ext
    show (scatter_S64x64x128_S3_S62x62x126_012_n_012_0.start j (Read.val_main_v19 (F := Ideal)) a + (scatter_S64x64x128_S3_S62x62x126_012_n_012_0.window j a : ℤ)).toNat = (Read.idx_main_v12 j a).val
    rw [start_eq, window_eq]
    match a with
    | ⟨0, _⟩ => show ((1 : ℤ) + ((j 0).val : ℤ)).toNat = 1 + (j 0).val; omega
    | ⟨1, _⟩ => show ((1 : ℤ) + ((j 1).val : ℤ)).toNat = 1 + (j 1).val; omega
    | ⟨2, _⟩ => show ((1 : ℤ) + ((j 2).val : ℤ)).toNat = 1 + (j 2).val; omega
  · next H =>
    refine absurd (fun a => ?_) H
    rw [start_eq, window_eq]
    match a with
    | ⟨0, _⟩ => exact ⟨by omega, by show (1 : ℤ) + ((j 0).val : ℤ) < ((64 : ℕ) : ℤ); omega⟩
    | ⟨1, _⟩ => exact ⟨by omega, by show (1 : ℤ) + ((j 1).val : ℤ) < ((64 : ℕ) : ℤ); omega⟩
    | ⟨2, _⟩ => exact ⟨by omega, by show (1 : ℤ) + ((j 2).val : ℤ) < ((128 : ℕ) : ℤ); omega⟩

/-! ## The update is the stencil -/

/-- Two indices of the whole array with the same three values are the same index. -/
theorem widx_ext (I J : Whole.Idx) (h0 : (I 0).val = (J 0).val) (h1 : (I 1).val = (J 1).val)
    (h2 : (I 2).val = (J 2).val) : I = J := by
  funext a
  match a with
  | ⟨0, _⟩ => exact Fin.ext h0
  | ⟨1, _⟩ => exact Fin.ext h1
  | ⟨2, _⟩ => exact Fin.ext h2

/-- The stencil at an index strictly inside the box, from any six indices that are its neighbours. -/
theorem lap_inside (x0 : Whole.Idx → EReal) (I A B C D E G : Whole.Idx)
    (h : 1 ≤ (I 0).val ∧ (I 0).val ≤ 62 ∧ 1 ≤ (I 1).val ∧ (I 1).val ≤ 62 ∧ 1 ≤ (I 2).val ∧ (I 2).val ≤ 126)
    (hA : (A 0).val = (I 0).val - 1 ∧ (A 1).val = (I 1).val ∧ (A 2).val = (I 2).val)
    (hB : (B 0).val = (I 0).val + 1 ∧ (B 1).val = (I 1).val ∧ (B 2).val = (I 2).val)
    (hC : (C 0).val = (I 0).val ∧ (C 1).val = (I 1).val - 1 ∧ (C 2).val = (I 2).val)
    (hD : (D 0).val = (I 0).val ∧ (D 1).val = (I 1).val + 1 ∧ (D 2).val = (I 2).val)
    (hE : (E 0).val = (I 0).val ∧ (E 1).val = (I 1).val ∧ (E 2).val = (I 2).val - 1)
    (hG : (G 0).val = (I 0).val ∧ (G 1).val = (I 1).val ∧ (G 2).val = (I 2).val + 1) :
    lap x0 I = x0 A + x0 B + x0 C + x0 D + x0 E + x0 G - six * x0 I := by
  have hI0 : (I 0).val < 64 := (I 0).isLt
  have hI1 : (I 1).val < 64 := (I 1).isLt
  have hI2 : (I 2).val < 128 := (I 2).isLt
  have b : (I 0).val - 1 < 64 ∧ (I 0).val + 1 < 64 ∧ (I 1).val - 1 < 64 ∧ (I 1).val + 1 < 64
      ∧ (I 2).val - 1 < 128 ∧ (I 2).val + 1 < 128 := by
    clear hA hB hC hD hE hG
    omega
  have eA : A = ix3 ⟨(I 0).val - 1, b.1⟩ ⟨(I 1).val, hI1⟩ ⟨(I 2).val, hI2⟩ := widx_ext _ _ hA.1 hA.2.1 hA.2.2
  have eB : B = ix3 ⟨(I 0).val + 1, b.2.1⟩ ⟨(I 1).val, hI1⟩ ⟨(I 2).val, hI2⟩ := widx_ext _ _ hB.1 hB.2.1 hB.2.2
  have eC : C = ix3 ⟨(I 0).val, hI0⟩ ⟨(I 1).val - 1, b.2.2.1⟩ ⟨(I 2).val, hI2⟩ := widx_ext _ _ hC.1 hC.2.1 hC.2.2
  have eD : D = ix3 ⟨(I 0).val, hI0⟩ ⟨(I 1).val + 1, b.2.2.2.1⟩ ⟨(I 2).val, hI2⟩ := widx_ext _ _ hD.1 hD.2.1 hD.2.2
  have eE : E = ix3 ⟨(I 0).val, hI0⟩ ⟨(I 1).val, hI1⟩ ⟨(I 2).val - 1, b.2.2.2.2.1⟩ := widx_ext _ _ hE.1 hE.2.1 hE.2.2
  have eG : G = ix3 ⟨(I 0).val, hI0⟩ ⟨(I 1).val, hI1⟩ ⟨(I 2).val + 1, b.2.2.2.2.2⟩ := widx_ext _ _ hG.1 hG.2.1 hG.2.2
  rw [eA, eB, eC, eD, eE, eG]
  unfold lap
  rw [dif_pos h]

/-- The update at `j` is the stencil at the index `j` lands at. -/
theorem upd_eq (x0 : Whole.Idx → EReal) (j : S62x62x126.Idx) :
    Read.val_main_v15 (F := Ideal) x0 j = lap x0 (Read.idx_main_v12 j) := by
  have h0 : (j 0).val < 62 := (j 0).isLt
  have h1 : (j 1).val < 62 := (j 1).isLt
  have h2 : (j 2).val < 126 := (j 2).isLt
  rw [Read.val_main_v15_apply, Read.val_main_v11_apply, Read.val_main_v9_apply, Read.val_main_v7_apply,
    Read.val_main_v5_apply, Read.val_main_v3_apply, Read.val_main_v1_apply, Read.val_main_v2_apply,
    Read.val_main_v4_apply, Read.val_main_v6_apply, Read.val_main_v8_apply, Read.val_main_v10_apply,
    Read.val_main_v14_apply, Read.val_main_v13_apply, Read.val_main_cst_0_apply, Read.val_main_v12_apply]
  simp only [Ideal.addf_def, Ideal.subf_def, Ideal.mulf_def, Ideal.ofBits_def]
  refine (lap_inside x0 (Read.idx_main_v12 j) (Read.idx_main_v1 j) (Read.idx_main_v2 j) (Read.idx_main_v4 j)
    (Read.idx_main_v6 j) (Read.idx_main_v8 j) (Read.idx_main_v10 j) ?_ ?_ ?_ ?_ ?_ ?_ ?_).symm
  · show 1 ≤ 1 + (j 0).val ∧ 1 + (j 0).val ≤ 62 ∧ 1 ≤ 1 + (j 1).val ∧ 1 + (j 1).val ≤ 62 ∧ 1 ≤ 1 + (j 2).val ∧ 1 + (j 2).val ≤ 126
    omega
  · show (j 0).val = 1 + (j 0).val - 1 ∧ 1 + (j 1).val = 1 + (j 1).val ∧ 1 + (j 2).val = 1 + (j 2).val
    omega
  · show 2 + (j 0).val = 1 + (j 0).val + 1 ∧ 1 + (j 1).val = 1 + (j 1).val ∧ 1 + (j 2).val = 1 + (j 2).val
    omega
  · show 1 + (j 0).val = 1 + (j 0).val ∧ (j 1).val = 1 + (j 1).val - 1 ∧ 1 + (j 2).val = 1 + (j 2).val
    omega
  · show 1 + (j 0).val = 1 + (j 0).val ∧ 2 + (j 1).val = 1 + (j 1).val + 1 ∧ 1 + (j 2).val = 1 + (j 2).val
    omega
  · show 1 + (j 0).val = 1 + (j 0).val ∧ 1 + (j 1).val = 1 + (j 1).val ∧ (j 2).val = 1 + (j 2).val - 1
    omega
  · show 1 + (j 0).val = 1 + (j 0).val ∧ 1 + (j 1).val = 1 + (j 1).val ∧ 2 + (j 2).val = 1 + (j 2).val + 1
    omega

/-! ## The reference's result -/

/-- THE REFERENCE IS THE STENCIL: the scatter of the update into zeros is `lap` of the argument. -/
theorem ref_value (x0 : Whole.Idx → EReal) : Read.val_main_v20 (F := Ideal) x0 = lap x0 := by
  funext I
  have hI0 : (I 0).val < 64 := (I 0).isLt
  have hI1 : (I 1).val < 64 := (I 1).isLt
  have hI2 : (I 2).val < 128 := (I 2).isLt
  unfold Read.val_main_v20
  refine scatter_set_apply _ _ _ _ I (lap x0 I) (fun j hj => ?_) ?_
  · rw [resultIdx_eq j] at hj
    rw [upd_eq, Option.some.inj hj]
  · by_cases h : 1 ≤ (I 0).val ∧ (I 0).val ≤ 62 ∧ 1 ≤ (I 1).val ∧ (I 1).val ≤ 62 ∧ 1 ≤ (I 2).val ∧ (I 2).val ≤ 126
    · right
      refine ⟨ix3 ⟨(I 0).val - 1, by omega⟩ ⟨(I 1).val - 1, by omega⟩ ⟨(I 2).val - 1, by omega⟩, ?_⟩
      rw [resultIdx_eq]
      congr 1
      refine widx_ext _ _ ?_ ?_ ?_
      · show 1 + ((I 0).val - 1) = (I 0).val
        omega
      · show 1 + ((I 1).val - 1) = (I 1).val
        omega
      · show 1 + ((I 2).val - 1) = (I 2).val
        omega
    · left
      rw [Read.val_main_v0_apply, Read.val_main_cst_apply, Ideal.ofBits_def, Ideal.ofBits_zero_f32]
      unfold lap
      rw [dif_neg h]

/-- THE REFERENCE'S RUN: it ends with the stencil of its argument in its result, the argument unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v20) = lap (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨(h 0).1.trans ((Read.val_main_v20_eq _).trans (ref_value _)), (h 0).2⟩)
    (Cert.ReferenceIdeal.Value.run (F := Ideal) m' g')

/-- The reference runs and leaves its argument unchanged. -/
theorem frame_ref : Cert.frame_ReferenceIdeal :=
  fun m ρ _ => (θ_run Cert.ReferenceIdeal.defs _ _).mono (fun _ h c => (h c).2) (Cert.ReferenceIdeal.Value.run (F := Ideal) m ρ)

end Cert.Halo

end
-- ==== Proof.lean ====
/-
  The certificate of the 3-D halo exchange on the 2 × 2 × 4 mesh against the 6-point stencil with a zero boundary.

  Each device holds one 32 × 32 × 32 block. Its body stores the stencil of the block alone, adds the plane received from
  each neighbouring device onto the face that touches it, and puts zero on the faces that lie on the boundary of the
  whole 64 × 64 × 128 box. Over the extended reals that is, index by index, the block's part of the whole-array stencil:
  the two sides add the same seven terms in a different order, and addition there is commutative and associative; no
  term is cancelled or distributed, so the inputs' finiteness is never used.

  The run of the sixteen devices — every weakly fair execution terminates, nothing faults, each result array ends at
  `outAt`, each argument array is unchanged — is `HP.run`, from the launch of the rounds protocol (barrier cells, send
  cells, receive cells) and each device's body; the reference's run is read off its operations one at a time.
-/
import proofs.«900363_g7700000000000364_dist_halo3d_v7x_xyz2x2x4_s32_f32_1_alg».proof.Defs
import proofs.«900363_g7700000000000364_dist_halo3d_v7x_xyz2x2x4_s32_f32_1_alg».proof.Proof.Gen.Kernel
import proofs.«900363_g7700000000000364_dist_halo3d_v7x_xyz2x2x4_s32_f32_1_alg».proof.Proof.Gen.KernelIdeal
import proofs.«900363_g7700000000000364_dist_halo3d_v7x_xyz2x2x4_s32_f32_1_alg».proof.Proof.Gen.ReferenceIdeal
import proofs.«900363_g7700000000000364_dist_halo3d_v7x_xyz2x2x4_s32_f32_1_alg».proof.Proof.Gen.ReferenceIdeal.Run
import proofs.«900363_g7700000000000364_dist_halo3d_v7x_xyz2x2x4_s32_f32_1_alg».proof.Proof.Gen.ReferenceIdeal.Read
import proofs.«900363_g7700000000000364_dist_halo3d_v7x_xyz2x2x4_s32_f32_1_alg».proof.Proof.Gen.Pre_finite_inputs_Kernel
import proofs.«900363_g7700000000000364_dist_halo3d_v7x_xyz2x2x4_s32_f32_1_alg».proof.Proof.Gen.Pre_finite_inputs_ReferenceIdeal
import proofs.«900363_g7700000000000364_dist_halo3d_v7x_xyz2x2x4_s32_f32_1_alg».proof.Proof.KernelRun
import proofs.«900363_g7700000000000364_dist_halo3d_v7x_xyz2x2x4_s32_f32_1_alg».proof.Proof.KernelIdealRun
import proofs.«900363_g7700000000000364_dist_halo3d_v7x_xyz2x2x4_s32_f32_1_alg».proof.Proof.KernelIdealValue
import proofs.«900363_g7700000000000364_dist_halo3d_v7x_xyz2x2x4_s32_f32_1_alg».proof.Proof.HaloBlock
import proofs.«900363_g7700000000000364_dist_halo3d_v7x_xyz2x2x4_s32_f32_1_alg».proof.Proof.HaloRef
import Idealize.ShloMosaic.Adequacy
import Idealize.ShloMosaic.Init

noncomputable section

namespace Cert.Proof

open Idealize.ShloMosaic Idealize.ShloMosaic.TcCoe Idealize.SL.Sem

/-- A device's staged block is its argument buffer: the input window's one block is the whole array. -/
theorem xstg_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.HP.xstg (F := Ideal) m ρ c = m ((c.tc : Thread Cert.KernelIdeal.nD Cert.KernelIdeal.τ).loc Cert.KernelIdeal.main_arg0) := by
  unfold Cert.KernelIdeal.HP.xstg
  exact Memref.read_access_unit_zero (Elt Ideal) _ (by funext a; fin_cases a <;> rfl) _ _

theorem frame_k : Cert.frame_Kernel := fun m ρ _ =>
  (θ_run (Cert.Kernel.defs (F := Bits)) _ _).mono (fun _ h c => (h c).2) (Cert.Kernel.HP.run (F := Bits) m ρ)

theorem frame_ki : Cert.frame_KernelIdeal := fun m ρ _ =>
  (θ_run (Cert.KernelIdeal.defs (F := Ideal)) _ _).mono (fun _ h c => (h c).2) (Cert.KernelIdeal.HP.run (F := Ideal) m ρ)

/-- Both programs run; the reference ends at the whole-array stencil of its argument, and each device's result is its
    block of it: the device's final contents read at an index are the per-device stencil with halos (`outAt_eq_outFn`),
    which is the block of the whole-array stencil when every device's block is its part of the whole argument
    (`outFn_block`). -/
theorem algebraic : Cert.algebraic_KernelIdeal_ReferenceIdeal := by
  intro m g m' g' _ hagree
  refine ⟨Cert.Halo.lap (m' (((0 : Dev Cert.ReferenceIdeal.nD).tc : Thread Cert.ReferenceIdeal.nD Cert.ReferenceIdeal.τ).loc Cert.ReferenceIdeal.main_arg0)), ?_, Cert.Halo.ref_run m' g'⟩
  refine (θ_run (Cert.KernelIdeal.defs (F := Ideal)) _ _).mono (fun r h c => ⟨(h c).1.trans ?_, (h c).2⟩) (Cert.KernelIdeal.HP.run (F := Ideal) m g)
  refine (Cert.KernelIdeal.HP.outAt_eq_outFn m g c).trans ?_
  exact Cert.Halo.outFn_block _ (fun c' => Cert.KernelIdeal.HP.xstg (F := Ideal) m g c') (fun c' => (xstg_eq m g c').trans (hagree c')) c

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, Cert.Halo.frame_ref, trivial, algebraic⟩

end Cert.Proof

end
